-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S10000x128 : Shape := ⟨2, ![10000, 128]⟩
abbrev S2x320000 : Shape := ⟨2, ![2, 320000]⟩
abbrev S320000x16 : Shape := ⟨2, ![320000, 16]⟩
abbrev S1x16 : Shape := ⟨2, ![1, 16]⟩
abbrev S288x128 : Shape := ⟨2, ![288, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S320000x16 : S_.BroadcastsInDim S320000x16 (![] : Fin 0 → Fin S320000x16.rank)
  reducesTo_S320000x16_S_d0_1 : S320000x16.ReducesTo [0, 1] S_
  bcast_S_S1x16 : S_.BroadcastsInDim S1x16 (![] : Fin 0 → Fin S1x16.rank)
  reducesTo_S1x16_S_d0_1 : S1x16.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg1 : IVec S2x320000 32) (main_arg8 : FVec F S16 .f32) (main_arg9 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 32 := constantI S_ 32 9999#32
  let main_v46 : IVec S2x320000 32 := broadcastInDim S2x320000 ![] bcast_S_S2x320000 main_c_17
  let main_v47 : IVec S2x320000 1 := cmpi .sle main_arg1 main_v46
  let main_v48 : IVec S2x320000 1 := andi main_v45 main_v47
  let main_c_18 : IVec S_ 1 := constantI S_ 1 1#1
  let main_v49 : IVec S_ 1 := (fun x v => Host.reduce IntOp.andi x v reducesTo_S2x320000_S_d0_1 h_S_) main_v48 main_c_18
  let main_v50 : IVec S_ 1 := andi main_v43 main_v49
  main_v50

def fn_part1 {F : FTy → Type} [FloatOps F] (main_arg1 : IVec S2x320000 32) (main_arg5 : FVec F S128 .f32) (main_arg6 : FVec F S128x16 .f32) (main_arg7 : FVec F S16 .f32) (main_arg8 : FVec F S16 .f32) (main_arg9 : FVec F S16 .f32) (main_v13 : IVec S_ 1) (main_v16 : IVec S288x128 1) : IVec S_ 1 :=
  let main_c_5 : IVec S_ 1 := constantI S_ 1 1#1
  let main_v17 : IVec S_ 1 := (fun x v => Host.reduce IntOp.andi x v reducesTo_S288x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg1 main_arg8 main_arg9 main_v33

def fn {F : FTy → Type} [FloatOps F] (main_arg0 : FVec F S10000x128 .f32) (main_arg1 : IVec S2x320000 32) (main_arg2 : FVec F S320000x16 .f32) (main_arg3 : FVec F S1x16 .f32) (main_arg4 : FVec F S288x128 .f32) (main_arg5 : FVec F S128 .f32) (main_arg6 : FVec F S128x16 .f32) (main_arg7 : FVec F S16 .f32) (main_arg8 : FVec F S16 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S320000x16 .f32 := Host.absf main_arg2
  let main_cst_0 : FVec F S_ .f32 := constant S_ .f32 0x7F800000#32
  let main_v5 : FVec F S320000x16 .f32 := broadcastInDim S320000x16 ![] bcast_S_S320000x16 main_cst_0
  let main_v6 : IVec S320000x16 1 := cmpf .olt main_v4 main_v5
  let main_c_1 : IVec S_ 1 := constantI S_ 1 1#1
  let main_v7 : IVec S_ 1 := (fun x v => Host.reduce IntOp.andi x v reducesTo_S320000x16_S_d0_1 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S288x128 .f32 := Host.absf main_arg4
  let main_cst_4 : FVec F S_ .f32 := constant S_ .f32 0x7F800000#32
  let main_v15 : FVec F S288x128 .f32 := broadcastInDim S288x128 ![] bcast_S_S288x128 main_cst_4
  let main_v16 : IVec S288x128 1 := cmpf .olt main_v14 main_v15
  fn_part1 (F := F) main_arg1 main_arg5 main_arg6 main_arg7 main_arg8 main_arg9 main_v13 main_v16
-- ==== Kernel.lean ====
abbrev S10000x128 : Shape := ⟨2, ![10000, 128]⟩
abbrev S2x320000 : Shape := ⟨2, ![2, 320000]⟩
abbrev S320000x16 : Shape := ⟨2, ![320000, 16]⟩
abbrev S1x16 : Shape := ⟨2, ![1, 16]⟩
abbrev S288x128 : Shape := ⟨2, ![288, 128]⟩
abbrev S128 : Shape := ⟨1, ![128]⟩
abbrev S128x16 : Shape := ⟨2, ![128, 16]⟩
abbrev S16 : Shape := ⟨1, ![16]⟩
abbrev S2x1 : Shape := ⟨2, ![2, 1]⟩
abbrev S1x640000 : Shape := ⟨2, ![1, 640000]⟩
abbrev S256x128 : Shape := ⟨2, ![256, 128]⟩
abbrev S16x128 : Shape := ⟨2, ![16, 128]⟩
abbrev S20000x128 : Shape := ⟨2, ![20000, 128]⟩
abbrev S2000x128 : Shape := ⟨2, ![2000, 128]⟩
abbrev S128x128 : Shape := ⟨2, ![128, 128]⟩
abbrev S640000x128 : Shape := ⟨2, ![640000, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256 : Shape := ⟨1, ![256]⟩
abbrev S16x320000 : Shape := ⟨2, ![16, 320000]⟩
abbrev S1x128 : Shape := ⟨2, ![1, 128]⟩
abbrev S16x1 : Shape := ⟨2, ![16, 1]⟩
abbrev S3200x128 : Shape := ⟨2, ![3200, 128]⟩
abbrev S16x3200 : Shape := ⟨2, ![16, 3200]⟩
abbrev S3200 : Shape := ⟨1, ![3200]⟩
abbrev S1x3200 : Shape := ⟨2, ![1, 3200]⟩

abbrev nBuf : Table → Nat
  | .hbm => 27
  | .local .tc .vmem => 22
  | .local .scVector .vmem => 2
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S1x16, .f32⟩
  | .hbm, ⟨4, _⟩ => ⟨S288x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S2x1, .i32⟩
  | .hbm, ⟨11, _⟩ => ⟨S2x320000, .i32⟩
  | .hbm, ⟨12, _⟩ => ⟨S2x320000, .i32⟩
  | .hbm, ⟨13, _⟩ => ⟨S1x640000, .i32⟩
  | .hbm, ⟨14, _⟩ => ⟨S256x128, .f32⟩
  | .hbm, ⟨15, _⟩ => ⟨S16x128, .f32⟩
  | .hbm, ⟨16, _⟩ => ⟨S16x128, .f32⟩
  | .hbm, ⟨17, _⟩ => ⟨S20000x128, .f32⟩
  | .hbm, ⟨18, _⟩ => ⟨S640000x128, .f32⟩
  | .hbm, ⟨19, _⟩ => ⟨S16x320000, .f32⟩
  | .hbm, ⟨20, _⟩ => ⟨S1x128, .f32⟩
  | .hbm, ⟨21, _⟩ => ⟨S16x128, .f32⟩
  | .hbm, ⟨22, _⟩ => ⟨S16x1, .f32⟩
  | .hbm, ⟨23, _⟩ => ⟨S16x1, .f32⟩
  | .hbm, ⟨24, _⟩ => ⟨S16x1, .f32⟩
  | .hbm, ⟨25, _⟩ => ⟨S16x320000, .f32⟩
  | .hbm, ⟨26, _⟩ => ⟨S320000x16, .f32⟩
  | .local .tc .vmem, ⟨0, _⟩ => ⟨S2000x128, .f32⟩
  | .local .tc .vmem, ⟨1, _⟩ => ⟨S2000x128, .f32⟩
  | .local .tc .vmem, ⟨2, _⟩ => ⟨S128x128, .f32⟩
  | .local .tc .vmem, ⟨3, _⟩ => ⟨S128x128, .f32⟩
  | .local .tc .vmem, ⟨4, _⟩ => ⟨S2000x128, .f32⟩
  | .local .tc .vmem, ⟨5, _⟩ => ⟨S2000x128, .f32⟩
  | .local .tc .vmem, ⟨6, _⟩ => ⟨S3200x128, .f32⟩
  | .local .tc .vmem, ⟨7, _⟩ => ⟨S3200x128, .f32⟩
  | .local .tc .vmem, ⟨8, _⟩ => ⟨S3200x128, .f32⟩
  | .local .tc .vmem, ⟨9, _⟩ => ⟨S3200x128, .f32⟩
  | .local .tc .vmem, ⟨10, _⟩ => ⟨S16x3200, .f32⟩
  | .local .tc .vmem, ⟨11, _⟩ => ⟨S16x3200, .f32⟩
  | .local .tc .vmem, ⟨12, _⟩ => ⟨S1x16, .f32⟩
  | .local .tc .vmem, ⟨13, _⟩ => ⟨S16x128, .f32⟩
  | .local .tc .vmem, ⟨14, _⟩ => ⟨S16x128, .f32⟩
  | .local .tc .vmem, ⟨15, _⟩ => ⟨S1x128, .f32⟩
  | .local .tc .vmem, ⟨16, _⟩ => ⟨S16x128, .f32⟩
  | .local .tc .vmem, ⟨17, _⟩ => ⟨S16x1, .f32⟩
  | .local .tc .vmem, ⟨18, _⟩ => ⟨S16x1, .f32⟩
  | .local .tc .vmem, ⟨19, _⟩ => ⟨S16x1, .f32⟩
  | .local .tc .vmem, ⟨20, _⟩ => ⟨S16x3200, .f32⟩
  | .local .tc .vmem, ⟨21, _⟩ => ⟨S16x3200, .f32⟩
  | .local .scVector .vmem, ⟨0, _⟩ => ⟨S2x1x256, .i32⟩
  | .local .scVector .vmem, ⟨1, _⟩ => ⟨S2x256x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v6_scv : Ref sig .scVector := ⟨.hbm, 17, rfl⟩
abbrev main_v2_scv : Ref sig .scVector := ⟨.hbm, 13, rfl⟩
abbrev main_v7_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg10_0 : Ref sig .tc := ⟨.vmem, 19, rfl⟩
abbrev cc2_stg11_0 : Ref sig .tc := ⟨.vmem, 20, rfl⟩
abbrev cc2_stg11_1 : Ref sig .tc := ⟨.vmem, 21, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem11_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_cond1 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k1_off1 : Fin 3 → Nat :=
  let c0_i32_21_r0 : BitVec 32 := 0#32
  let c2_i32_r0 : BitVec 32 := 2#32
  let v35_r0 : BitVec 32 := Scalar.remui c0_i32_21_r0 c2_i32_r0
  let c0_i32_22_r0 : BitVec 32 := 0#32
  let c0_i32_23_r0 : BitVec 32 := 0#32
  ![v35_r0.toNat, 0, 0]
def k1_off2 (i : grid1.Coords) : Fin 2 → Nat :=
  let c0_i32_24_r0 : BitVec 32 := 0#32
  let c256_i32_r0 : BitVec 32 := 256#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v20_r0 : BitVec 32 := Scalar.addi c0_i32_10_r0 v10
  let v36_r0 : BitVec 32 := Scalar.muli c256_i32_r0 v20_r0
  ![0, v36_r0.toNat]
def k1_off3 : Fin 1 → Nat :=
  let c0_i32_21_r0 : BitVec 32 := 0#32
  let c2_i32_r0 : BitVec 32 := 2#32
  let v35_r0 : BitVec 32 := Scalar.remui c0_i32_21_r0 c2_i32_r0
  ![v35_r0.toNat]
@[reducible] def k1_t1_loop (i : grid1.Coords) : Scf.Loop 32 :=
  let c0_i32_30_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let v46_r0 : BitVec 32 := Scalar.subi v11 c0_i32_30_r0
  let c1_i32_35_r0 : BitVec 32 := 1#32
  let v48_r0 : BitVec 32 := Scalar.divsi v46_r0 c1_i32_35_r0
  let v49_r0 : BitVec 32 := Scalar.muli v48_r0 c1_i32_35_r0
  let v50_r0 : BitVec 32 := Scalar.addi c0_i32_30_r0 v49_r0
  let c1_i32_36_r0 : BitVec 32 := 1#32
  ⟨c0_i32_30_r0, v50_r0, c1_i32_36_r0⟩
def k1_off4 (arg6_r0 : BitVec 32) : Fin 3 → Nat :=
  let c2_i32_104_r0 : BitVec 32 := 2#32
  let v172_r0 : BitVec 32 := Scalar.remui arg6_r0 c2_i32_104_r0
  let c0_i32_106_r0 : BitVec 32 := 0#32
  let c0_i32_107_r0 : BitVec 32 := 0#32
  ![v172_r0.toNat, 0, 0]
def k1_cond2 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let true_66_r0 : BitVec 1 := 1#1
  let c1_i32_65_r0 : BitVec 32 := 1#32
  let v95_r0 : BitVec 32 := Scalar.addi arg10_r0 c1_i32_65_r0
  let v96_r0 : BitVec 32 := Scalar.select true_66_r0 v95_r0 arg10_r0
  let v97_r0 : BitVec 1 := Scalar.cmpi .eq v96_r0 v5
  let c0_i32_67_r0 : BitVec 32 := 0#32
  let v98_r0 : BitVec 32 := Scalar.select v97_r0 c0_i32_67_r0 v96_r0
  let v99_r0 : BitVec 32 := Scalar.addi v98_r0 v10
  let v105_r0 : BitVec 1 := Scalar.cmpi .ne v88_r0 v99_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v84_r0 : BitVec 32 := Scalar.muli c1_i32_58_r0 v5
  let c2_i32_71_r0 : BitVec 32 := 2#32
  let v106_r0 : BitVec 32 := Scalar.subi v84_r0 c2_i32_71_r0
  let c1_i32_72_r0 : BitVec 32 := 1#32
  let v107_r0 : BitVec 32 := Scalar.addi v106_r0 c1_i32_72_r0
  let v108_r0 : BitVec 1 := Scalar.cmpi .sge arg5_r0 v107_r0
  let true_73_r0 : BitVec 1 := 1#1
  let v109_r0 : BitVec 1 := Scalar.xori v108_r0 true_73_r0
  let v110_r0 : BitVec 1 := Scalar.andi v105_r0 v109_r0
  let v111_r0 : BitVec 32 := Scalar.extui v110_r0
  let c0_i32_74_r0 : BitVec 32 := 0#32
  let v112_r0 : BitVec 1 := Scalar.cmpi .ne v111_r0 c0_i32_74_r0
  v112_r0

def k1_off5 (i : grid1.Coords) (arg10_r0 : BitVec 32) : Fin 2 → Nat :=
  let c0_i32_108_r0 : BitVec 32 := 0#32
  let c256_i32_105_r0 : BitVec 32 := 256#32
  let true_66_r0 : BitVec 1 := 1#1
  let c1_i32_65_r0 : BitVec 32 := 1#32
  let v95_r0 : BitVec 32 := Scalar.addi arg10_r0 c1_i32_65_r0
  let v96_r0 : BitVec 32 := Scalar.select true_66_r0 v95_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v97_r0 : BitVec 1 := Scalar.cmpi .eq v96_r0 v5
  let c0_i32_67_r0 : BitVec 32 := 0#32
  let v98_r0 : BitVec 32 := Scalar.select v97_r0 c0_i32_67_r0 v96_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v99_r0 : BitVec 32 := Scalar.addi v98_r0 v10
  let v173_r0 : BitVec 32 := Scalar.muli c256_i32_105_r0 v99_r0
  ![0, v173_r0.toNat]
def k1_off6 (arg6_r0 : BitVec 32) : Fin 1 → Nat :=
  let c2_i32_104_r0 : BitVec 32 := 2#32
  let v172_r0 : BitVec 32 := Scalar.remui arg6_r0 c2_i32_104_r0
  ![v172_r0.toNat]
def k1_off7 (arg7_r0 : BitVec 32) : Fin 3 → Nat :=
  let c2_i32_105_r0 : BitVec 32 := 2#32
  let v173_r0 : BitVec 32 := Scalar.remui arg7_r0 c2_i32_105_r0
  let c0_i32_106_r0 : BitVec 32 := 0#32
  let c0_i32_107_r0 : BitVec 32 := 0#32
  ![v173_r0.toNat, 0, 0]
def k1_cond3 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let true_62_r0 : BitVec 1 := 1#1
  let c1_i32_61_r0 : BitVec 32 := 1#32
  let v89_r0 : BitVec 32 := Scalar.subi arg10_r0 c1_i32_61_r0
  let v90_r0 : BitVec 32 := Scalar.select true_62_r0 v89_r0 arg10_r0
  let c_m1_i32_63_r0 : BitVec 32 := 4294967295#32
  let v91_r0 : BitVec 1 := Scalar.cmpi .eq v90_r0 c_m1_i32_63_r0
  let c1_i32_64_r0 : BitVec 32 := 1#32
  let v92_r0 : BitVec 32 := Scalar.subi v5 c1_i32_64_r0
  let v93_r0 : BitVec 32 := Scalar.select v91_r0 v92_r0 v90_r0
  let v94_r0 : BitVec 32 := Scalar.addi v93_r0 v10
  let v122_r0 : BitVec 1 := Scalar.cmpi .ne v88_r0 v94_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v85_r0 : BitVec 1 := Scalar.cmpi .eq arg5_r0 c0_i32_59_r0
  let v123_r0 : BitVec 1 := Scalar.ori v122_r0 v85_r0
  let c0_i32_80_r0 : BitVec 32 := 0#32
  let v124_r0 : BitVec 1 := Scalar.cmpi .slt arg5_r0 c0_i32_80_r0
  let true_81_r0 : BitVec 1 := 1#1
  let v125_r0 : BitVec 1 := Scalar.xori v124_r0 true_81_r0
  let v126_r0 : BitVec 1 := Scalar.andi v123_r0 v125_r0
  let v127_r0 : BitVec 32 := Scalar.extui v126_r0
  let c0_i32_82_r0 : BitVec 32 := 0#32
  let v128_r0 : BitVec 1 := Scalar.cmpi .ne v127_r0 c0_i32_82_r0
  v128_r0

def k1_off8 (i : grid1.Coords) (arg10_r0 : BitVec 32) : Fin 2 → Nat :=
  let c0_i32_108_r0 : BitVec 32 := 0#32
  let c256_i32_104_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let v172_r0 : BitVec 32 := Scalar.muli c256_i32_104_r0 v88_r0
  ![0, v172_r0.toNat]
def k1_off9 (arg7_r0 : BitVec 32) : Fin 1 → Nat :=
  let c2_i32_105_r0 : BitVec 32 := 2#32
  let v173_r0 : BitVec 32 := Scalar.remui arg7_r0 c2_i32_105_r0
  ![v173_r0.toNat]
def k1_off10 (arg8_r0 : BitVec 32) : Fin 3 → Nat :=
  let c2_i32_87_r0 : BitVec 32 := 2#32
  let v137_r0 : BitVec 32 := Scalar.remui arg8_r0 c2_i32_87_r0
  let c0_i32_104_r1 : BitVec 32 := 0#32
  let c0_i32_105_r1 : BitVec 32 := 0#32
  ![v137_r0.toNat, 0, 0]

def k1_chk2 (i : grid1.Coords) (arg8_r0 : BitVec 32) : Prop :=
  (∀ (k1_h1 : k1_cond1 i = 1#1), ∀ a, (k1_off10 arg8_r0) a + S1x256x128.size a ≤ S2x256x128.size a)
instance k1_chk2.dec : ∀ (i : grid1.Coords) (arg8_r0 : BitVec 32), Decidable (k1_chk2 i arg8_r0) := fun i arg8_r0 => decidable_of_iff' _ (Iff.of_eq (k1_chk2.eq_1 i arg8_r0))
theorem k1_off10_inb : ∀ (i : grid1.Coords) (arg8_r0 : BitVec 32) (k1_hw2 : k1_chk2 i arg8_r0), ∀ (k1_h1 : k1_cond1 i = 1#1), ∀ a, (k1_off10 arg8_r0) a + S1x256x128.size a ≤ S2x256x128.size a := fun i arg8_r0 k1_hw2 k1_h1 => k1_hw2 k1_h1

def k1_off11 (arg7_r0 : BitVec 32) : Fin 3 → Nat :=
  let c2_i32_86_r0 : BitVec 32 := 2#32
  let v136_r0 : BitVec 32 := Scalar.remui arg7_r0 c2_i32_86_r0
  let c0_i32_106_r1 : BitVec 32 := 0#32
  let c0_i32_107_r1 : BitVec 32 := 0#32
  ![v136_r0.toNat, 0, 0]

def k1_chk3 (i : grid1.Coords) (arg7_r0 : BitVec 32) : Prop :=
  (∀ (k1_h1 : k1_cond1 i = 1#1), ∀ a, (k1_off11 arg7_r0) a + S1x1x256.size a ≤ S2x1x256.size a)
instance k1_chk3.dec : ∀ (i : grid1.Coords) (arg7_r0 : BitVec 32), Decidable (k1_chk3 i arg7_r0) := fun i arg7_r0 => decidable_of_iff' _ (Iff.of_eq (k1_chk3.eq_1 i arg7_r0))
theorem k1_off11_inb : ∀ (i : grid1.Coords) (arg7_r0 : BitVec 32) (k1_hw3 : k1_chk3 i arg7_r0), ∀ (k1_h1 : k1_cond1 i = 1#1), ∀ a, (k1_off11 arg7_r0) a + S1x1x256.size a ≤ S2x1x256.size a := fun i arg7_r0 k1_hw3 k1_h1 => k1_hw3 k1_h1

def k1_off12 (arg8_r0 : BitVec 32) : Fin 3 → Nat :=
  let c2_i32_104_r0 : BitVec 32 := 2#32
  let v172_r0 : BitVec 32 := Scalar.remui arg8_r0 c2_i32_104_r0
  let c0_i32_106_r0 : BitVec 32 := 0#32
  let c0_i32_107_r0 : BitVec 32 := 0#32
  ![v172_r0.toNat, 0, 0]
def k1_cond6 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let true_66_r0 : BitVec 1 := 1#1
  let c1_i32_65_r0 : BitVec 32 := 1#32
  let v95_r0 : BitVec 32 := Scalar.addi arg10_r0 c1_i32_65_r0
  let v96_r0 : BitVec 32 := Scalar.select true_66_r0 v95_r0 arg10_r0
  let v97_r0 : BitVec 1 := Scalar.cmpi .eq v96_r0 v5
  let c0_i32_67_r0 : BitVec 32 := 0#32
  let v98_r0 : BitVec 32 := Scalar.select v97_r0 c0_i32_67_r0 v96_r0
  let v99_r0 : BitVec 32 := Scalar.addi v98_r0 v10
  let v143_r0 : BitVec 1 := Scalar.cmpi .ne v88_r0 v99_r0
  let c0_i32_30_r0 : BitVec 32 := 0#32
  let c1_i32_36_r0 : BitVec 32 := 1#32
  let arg5_r0 : BitVec 32 := Scf.iv c0_i32_30_r0 c1_i32_36_r0 k1_t1
  let c1_i32_58_r0 : BitVec 32 := 1#32
  let v84_r0 : BitVec 32 := Scalar.muli c1_i32_58_r0 v5
  let c1_i32_60_r0 : BitVec 32 := 1#32
  let v86_r0 : BitVec 32 := Scalar.subi v84_r0 c1_i32_60_r0
  let v87_r0 : BitVec 1 := Scalar.cmpi .eq arg5_r0 v86_r0
  let v144_r0 : BitVec 1 := Scalar.ori v143_r0 v87_r0
  let v145_r0 : BitVec 32 := Scalar.extui v144_r0
  let c0_i32_90_r0 : BitVec 32 := 0#32
  let v146_r0 : BitVec 1 := Scalar.cmpi .ne v145_r0 c0_i32_90_r0
  v146_r0

def k1_off13 (i : grid1.Coords) (arg10_r0 : BitVec 32) : Fin 2 → Nat :=
  let c256_i32_105_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let v173_r0 : BitVec 32 := Scalar.muli c256_i32_105_r0 v88_r0
  let c0_i32_108_r0 : BitVec 32 := 0#32
  ![v173_r0.toNat, 0]
def k1_off14 (arg8_r0 : BitVec 32) : Fin 1 → Nat :=
  let c2_i32_104_r0 : BitVec 32 := 2#32
  let v172_r0 : BitVec 32 := Scalar.remui arg8_r0 c2_i32_104_r0
  ![v172_r0.toNat]
def k1_off15 (arg9_r0 : BitVec 32) : Fin 3 → Nat :=
  let c2_i32_104_r0 : BitVec 32 := 2#32
  let v172_r0 : BitVec 32 := Scalar.remui arg9_r0 c2_i32_104_r0
  let c0_i32_106_r0 : BitVec 32 := 0#32
  let c0_i32_107_r0 : BitVec 32 := 0#32
  ![v172_r0.toNat, 0, 0]
def k1_cond8 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let true_62_r0 : BitVec 1 := 1#1
  let c1_i32_61_r0 : BitVec 32 := 1#32
  let v89_r0 : BitVec 32 := Scalar.subi arg10_r0 c1_i32_61_r0
  let v90_r0 : BitVec 32 := Scalar.select true_62_r0 v89_r0 arg10_r0
  let c_m1_i32_63_r0 : BitVec 32 := 4294967295#32
  let v91_r0 : BitVec 1 := Scalar.cmpi .eq v90_r0 c_m1_i32_63_r0
  let c1_i32_64_r0 : BitVec 32 := 1#32
  let v92_r0 : BitVec 32 := Scalar.subi v5 c1_i32_64_r0
  let v93_r0 : BitVec 32 := Scalar.select v91_r0 v92_r0 v90_r0
  let v94_r0 : BitVec 32 := Scalar.addi v93_r0 v10
  let v156_r0 : BitVec 1 := Scalar.cmpi .ne v88_r0 v94_r0
  let c0_i32_30_r0 : BitVec 32 := 0#32
  let c1_i32_36_r0 : BitVec 32 := 1#32
  let arg5_r0 : BitVec 32 := Scf.iv c0_i32_30_r0 c1_i32_36_r0 k1_t1
  let c0_i32_59_r0 : BitVec 32 := 0#32
  let v85_r0 : BitVec 1 := Scalar.cmpi .eq arg5_r0 c0_i32_59_r0
  let true_96_r0 : BitVec 1 := 1#1
  let v157_r0 : BitVec 1 := Scalar.xori v85_r0 true_96_r0
  let v158_r0 : BitVec 1 := Scalar.andi v156_r0 v157_r0
  let v159_r0 : BitVec 32 := Scalar.extui v158_r0
  let c0_i32_97_r0 : BitVec 32 := 0#32
  let v160_r0 : BitVec 1 := Scalar.cmpi .ne v159_r0 c0_i32_97_r0
  v160_r0

def k1_off16 (i : grid1.Coords) (arg10_r0 : BitVec 32) : Fin 2 → Nat :=
  let c256_i32_105_r0 : BitVec 32 := 256#32
  let true_62_r0 : BitVec 1 := 1#1
  let c1_i32_61_r0 : BitVec 32 := 1#32
  let v89_r0 : BitVec 32 := Scalar.subi arg10_r0 c1_i32_61_r0
  let v90_r0 : BitVec 32 := Scalar.select true_62_r0 v89_r0 arg10_r0
  let c_m1_i32_63_r0 : BitVec 32 := 4294967295#32
  let v91_r0 : BitVec 1 := Scalar.cmpi .eq v90_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_64_r0 : BitVec 32 := 1#32
  let v92_r0 : BitVec 32 := Scalar.subi v5 c1_i32_64_r0
  let v93_r0 : BitVec 32 := Scalar.select v91_r0 v92_r0 v90_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v94_r0 : BitVec 32 := Scalar.addi v93_r0 v10
  let v173_r0 : BitVec 32 := Scalar.muli c256_i32_105_r0 v94_r0
  let c0_i32_108_r0 : BitVec 32 := 0#32
  ![v173_r0.toNat, 0]
def k1_off17 (arg9_r0 : BitVec 32) : Fin 1 → Nat :=
  let c2_i32_104_r0 : BitVec 32 := 2#32
  let v172_r0 : BitVec 32 := Scalar.remui arg9_r0 c2_i32_104_r0
  ![v172_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h2 : k1_cond2 i k1_t1 arg10_r0 = 1#1), ∀ a, (k1_off4 arg6_r0) a + S1x1x256.size a ≤ S2x1x256.size a) ∧
  (∀ (k1_h1 : k1_cond1 i = 1#1), ∀ (k1_h2 : k1_cond2 i k1_t1 arg10_r0 = 1#1), ∀ a, (k1_off5 i arg10_r0) a + S1x256.size a ≤ S1x640000.size a) ∧
  (∀ (k1_h1 : k1_cond1 i = 1#1), ∀ (k1_h2 : k1_cond2 i k1_t1 arg10_r0 = 1#1), ∀ a, (k1_off6 arg6_r0) a + S1.size a ≤ S2.size a) ∧
  (∀ (k1_h1 : k1_cond1 i = 1#1), ∀ (k1_h3 : k1_cond3 i k1_t1 arg10_r0 = 1#1), ∀ a, (k1_off7 arg7_r0) a + S1x1x256.size a ≤ S2x1x256.size a) ∧
  (∀ (k1_h1 : k1_cond1 i = 1#1), ∀ (k1_h3 : k1_cond3 i k1_t1 arg10_r0 = 1#1), ∀ a, (k1_off8 i arg10_r0) a + S1x256.size a ≤ S1x640000.size a) ∧
  (∀ (k1_h1 : k1_cond1 i = 1#1), ∀ (k1_h3 : k1_cond3 i k1_t1 arg10_r0 = 1#1), ∀ a, (k1_off9 arg7_r0) a + S1.size a ≤ S2.size a) ∧
  (∀ (k1_h1 : k1_cond1 i = 1#1), ∀ (k1_h6 : k1_cond6 i k1_t1 arg10_r0 = 1#1), ∀ a, (k1_off12 arg8_r0) a + S1x256x128.size a ≤ S2x256x128.size a) ∧
  (∀ (k1_h1 : k1_cond1 i = 1#1), ∀ (k1_h6 : k1_cond6 i k1_t1 arg10_r0 = 1#1), ∀ a, (k1_off13 i arg10_r0) a + S256x128.size a ≤ S640000x128.size a) ∧
  (∀ (k1_h1 : k1_cond1 i = 1#1), ∀ (k1_h6 : k1_cond6 i k1_t1 arg10_r0 = 1#1), ∀ a, (k1_off14 arg8_r0) a + S1.size a ≤ S2.size a) ∧
  (∀ (k1_h1 : k1_cond1 i = 1#1), ∀ (k1_h8 : k1_cond8 i k1_t1 arg10_r0 = 1#1), ∀ a, (k1_off15 arg9_r0) a + S1x256x128.size a ≤ S2x256x128.size a) ∧
  (∀ (k1_h1 : k1_cond1 i = 1#1), ∀ (k1_h8 : k1_cond8 i k1_t1 arg10_r0 = 1#1), ∀ a, (k1_off16 i arg10_r0) a + S256x128.size a ≤ S640000x128.size a) ∧
  (∀ (k1_h1 : k1_cond1 i = 1#1), ∀ (k1_h8 : k1_cond8 i k1_t1 arg10_r0 = 1#1), ∀ a, (k1_off17 arg9_r0) a + S1.size a ≤ S2.size a)
instance k1_chk1.dec : ∀ (i : grid1.Coords) (k1_t1 : Fin (k1_t1_loop i).trips) (arg6_r0 : BitVec 32) (arg7_r0 : BitVec 32) (arg8_r0 : BitVec 32) (arg9_r0 : BitVec 32) (arg10_r0 : BitVec 32), Decidable (k1_chk1 i k1_t1 arg6_r0 arg7_r0 arg8_r0 arg9_r0 arg10_r0) := fun i k1_t1 arg6_r0 arg7_r0 arg8_r0 arg9_r0 arg10_r0 => decidable_of_iff' _ (Iff.of_eq (k1_chk1.eq_1 i k1_t1 arg6_r0 arg7_r0 arg8_r0 arg9_r0 arg10_r0))
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h2 : k1_cond2 i k1_t1 arg10_r0 = 1#1), ∀ a, (k1_off4 arg6_r0) a + S1x1x256.size a ≤ S2x1x256.size a := fun i k1_t1 arg6_r0 arg7_r0 arg8_r0 arg9_r0 arg10_r0 k1_hw1 k1_h1 k1_h2 => k1_hw1.1 k1_h1 k1_h2
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h2 : k1_cond2 i k1_t1 arg10_r0 = 1#1), ∀ a, (k1_off5 i arg10_r0) a + S1x256.size a ≤ S1x640000.size a := fun i k1_t1 arg6_r0 arg7_r0 arg8_r0 arg9_r0 arg10_r0 k1_hw1 k1_h1 k1_h2 => k1_hw1.2.1 k1_h1 k1_h2
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h2 : k1_cond2 i k1_t1 arg10_r0 = 1#1), ∀ a, (k1_off6 arg6_r0) a + S1.size a ≤ S2.size a := fun i k1_t1 arg6_r0 arg7_r0 arg8_r0 arg9_r0 arg10_r0 k1_hw1 k1_h1 k1_h2 => k1_hw1.2.2.1 k1_h1 k1_h2
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off7 arg7_r0) a + S1x1x256.size a ≤ S2x1x256.size a := fun i k1_t1 arg6_r0 arg7_r0 arg8_r0 arg9_r0 arg10_r0 k1_hw1 k1_h1 k1_h3 => k1_hw1.2.2.2.1 k1_h1 k1_h3
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off8 i arg10_r0) a + S1x256.size a ≤ S1x640000.size a := fun i k1_t1 arg6_r0 arg7_r0 arg8_r0 arg9_r0 arg10_r0 k1_hw1 k1_h1 k1_h3 => k1_hw1.2.2.2.2.1 k1_h1 k1_h3
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off9 arg7_r0) a + S1.size a ≤ S2.size a := fun i k1_t1 arg6_r0 arg7_r0 arg8_r0 arg9_r0 arg10_r0 k1_hw1 k1_h1 k1_h3 => k1_hw1.2.2.2.2.2.1 k1_h1 k1_h3
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h6 : k1_cond6 i k1_t1 arg10_r0 = 1#1), ∀ a, (k1_off12 arg8_r0) a + S1x256x128.size a ≤ S2x256x128.size a := fun i k1_t1 arg6_r0 arg7_r0 arg8_r0 arg9_r0 arg10_r0 k1_hw1 k1_h1 k1_h6 => k1_hw1.2.2.2.2.2.2.1 k1_h1 k1_h6
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h6 : k1_cond6 i k1_t1 arg10_r0 = 1#1), ∀ a, (k1_off13 i arg10_r0) a + S256x128.size a ≤ S640000x128.size a := fun i k1_t1 arg6_r0 arg7_r0 arg8_r0 arg9_r0 arg10_r0 k1_hw1 k1_h1 k1_h6 => k1_hw1.2.2.2.2.2.2.2.1 k1_h1 k1_h6
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h6 : k1_cond6 i k1_t1 arg10_r0 = 1#1), ∀ a, (k1_off14 arg8_r0) a + S1.size a ≤ S2.size a := fun i k1_t1 arg6_r0 arg7_r0 arg8_r0 arg9_r0 arg10_r0 k1_hw1 k1_h1 k1_h6 => k1_hw1.2.2.2.2.2.2.2.2.1 k1_h1 k1_h6
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h8 : k1_cond8 i k1_t1 arg10_r0 = 1#1), ∀ a, (k1_off15 arg9_r0) a + S1x256x128.size a ≤ S2x256x128.size a := fun i k1_t1 arg6_r0 arg7_r0 arg8_r0 arg9_r0 arg10_r0 k1_hw1 k1_h1 k1_h8 => k1_hw1.2.2.2.2.2.2.2.2.2.1 k1_h1 k1_h8
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h8 : k1_cond8 i k1_t1 arg10_r0 = 1#1), ∀ a, (k1_off16 i arg10_r0) a + S256x128.size a ≤ S640000x128.size a := fun i k1_t1 arg6_r0 arg7_r0 arg8_r0 arg9_r0 arg10_r0 k1_hw1 k1_h1 k1_h8 => k1_hw1.2.2.2.2.2.2.2.2.2.2.1 k1_h1 k1_h8
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h8 : k1_cond8 i k1_t1 arg10_r0 = 1#1), ∀ a, (k1_off17 arg9_r0) a + S1.size a ≤ S2.size a := fun i k1_t1 arg6_r0 arg7_r0 arg8_r0 arg9_r0 arg10_r0 k1_hw1 k1_h1 k1_h8 => k1_hw1.2.2.2.2.2.2.2.2.2.2.2 k1_h1 k1_h8

@[reducible] def k1_t2_loop (i : grid1.Coords) : Scf.Loop 32 :=
  let c0_i32_30_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let v46_r0 : BitVec 32 := Scalar.subi v11 c0_i32_30_r0
  let c1_i32_35_r0 : BitVec 32 := 1#32
  let v48_r0 : BitVec 32 := Scalar.divsi v46_r0 c1_i32_35_r0
  let v49_r0 : BitVec 32 := Scalar.muli v48_r0 c1_i32_35_r0
  let v50_r0 : BitVec 32 := Scalar.addi c0_i32_30_r0 v49_r0
  let v47_r0 : BitVec 32 := Scalar.addi c0_i32_30_r0 v46_r0
  let c1_i32_37_r0 : BitVec 32 := 1#32
  ⟨v50_r0, v47_r0, c1_i32_37_r0⟩
def k1_off18 (arg6_r0 : BitVec 32) : Fin 3 → Nat :=
  let c2_i32_104_r0 : BitVec 32 := 2#32
  let v172_r0 : BitVec 32 := Scalar.remui arg6_r0 c2_i32_104_r0
  let c0_i32_106_r0 : BitVec 32 := 0#32
  let c0_i32_107_r0 : BitVec 32 := 0#32
  ![v172_r0.toNat, 0, 0]
def k1_cond9 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let true_66_r0 : BitVec 1 := 1#1
  let c1_i32_65_r0 : BitVec 32 := 1#32
  let v95_r0 : BitVec 32 := Scalar.addi arg10_r0 c1_i32_65_r0
  let v96_r0 : BitVec 32 := Scalar.select true_66_r0 v95_r0 arg10_r0
  let v97_r0 : BitVec 1 := Scalar.cmpi .eq v96_r0 v5
  let c0_i32_67_r0 : BitVec 32 := 0#32
  let v98_r0 : BitVec 32 := Scalar.select v97_r0 c0_i32_67_r0 v96_r0
  let v99_r0 : BitVec 32 := Scalar.addi v98_r0 v10
  let v105_r0 : BitVec 1 := Scalar.cmpi .ne v88_r0 v99_r0
  let c0_i32_30_r0 : BitVec 32 := 0#32
  let c1_i32_3 : BitVec 32 := 1#32
  let v11 : BitVec 32 := Scalar.muli c1_i32_3 v5
  let v46_r0 : BitVec 32 := Scalar.subi v11 c0_i32_30_r0
  let c1_i32_35_r0 : BitVec 32 := 1#32
  let v48_r0 : BitVec 32 := Scalar.divsi v46_r0 c1_i32_35_r0
  let v49_r0 : BitVec 32 := Scalar.muli v48_r0 c1_i32_35_r0
  let v50_r0 : BitVec 32 := Scalar.addi c0_i32_30_r0 v49_r0
  let c1_i32_37_r0 : BitVec 32 := 1#32
  let arg5_r0 : BitVec 32 := Scf.iv v50_r0 c1_i32_37_r0 k1_t2
  let c1_i32_58_r0 : BitVec 32 := 1#32
  let v84_r0 : BitVec 32 := Scalar.muli c1_i32_58_r0 v5
  let c2_i32_71_r0 : BitVec 32 := 2#32
  let v106_r0 : BitVec 32 := Scalar.subi v84_r0 c2_i32_71_r0
  let c1_i32_72_r0 : BitVec 32 := 1#32
  let v107_r0 : BitVec 32 := Scalar.addi v106_r0 c1_i32_72_r0
  let v108_r0 : BitVec 1 := Scalar.cmpi .sge arg5_r0 v107_r0
  let true_73_r0 : BitVec 1 := 1#1
  let v109_r0 : BitVec 1 := Scalar.xori v108_r0 true_73_r0
  let v110_r0 : BitVec 1 := Scalar.andi v105_r0 v109_r0
  let v111_r0 : BitVec 32 := Scalar.extui v110_r0
  let c0_i32_74_r0 : BitVec 32 := 0#32
  let v112_r0 : BitVec 1 := Scalar.cmpi .ne v111_r0 c0_i32_74_r0
  v112_r0

def k1_off19 (i : grid1.Coords) (arg10_r0 : BitVec 32) : Fin 2 → Nat :=
  let c0_i32_108_r0 : BitVec 32 := 0#32
  let c256_i32_105_r0 : BitVec 32 := 256#32
  let true_66_r0 : BitVec 1 := 1#1
  let c1_i32_65_r0 : BitVec 32 := 1#32
  let v95_r0 : BitVec 32 := Scalar.addi arg10_r0 c1_i32_65_r0
  let v96_r0 : BitVec 32 := Scalar.select true_66_r0 v95_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v97_r0 : BitVec 1 := Scalar.cmpi .eq v96_r0 v5
  let c0_i32_67_r0 : BitVec 32 := 0#32
  let v98_r0 : BitVec 32 := Scalar.select v97_r0 c0_i32_67_r0 v96_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v99_r0 : BitVec 32 := Scalar.addi v98_r0 v10
  let v173_r0 : BitVec 32 := Scalar.muli c256_i32_105_r0 v99_r0
  ![0, v173_r0.toNat]
def k1_off20 (arg6_r0 : BitVec 32) : Fin 1 → Nat :=
  let c2_i32_104_r0 : BitVec 32 := 2#32
  let v172_r0 : BitVec 32 := Scalar.remui arg6_r0 c2_i32_104_r0
  ![v172_r0.toNat]
def k1_off21 (arg7_r0 : BitVec 32) : Fin 3 → Nat :=
  let c2_i32_105_r0 : BitVec 32 := 2#32
  let v173_r0 : BitVec 32 := Scalar.remui arg7_r0 c2_i32_105_r0
  let c0_i32_106_r0 : BitVec 32 := 0#32
  let c0_i32_107_r0 : BitVec 32 := 0#32
  ![v173_r0.toNat, 0, 0]
def k1_cond10 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let true_62_r0 : BitVec 1 := 1#1
  let c1_i32_61_r0 : BitVec 32 := 1#32
  let v89_r0 : BitVec 32 := Scalar.subi arg10_r0 c1_i32_61_r0
  let v90_r0 : BitVec 32 := Scalar.select true_62_r0 v89_r0 arg10_r0
  let c_m1_i32_63_r0 : BitVec 32 := 4294967295#32
  let v91_r0 : BitVec 1 := Scalar.cmpi .eq v90_r0 c_m1_i32_63_r0
  let c1_i32_64_r0 : BitVec 32 := 1#32
  let v92_r0 : BitVec 32 := Scalar.subi v5 c1_i32_64_r0
  let v93_r0 : BitVec 32 := Scalar.select v91_r0 v92_r0 v90_r0
  let v94_r0 : BitVec 32 := Scalar.addi v93_r0 v10
  let v122_r0 : BitVec 1 := Scalar.cmpi .ne v88_r0 v94_r0
  let c0_i32_30_r0 : BitVec 32 := 0#32
  let c1_i32_3 : BitVec 32 := 1#32
  let v11 : BitVec 32 := Scalar.muli c1_i32_3 v5
  let v46_r0 : BitVec 32 := Scalar.subi v11 c0_i32_30_r0
  let c1_i32_35_r0 : BitVec 32 := 1#32
  let v48_r0 : BitVec 32 := Scalar.divsi v46_r0 c1_i32_35_r0
  let v49_r0 : BitVec 32 := Scalar.muli v48_r0 c1_i32_35_r0
  let v50_r0 : BitVec 32 := Scalar.addi c0_i32_30_r0 v49_r0
  let c1_i32_37_r0 : BitVec 32 := 1#32
  let arg5_r0 : BitVec 32 := Scf.iv v50_r0 c1_i32_37_r0 k1_t2
  let c0_i32_59_r0 : BitVec 32 := 0#32
  let v85_r0 : BitVec 1 := Scalar.cmpi .eq arg5_r0 c0_i32_59_r0
  let v123_r0 : BitVec 1 := Scalar.ori v122_r0 v85_r0
  let c0_i32_80_r0 : BitVec 32 := 0#32
  let v124_r0 : BitVec 1 := Scalar.cmpi .slt arg5_r0 c0_i32_80_r0
  let true_81_r0 : BitVec 1 := 1#1
  let v125_r0 : BitVec 1 := Scalar.xori v124_r0 true_81_r0
  let v126_r0 : BitVec 1 := Scalar.andi v123_r0 v125_r0
  let v127_r0 : BitVec 32 := Scalar.extui v126_r0
  let c0_i32_82_r0 : BitVec 32 := 0#32
  let v128_r0 : BitVec 1 := Scalar.cmpi .ne v127_r0 c0_i32_82_r0
  v128_r0

def k1_off22 (i : grid1.Coords) (arg10_r0 : BitVec 32) : Fin 2 → Nat :=
  let c0_i32_108_r0 : BitVec 32 := 0#32
  let c256_i32_104_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let v172_r0 : BitVec 32 := Scalar.muli c256_i32_104_r0 v88_r0
  ![0, v172_r0.toNat]
def k1_off23 (arg7_r0 : BitVec 32) : Fin 1 → Nat :=
  let c2_i32_105_r0 : BitVec 32 := 2#32
  let v173_r0 : BitVec 32 := Scalar.remui arg7_r0 c2_i32_105_r0
  ![v173_r0.toNat]
def k1_off24 (arg8_r0 : BitVec 32) : Fin 3 → Nat :=
  let c2_i32_87_r0 : BitVec 32 := 2#32
  let v137_r0 : BitVec 32 := Scalar.remui arg8_r0 c2_i32_87_r0
  let c0_i32_104_r2 : BitVec 32 := 0#32
  let c0_i32_105_r2 : BitVec 32 := 0#32
  ![v137_r0.toNat, 0, 0]

def k1_chk5 (i : grid1.Coords) (arg8_r0 : BitVec 32) : Prop :=
  (∀ (k1_h1 : k1_cond1 i = 1#1), ∀ a, (k1_off24 arg8_r0) a + S1x256x128.size a ≤ S2x256x128.size a)
instance k1_chk5.dec : ∀ (i : grid1.Coords) (arg8_r0 : BitVec 32), Decidable (k1_chk5 i arg8_r0) := fun i arg8_r0 => decidable_of_iff' _ (Iff.of_eq (k1_chk5.eq_1 i arg8_r0))
theorem k1_off24_inb : ∀ (i : grid1.Coords) (arg8_r0 : BitVec 32) (k1_hw5 : k1_chk5 i arg8_r0), ∀ (k1_h1 : k1_cond1 i = 1#1), ∀ a, (k1_off24 arg8_r0) a + S1x256x128.size a ≤ S2x256x128.size a := fun i arg8_r0 k1_hw5 k1_h1 => k1_hw5 k1_h1

def k1_off25 (arg7_r0 : BitVec 32) : Fin 3 → Nat :=
  let c2_i32_86_r0 : BitVec 32 := 2#32
  let v136_r0 : BitVec 32 := Scalar.remui arg7_r0 c2_i32_86_r0
  let c0_i32_106_r2 : BitVec 32 := 0#32
  let c0_i32_107_r2 : BitVec 32 := 0#32
  ![v136_r0.toNat, 0, 0]

def k1_chk6 (i : grid1.Coords) (arg7_r0 : BitVec 32) : Prop :=
  (∀ (k1_h1 : k1_cond1 i = 1#1), ∀ a, (k1_off25 arg7_r0) a + S1x1x256.size a ≤ S2x1x256.size a)
instance k1_chk6.dec : ∀ (i : grid1.Coords) (arg7_r0 : BitVec 32), Decidable (k1_chk6 i arg7_r0) := fun i arg7_r0 => decidable_of_iff' _ (Iff.of_eq (k1_chk6.eq_1 i arg7_r0))
theorem k1_off25_inb : ∀ (i : grid1.Coords) (arg7_r0 : BitVec 32) (k1_hw6 : k1_chk6 i arg7_r0), ∀ (k1_h1 : k1_cond1 i = 1#1), ∀ a, (k1_off25 arg7_r0) a + S1x1x256.size a ≤ S2x1x256.size a := fun i arg7_r0 k1_hw6 k1_h1 => k1_hw6 k1_h1

def k1_off26 (arg8_r0 : BitVec 32) : Fin 3 → Nat :=
  let c2_i32_104_r0 : BitVec 32 := 2#32
  let v172_r0 : BitVec 32 := Scalar.remui arg8_r0 c2_i32_104_r0
  let c0_i32_106_r0 : BitVec 32 := 0#32
  let c0_i32_107_r0 : BitVec 32 := 0#32
  ![v172_r0.toNat, 0, 0]
def k1_cond13 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let true_66_r0 : BitVec 1 := 1#1
  let c1_i32_65_r0 : BitVec 32 := 1#32
  let v95_r0 : BitVec 32 := Scalar.addi arg10_r0 c1_i32_65_r0
  let v96_r0 : BitVec 32 := Scalar.select true_66_r0 v95_r0 arg10_r0
  let v97_r0 : BitVec 1 := Scalar.cmpi .eq v96_r0 v5
  let c0_i32_67_r0 : BitVec 32 := 0#32
  let v98_r0 : BitVec 32 := Scalar.select v97_r0 c0_i32_67_r0 v96_r0
  let v99_r0 : BitVec 32 := Scalar.addi v98_r0 v10
  let v143_r0 : BitVec 1 := Scalar.cmpi .ne v88_r0 v99_r0
  let c0_i32_30_r0 : BitVec 32 := 0#32
  let c1_i32_3 : BitVec 32 := 1#32
  let v11 : BitVec 32 := Scalar.muli c1_i32_3 v5
  let v46_r0 : BitVec 32 := Scalar.subi v11 c0_i32_30_r0
  let c1_i32_35_r0 : BitVec 32 := 1#32
  let v48_r0 : BitVec 32 := Scalar.divsi v46_r0 c1_i32_35_r0
  let v49_r0 : BitVec 32 := Scalar.muli v48_r0 c1_i32_35_r0
  let v50_r0 : BitVec 32 := Scalar.addi c0_i32_30_r0 v49_r0
  let c1_i32_37_r0 : BitVec 32 := 1#32
  let arg5_r0 : BitVec 32 := Scf.iv v50_r0 c1_i32_37_r0 k1_t2
  let c1_i32_58_r0 : BitVec 32 := 1#32
  let v84_r0 : BitVec 32 := Scalar.muli c1_i32_58_r0 v5
  let c1_i32_60_r0 : BitVec 32 := 1#32
  let v86_r0 : BitVec 32 := Scalar.subi v84_r0 c1_i32_60_r0
  let v87_r0 : BitVec 1 := Scalar.cmpi .eq arg5_r0 v86_r0
  let v144_r0 : BitVec 1 := Scalar.ori v143_r0 v87_r0
  let v145_r0 : BitVec 32 := Scalar.extui v144_r0
  let c0_i32_90_r0 : BitVec 32 := 0#32
  let v146_r0 : BitVec 1 := Scalar.cmpi .ne v145_r0 c0_i32_90_r0
  v146_r0

def k1_off27 (i : grid1.Coords) (arg10_r0 : BitVec 32) : Fin 2 → Nat :=
  let c256_i32_105_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let v173_r0 : BitVec 32 := Scalar.muli c256_i32_105_r0 v88_r0
  let c0_i32_108_r0 : BitVec 32 := 0#32
  ![v173_r0.toNat, 0]
def k1_off28 (arg8_r0 : BitVec 32) : Fin 1 → Nat :=
  let c2_i32_104_r0 : BitVec 32 := 2#32
  let v172_r0 : BitVec 32 := Scalar.remui arg8_r0 c2_i32_104_r0
  ![v172_r0.toNat]
def k1_off29 (arg9_r0 : BitVec 32) : Fin 3 → Nat :=
  let c2_i32_104_r0 : BitVec 32 := 2#32
  let v172_r0 : BitVec 32 := Scalar.remui arg9_r0 c2_i32_104_r0
  let c0_i32_106_r0 : BitVec 32 := 0#32
  let c0_i32_107_r0 : BitVec 32 := 0#32
  ![v172_r0.toNat, 0, 0]
def k1_cond15 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v88_r0 : BitVec 32 := Scalar.addi arg10_r0 v10
  let true_62_r0 : BitVec 1 := 1#1
  let c1_i32_61_r0 : BitVec 32 := 1#32
  let v89_r0 : BitVec 32 := Scalar.subi arg10_r0 c1_i32_61_r0
  let v90_r0 : BitVec 32 := Scalar.select true_62_r0 v89_r0 arg10_r0
  let c_m1_i32_63_r0 : BitVec 32 := 4294967295#32
  let v91_r0 : BitVec 1 := Scalar.cmpi .eq v90_r0 c_m1_i32_63_r0
  let c1_i32_64_r0 : BitVec 32 := 1#32
  let v92_r0 : BitVec 32 := Scalar.subi v5 c1_i32_64_r0
  let v93_r0 : BitVec 32 := Scalar.select v91_r0 v92_r0 v90_r0
  let v94_r0 : BitVec 32 := Scalar.addi v93_r0 v10
  let v156_r0 : BitVec 1 := Scalar.cmpi .ne v88_r0 v94_r0
  let c0_i32_30_r0 : BitVec 32 := 0#32
  let c1_i32_3 : BitVec 32 := 1#32
  let v11 : BitVec 32 := Scalar.muli c1_i32_3 v5
  let v46_r0 : BitVec 32 := Scalar.subi v11 c0_i32_30_r0
  let c1_i32_35_r0 : BitVec 32 := 1#32
  let v48_r0 : BitVec 32 := Scalar.divsi v46_r0 c1_i32_35_r0
  let v49_r0 : BitVec 32 := Scalar.muli v48_r0 c1_i32_35_r0
  let v50_r0 : BitVec 32 := Scalar.addi c0_i32_30_r0 v49_r0
  let c1_i32_37_r0 : BitVec 32 := 1#32
  let arg5_r0 : BitVec 32 := Scf.iv v50_r0 c1_i32_37_r0 k1_t2
  let c0_i32_59_r0 : BitVec 32 := 0#32
  let v85_r0 : BitVec 1 := Scalar.cmpi .eq arg5_r0 c0_i32_59_r0
  let true_96_r0 : BitVec 1 := 1#1
  let v157_r0 : BitVec 1 := Scalar.xori v85_r0 true_96_r0
  let v158_r0 : BitVec 1 := Scalar.andi v156_r0 v157_r0
  let v159_r0 : BitVec 32 := Scalar.extui v158_r0
  let c0_i32_97_r0 : BitVec 32 := 0#32
  let v160_r0 : BitVec 1 := Scalar.cmpi .ne v159_r0 c0_i32_97_r0
  v160_r0

def k1_off30 (i : grid1.Coords) (arg10_r0 : BitVec 32) : Fin 2 → Nat :=
  let c256_i32_105_r0 : BitVec 32 := 256#32
  let true_62_r0 : BitVec 1 := 1#1
  let c1_i32_61_r0 : BitVec 32 := 1#32
  let v89_r0 : BitVec 32 := Scalar.subi arg10_r0 c1_i32_61_r0
  let v90_r0 : BitVec 32 := Scalar.select true_62_r0 v89_r0 arg10_r0
  let c_m1_i32_63_r0 : BitVec 32 := 4294967295#32
  let v91_r0 : BitVec 1 := Scalar.cmpi .eq v90_r0 c_m1_i32_63_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_64_r0 : BitVec 32 := 1#32
  let v92_r0 : BitVec 32 := Scalar.subi v5 c1_i32_64_r0
  let v93_r0 : BitVec 32 := Scalar.select v91_r0 v92_r0 v90_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v94_r0 : BitVec 32 := Scalar.addi v93_r0 v10
  let v173_r0 : BitVec 32 := Scalar.muli c256_i32_105_r0 v94_r0
  let c0_i32_108_r0 : BitVec 32 := 0#32
  ![v173_r0.toNat, 0]
def k1_off31 (arg9_r0 : BitVec 32) : Fin 1 → Nat :=
  let c2_i32_104_r0 : BitVec 32 := 2#32
  let v172_r0 : BitVec 32 := Scalar.remui arg9_r0 c2_i32_104_r0
  ![v172_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h9 : k1_cond9 i k1_t2 arg10_r0 = 1#1), ∀ a, (k1_off18 arg6_r0) a + S1x1x256.size a ≤ S2x1x256.size a) ∧
  (∀ (k1_h1 : k1_cond1 i = 1#1), ∀ (k1_h9 : k1_cond9 i k1_t2 arg10_r0 = 1#1), ∀ a, (k1_off19 i arg10_r0) a + S1x256.size a ≤ S1x640000.size a) ∧
  (∀ (k1_h1 : k1_cond1 i = 1#1), ∀ (k1_h9 : k1_cond9 i k1_t2 arg10_r0 = 1#1), ∀ a, (k1_off20 arg6_r0) a + S1.size a ≤ S2.size a) ∧
  (∀ (k1_h1 : k1_cond1 i = 1#1), ∀ (k1_h10 : k1_cond10 i k1_t2 arg10_r0 = 1#1), ∀ a, (k1_off21 arg7_r0) a + S1x1x256.size a ≤ S2x1x256.size a) ∧
  (∀ (k1_h1 : k1_cond1 i = 1#1), ∀ (k1_h10 : k1_cond10 i k1_t2 arg10_r0 = 1#1), ∀ a, (k1_off22 i arg10_r0) a + S1x256.size a ≤ S1x640000.size a) ∧
  (∀ (k1_h1 : k1_cond1 i = 1#1), ∀ (k1_h10 : k1_cond10 i k1_t2 arg10_r0 = 1#1), ∀ a, (k1_off23 arg7_r0) a + S1.size a ≤ S2.size a) ∧
  (∀ (k1_h1 : k1_cond1 i = 1#1), ∀ (k1_h13 : k1_cond13 i k1_t2 arg10_r0 = 1#1), ∀ a, (k1_off26 arg8_r0) a + S1x256x128.size a ≤ S2x256x128.size a) ∧
  (∀ (k1_h1 : k1_cond1 i = 1#1), ∀ (k1_h13 : k1_cond13 i k1_t2 arg10_r0 = 1#1), ∀ a, (k1_off27 i arg10_r0) a + S256x128.size a ≤ S640000x128.size a) ∧
  (∀ (k1_h1 : k1_cond1 i = 1#1), ∀ (k1_h13 : k1_cond13 i k1_t2 arg10_r0 = 1#1), ∀ a, (k1_off28 arg8_r0) a + S1.size a ≤ S2.size a) ∧
  (∀ (k1_h1 : k1_cond1 i = 1#1), ∀ (k1_h15 : k1_cond15 i k1_t2 arg10_r0 = 1#1), ∀ a, (k1_off29 arg9_r0) a + S1x256x128.size a ≤ S2x256x128.size a) ∧
  (∀ (k1_h1 : k1_cond1 i = 1#1), ∀ (k1_h15 : k1_cond15 i k1_t2 arg10_r0 = 1#1), ∀ a, (k1_off30 i arg10_r0) a + S256x128.size a ≤ S640000x128.size a) ∧
  (∀ (k1_h1 : k1_cond1 i = 1#1), ∀ (k1_h15 : k1_cond15 i k1_t2 arg10_r0 = 1#1), ∀ a, (k1_off31 arg9_r0) a + S1.size a ≤ S2.size a)
instance k1_chk4.dec : ∀ (i : grid1.Coords) (k1_t2 : Fin (k1_t2_loop i).trips) (arg6_r0 : BitVec 32) (arg7_r0 : BitVec 32) (arg8_r0 : BitVec 32) (arg9_r0 : BitVec 32) (arg10_r0 : BitVec 32), Decidable (k1_chk4 i k1_t2 arg6_r0 arg7_r0 arg8_r0 arg9_r0 arg10_r0) := fun i k1_t2 arg6_r0 arg7_r0 arg8_r0 arg9_r0 arg10_r0 => decidable_of_iff' _ (Iff.of_eq (k1_chk4.eq_1 i k1_t2 arg6_r0 arg7_r0 arg8_r0 arg9_r0 arg10_r0))
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h9 : k1_cond9 i k1_t2 arg10_r0 = 1#1), ∀ a, (k1_off18 arg6_r0) a + S1x1x256.size a ≤ S2x1x256.size a := fun i k1_t2 arg6_r0 arg7_r0 arg8_r0 arg9_r0 arg10_r0 k1_hw4 k1_h1 k1_h9 => k1_hw4.1 k1_h1 k1_h9
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h9 : k1_cond9 i k1_t2 arg10_r0 = 1#1), ∀ a, (k1_off19 i arg10_r0) a + S1x256.size a ≤ S1x640000.size a := fun i k1_t2 arg6_r0 arg7_r0 arg8_r0 arg9_r0 arg10_r0 k1_hw4 k1_h1 k1_h9 => k1_hw4.2.1 k1_h1 k1_h9
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h9 : k1_cond9 i k1_t2 arg10_r0 = 1#1), ∀ a, (k1_off20 arg6_r0) a + S1.size a ≤ S2.size a := fun i k1_t2 arg6_r0 arg7_r0 arg8_r0 arg9_r0 arg10_r0 k1_hw4 k1_h1 k1_h9 => k1_hw4.2.2.1 k1_h1 k1_h9
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off21 arg7_r0) a + S1x1x256.size a ≤ S2x1x256.size a := fun i k1_t2 arg6_r0 arg7_r0 arg8_r0 arg9_r0 arg10_r0 k1_hw4 k1_h1 k1_h10 => k1_hw4.2.2.2.1 k1_h1 k1_h10
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off22 i arg10_r0) a + S1x256.size a ≤ S1x640000.size a := fun i k1_t2 arg6_r0 arg7_r0 arg8_r0 arg9_r0 arg10_r0 k1_hw4 k1_h1 k1_h10 => k1_hw4.2.2.2.2.1 k1_h1 k1_h10
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off23 arg7_r0) a + S1.size a ≤ S2.size a := fun i k1_t2 arg6_r0 arg7_r0 arg8_r0 arg9_r0 arg10_r0 k1_hw4 k1_h1 k1_h10 => k1_hw4.2.2.2.2.2.1 k1_h1 k1_h10
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h13 : k1_cond13 i k1_t2 arg10_r0 = 1#1), ∀ a, (k1_off26 arg8_r0) a + S1x256x128.size a ≤ S2x256x128.size a := fun i k1_t2 arg6_r0 arg7_r0 arg8_r0 arg9_r0 arg10_r0 k1_hw4 k1_h1 k1_h13 => k1_hw4.2.2.2.2.2.2.1 k1_h1 k1_h13
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h13 : k1_cond13 i k1_t2 arg10_r0 = 1#1), ∀ a, (k1_off27 i arg10_r0) a + S256x128.size a ≤ S640000x128.size a := fun i k1_t2 arg6_r0 arg7_r0 arg8_r0 arg9_r0 arg10_r0 k1_hw4 k1_h1 k1_h13 => k1_hw4.2.2.2.2.2.2.2.1 k1_h1 k1_h13
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h13 : k1_cond13 i k1_t2 arg10_r0 = 1#1), ∀ a, (k1_off28 arg8_r0) a + S1.size a ≤ S2.size a := fun i k1_t2 arg6_r0 arg7_r0 arg8_r0 arg9_r0 arg10_r0 k1_hw4 k1_h1 k1_h13 => k1_hw4.2.2.2.2.2.2.2.2.1 k1_h1 k1_h13
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h15 : k1_cond15 i k1_t2 arg10_r0 = 1#1), ∀ a, (k1_off29 arg9_r0) a + S1x256x128.size a ≤ S2x256x128.size a := fun i k1_t2 arg6_r0 arg7_r0 arg8_r0 arg9_r0 arg10_r0 k1_hw4 k1_h1 k1_h15 => k1_hw4.2.2.2.2.2.2.2.2.2.1 k1_h1 k1_h15
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h15 : k1_cond15 i k1_t2 arg10_r0 = 1#1), ∀ a, (k1_off30 i arg10_r0) a + S256x128.size a ≤ S640000x128.size a := fun i k1_t2 arg6_r0 arg7_r0 arg8_r0 arg9_r0 arg10_r0 k1_hw4 k1_h1 k1_h15 => k1_hw4.2.2.2.2.2.2.2.2.2.2.1 k1_h1 k1_h15
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h15 : k1_cond15 i k1_t2 arg10_r0 = 1#1), ∀ a, (k1_off31 arg9_r0) a + S1.size a ≤ S2.size a := fun i k1_t2 arg6_r0 arg7_r0 arg8_r0 arg9_r0 arg10_r0 k1_hw4 k1_h1 k1_h15 => k1_hw4.2.2.2.2.2.2.2.2.2.2.2 k1_h1 k1_h15

def k1_cond17 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let c1_i32_42_r0 : BitVec 32 := 1#32
  let v58_r0 : BitVec 32 := Scalar.subi v11 c1_i32_42_r0
  let c1_i32_43_r0 : BitVec 32 := 1#32
  let v59_r0 : BitVec 32 := Scalar.muli c1_i32_43_r0 v5
  let c1_i32_45_r0 : BitVec 32 := 1#32
  let v61_r0 : BitVec 32 := Scalar.subi v59_r0 c1_i32_45_r0
  let v62_r0 : BitVec 1 := Scalar.cmpi .eq v58_r0 v61_r0
  let v82_r0 : BitVec 32 := Scalar.extui v62_r0
  let c0_i32_57_r0 : BitVec 32 := 0#32
  let v83_r0 : BitVec 1 := Scalar.cmpi .ne v82_r0 c0_i32_57_r0
  v83_r0

def k1_off32 (v52_3_r0 : BitVec 32) : Fin 3 → Nat :=
  let c2_i32_58_r0 : BitVec 32 := 2#32
  let v84_r0 : BitVec 32 := Scalar.remui v52_3_r0 c2_i32_58_r0
  let c0_i32_60_r0 : BitVec 32 := 0#32
  let c0_i32_61_r0 : BitVec 32 := 0#32
  ![v84_r0.toNat, 0, 0]

def k1_off33 (i : grid1.Coords) (v52_4_r0 : BitVec 32) : Fin 2 → Nat :=
  let c256_i32_59_r0 : BitVec 32 := 256#32
  let true_39_r0 : BitVec 1 := 1#1
  let c1_i32_38_r0 : BitVec 32 := 1#32
  let v53_r0 : BitVec 32 := Scalar.subi v52_4_r0 c1_i32_38_r0
  let v54_r0 : BitVec 32 := Scalar.select true_39_r0 v53_r0 v52_4_r0
  let c_m1_i32_40_r0 : BitVec 32 := 4294967295#32
  let v55_r0 : BitVec 1 := Scalar.cmpi .eq v54_r0 c_m1_i32_40_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_41_r0 : BitVec 32 := 1#32
  let v56_r0 : BitVec 32 := Scalar.subi v5 c1_i32_41_r0
  let v57_r0 : BitVec 32 := Scalar.select v55_r0 v56_r0 v54_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v63_r0 : BitVec 32 := Scalar.addi v57_r0 v10
  let v85_r0 : BitVec 32 := Scalar.muli c256_i32_59_r0 v63_r0
  let c0_i32_62_r0 : BitVec 32 := 0#32
  ![v85_r0.toNat, 0]

def k1_chk8 (i : grid1.Coords) (v52_4_r0 : BitVec 32) : Prop :=
  (∀ (k1_h1 : k1_cond1 i = 1#1), ∀ (k1_h17 : k1_cond17 i = 1#1), ∀ a, (k1_off33 i v52_4_r0) a + S256x128.size a ≤ S640000x128.size a)
instance k1_chk8.dec : ∀ (i : grid1.Coords) (v52_4_r0 : BitVec 32), Decidable (k1_chk8 i v52_4_r0) := fun i v52_4_r0 => decidable_of_iff' _ (Iff.of_eq (k1_chk8.eq_1 i v52_4_r0))
theorem k1_off33_inb : ∀ (i : grid1.Coords) (v52_4_r0 : BitVec 32) (k1_hw8 : k1_chk8 i v52_4_r0), ∀ (k1_h1 : k1_cond1 i = 1#1), ∀ (k1_h17 : k1_cond17 i = 1#1), ∀ a, (k1_off33 i v52_4_r0) a + S256x128.size a ≤ S640000x128.size a := fun i v52_4_r0 k1_hw8 k1_h1 k1_h17 => k1_hw8 k1_h1 k1_h17

def k1_off34 (v52_3_r0 : BitVec 32) : Fin 1 → Nat :=
  let c2_i32_58_r0 : BitVec 32 := 2#32
  let v84_r0 : BitVec 32 := Scalar.remui v52_3_r0 c2_i32_58_r0
  ![v84_r0.toNat]
def k1_off35 (v52_3_r0 : BitVec 32) : Fin 3 → Nat :=
  let c2_i32_58_r0 : BitVec 32 := 2#32
  let v84_r0 : BitVec 32 := Scalar.remui v52_3_r0 c2_i32_58_r0
  let c0_i32_64_r0 : BitVec 32 := 0#32
  let c0_i32_65_r0 : BitVec 32 := 0#32
  ![v84_r0.toNat, 0, 0]

def k1_chk7 (i : grid1.Coords) (v52_3_r0 : BitVec 32) : Prop :=
  (∀ (k1_h1 : k1_cond1 i = 1#1), ∀ (k1_h17 : k1_cond17 i = 1#1), ∀ a, (k1_off32 v52_3_r0) a + S1x256x128.size a ≤ S2x256x128.size a) ∧
  (∀ (k1_h1 : k1_cond1 i = 1#1), ∀ (k1_h17 : k1_cond17 i = 1#1), ∀ a, (k1_off34 v52_3_r0) a + S1.size a ≤ S2.size a) ∧
  (∀ (k1_h1 : k1_cond1 i = 1#1), ∀ (k1_h17 : k1_cond17 i = 1#1), ∀ a, (k1_off35 v52_3_r0) a + S1x256x128.size a ≤ S2x256x128.size a)
instance k1_chk7.dec : ∀ (i : grid1.Coords) (v52_3_r0 : BitVec 32), Decidable (k1_chk7 i v52_3_r0) := fun i v52_3_r0 => decidable_of_iff' _ (Iff.of_eq (k1_chk7.eq_1 i v52_3_r0))
theorem k1_off32_inb : ∀ (i : grid1.Coords) (v52_3_r0 : BitVec 32) (k1_hw7 : k1_chk7 i v52_3_r0), ∀ (k1_h1 : k1_cond1 i = 1#1), ∀ (k1_h17 : k1_cond17 i = 1#1), ∀ a, (k1_off32 v52_3_r0) a + S1x256x128.size a ≤ S2x256x128.size a := fun i v52_3_r0 k1_hw7 k1_h1 k1_h17 => k1_hw7.1 k1_h1 k1_h17
theorem k1_off34_inb : ∀ (i : grid1.Coords) (v52_3_r0 : BitVec 32) (k1_hw7 : k1_chk7 i v52_3_r0), ∀ (k1_h1 : k1_cond1 i = 1#1), ∀ (k1_h17 : k1_cond17 i = 1#1), ∀ a, (k1_off34 v52_3_r0) a + S1.size a ≤ S2.size a := fun i v52_3_r0 k1_hw7 k1_h1 k1_h17 => k1_hw7.2.1 k1_h1 k1_h17
theorem k1_off35_inb : ∀ (i : grid1.Coords) (v52_3_r0 : BitVec 32) (k1_hw7 : k1_chk7 i v52_3_r0), ∀ (k1_h1 : k1_cond1 i = 1#1), ∀ (k1_h17 : k1_cond17 i = 1#1), ∀ a, (k1_off35 v52_3_r0) a + S1x256x128.size a ≤ S2x256x128.size a := fun i v52_3_r0 k1_hw7 k1_h1 k1_h17 => k1_hw7.2.2 k1_h1 k1_h17

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c100_i32 : BitVec 32 := 100#32
  let v0 : BitVec 32 := Scalar.addi c100_i32 arg0
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S3200x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3200x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S16x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S16x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S16x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S16x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S16x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S16x3200 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S2x1_S2x320000_0_1 : S2x1.BroadcastsInDim S2x320000 (![0, 1] : Fin 2 → Fin S2x320000.rank)
  shapeCasts_S2x320000_S1x640000 : S2x320000.ShapeCasts S1x640000
  slices_S288x128_S256x128_0_0 : S288x128.Slices ![0, 0] S256x128
  slices_S288x128_S16x128_256_0 : S288x128.Slices ![256, 0] S16x128
  slices_S288x128_S16x128_272_0 : S288x128.Slices ![272, 0] S16x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  squeezes_S1x1x256_S1x256 : S1x1x256.Squeezes S1x256
  squeezes_S1_S_ : S1.Squeezes S_
  squeezes_S1x256x128_S256x128 : S1x256x128.Squeezes S256x128
  inb_S1x256_S1x256_0_0 : ∀ a, (![0, 0] : Fin 2 → Nat) a + S1x256.size a ≤ S1x256.size a
  squeezes_S1x256_S256 : S1x256.Squeezes S256
  inb_S20000x128_S20000x128_0_0 : ∀ a, (![0, 0] : Fin 2 → Nat) a + S20000x128.size a ≤ S20000x128.size a
  gathers_S20000x128_S256x128 : S20000x128.Gathers 0 S256x128
  transposes_S320000x16_S16x320000_1_0 : S320000x16.Transposes [1, 0] S16x320000
  shapeCasts_S128_S1x128 : S128.ShapeCasts S1x128
  transposes_S128x16_S16x128_1_0 : S128x16.Transposes [1, 0] S16x128
  shapeCasts_S16_S16x1 : S16.ShapeCasts S16x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S16x3200_S16x3200_0_0 : ∀ a, (![0, 0] : Fin 2 → Nat) a + S16x3200.size a ≤ S16x3200.size a
  h_S16x3200 : 0 < S16x3200.numel
  shapeCasts_S16x3200_S16x3200 : S16x3200.ShapeCasts S16x3200
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x16_S1x16_0_0 : ∀ a, (![0, 0] : Fin 2 → Nat) a + S1x16.size a ≤ S1x16.size a
  h_S1x16 : 0 < S1x16.numel
  broadcasts_S1x128_S3200x128 : S1x128.Broadcasts S3200x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x3200 : S16x1.Broadcasts S16x3200
  reduces_S16x3200_S3200 : S16x3200.Reduces [0] S3200
  shapeCasts_S3200_S1x3200 : S3200.ShapeCasts S1x3200
  broadcasts_S1x3200_S16x3200 : S1x3200.Broadcasts S16x3200
  transposes_S16x320000_S320000x16_1_0 : S16x320000.Transposes [1, 0] S320000x16
  dot_S2000x128_S128x128_S2000x128_1_0_0_1_n_n_wf : DotDims.WF S2000x128 S128x128 S2000x128 [1] [0] [0] [1] [] []
  dot_S16x3200_S16x128_S3200x128_0_0_1_1_n_n_wf : DotDims.WF S16x3200 S16x128 S3200x128 [0] [0] [1] [1] [] []
  dot_S1x16_S16x128_S1x128_1_0_0_1_n_n_wf : DotDims.WF S1x16 S16x128 S1x128 [1] [0] [0] [1] [] []
  dot_S16x128_S3200x128_S16x3200_1_1_0_0_n_n_wf : DotDims.WF S16x128 S3200x128 S16x3200 [1] [1] [0] [0] [] []
  hcc1_scoped1 : 6 + S2.numel ≤ 28
  hcc1_scoped3 : 8 + S2.numel ≤ 28
  hcc1_scoped4 : 10 + S_.numel ≤ 28
  hcc1_scoped5 : 11 + S_.numel ≤ 28
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S256x128.size a
  hwx0_1 : ∀ i : grid0.Coords, EltTy.bits .f32 = 32 ∨ (Rect.block (s := S256x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S20000x128.size a
  hwx0_2 : ∀ i : grid0.Coords, EltTy.bits .f32 = 32 ∨ (Rect.block (s := S20000x128) S2000x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, k1_off1 a + S1x1x256.size a ≤ S2x1x256.size a
  k1_off2_inb : ∀ i : grid1.Coords, ∀ (k1_h1 : k1_cond1 i = 1#1), ∀ a, (k1_off2 i) a + S1x256.size a ≤ S1x640000.size a
  k1_off3_inb : ∀ i : grid1.Coords, ∀ (k1_h1 : k1_cond1 i = 1#1), ∀ a, k1_off3 a + S1.size a ≤ S2.size a
  k1_t1_ok : ∀ i : grid1.Coords, ∀ (k1_h1 : k1_cond1 i = 1#1), (k1_t1_loop i).OK
  k1_t2_ok : ∀ i : grid1.Coords, ∀ (k1_h1 : k1_cond1 i = 1#1), (k1_t2_loop i).OK
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3200x128.size a ≤ S640000x128.size a
  hwx2_0 : ∀ i : grid2.Coords, EltTy.bits .f32 = 32 ∨ (Rect.block (s := S640000x128) S3200x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x128.size a ≤ S640000x128.size a
  hwx2_1 : ∀ i : grid2.Coords, EltTy.bits .f32 = 32 ∨ (Rect.block (s := S640000x128) S3200x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x3200.size a ≤ S16x320000.size a
  hwx2_2 : ∀ i : grid2.Coords, EltTy.bits .f32 = 32 ∨ (Rect.block (s := S16x320000) S16x3200.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x128.size a ≤ S16x128.size a
  hwx2_4 : ∀ i : grid2.Coords, EltTy.bits .f32 = 32 ∨ (Rect.block (s := S16x128) S16x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S16x128.size a ≤ S16x128.size a
  hwx2_5 : ∀ i : grid2.Coords, EltTy.bits .f32 = 32 ∨ (Rect.block (s := S16x128) S16x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S16x128.size a ≤ S16x128.size a
  hwx2_7 : ∀ i : grid2.Coords, EltTy.bits .f32 = 32 ∨ (Rect.block (s := S16x128) S16x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S16x1.size a ≤ S16x1.size a
  hwx2_8 : ∀ i : grid2.Coords, EltTy.bits .f32 = 32 ∨ (Rect.block (s := S16x1) S16x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S16x1.size a ≤ S16x1.size a
  hwx2_9 : ∀ i : grid2.Coords, EltTy.bits .f32 = 32 ∨ (Rect.block (s := S16x1) S16x1.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S16x1.size a ≤ S16x1.size a
  hwx2_10 : ∀ i : grid2.Coords, EltTy.bits .f32 = 32 ∨ (Rect.block (s := S16x1) S16x1.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S16x3200.size a ≤ S16x320000.size a
  hwx2_11 : ∀ i : grid2.Coords, EltTy.bits .f32 = 32 ∨ (Rect.block (s := S16x320000) S16x3200.size (cc2_transform_11 i) (hinb2_11 i)).WholeWords (EltTy.packing .f32)

variable [Facts₀]

abbrev cc1_scoped1 : DmaSems sig S2 := SemArray.consecutive 6 S2 hcc1_scoped1
abbrev cc1_scoped3 : DmaSems sig S2 := SemArray.consecutive 8 S2 hcc1_scoped3
abbrev cc1_scoped4 : DmaSems sig S_ := SemArray.consecutive 10 S_ hcc1_scoped4
abbrev cc1_scoped5 : DmaSems sig S_ := SemArray.consecutive 11 S_ hcc1_scoped5
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S16x3200_S16x128_S3200x128_0_0_1_1_n_n : DotDims S16x3200 S16x128 S3200x128 where
  lhsContracting := [0]
  rhsContracting := [0]
  lhsNonContracting := [1]
  rhsNonContracting := [1]
  lhsBatch := []
  rhsBatch := []
  wf := dot_S16x3200_S16x128_S3200x128_0_0_1_1_n_n_wf
def dot_S1x16_S16x128_S1x128_1_0_0_1_n_n : DotDims S1x16 S16x128 S1x128 where
  lhsContracting := [1]
  rhsContracting := [0]
  lhsNonContracting := [0]
  rhsNonContracting := [1]
  lhsBatch := []
  rhsBatch := []
  wf := dot_S1x16_S16x128_S1x128_1_0_0_1_n_n_wf
def dot_S16x128_S3200x128_S16x3200_1_1_0_0_n_n : DotDims S16x128 S3200x128 S16x3200 where
  lhsContracting := [1]
  rhsContracting := [1]
  lhsNonContracting := [0]
  rhsNonContracting := [0]
  lhsBatch := []
  rhsBatch := []
  wf := dot_S16x128_S3200x128_S16x3200_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v7) S3200x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S3200x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S16x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S16x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S16x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v9) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v10) S16x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v11) S16x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v12) S16x1.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v13) S16x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v14) S16x3200.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S10000x128 : Shape := ⟨2, ![10000, 128]⟩
abbrev S2x320000 : Shape := ⟨2, ![2, 320000]⟩
abbrev S320000x16 : Shape := ⟨2, ![320000, 16]⟩
abbrev S1x16 : Shape := ⟨2, ![1, 16]⟩
abbrev S288x128 : Shape := ⟨2, ![288, 128]⟩
abbrev S128 : Shape := ⟨1, ![128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x288 : Shape := ⟨2, ![320000, 288]⟩
abbrev S1x128 : Shape := ⟨2, ![1, 128]⟩

abbrev nBuf : Space → Nat
  | .hbm => 105
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S320000x16, .f32⟩
  | .hbm, ⟨3, _⟩ => ⟨S1x16, .f32⟩
  | .hbm, ⟨4, _⟩ => ⟨S288x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S1, .i32⟩
  | .hbm, ⟨23, _⟩ => ⟨S_, .i32⟩
  | .hbm, ⟨24, _⟩ => ⟨S320000x1, .i32⟩
  | .hbm, ⟨25, _⟩ => ⟨S320000x1, .i1⟩
  | .hbm, ⟨26, _⟩ => ⟨S1x1, .i32⟩
  | .hbm, ⟨27, _⟩ => ⟨S320000x1, .i32⟩
  | .hbm, ⟨28, _⟩ => ⟨S320000x1, .i1⟩
  | .hbm, ⟨29, _⟩ => ⟨S320000x1, .i1⟩
  | .hbm, ⟨30, _⟩ => ⟨S_, .i1⟩
  | .hbm, ⟨31, _⟩ => ⟨S320000, .i1⟩
  | .hbm, ⟨32, _⟩ => ⟨S320000x128, .f32⟩
  | .hbm, ⟨33, _⟩ => ⟨S320000x128, .i1⟩
  | .hbm, ⟨34, _⟩ => ⟨S_, .f32⟩
  | .hbm, ⟨35, _⟩ => ⟨S320000x128, .f32⟩
  | .hbm, ⟨36, _⟩ => ⟨S320000x128, .f32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S1, .i32⟩
  | .hbm, ⟨46, _⟩ => ⟨S_, .i32⟩
  | .hbm, ⟨47, _⟩ => ⟨S320000x1, .i32⟩
  | .hbm, ⟨48, _⟩ => ⟨S320000x1, .i1⟩
  | .hbm, ⟨49, _⟩ => ⟨S1x1, .i32⟩
  | .hbm, ⟨50, _⟩ => ⟨S320000x1, .i32⟩
  | .hbm, ⟨51, _⟩ => ⟨S320000x1, .i1⟩
  | .hbm, ⟨52, _⟩ => ⟨S320000x1, .i1⟩
  | .hbm, ⟨53, _⟩ => ⟨S_, .i1⟩
  | .hbm, ⟨54, _⟩ => ⟨S320000, .i1⟩
  | .hbm, ⟨55, _⟩ => ⟨S320000x128, .f32⟩
  | .hbm, ⟨56, _⟩ => ⟨S320000x128, .i1⟩
  | .hbm, ⟨57, _⟩ => ⟨S_, .f32⟩
  | .hbm, ⟨58, _⟩ => ⟨S320000x128, .f32⟩
  | .hbm, ⟨59, _⟩ => ⟨S320000x128, .f32⟩
  | .hbm, ⟨60, _⟩ => ⟨S320000x16, .f32⟩
  | .hbm, ⟨61, _⟩ => ⟨S320000x288, .f32⟩
  | .hbm, ⟨62, _⟩ => ⟨S320000x128, .f32⟩
  | .hbm, ⟨63, _⟩ => ⟨S1x128, .f32⟩
  | .hbm, ⟨64, _⟩ => ⟨S320000x128, .f32⟩
  | .hbm, ⟨65, _⟩ => ⟨S320000x128, .f32⟩
  | .hbm, ⟨66, _⟩ => ⟨S_, .f32⟩
  | .hbm, ⟨67, _⟩ => ⟨S320000x128, .f32⟩
  | .hbm, ⟨68, _⟩ => ⟨S320000x128, .f32⟩
  | .hbm, ⟨69, _⟩ => ⟨S320000x16, .f32⟩
  | .hbm, ⟨70, _⟩ => ⟨S1x16, .f32⟩
  | .hbm, ⟨71, _⟩ => ⟨S320000x16, .f32⟩
  | .hbm, ⟨72, _⟩ => ⟨S320000x16, .f32⟩
  | .hbm, ⟨73, _⟩ => ⟨S_, .f32⟩
  | .hbm, ⟨74, _⟩ => ⟨S320000x16, .f32⟩
  | .hbm, ⟨75, _⟩ => ⟨S320000x16, .f32⟩
  | .hbm, ⟨76, _⟩ => ⟨S_, .f32⟩
  | .hbm, ⟨77, _⟩ => ⟨S320000, .f32⟩
  | .hbm, ⟨78, _⟩ => ⟨S320000x1, .f32⟩
  | .hbm, ⟨79, _⟩ => ⟨S_, .f32⟩
  | .hbm, ⟨80, _⟩ => ⟨S320000x1, .f32⟩
  | .hbm, ⟨81, _⟩ => ⟨S320000x1, .f32⟩
  | .hbm, ⟨82, _⟩ => ⟨S320000x16, .f32⟩
  | .hbm, ⟨83, _⟩ => ⟨S320000x16, .f32⟩
  | .hbm, ⟨84, _⟩ => ⟨S320000x16, .f32⟩
  | .hbm, ⟨85, _⟩ => ⟨S_, .f32⟩
  | .hbm, ⟨86, _⟩ => ⟨S320000, .f32⟩
  | .hbm, ⟨87, _⟩ => ⟨S320000x1, .f32⟩
  | .hbm, ⟨88, _⟩ => ⟨S_, .f32⟩
  | .hbm, ⟨89, _⟩ => ⟨S320000x1, .f32⟩
  | .hbm, ⟨90, _⟩ => ⟨S320000x1, .f32⟩
  | .hbm, ⟨91, _⟩ => ⟨S320000x16, .f32⟩
  | .hbm, ⟨92, _⟩ => ⟨S320000x16, .f32⟩
  | .hbm, ⟨93, _⟩ => ⟨S_, .f32⟩
  | .hbm, ⟨94, _⟩ => ⟨S320000x1, .f32⟩
  | .hbm, ⟨95, _⟩ => ⟨S320000x1, .f32⟩
  | .hbm, ⟨96, _⟩ => ⟨S320000x1, .f32⟩
  | .hbm, ⟨97, _⟩ => ⟨S320000x16, .f32⟩
  | .hbm, ⟨98, _⟩ => ⟨S320000x16, .f32⟩
  | .hbm, ⟨99, _⟩ => ⟨S1x16, .f32⟩
  | .hbm, ⟨100, _⟩ => ⟨S320000x16, .f32⟩
  | .hbm, ⟨101, _⟩ => ⟨S320000x16, .f32⟩
  | .hbm, ⟨102, _⟩ => ⟨S1x16, .f32⟩
  | .hbm, ⟨103, _⟩ => ⟨S320000x16, .f32⟩
  | .hbm, ⟨104, _⟩ => ⟨S320000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_call2_cst : Ref sig .tc := ⟨.hbm, 66, rfl⟩
abbrev main_call2_v0 : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_call3_cst : Ref sig .tc := ⟨.hbm, 73, rfl⟩
abbrev main_call3_v0 : Ref sig .tc := ⟨.hbm, 74, rfl⟩
abbrev main_v17 : Ref sig .tc := ⟨.hbm, 75, rfl⟩
abbrev main_cst : Ref sig .tc := ⟨.hbm, 76, rfl⟩
abbrev main_v18 : Ref sig .tc := ⟨.hbm, 77, rfl⟩
abbrev main_v19 : Ref sig .tc := ⟨.hbm, 78, rfl⟩
abbrev main_cst_0 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_cst_1 : Ref sig .tc := ⟨.hbm, 85, rfl⟩
abbrev main_v25 : Ref sig .tc := ⟨.hbm, 86, rfl⟩
abbrev main_v26 : Ref sig .tc := ⟨.hbm, 87, rfl⟩
abbrev main_cst_2 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_3 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  bcast_S1x16_S320000x16_0_1 : S1x16.BroadcastsInDim S320000x16 (![0, 1] : Fin 2 → Fin S320000x16.rank)
  concatenates_S320000x128_S320000x128_S320000x16_S320000x16_S320000x288_d1 : Shape.Concatenates [S320000x128, S320000x128, S320000x16, S320000x16] S320000x288 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S16_S1x16_1 : S16.BroadcastsInDim S1x16 (![1] : Fin 1 → Fin S1x16.rank)
  bcast_S_S320000x16 : S_.BroadcastsInDim S320000x16 (![] : Fin 0 → Fin S320000x16.rank)
  reducesTo_S320000x16_S320000_d1 : S320000x16.ReducesTo [1] S320000
  bcast_S320000x1_S320000x16_0_1 : S320000x1.BroadcastsInDim S320000x16 (![0, 1] : Fin 2 → Fin S320000x16.rank)
  gather_S10000x128_S320000x1_S320000x128_1_0_n_n_0_1_1128_wf : GatherDims.WF S10000x128 S320000x1 S320000x128 [1] [0] [] [0] [] 1 ![1, 128]
  dot_S320000x288_S288x128_S320000x128_1_0_0_1_n_n_wf : DotDims.WF S320000x288 S288x128 S320000x128 [1] [0] [0] [1] [] []
  dot_S320000x128_S128x16_S320000x16_1_0_0_1_n_n_wf : DotDims.WF S320000x128 S128x16 S320000x16 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x288_S288x128_S320000x128_1_0_0_1_n_n : DotDims S320000x288 S288x128 S320000x128 where
  lhsContracting := [1]
  rhsContracting := [0]
  lhsNonContracting := [0]
  rhsNonContracting := [1]
  lhsBatch := []
  rhsBatch := []
  wf := dot_S320000x288_S288x128_S320000x128_1_0_0_1_n_n_wf
def dot_S320000x128_S128x16_S320000x16_1_0_0_1_n_n : DotDims S320000x128 S128x16 S320000x16 where
  lhsContracting := [1]
  rhsContracting := [0]
  lhsNonContracting := [0]
  rhsNonContracting := [1]
  lhsBatch := []
  rhsBatch := []
  wf := dot_S320000x128_S128x16_S320000x16_1_0_0_1_n_n_wf

class Facts : Prop extends Facts₀ where

variable [Facts]
-- ==== Proof.ScCommon.lean ====
/-
  The idealized kernel as the SparseCore launch theorem sees it: the program's configuration of
  SparseCore calls, the body table of its two TensorCore pipelines and its vector-subcore kernel,
  and the ghost state the proof runs over — the launch handshakes' rounds, the pipelines' staging
  cells' rounds, and the counters of the tiles' own transfers.
-/
import proofs.«206068_g62534723830210_cont_9to1_m_587_24_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«206068_g62534723830210_cont_9to1_m_587_24_alg».proof.Proof.Gen.KernelIdeal
import proofs.«206068_g62534723830210_cont_9to1_m_587_24_alg».proof.Proof.Gen.KernelIdeal.Skeleton
import proofs.«206068_g62534723830210_cont_9to1_m_587_24_alg».proof.Proof.Gen.KernelIdeal.Launch
import proofs.«206068_g62534723830210_cont_9to1_m_587_24_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

end Cert.KernelIdeal.Hand

end
-- ==== Proof.ScPay.lean ====
/-
  What the launch handshakes carry. The gather's three HBM arrays are the table (20000 rows of 128,
  the two projected copies of the node features), the list of 640000 row numbers, and the output
  (640000 rows of 128). The kernel cuts the output, and the list with it, into 2500 blocks of 256
  rows; tile w of the 32 takes the blocks from lo w on, cnt w of them (79 for the first four tiles,
  78 for the others: 4 * 79 + 28 * 78 = 2500). Every tile reads the whole table, through a read share.
  A tile hands back its blocks of the output holding, row by row, the table's row the list names.
-/
import proofs.«206068_g62534723830210_cont_9to1_m_587_24_alg».proof.Proof.ScCommon
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev EH : Emb UH (MT nD τ sig (HIx 1) (Elt F) ℕ UU ℕ) := embL

/-! ## The three arrays -/

abbrev tLoc (d : Dev nD) : Loc nD τ sig := (SparseCore.T d).loc main_v6
abbrev iLoc (d : Dev nD) : Loc nD τ sig := (SparseCore.T d).loc main_v2
abbrev oLoc (d : Dev nD) : Loc nD τ sig := (SparseCore.T d).loc main_v7

abbrev tV : Memref sig .scVector .hbm S20000x128 .f32 := Memref.whole main_v6_scv
abbrev iV : Memref sig .scVector .hbm S1x640000 .i32 := Memref.whole main_v2_scv
abbrev oV : Memref sig .scVector .hbm S640000x128 .f32 := Memref.whole main_v7_scv

/-! ## The blocks and the tiles' ranges -/

/-- The first block of tile `w`. -/
def lo (w : ℕ) : ℕ := if w < 4 then 79 * w else 78 * w + 4
/-- How many blocks tile `w` takes. -/
def cnt (w : ℕ) : ℕ := if w < 4 then 79 else 78

theorem lo_add_lt {w k : ℕ} (hw : w < 32) (hk : k < cnt w) : lo w + k < 2500 := by
  by_cases h : w < 4
  · have e1 : lo w = 79 * w := if_pos h
    have e2 : cnt w = 79 := if_pos h
    rw [e1]; rw [e2] at hk; omega
  · have e1 : lo w = 78 * w + 4 := if_neg h
    have e2 : cnt w = 78 := if_neg h
    rw [e1]; rw [e2] at hk; omega

theorem oRect_inb (b : Fin 2500) : ∀ a, (![256 * b.val, 0] : Fin 2 → Nat) a + S256x128.size a ≤ S640000x128.size a := by
  intro a; match a with
  | 0 => have := b.isLt; simp; omega
  | 1 => simp
theorem iRect_inb (b : Fin 2500) : ∀ a, (![0, 256 * b.val] : Fin 2 → Nat) a + S1x256.size a ≤ S1x640000.size a := by
  intro a; match a with
  | 0 => simp
  | 1 => have := b.isLt; simp; omega

/-- Block `b` of the output: its rows 256 b … 256 b + 255; and of the list. -/
abbrev oRect (b : Fin 2500) : Rect S640000x128 := Rect.unit (s := S640000x128) ![256 * b.val, 0] S256x128.size (oRect_inb b)
abbrev iRect (b : Fin 2500) : Rect S1x640000 := Rect.unit (s := S1x640000) ![0, 256 * b.val] S1x256.size (iRect_inb b)
abbrev oBlkSet (b : Fin 2500) : Finset S640000x128.Idx := ((oV).view.slice (oRect b)).set
abbrev iBlkSet (b : Fin 2500) : Finset S1x640000.Idx := ((iV).view.slice (iRect b)).set

/-- Tile `(c, i)`'s number among the 32. -/
def tw (c : Fin 2) (i : Fin 16) : Fin 32 := ⟨16 * c.val + i.val, by omega⟩
/-- Its `k`-th block. -/
def tblk (w : Fin 32) (k : Fin (cnt w.val)) : Fin 2500 := ⟨lo w.val + k.val, lo_add_lt w.isLt k.isLt⟩

/-! ## What the gather leaves -/

/-- The row of the table that entry `r` of the list names (a total function: the word modulo the table's height). -/
def rowAt (ix : Buf (Elt F) (iLoc (0 : Dev nD))) (r : Fin 640000) : Fin 20000 :=
  ⟨(ix (ValueIdx.ix2 (0 : Fin 1) r)).toNat % 20000, Nat.mod_lt _ (by decide)⟩

/-- The output after the gather: row `r` is the table's row `rowAt ix r`. -/
@[irreducible] def gath (tbl : Buf (Elt F) (tLoc (0 : Dev nD))) (ix : Buf (Elt F) (iLoc (0 : Dev nD))) : Buf (Elt F) (oLoc (0 : Dev nD)) :=
  fun j => tbl (ValueIdx.ix2 (rowAt ix ⟨(j 0).val, (j 0).isLt⟩) (⟨(j 1).val, (j 1).isLt⟩ : Fin 128))

theorem gath_apply (tbl : Buf (Elt F) (tLoc (0 : Dev nD))) (ix : Buf (Elt F) (iLoc (0 : Dev nD))) (j : S640000x128.Idx) :
    gath tbl ix j = tbl (ValueIdx.ix2 (rowAt ix ⟨(j 0).val, (j 0).isLt⟩) (⟨(j 1).val, (j 1).isLt⟩ : Fin 128)) := by
  unfold gath; rfl

/-! ## The payloads -/

section Pay

variable (tbl : Buf (Elt F) (tLoc (0 : Dev nD))) (ix : Buf (Elt F) (iLoc (0 : Dev nD))) (o0 : Buf (Elt F) (oLoc (0 : Dev nD)))

/-- What a tile holds of the three arrays: a read share of the whole table, its blocks of the list, its blocks of
    the output at contents `o`. -/
def tileRes (d : Dev nD) (w : Fin 32) (o : Buf (Elt F) (oLoc (0 : Dev nD))) : sProp 𝕄 :=
  iprop((tLoc d ↦{Transfers.shareTok fullShare 32 w} tbl)
    ∗ bigSep Finset.univ fun k : Fin (cnt w.val) =>
        iprop((iLoc d ↦[iBlkSet (tblk w k)]{fullShare} ix) ∗ (oLoc d ↦[oBlkSet (tblk w k)]{fullShare} o)))

/-- The one SparseCore call: the start hands a SparseCore its sixteen tiles' holdings, the output as the launch left
    it; the done hands them back, the output's blocks gathered. A tile's go and taskDone carry its own. -/
def P : (K (F := F)).Pay (nD := nD) (Val := Elt F) (Name := ℕ) (U := UU) where
  st := fun q d c => match q with
    | 0 => bigSep Finset.univ fun i : Fin 16 => tileRes tbl ix d (tw (Fin.cast nCore_zero c) i) o0
  dn := fun q d c => match q with
    | 0 => bigSep Finset.univ fun i : Fin 16 => tileRes tbl ix d (tw (Fin.cast nCore_zero c) i) (gath tbl ix)
  go := fun q d c i => match q with
    | 0 => tileRes tbl ix d (tw (Fin.cast nCore_zero c) (Fin.cast nSub_zero i)) o0
  td := fun q d c i => match q with
    | 0 => tileRes tbl ix d (tw (Fin.cast nCore_zero c) (Fin.cast nSub_zero i)) (gath tbl ix)
  x := fun _ _ => iprop(emp)

instance tileRes_storable (d : Dev nD) (w : Fin 32) (o : Buf (Elt F) (oLoc (0 : Dev nD))) :
    BI.Storable (upEmb : UEmb _ 𝕄) (tileRes tbl ix d w o) := by
  unfold tileRes; infer_instance

attribute [irreducible] tileRes

instance P_storable : (P (F := F) tbl ix o0).IsStorable where
  st q d c := match q with
    | 0 => (inferInstance : BI.Storable (upEmb : UEmb _ 𝕄) (bigSep Finset.univ fun i : Fin 16 => tileRes tbl ix d (tw (Fin.cast nCore_zero c) i) o0))
  dn q d c := match q with
    | 0 => (inferInstance : BI.Storable (upEmb : UEmb _ 𝕄) (bigSep Finset.univ fun i : Fin 16 => tileRes tbl ix d (tw (Fin.cast nCore_zero c) i) (gath tbl ix)))
  go q d c i := match q with
    | 0 => (inferInstance : BI.Storable (upEmb : UEmb _ 𝕄) (tileRes tbl ix d (tw (Fin.cast nCore_zero c) (Fin.cast nSub_zero i)) o0))
  td q d c i := match q with
    | 0 => (inferInstance : BI.Storable (upEmb : UEmb _ 𝕄) (tileRes tbl ix d (tw (Fin.cast nCore_zero c) (Fin.cast nSub_zero i)) (gath tbl ix)))

end Pay

end Cert.KernelIdeal.Hand

end
-- ==== Proof.ScRegion0.lean ====
/-
  The first TensorCore region: one matrix product per grid point. At point (t, i) the body reads
  block i of the node features (2000 rows of 128) and one half of the first 256 rows of the first
  layer's weights (128 x 128; the half is chosen by t), and writes their product as block 5 t + i
  of the table (20000 rows of 128). Stated at any contents V of the arrays at the region's entry and
  any tallies O the core owes throughout (it still owes the SparseCores their start signals).
-/
import proofs.«206068_g62534723830210_cont_9to1_m_587_24_alg».proof.Proof.ScPay
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

section Region0

variable (V : (c : Dev nD) → (b : Ref sig .tc) → Buf (Elt F) ((c : Thread nD τ).loc b))
variable (O : Dev nD → CellTallies nD τ sig (HIx 1))
variable (B : Dev nD → Set (SemLoc sig × HIx 1))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 2000 x 128 buffer, and the whole 128 x 128 one. -/
abbrev rA : Rect S2000x128 := Rect.unit (s := S2000x128) ![0, 0] S2000x128.size inb_S2000x128_S2000x128_0_0
abbrev rW : Rect S128x128 := Rect.unit (s := S128x128) ![0, 0] S128x128.size inb_S128x128_S128x128_0_0

/-- The output buffer after the body: its one store, the product of the two input blocks. -/
def out0_2 (x0 : Vec F S2000x128 .f32) (x1 : Vec F S128x128 .f32) : Vec F S2000x128 .f32 :=
  View.canon [⟨rA, k0_pay1 (View.ld x0 rA) (View.ld x1 rW)⟩]

theorem cover0_2 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 1000000 in
/-- The body on whole staging buffers: the inputs are left as found, the output holds the product. -/
theorem sound_kernel0 (c : Dev nD) (E : Set ℕ) (i : grid0.Coords) (arg2 : Memref sig .tc .vmem S2000x128 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S128x128 .f32) (Kc : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ Kc ⟨⟩))
      ⊢ wp frame (wpE (defs₀ (F := F)) Variants.none c none) E (cc0_body i arg2 harg2 arg3 harg3 arg4 harg4) Kc := by
  simp only [cc0_body_eq_skeleton]; unfold cc0_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What rides through the region untouched: the scoped buffers no window stages, and the generator register. -/
def Φ0 (c : Dev nD) : sProp 𝕄 :=
  iprop(Pipeline.scopedRest (Ix := HIx 1) (Name := ℕ) (U := UU) (Lvl := ℕ) (Val := Elt F) spec0 c ∗ ∃ r, prngReg c r)

/-- The proof data of the first pipeline on core `c`. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Φ0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = out0_2 (iblk0 V c 0 t) (iblk0 V c 1 t) := by dsimp only [dat0]
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt none t.succ = (dat0 V O B c).owesAt none t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V O B c) (defs₀ (F := F)) Variants.none none Set.univ := fun t => by
  rw [bigSep_W0, bigSep_W0]
  exact sound_body0 V O B c t

end Region0

end Cert.KernelIdeal.Hand

end
-- ==== Proof.ScRegion2.lean ====
/-
  The second TensorCore region: the edge network's tail, one block of 3200 edges per grid point.
  At point i the body reads block i of the gathered sender rows and block 100 + i of the gathered
  receiver rows (both out of the one gathered array), block i of the transposed edge features, the
  global features, three slices of the first layer's weights, its bias, the transposed second
  layer's weights and bias, and the normalisation's scale and shift; it writes block i of the
  transposed result. Stated at any contents V of the arrays at the region's entry and any tallies O
  the core owes throughout.
-/
import proofs.«206068_g62534723830210_cont_9to1_m_587_24_alg».proof.Proof.ScRegion0

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

section Region2

variable (V : (c : Dev nD) → (b : Ref sig .tc) → Buf (Elt F) ((c : Thread nD τ).loc b))
variable (O : Dev nD → CellTallies nD τ sig (HIx 1))
variable (B : Dev nD → Set (SemLoc sig × HIx 1))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) (HIx 1) ℕ UU ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) (HIx 1) ℕ UU ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- The whole buffers the body loads and stores. -/
abbrev rB : Rect S3200x128 := Rect.unit (s := S3200x128) ![0, 0] S3200x128.size inb_S3200x128_S3200x128_0_0
abbrev rE : Rect S16x3200 := Rect.unit (s := S16x3200) ![0, 0] S16x3200.size inb_S16x3200_S16x3200_0_0
abbrev rU : Rect S1x16 := Rect.unit (s := S1x16) ![0, 0] S1x16.size inb_S1x16_S1x16_0_0
abbrev rM : Rect S16x128 := Rect.unit (s := S16x128) ![0, 0] S16x128.size inb_S16x128_S16x128_0_0
abbrev rb : Rect S1x128 := Rect.unit (s := S1x128) ![0, 0] S1x128.size inb_S1x128_S1x128_0_0
abbrev rc : Rect S16x1 := Rect.unit (s := S16x1) ![0, 0] S16x1.size inb_S16x1_S16x1_0_0

/-- The result block as a function of the eleven input blocks: the two hidden layers, then the normalisation. -/
def tail2 (x0 : Vec F S3200x128 .f32) (x1 : Vec F S3200x128 .f32) (x2 : Vec F S16x3200 .f32) (x3 : Vec F S1x16 .f32) (x4 : Vec F S16x128 .f32) (x5 : Vec F S16x128 .f32) (x6 : Vec F S1x128 .f32) (x7 : Vec F S16x128 .f32) (x8 : Vec F S16x1 .f32) (x9 : Vec F S16x1 .f32) (x10 : Vec F S16x1 .f32) : FVec F S16x3200 .f32 :=
  k2_pay1
    (k2_pay2 (View.ld x0 rB) (View.ld x1 rB) (View.ld x2 rE) (View.ld x4 rM) (View.ld x3 rU) (View.ld x5 rM) (View.ld x6 rb) (View.ld x7 rM) (View.ld x8 rc))
    (k2_pay3 (View.ld x0 rB) (View.ld x1 rB) (View.ld x2 rE) (View.ld x4 rM) (View.ld x3 rU) (View.ld x5 rM) (View.ld x6 rb) (View.ld x7 rM) (View.ld x8 rc))
    (Scalar.ofBits .f32 0x41800000#32) (View.ld x9 rc) (View.ld x10 rc)

/-- The output buffer after the body: its one store. -/
def out2_11 (x0 : Vec F S3200x128 .f32) (x1 : Vec F S3200x128 .f32) (x2 : Vec F S16x3200 .f32) (x3 : Vec F S1x16 .f32) (x4 : Vec F S16x128 .f32) (x5 : Vec F S16x128 .f32) (x6 : Vec F S1x128 .f32) (x7 : Vec F S16x128 .f32) (x8 : Vec F S16x1 .f32) (x9 : Vec F S16x1 .f32) (x10 : Vec F S16x1 .f32) : Vec F S16x3200 .f32 :=
  View.canon [⟨rE, tail2 x0 x1 x2 x3 x4 x5 x6 x7 x8 x9 x10⟩]

theorem cover2_11 (p0 : Vec F S16x3200 .f32) (y : S16x3200.Idx) :
    ∃ pc ∈ ([⟨rE, p0⟩] : List (View.Piece (Elt F) S16x3200 .f32)), y ∈ pc.1.set :=
  View.cover_of_tiled [⟨rE, p0⟩] S16x3200.size (by rfl) y

set_option maxHeartbeats 4000000 in
/-- The body on whole staging buffers: the inputs are left as found, the output holds the tail of the input blocks. -/
theorem sound_kernel2 (c : Dev nD) (E : Set ℕ) (i : grid2.Coords) (arg1 : Memref sig .tc .vmem S3200x128 .f32) (harg1 : arg1.IsWhole) (arg2 : Memref sig .tc .vmem S3200x128 .f32) (harg2 : arg2.IsWhole) (arg3 : Memref sig .tc .vmem S16x3200 .f32) (harg3 : arg3.IsWhole) (arg4 : Memref sig .tc .vmem S1x16 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S1x128 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x3200 .f32) (harg12 : arg12.IsWhole)
    (x0 : Vec F S3200x128 .f32) (x1 : Vec F S3200x128 .f32) (x2 : Vec F S16x3200 .f32) (x3 : Vec F S1x16 .f32) (x4 : Vec F S16x128 .f32) (x5 : Vec F S16x128 .f32) (x6 : Vec F S1x128 .f32) (x7 : Vec F S16x128 .f32) (x8 : Vec F S16x1 .f32) (x9 : Vec F S16x1 .f32) (x10 : Vec F S16x1 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out2_11 x0 x1 x2 x3 x4 x5 x6 x7 x8 x9 x10)) -∗ Kc ⟨⟩))
      ⊢ wp frame (wpE (defs₀ (F := F)) Variants.none c none) E (cc2_body i arg1 harg1 arg2 harg2 arg3 harg3 arg4 harg4 arg5 harg5 arg6 harg6 arg7 harg7 arg8 harg8 arg9 harg9 arg10 harg10 arg11 harg11 arg12 harg12) Kc := by
  simp only [cc2_body_eq_skeleton]; unfold cc2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover2_11 _)

/-- What rides through the region untouched: the scoped buffers no window stages, and the generator register. -/
def Φ2 (c : Dev nD) : sProp 𝕄 :=
  iprop(Pipeline.scopedRest (Ix := HIx 1) (Name := ℕ) (U := UU) (Lvl := ℕ) (Val := Elt F) spec2 c ∗ ∃ r, prngReg c r)

/-- The proof data of the second pipeline on core `c`. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Φ2 c
  q w := match w with
    | ⟨0, _⟩ => (fullShare : PosShare TreeShare).left
    | ⟨1, _⟩ => (fullShare : PosShare TreeShare).right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := O c
  recorded _ := B c

theorem A_eq2 (c : Dev nD) (w : Fin cfg2.W) : (dat2 V O B c).A w = V c (Pipeline.arrRef spec2 w) := by
  dsimp only [dat2]
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = iblk2 V c 6 t := by dsimp only [dat2]
theorem after2_7 (c : Dev nD) (t : Fin cfg2.N) : (dat2 V O B c).after 7 t = iblk2 V c 7 t := by dsimp only [dat2]
theorem after2_8 (c : Dev nD) (t : Fin cfg2.N) : (dat2 V O B c).after 8 t = iblk2 V c 8 t := by dsimp only [dat2]
theorem after2_9 (c : Dev nD) (t : Fin cfg2.N) : (dat2 V O B c).after 9 t = iblk2 V c 9 t := by dsimp only [dat2]
theorem after2_10 (c : Dev nD) (t : Fin cfg2.N) : (dat2 V O B c).after 10 t = iblk2 V c 10 t := by dsimp only [dat2]
theorem after2_11 (c : Dev nD) (t : Fin cfg2.N) : (dat2 V O B c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d
theorem before2_4 (c : Dev nD) (t : Fin cfg2.N) (d) : (dat2 V O B c).before 4 t d = iblk2 V c 4 t :=
  before2_4_of V (dat2 V O B c) (A_eq2 V O B c 4) (after2_4 V O B c) t d
theorem before2_5 (c : Dev nD) (t : Fin cfg2.N) (d) : (dat2 V O B c).before 5 t d = iblk2 V c 5 t :=
  before2_5_of V (dat2 V O B c) (A_eq2 V O B c 5) (after2_5 V O B c) t d
theorem before2_6 (c : Dev nD) (t : Fin cfg2.N) (d) : (dat2 V O B c).before 6 t d = iblk2 V c 6 t :=
  before2_6_of V (dat2 V O B c) (A_eq2 V O B c 6) (after2_6 V O B c) t d
theorem before2_7 (c : Dev nD) (t : Fin cfg2.N) (d) : (dat2 V O B c).before 7 t d = iblk2 V c 7 t :=
  before2_7_of V (dat2 V O B c) (A_eq2 V O B c 7) (after2_7 V O B c) t d
theorem before2_8 (c : Dev nD) (t : Fin cfg2.N) (d) : (dat2 V O B c).before 8 t d = iblk2 V c 8 t :=
  before2_8_of V (dat2 V O B c) (A_eq2 V O B c 8) (after2_8 V O B c) t d
theorem before2_9 (c : Dev nD) (t : Fin cfg2.N) (d) : (dat2 V O B c).before 9 t d = iblk2 V c 9 t :=
  before2_9_of V (dat2 V O B c) (A_eq2 V O B c 9) (after2_9 V O B c) t d
theorem before2_10 (c : Dev nD) (t : Fin cfg2.N) (d) : (dat2 V O B c).before 10 t d = iblk2 V c 10 t :=
  before2_10_of V (dat2 V O B c) (A_eq2 V O B c 10) (after2_10 V O B c) t d

def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d))
    ∗ (∃ d, owns (c : Thread nD τ) (st2_7 t) fullShare ((dat2 V O B c).before 7 t d))
    ∗ (∃ d, owns (c : Thread nD τ) (st2_8 t) fullShare ((dat2 V O B c).before 8 t d))
    ∗ (∃ d, owns (c : Thread nD τ) (st2_9 t) fullShare ((dat2 V O B c).before 9 t d))
    ∗ (∃ d, owns (c : Thread nD τ) (st2_10 t) fullShare ((dat2 V O B c).before 10 t d))
    ∗ (∃ d, owns (c : Thread nD τ) (st2_11 t) fullShare ((dat2 V O B c).before 11 t d)))

def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t)
    ∗ owns (c : Thread nD τ) (st2_7 t) fullShare ((dat2 V O B c).after 7 t)
    ∗ owns (c : Thread nD τ) (st2_8 t) fullShare ((dat2 V O B c).after 8 t)
    ∗ owns (c : Thread nD τ) (st2_9 t) fullShare ((dat2 V O B c).after 9 t)
    ∗ owns (c : Thread nD τ) (st2_10 t) fullShare ((dat2 V O B c).after 10 t)
    ∗ owns (c : Thread nD τ) (st2_11 t) fullShare ((dat2 V O B c).after 11 t))

set_option maxHeartbeats 1000000 in
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4, before2_5, before2_6, before2_7, before2_8, before2_9, before2_10]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ (grid2.coords t) _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation2 (c : Dev nD) : BodyObligation (dat2 (F := F) V O B c) (defs₀ (F := F)) Variants.none none Set.univ := fun t => by
  rw [bigSep_W2, bigSep_W2]
  exact sound_body2 V O B c t

end Region2

end Cert.KernelIdeal.Hand

end
-- ==== Proof.ScBounds.lean ====
/-
  The TensorCore's program as a chain: three stretches of host operations, the two TensorCore regions
  and the SparseCore call between them; and the buffers' contents at each boundary, folded through the
  program from the launch memory.
-/
import proofs.«206068_g62534723830210_cont_9to1_m_587_24_alg».proof.Proof.ScRegion2

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.StableHlo (nullary unary binary seq)

variable {F : FTy → Type} [FloatOps F]

local notation "𝕄" => MT nD τ sig (HIx 1) (Elt F) ℕ UU ℕ

/-! ## The host stretches -/

/-- Before the first region: the shifted row numbers as one list, and the three slices of the first layer's weights. -/
abbrev hostOpsA : List (HloOp τ sig (Elt F)) :=
  [ nullary main_c (fun i => lit0 (S2x1.rowMajor i)),
    unary main_c main_v0 (broadcastInDim S2x320000 ![0, 1] bcast_S2x1_S2x320000_0_1 : (⟨S2x1, .i32⟩ : BufTy).Contents (Elt F) → (⟨S2x320000, .i32⟩ : BufTy).Contents (Elt F)),
    binary main_arg1 main_v0 main_v1 (addi : (⟨S2x320000, .i32⟩ : BufTy).Contents (Elt F) → (⟨S2x320000, .i32⟩ : BufTy).Contents (Elt F) → (⟨S2x320000, .i32⟩ : BufTy).Contents (Elt F)),
    StableHlo.reshape main_v1 main_v2 rfl shapeCasts_S2x320000_S1x640000,
    unary main_arg4 main_v3 ((extractStridedSlice S256x128 ![0, 0] · slices_S288x128_S256x128_0_0) : (⟨S288x128, .f32⟩ : BufTy).Contents (Elt F) → (⟨S256x128, .f32⟩ : BufTy).Contents (Elt F)),
    unary main_arg4 main_v4 ((extractStridedSlice S16x128 ![256, 0] · slices_S288x128_S16x128_256_0) : (⟨S288x128, .f32⟩ : BufTy).Contents (Elt F) → (⟨S16x128, .f32⟩ : BufTy).Contents (Elt F)),
    unary main_arg4 main_v5 ((extractStridedSlice S16x128 ![272, 0] · slices_S288x128_S16x128_272_0) : (⟨S288x128, .f32⟩ : BufTy).Contents (Elt F) → (⟨S16x128, .f32⟩ : BufTy).Contents (Elt F)) ]

/-- Between the SparseCore call and the second region: the transposes and reshapes of the tail's operands. -/
abbrev hostOpsB : List (HloOp τ sig (Elt F)) :=
  [ unary main_arg2 main_v8 ((transpose S16x320000 [1, 0] · transposes_S320000x16_S16x320000_1_0) : (⟨S320000x16, .f32⟩ : BufTy).Contents (Elt F) → (⟨S16x320000, .f32⟩ : BufTy).Contents (Elt F)),
    StableHlo.reshape main_arg5 main_v9 rfl shapeCasts_S128_S1x128,
    unary main_arg6 main_v10 ((transpose S16x128 [1, 0] · transposes_S128x16_S16x128_1_0) : (⟨S128x16, .f32⟩ : BufTy).Contents (Elt F) → (⟨S16x128, .f32⟩ : BufTy).Contents (Elt F)),
    StableHlo.reshape main_arg7 main_v11 rfl shapeCasts_S16_S16x1,
    StableHlo.reshape main_arg8 main_v12 rfl shapeCasts_S16_S16x1,
    StableHlo.reshape main_arg9 main_v13 rfl shapeCasts_S16_S16x1 ]

/-- After the second region: the result transposed back. -/
abbrev hostOpsC : List (HloOp τ sig (Elt F)) :=
  [ unary main_v14 main_v15 ((transpose S320000x16 [1, 0] · transposes_S16x320000_S320000x16_1_0) : (⟨S16x320000, .f32⟩ : BufTy).Contents (Elt F) → (⟨S320000x16, .f32⟩ : BufTy).Contents (Elt F)) ]

/-- The program is its stretches, its two regions and the SparseCore call, in order. -/
theorem main_eq (d : Dev nD) : main (F := F) d =
    (seq hostOpsA >>= fun _ => Prog.lift (.customCall (SparseCore.inner (Pipeline.entry 0)) ()) >>= fun _ => sc.run d 0 >>= fun _ =>
      seq hostOpsB >>= fun _ => Prog.lift (.customCall (SparseCore.inner (Pipeline.entry 1)) ()) >>= fun _ => seq hostOpsC >>= fun _ => pure ⟨⟩) := rfl

/-! ## The contents at each boundary -/

section Contents

variable (m : (ℓ : Loc nD τ sig) → Buf (Elt F) ℓ)

/-- What the TensorCore owes before the SparseCore call (the call's start signals) and after it. -/
abbrev O0 : Dev nD → CellTallies nD τ sig (HIx 1) := fun d => (K (F := F)).Otc d 0
abbrev O1 : Dev nD → CellTallies nD τ sig (HIx 1) := fun d => (K (F := F)).Otc d 1
/-- The wait pairs the TensorCore may have recorded by then: those at level 0 before the call, at most 8 after it. -/
abbrev B0 : Dev nD → Set (SemLoc sig × HIx 1) := fun d => {p | (K (F := F)).lev (SparseCore.T d, p.1) p.2 ≤ 8 * 0}
abbrev B1 : Dev nD → Set (SemLoc sig × HIx 1) := fun d => {p | (K (F := F)).lev (SparseCore.T d, p.1) p.2 ≤ 8 * 1}

/-- Core `c`'s buffers at launch; -/
abbrev W0 : Dev nD → Valuation τ sig (Elt F) := fun c b => m (c, b)
/-- after the first host stretch (the first region's entry); -/
abbrev W1 : Dev nD → Valuation τ sig (Elt F) := fun c => StableHlo.after hostOpsA (W0 m c)
abbrev V1 : (c : Dev nD) → (b : Ref sig .tc) → Buf (Elt F) ((c : Thread nD τ).loc b) := fun c b => W1 m c b
/-- at the first region's exit: the table written, everything else as entered; -/
def W2 (c : Dev nD) : Valuation τ sig (Elt F) :=
  Pipeline.withArrays spec0 c (W1 m c) fun w => (dat0 (V1 m) (O0 (F := F)) (B0 (F := F)) c).arrAt w cfg0.N
abbrev V2 : (c : Dev nD) → (b : Ref sig .tc) → Buf (Elt F) ((c : Thread nD τ).loc b) := fun c b => W2 m c b
/-- after the SparseCore call: the output holds the gathered rows; -/
def W3 (c : Dev nD) : Valuation τ sig (Elt F) :=
  Function.update (W2 m c) (Proc.devRef .tc main_v7) (gath (V2 m c main_v6) (V2 m c main_v2))
/-- after the second host stretch (the second region's entry); -/
abbrev W4 : Dev nD → Valuation τ sig (Elt F) := fun c => StableHlo.after hostOpsB (W3 m c)
abbrev V4 : (c : Dev nD) → (b : Ref sig .tc) → Buf (Elt F) ((c : Thread nD τ).loc b) := fun c b => W4 m c b
/-- at the second region's exit: the transposed result written; -/
def W5 (c : Dev nD) : Valuation τ sig (Elt F) :=
  Pipeline.withArrays spec2 c (W4 m c) fun w => (dat2 (V4 m) (O1 (F := F)) (B1 (F := F)) c).arrAt w cfg2.N
/-- and at the return. -/
abbrev W6 : Dev nD → Valuation τ sig (Elt F) := fun c => StableHlo.after hostOpsC (W5 m c)

/-- No pipeline prefetches a table. -/
abbrev adm : (p : Fin 2) → (pcfgs (F := F) p).Adm := fun p => (cfgs p).toPCfg_adm

/-- Every pipeline's proof data, each at its region's entry contents. -/
def pdats : (p : Fin 2) → (c : Dev nD) → Dat τ (Elt F) (HIx 1) ℕ UU ℕ (Pipeline.pin (pcfgs (F := F)) adm p) c
  | ⟨0, _⟩ => fun c => dat0 (V1 m) (O0 (F := F)) (B0 (F := F)) c
  | ⟨1, _⟩ => fun c => dat2 (V4 m) (O1 (F := F)) (B1 (F := F)) c

end Contents

end Cert.KernelIdeal.Hand

end
-- ==== Proof.ScSeg0.lean ====
/-
  The first region as a segment of the TensorCore's program: entered with every unscoped buffer held
  at the contents the first host stretch left, left with the table written. The core owes the
  SparseCores their start signals throughout: its waits on the staging cells sit below that debt.
-/
import proofs.«206068_g62534723830210_cont_9to1_m_587_24_alg».proof.Proof.ScBounds

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-- The pipelines' staging cells' rounds: the middle component of the ghost state. -/
abbrev EP : Emb UK (MT nD τ sig (HIx 1) (Elt F) ℕ UU ℕ) :=
  (Emb.inl : Emb UK (UK × Counters)).trans (embR : Emb (UK × Counters) (MT nD τ sig (HIx 1) (Elt F) ℕ UU ℕ))
instance EP_landsIn : (EP : Emb UK 𝕄).LandsIn (upEmb : UEmb _ 𝕄) := by infer_instance

/-- The TensorCore owes nothing at the kernels' own index. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

variable (m : (ℓ : Loc nD τ sig) → Buf (Elt F) ℓ)

/-- What rides beside the buffers through a segment before (`n = 0`) or after (`n = 1`) the SparseCore call: the
    generator register, and the core's debt with its recorded wait pairs bounded. -/
abbrev Rst (n : ℕ) (c : Dev nD) : sProp 𝕄 :=
  iprop((∃ r, prngReg c r) ∗ ∃ W, ⌜(K (F := F)).WBelow (SparseCore.T c) W (8 * n)⌝ ∗ owes (SparseCore.T c) ((K (F := F)).Otc c n) W)

theorem W2_arr (c : Dev nD) (w : Fin cfg0.W) :
    W2 m c (Proc.devRef .tc (Pipeline.arrRef spec0 w)) = (dat0 (V1 m) (O0 (F := F)) (B0 (F := F)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) (O0 (F := F)) (B0 (F := F)) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
/-- The first region over the thread state. -/
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) (O0 (F := F)) (B0 (F := F)) c).loose
  hwaits c := Pipeline.cellsWaits_intro (Pipeline.pin (pcfgs (F := F)) adm) (pdats m) none 0 c
    fun w s t => (K (F := F)).mayWait_none _ (Otc_none c 0)
  pre c := iprop(StableHlo.held (c : Thread nD τ) (Pipeline.ucRefs τ sig) (W1 m c) ∗ Rst 0 c)
  post c := iprop(StableHlo.held (c : Thread nD τ) (Pipeline.ucRefs τ sig) (W2 m c) ∗ Rst 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = Φ0 c from rfl]; unfold Φ0
    iintro ⟨Hp, -, Hr⟩
    isplitl [Hr]; · iexact Hr
    iexact Hp
  hout c := by
    rw [Pipeline.ownSems0_none, show (pdats m 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]
    iexact HO

end Cert.KernelIdeal.Hand

end
-- ==== Proof.ScSeg2.lean ====
/-
  The second region as a segment of the TensorCore's program: entered with every unscoped buffer
  held at the contents the second host stretch left, left with the transposed result written. Two of
  its windows read the one gathered array: each holds half of it.
-/
import proofs.«206068_g62534723830210_cont_9to1_m_587_24_alg».proof.Proof.ScSeg0

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- Two windows of the second region have the same array only if they are the same window, or the two that read the gathered array. -/
theorem arr_eq_cases : ∀ w' w : Fin 12, Pipeline.arrRef spec2 w' = Pipeline.arrRef spec2 w → w' = w ∨ ((w' = 0 ∨ w' = 1) ∧ (w = 0 ∨ w = 1)) := by decide

theorem W5_arr (c : Dev nD) (w : Fin cfg2.W) :
    W5 m c (Proc.devRef .tc (Pipeline.arrRef spec2 w)) = (dat2 (V4 m) (O1 (F := F)) (B1 (F := F)) c).arrAt w cfg2.N := by
  unfold W5 Pipeline.withArrays
  have h : ∃ w', Proc.devRef .tc (Pipeline.arrRef spec2 w') = Proc.devRef (τ := τ) .tc (Pipeline.arrRef spec2 w) := ⟨w, rfl⟩
  rw [dif_pos h]
  suffices ∀ (w' : Fin cfg2.W) (e : Proc.devRef .tc (Pipeline.arrRef spec2 w') = Proc.devRef (τ := τ) .tc (Pipeline.arrRef spec2 w)),
      cast (congrArg (fun b' : DevRef τ sig => b'.ty.Contents (Elt F)) e) ((dat2 (V4 m) (O1 (F := F)) (B1 (F := F)) c).arrAt w' cfg2.N)
        = (dat2 (V4 m) (O1 (F := F)) (B1 (F := F)) c).arrAt w cfg2.N from this _ h.choose_spec
  intro w' e
  rcases arr_eq_cases w' w (Proc.devRef_injective _ e) with rfl | ⟨hw', hw⟩
  · exact cast_eq _ _
  · have h0 := (dat2 (V4 m) (O1 (F := F)) (B1 (F := F)) c).arrAt_in 0 rfl cfg2.N
    have h1 := (dat2 (V4 m) (O1 (F := F)) (B1 (F := F)) c).arrAt_in 1 rfl cfg2.N
    rcases hw' with rfl | rfl <;> rcases hw with rfl | rfl
    · exact cast_eq _ _
    · rw [h0, h1, A_eq2, A_eq2]; exact cast_eq _ _
    · rw [h1, h0, A_eq2, A_eq2]; exact cast_eq _ _
    · exact cast_eq _ _
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) (O1 (F := F)) (B1 (F := F)) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- The windows' arrays, each whole, at the windows' shares. -/
theorem arrays2_flat (c : Dev nD) (G : (w : Fin cfg2.W) → Buf (Elt F) ((cfg2.win w).arr.view.loc (c.tc : Thread nD τ))) :
    ((pdats m 1 c).arrays G : sProp 𝕄)
      = bigSep Finset.univ fun w : Fin cfg2.W => (((c.tc : Thread nD τ).loc (Pipeline.arrRef spec2 w)) ↦{(pdats m 1 c).share w} G w : sProp 𝕄) := by
  unfold Pipeline.Dat.arrays
  refine bigSep_congr fun w _ => ?_
  have h : ((Pipeline.pin (pcfgs (F := F)) adm 1).win w).arr.view.set = Finset.univ := (arr_whole2 w).set_eq_univ
  rw [h]; rfl

theorem share2_0 (c : Dev nD) : (pdats m 1 c).share 0 = (fullShare : PosShare TreeShare).left := rfl
theorem share2_1 (c : Dev nD) : (pdats m 1 c).share 1 = (fullShare : PosShare TreeShare).right := rfl
theorem share2_2 (c : Dev nD) : (pdats m 1 c).share 2 = fullShare := rfl
theorem share2_3 (c : Dev nD) : (pdats m 1 c).share 3 = fullShare := rfl
theorem share2_4 (c : Dev nD) : (pdats m 1 c).share 4 = fullShare := rfl
theorem share2_5 (c : Dev nD) : (pdats m 1 c).share 5 = fullShare := rfl
theorem share2_6 (c : Dev nD) : (pdats m 1 c).share 6 = fullShare := rfl
theorem share2_7 (c : Dev nD) : (pdats m 1 c).share 7 = fullShare := rfl
theorem share2_8 (c : Dev nD) : (pdats m 1 c).share 8 = fullShare := rfl
theorem share2_9 (c : Dev nD) : (pdats m 1 c).share 9 = fullShare := rfl
theorem share2_10 (c : Dev nD) : (pdats m 1 c).share 10 = fullShare := rfl
theorem share2_11 (c : Dev nD) : (pdats m 1 c).share 11 = fullShare := rfl

theorem img2 : (Finset.univ.image (Pipeline.arrRef spec2) : Finset (Ref sig .tc)) = {main_v7, main_v8, main_arg3, main_v4, main_v5, main_v9, main_v10, main_v11, main_v12, main_v13, main_v14} := by decide

set_option maxHeartbeats 4000000 in
/-- The eleven distinct buffers behind the twelve windows, whole, are the windows' arrays at their shares: the gathered
    array's full share is its two halves. -/
theorem arrays2_eq (c : Dev nD) (A : (b : Ref sig .tc) → Buf (Elt F) ((c : Thread nD τ).loc b)) :
    (Pipeline.arrBufs (Ix := HIx 1) (Name := ℕ) (U := UU) (Lvl := ℕ) spec2 c A : sProp 𝕄) ⊣⊢ (pdats m 1 c).arrays (fun w => A (Pipeline.arrRef spec2 w)) := by
  rw [arrays2_flat]
  unfold Pipeline.arrBufs
  rw [img2]
  rw [bigSep_W2]
  rw [share2_0, share2_1, share2_2, share2_3, share2_4, share2_5, share2_6, share2_7, share2_8, share2_9, share2_10, share2_11]
  rw [SparseCore.bigSep_insert' (by decide)]
  rw [SparseCore.bigSep_insert' (by decide)]
  rw [SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), SparseCore.bigSep_insert' (by decide), bigSep_singleton]
  constructor
  · iintro ⟨H7, H8, H3, H4, H5, H9, H10, H11, H12, H13, H14⟩
    ihave H7' := (pointsTo_share (PosShare.mem_left_op_right (fullShare : PosShare TreeShare))).1 $$ H7
    icases H7' with ⟨H7l, H7r⟩
    isplitl [H7l]; · iexact H7l
    isplitl [H7r]; · iexact H7r
    isplitl [H8]; · iexact H8
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H13]; · iexact H13
    iexact H14
  · iintro ⟨H7l, H7r, H8, H3, H4, H5, H9, H10, H11, H12, H13, H14⟩
    isplitl [H7l H7r]
    · iapply (pointsTo_share (PosShare.mem_left_op_right (fullShare : PosShare TreeShare))).2
      isplitl [H7l]; · iexact H7l
      iexact H7r
    isplitl [H8]; · iexact H8
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H13]; · iexact H13
    iexact H14

set_option backward.isDefEq.respectTransparency.types false in
/-- The second region over the thread state. -/
def reg2 : Pipeline.RegionSeg (pcfgs (F := F)) adm (pdats m) none defs₀ 𝒱₀ (K (F := F)).L (K (F := F)).lev 1 where
  win := winFacts₀2
  block_pos := block_pos2
  stage_whole := stage_whole2
  K := PEmpty
  osem k := k.elim
  ho := Pipeline.OwnSemFacts.none _
  hbody c := (body_obligation2 (V4 m) (O1 (F := F)) (B1 (F := F)) c).loose
  hwaits c := Pipeline.cellsWaits_intro (Pipeline.pin (pcfgs (F := F)) adm) (pdats m) none 1 c
    fun w s t => (K (F := F)).mayWait_none _ (Otc_none c 1)
  pre c := iprop(StableHlo.held (c : Thread nD τ) (Pipeline.ucRefs τ sig) (W4 m c) ∗ Rst 1 c)
  post c := iprop(StableHlo.held (c : Thread nD τ) (Pipeline.ucRefs τ sig) (W5 m c) ∗ Rst 1 c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.unscopedBufs_split₀ (Ix := HIx 1) (Name := ℕ) (U := UU) (Lvl := ℕ) (Val := Elt F)
      (Pipeline.pin (pcfgs (F := F)) adm) 1 winFacts₀2.arr_unscoped c (V4 m c)
    rw [Pipeline.unscopedBufs_held] at hsplit
    iintro ⟨⟨Hub, Hp, HO⟩, -, -⟩
    ihave H := (Entails.of_eq hsplit) $$ Hub
    icases H with ⟨Ha, Hrest⟩
    ihave Ha' := (arrays2_eq m c (V4 m c)).1 $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 1 c).Φ 0 = Φ2 c from rfl]; unfold Φ2
    iintro ⟨Hp, -, Hr⟩
    isplitl [Hr]; · iexact Hr
    iexact Hp
  hout c := by
    rw [Pipeline.ownSems0_none, show (pdats m 1 c).Φ (Fin.last _) = Φ2 c from rfl]; unfold Φ2
    iintro ⟨Hr, Hp⟩
    isplitl [Hp]; · iexact Hp
    isplitr; · iempintro
    iexact Hr
  hexit c := by
    have hsplit := Pipeline.unscopedBufs_split₀ (Ix := HIx 1) (Name := ℕ) (U := UU) (Lvl := ℕ) (Val := Elt F)
      (Pipeline.pin (pcfgs (F := F)) adm) 1 winFacts₀2.arr_unscoped c (V5 m c)
    rw [Pipeline.unscopedBufs_held] at hsplit
    have hF : (fun w => (pdats m 1 c).arrAt w cfg2.N) = fun w => V5 m c (Pipeline.arrRef spec2 w) := funext (hF2 m c)
    have hR : (Pipeline.unscopedRest (Ix := HIx 1) (Name := ℕ) (U := UU) (Lvl := ℕ) spec2 c (V4 m c) : sProp 𝕄)
        = Pipeline.unscopedRest spec2 c (V5 m c) := by
      unfold Pipeline.unscopedRest
      exact bigSep_congr fun b hb => by rw [hrest2 m c b (Finset.mem_sdiff.mp hb).2]
    iintro ⟨Ha, HO, HY, Hrest⟩
    imodintro
    isplitl [Ha Hrest]
    · iapply (Entails.of_eq hsplit.symm)
      isplitl [Ha]
      · iapply (arrays2_eq m c (V5 m c)).2
        iapply (Entails.of_eq (congrArg (pdats m 1 c).arrays hF))
        iexact Ha
      · iapply (Entails.of_eq hR); iexact Hrest
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]; exact Nat.zero_le _
    iexact HO

end Cert.KernelIdeal.Hand

end
-- ==== Proof.ScSplit.lean ====
/-
  The TensorCore's three whole arrays as the 32 tiles' holdings, and back. The table's full share is a
  remainder and 32 read shares, one per tile. The list and the output are cut into their 2500 blocks
  (pairwise disjoint, together everything: an index lies in block b exactly when its row, for the list its
  column, lies in 256 b … 256 b + 255), and the blocks are regrouped by tile: block b is the k-th block of
  tile w for exactly one (w, k), since the tiles' ranges lo w … lo w + cnt w - 1 follow one another and end at 2500.
-/
import proofs.«206068_g62534723830210_cont_9to1_m_587_24_alg».proof.Proof.ScPay

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles' ranges partition the 2500 blocks -/

/-- The tiles' ranges do not overlap: a block number is `lo w + k` with `k < cnt w` in one way only. -/
theorem lo_add_inj {w w' k k' : ℕ} (hk : k < cnt w) (hk' : k' < cnt w') (hv : lo w + k = lo w' + k') :
    w = w' ∧ k = k' := by
  unfold lo at hv; unfold cnt at hk hk'
  by_cases h1 : w < 4 <;> by_cases h2 : w' < 4
  · rw [if_pos h1] at hv hk; rw [if_pos h2] at hv hk'; omega
  · rw [if_pos h1] at hv hk; rw [if_neg h2] at hv hk'; omega
  · rw [if_neg h1] at hv hk; rw [if_pos h2] at hv hk'; omega
  · rw [if_neg h1] at hv hk; rw [if_neg h2] at hv hk'; omega

/-- Two tiles' blocks coincide only for the same tile and the same position in its range. -/
theorem tblk_inj {w w' : Fin 32} {k : Fin (cnt w.val)} {k' : Fin (cnt w'.val)} (h : tblk w k = tblk w' k') :
    w = w' ∧ k.val = k'.val := by
  have key := lo_add_inj k.isLt k'.isLt (congrArg Fin.val h)
  exact ⟨Fin.ext key.1, key.2⟩

/-- Every block is some tile's. -/
theorem exists_tblk (b : Fin 2500) : ∃ (w : Fin 32) (k : Fin (cnt w.val)), tblk w k = b := by
  have hb := b.isLt
  by_cases h : b.val < 316
  · have hw : b.val / 79 < 4 := by omega
    refine ⟨⟨b.val / 79, by omega⟩, ⟨b.val % 79, ?_⟩, Fin.ext ?_⟩
    · show b.val % 79 < cnt (b.val / 79)
      rw [cnt, if_pos hw]; omega
    · show lo (b.val / 79) + b.val % 79 = b.val
      rw [lo, if_pos hw]; omega
  · have hw : ¬ (b.val - 4) / 78 < 4 := by omega
    refine ⟨⟨(b.val - 4) / 78, by omega⟩, ⟨(b.val - 4) % 78, ?_⟩, Fin.ext ?_⟩
    · show (b.val - 4) % 78 < cnt ((b.val - 4) / 78)
      rw [cnt, if_neg hw]; omega
    · show lo ((b.val - 4) / 78) + (b.val - 4) % 78 = b.val
      rw [lo, if_neg hw]; omega

/-! ## The blocks' index sets, by coordinates -/

omit [FloatOps F] in
theorem oBlkSet_eq (b : Fin 2500) : oBlkSet b = (oRect b).set := by
  show ((View.whole (main_v7_scv : Ref sig .scVector)).slice (oRect b)).set = _
  exact View.set_slice_whole _ _
omit [FloatOps F] in
theorem iBlkSet_eq (b : Fin 2500) : iBlkSet b = (iRect b).set := by
  show ((View.whole (main_v2_scv : Ref sig .scVector)).slice (iRect b)).set = _
  exact View.set_slice_whole _ _

/-- An index of the output lies in block `b` exactly when its row does. -/
theorem mem_oBlkSet {b : Fin 2500} {j : S640000x128.Idx} :
    j ∈ oBlkSet b ↔ 256 * b.val ≤ (j 0).val ∧ (j 0).val < 256 * b.val + 256 := by
  rw [oBlkSet_eq, Rect.mem_set_unit]
  constructor
  · intro h; exact h 0
  · intro h a
    match a with
    | 0 => exact h
    | 1 => exact ⟨Nat.zero_le _, by have := (j 1).isLt; simpa using this⟩

/-- An index of the list lies in block `b` exactly when its column does. -/
theorem mem_iBlkSet {b : Fin 2500} {j : S1x640000.Idx} :
    j ∈ iBlkSet b ↔ 256 * b.val ≤ (j 1).val ∧ (j 1).val < 256 * b.val + 256 := by
  rw [iBlkSet_eq, Rect.mem_set_unit]
  constructor
  · intro h; exact h 1
  · intro h a
    match a with
    | 0 => exact ⟨Nat.zero_le _, by have := (j 0).isLt; simpa using this⟩
    | 1 => exact h

theorem oBlk_disjoint {b b' : Fin 2500} (h : b ≠ b') : Disjoint (oBlkSet b) (oBlkSet b') := by
  rw [Finset.disjoint_left]; intro j h1 h2
  rw [mem_oBlkSet] at h1 h2
  exact h (Fin.ext (by omega))
theorem iBlk_disjoint {b b' : Fin 2500} (h : b ≠ b') : Disjoint (iBlkSet b) (iBlkSet b') := by
  rw [Finset.disjoint_left]; intro j h1 h2
  rw [mem_iBlkSet] at h1 h2
  exact h (Fin.ext (by omega))

theorem exists_oBlk (j : S640000x128.Idx) : ∃ b : Fin 2500, j ∈ oBlkSet b := by
  have hj : (j 0).val < 640000 := (j 0).isLt
  exact ⟨⟨(j 0).val / 256, by omega⟩, mem_oBlkSet.mpr (by show 256 * ((j 0).val / 256) ≤ _ ∧ _ < 256 * ((j 0).val / 256) + 256; omega)⟩
theorem exists_iBlk (j : S1x640000.Idx) : ∃ b : Fin 2500, j ∈ iBlkSet b := by
  have hj : (j 1).val < 640000 := (j 1).isLt
  exact ⟨⟨(j 1).val / 256, by omega⟩, mem_iBlkSet.mpr (by show 256 * ((j 1).val / 256) ≤ _ ∧ _ < 256 * ((j 1).val / 256) + 256; omega)⟩

/-! ## A whole array as the tiles' blocks -/

/-- A points-to over everything, cut along 2500 pairwise disjoint sets that together are everything, the sets
    grouped by the tile whose range holds their number. -/
theorem pts_tiles {ℓ : Loc nD τ sig} (B : Fin 2500 → Finset (Idx ℓ)) (hd : ∀ b b', b ≠ b' → Disjoint (B b) (B b'))
    (hc : ∀ j, ∃ b, j ∈ B b) (q : PosShare TreeShare) (f : Buf (Elt F) ℓ) :
    (ℓ ↦{q} f : sProp 𝕄)
      = bigSep Finset.univ fun w : Fin 32 => bigSep Finset.univ fun k : Fin (cnt w.val) => ℓ ↦[B (tblk w k)]{q} f := by
  have h1 : (Finset.univ : Finset (Idx ℓ))
      = (Finset.univ : Finset (Fin 32)).biUnion fun w => (Finset.univ : Finset (Fin (cnt w.val))).biUnion fun k => B (tblk w k) := by
    ext j
    simp only [Finset.mem_univ, Finset.mem_biUnion, true_and, true_iff]
    obtain ⟨b, hb⟩ := hc j
    obtain ⟨w, k, rfl⟩ := exists_tblk b
    exact ⟨w, k, hb⟩
  show pointsTo ℓ Finset.univ q f = _
  rw [h1, pointsTo_biUnion]
  · refine bigSep_congr fun w _ => ?_
    rw [pointsTo_biUnion]
    intro k _ k' _ hk
    exact hd _ _ fun e => hk (Fin.ext (tblk_inj e).2)
  · intro w _ w' _ hw
    rw [Finset.disjoint_biUnion_left]; intro k _
    rw [Finset.disjoint_biUnion_right]; intro k' _
    exact hd _ _ fun e => hw (tblk_inj e).1

/-! ## The 32 tiles as 2 SparseCores of 16 -/

/-- Tile `(c, i)` has number `16 c + i`: every number below 32 once. -/
def twEquiv : Fin 2 × Fin 16 ≃ Fin 32 where
  toFun p := tw p.1 p.2
  invFun w := (⟨w.val / 16, by omega⟩, ⟨w.val % 16, by omega⟩)
  left_inv p := by
    rcases p with ⟨c, i⟩
    have hc := c.isLt; have hi := i.isLt
    refine Prod.ext (Fin.ext ?_) (Fin.ext ?_)
    · show (16 * c.val + i.val) / 16 = c.val; omega
    · show (16 * c.val + i.val) % 16 = i.val; omega
  right_inv w := by
    refine Fin.ext ?_
    show 16 * (w.val / 16) + w.val % 16 = w.val; omega

theorem bigSep_tiles (Φ : Fin 32 → sProp 𝕄) :
    (bigSep Finset.univ fun c : Fin 2 => bigSep Finset.univ fun i : Fin 16 => Φ (tw c i)) = bigSep Finset.univ Φ := by
  rw [bigSep_univ_equiv twEquiv Φ, bigSep_univ_prod]; rfl

/-! ## The three arrays and the tiles' holdings -/

section Split

variable (tbl : Buf (Elt F) (tLoc (0 : Dev nD))) (ix : Buf (Elt F) (iLoc (0 : Dev nD))) (o : Buf (Elt F) (oLoc (0 : Dev nD)))

/-- The three whole arrays are the table's remainder and the 32 tiles' holdings. -/
theorem arrays_tiles_eq (d : Dev nD) :
    (iprop((tLoc d ↦{fullShare} tbl) ∗ (iLoc d ↦{fullShare} ix) ∗ (oLoc d ↦{fullShare} o)) : sProp 𝕄)
      = iprop((tLoc d ↦{Transfers.shareDrop fullShare 32} tbl)
          ∗ bigSep Finset.univ fun c : Fin 2 => bigSep Finset.univ fun i : Fin 16 => tileRes tbl ix d (tw c i) o) := by
  rw [bigSep_tiles (fun w => tileRes tbl ix d w o)]
  have ht : (tLoc d ↦{fullShare} tbl : sProp 𝕄)
      = iprop((tLoc d ↦{Transfers.shareDrop fullShare 32} tbl)
          ∗ bigSep Finset.univ (fun w : Fin 32 => tLoc d ↦{Transfers.shareTok fullShare 32 w} tbl)) :=
    Entails.antisymm (Transfers.pointsTo_toks fullShare 32).1 (Transfers.pointsTo_toks fullShare 32).2
  have hi := pts_tiles (F := F) (ℓ := iLoc d) iBlkSet (fun _ _ h => iBlk_disjoint h) exists_iBlk fullShare ix
  have ho := pts_tiles (F := F) (ℓ := oLoc d) oBlkSet (fun _ _ h => oBlk_disjoint h) exists_oBlk fullShare o
  rw [ht, hi, ho]
  unfold tileRes
  simp only [bigSep_sep']
  refine Entails.antisymm ?_ ?_
  · exact Idealize.SL.BI.sep_assoc
  · exact Idealize.SL.BI.sep_assoc'

/-- Split: what the TensorCore does with its arrays before the SparseCore call. -/
theorem arrays_split (d : Dev nD) :
    iprop((tLoc d ↦{fullShare} tbl) ∗ (iLoc d ↦{fullShare} ix) ∗ (oLoc d ↦{fullShare} o))
      ⊢ (iprop((tLoc d ↦{Transfers.shareDrop fullShare 32} tbl)
          ∗ bigSep Finset.univ fun c : Fin 2 => bigSep Finset.univ fun i : Fin 16 => tileRes tbl ix d (tw c i) o) : sProp 𝕄) :=
  Entails.of_eq (arrays_tiles_eq tbl ix o d)

/-- Join: after it. -/
theorem arrays_join (d : Dev nD) :
    iprop((tLoc d ↦{Transfers.shareDrop fullShare 32} tbl)
          ∗ bigSep Finset.univ fun c : Fin 2 => bigSep Finset.univ fun i : Fin 16 => tileRes tbl ix d (tw c i) o)
      ⊢ (iprop((tLoc d ↦{fullShare} tbl) ∗ (iLoc d ↦{fullShare} ix) ∗ (oLoc d ↦{fullShare} o)) : sProp 𝕄) :=
  Entails.of_eq (arrays_tiles_eq tbl ix o d).symm

theorem arrays_tiles (d : Dev nD) :
    iprop((tLoc d ↦{fullShare} tbl) ∗ (iLoc d ↦{fullShare} ix) ∗ (oLoc d ↦{fullShare} o))
      ⊣⊢ (iprop((tLoc d ↦{Transfers.shareDrop fullShare 32} tbl)
          ∗ bigSep Finset.univ fun c : Fin 2 => bigSep Finset.univ fun i : Fin 16 => tileRes tbl ix d (tw c i) o) : sProp 𝕄) :=
  ⟨arrays_split tbl ix o d, arrays_join tbl ix o d⟩

end Split

end Cert.KernelIdeal.Hand

end
-- ==== Proof.ScMain.lean ====
/-
  The launch: the ghost state's launch element, the TensorCore's program from the launch to the
  return, and the whole mesh's run.
-/
import proofs.«206068_g62534723830210_cont_9to1_m_587_24_alg».proof.Proof.ScSeg2
import proofs.«206068_g62534723830210_cont_9to1_m_587_24_alg».proof.Proof.ScSplit

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The payloads at this launch memory: the table as the first region leaves it, the list as the first host
    stretch leaves it, the output as launched. -/
abbrev PP : (K (F := F)).Pay (nD := nD) (Val := Elt F) (Name := ℕ) (U := UU) :=
  P (V2 m 0 main_v6) (V2 m 0 main_v2) (V2 m 0 main_v7)

/-- What the TensorCore starts with beside the launch's dealings: both pipelines' staging cells' ghost state. -/
abbrev Gd (d : Dev nD) : sProp 𝕄 := Pipeline.ghostOn (pcfgs (F := F)) adm EP Finset.univ d

/-- What it ends with: every unscoped buffer at the last boundary's contents. -/
abbrev FIN (d : Dev nD) : sProp 𝕄 := StableHlo.held (SparseCore.T d) (Pipeline.ucRefs τ sig) (W6 m d)

/-- The launch element: the handshakes' rounds, the pipelines' staging cells' rounds, the counters at rest. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

omit [FloatOps F] in
theorem bigSep_emp' {I : Type} (s : Finset I) : (bigSep s fun _ => iprop(emp)) = (iprop(emp) : sProp 𝕄) := bigSep_emp_const s

theorem hu₀ : iprop((ownU (u₀ (F := F)) : sProp 𝕄) ∗ (PP m).oxCred ∗ (K (F := F)).freeSems0)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (PP m).x q thr) := by
  unfold u₀
  iintro ⟨Hu, -, -⟩
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)) : UK × Counters)) $$ Hu
  icases H with ⟨HH, HR⟩
  ihave H2 := (own_pair_emb (embR : Emb (UK × Counters) 𝕄)
    (initOf (Pipeline.cells (Pipeline.pin (pcfgs (F := F)) adm) cellOf_inj) (Pipeline.launchToks (Pipeline.pin (pcfgs (F := F)) adm) cellOf_inj)) (1 : Counters)) $$ HR
  icases H2 with ⟨HP, -⟩
  imod (Pipeline.fund_ghost (Pipeline.pin (pcfgs (F := F)) adm) (EP (F := F)) cellOf_inj) $$ HP with ⟨Hcg, Htk⟩
  imodintro
  isplitl [HH]; · iexact HH
  isplitl [Hcg Htk]
  · simp only [Gd, Pipeline.ghostOn, Pipeline.PerCore.ghostOn, bigSep_sep']
    isplitl [Hcg]; · iexact Hcg
    iexact Htk
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-- The TensorCore's debt taken out of its state before call `n`, and put back. -/
theorem tcSt_open (d : Dev nD) (n : ℕ) :
    (K (F := F)).tcSt EH d n ⊢ (iprop((∃ W, ⌜(K (F := F)).WBelow (SparseCore.T d) W (8 * n)⌝ ∗ owes (SparseCore.T d) ((K (F := F)).Otc d n) W)
      ∗ ((∃ W, ⌜(K (F := F)).WBelow (SparseCore.T d) W (8 * n)⌝ ∗ owes (SparseCore.T d) ((K (F := F)).Otc d n) W) -∗ (K (F := F)).tcSt EH d n)) : sProp 𝕄) := by
  unfold SparseCore.Cfg.tcSt
  iintro ⟨HO, Hrest⟩
  isplitl [HO]; · iexact HO
  iintro HO
  isplitl [HO]; · iexact HO
  iexact Hrest

theorem hostOpsA_sub : ∀ op ∈ (hostOpsA : List (HloOp τ sig (Elt F))), op.bufs ⊆ Pipeline.ucRefs τ sig := fun op h =>
  Pipeline.sub_ucRefs op ((List.forall_iff_forall_mem.mp (show (hostOpsA : List (HloOp τ sig (Elt F))).Forall fun op => op.bufs ⊆ StableHlo.tcRefs τ sig from
    ⟨StableHlo.nullary_bufs_sub .., StableHlo.unary_bufs_sub .., StableHlo.binary_bufs_sub .., StableHlo.reshape_bufs_sub .., StableHlo.unary_bufs_sub .., StableHlo.unary_bufs_sub .., StableHlo.unary_bufs_sub ..⟩)) op h)
theorem hostOpsB_sub : ∀ op ∈ (hostOpsB : List (HloOp τ sig (Elt F))), op.bufs ⊆ Pipeline.ucRefs τ sig := fun op h =>
  Pipeline.sub_ucRefs op ((List.forall_iff_forall_mem.mp (show (hostOpsB : List (HloOp τ sig (Elt F))).Forall fun op => op.bufs ⊆ StableHlo.tcRefs τ sig from
    ⟨StableHlo.unary_bufs_sub .., StableHlo.reshape_bufs_sub .., StableHlo.unary_bufs_sub .., StableHlo.reshape_bufs_sub .., StableHlo.reshape_bufs_sub .., StableHlo.reshape_bufs_sub ..⟩)) op h)
theorem hostOpsC_sub : ∀ op ∈ (hostOpsC : List (HloOp τ sig (Elt F))), op.bufs ⊆ Pipeline.ucRefs τ sig := fun op h =>
  Pipeline.sub_ucRefs op ((List.forall_iff_forall_mem.mp (show (hostOpsC : List (HloOp τ sig (Elt F))).Forall fun op => op.bufs ⊆ StableHlo.tcRefs τ sig from
    StableHlo.unary_bufs_sub ..)) op h)
theorem hostOpsA_fresh : ∀ op ∈ (hostOpsA : List (HloOp τ sig (Elt F))), op.fresh = ∅ := fun op h =>
  (List.forall_iff_forall_mem.mp (show (hostOpsA : List (HloOp τ sig (Elt F))).Forall fun op => op.fresh = ∅ from by simp only [List.Forall]; repeat' constructor)) op h
theorem hostOpsB_fresh : ∀ op ∈ (hostOpsB : List (HloOp τ sig (Elt F))), op.fresh = ∅ := fun op h =>
  (List.forall_iff_forall_mem.mp (show (hostOpsB : List (HloOp τ sig (Elt F))).Forall fun op => op.fresh = ∅ from by simp only [List.Forall]; repeat' constructor)) op h
theorem hostOpsC_fresh : ∀ op ∈ (hostOpsC : List (HloOp τ sig (Elt F))), op.fresh = ∅ := fun op h =>
  (List.forall_iff_forall_mem.mp (show (hostOpsC : List (HloOp τ sig (Elt F))).Forall fun op => op.fresh = ∅ from by simp only [List.Forall]; repeat' constructor)) op h

theorem reg0_pre (c : Dev nD) : (reg0 m).pre c = iprop(StableHlo.held (c : Thread nD τ) (Pipeline.ucRefs τ sig) (W1 m c) ∗ Rst 0 c) := rfl
theorem reg0_post (c : Dev nD) : (reg0 m).post c = iprop(StableHlo.held (c : Thread nD τ) (Pipeline.ucRefs τ sig) (W2 m c) ∗ Rst 0 c) := rfl
theorem reg2_pre (c : Dev nD) : (reg2 m).pre c = iprop(StableHlo.held (c : Thread nD τ) (Pipeline.ucRefs τ sig) (W4 m c) ∗ Rst 1 c) := rfl
theorem reg2_post (c : Dev nD) : (reg2 m).post c = iprop(StableHlo.held (c : Thread nD τ) (Pipeline.ucRefs τ sig) (W5 m c) ∗ Rst 1 c) := rfl

/-- The two pipelines' ghost state, one after the other. -/
theorem Gd_eq : Gd (F := F) 0 = iprop((Pipeline.cellsGhost (Pipeline.pin (pcfgs (F := F)) adm) EP 0 0 ∗ Pipeline.toksInit (Pipeline.pin (pcfgs (F := F)) adm) EP 0 0)
    ∗ (Pipeline.cellsGhost (Pipeline.pin (pcfgs (F := F)) adm) EP 1 0 ∗ Pipeline.toksInit (Pipeline.pin (pcfgs (F := F)) adm) EP 1 0)) := by
  show (bigSep (Finset.univ : Finset (Fin 2)) fun p => iprop(Pipeline.cellsGhost (Pipeline.pin (pcfgs (F := F)) adm) EP p 0 ∗ Pipeline.toksInit (Pipeline.pin (pcfgs (F := F)) adm) EP p 0)) = _
  rw [show (Finset.univ : Finset (Fin 2)) = {0, 1} from by decide, SparseCore.bigSep_insert' (by decide), bigSep_singleton]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The gather's three arrays are among the unscoped buffers. -/
theorem hT3 : ({Proc.devRef .tc main_v6, Proc.devRef .tc main_v2, Proc.devRef .tc main_v7} : Finset (DevRef τ sig)) ⊆ Pipeline.ucRefs τ sig := by
  intro b hb
  simp only [Finset.mem_insert, Finset.mem_singleton] at hb
  rcases hb with rfl | rfl | rfl
  · exact mem_uc main_v6 (by decide)
  · exact mem_uc main_v2 (by decide)
  · exact mem_uc main_v7 (by decide)

theorem held3_eq (W : Valuation τ sig (Elt F)) :
    (StableHlo.held (SparseCore.T (0 : Dev nD)) ({Proc.devRef .tc main_v6, Proc.devRef .tc main_v2, Proc.devRef .tc main_v7} : Finset (DevRef τ sig)) W : sProp 𝕄)
      = iprop((tLoc 0 ↦{fullShare} W (Proc.devRef .tc main_v6)) ∗ (iLoc 0 ↦{fullShare} W (Proc.devRef .tc main_v2)) ∗ (oLoc 0 ↦{fullShare} W (Proc.devRef .tc main_v7))) := by
  unfold StableHlo.held
  rw [SparseCore.bigSep_insert' (by decide), SparseCore.bigSep_insert' (by decide), bigSep_singleton]

/-- What the call's start hands over, and what its done hands back: every tile's holdings. -/
theorem st_eq (d : Dev nD) : (bigSep Finset.univ fun c : Fin ((K (F := F)).nCore 0) => (PP m).st 0 d c)
    = bigSep Finset.univ fun c : Fin 2 => bigSep Finset.univ fun i : Fin 16 => tileRes (V2 m 0 main_v6) (V2 m 0 main_v2) d (tw c i) (V2 m 0 main_v7) := by
  show (bigSep Finset.univ fun c : Fin 2 => bigSep Finset.univ fun i : Fin 16 => tileRes (V2 m 0 main_v6) (V2 m 0 main_v2) d (tw (Fin.cast nCore_zero c) i) (V2 m 0 main_v7)) = _
  exact bigSep_congr fun c _ => by simp only [Fin.cast_eq_self]
theorem dn_eq (d : Dev nD) : (bigSep Finset.univ fun c : Fin ((K (F := F)).nCore 0) => (PP m).dn 0 d c)
    = bigSep Finset.univ fun c : Fin 2 => bigSep Finset.univ fun i : Fin 16 => tileRes (V2 m 0 main_v6) (V2 m 0 main_v2) d (tw c i) (gath (V2 m 0 main_v6) (V2 m 0 main_v2)) := by
  show (bigSep Finset.univ fun c : Fin 2 => bigSep Finset.univ fun i : Fin 16 => tileRes (V2 m 0 main_v6) (V2 m 0 main_v2) d (tw (Fin.cast nCore_zero c) i) (gath (V2 m 0 main_v6) (V2 m 0 main_v2))) = _
  exact bigSep_congr fun c _ => by simp only [Fin.cast_eq_self]

/-- After the call the three arrays are held at the new contents: the table and the list as before, the output gathered. -/
theorem held3_W3 : (iprop((tLoc 0 ↦{fullShare} V2 m 0 main_v6) ∗ (iLoc 0 ↦{fullShare} V2 m 0 main_v2) ∗ (oLoc 0 ↦{fullShare} gath (V2 m 0 main_v6) (V2 m 0 main_v2))) : sProp 𝕄)
    = StableHlo.held (SparseCore.T (0 : Dev nD)) ({Proc.devRef .tc main_v6, Proc.devRef .tc main_v2, Proc.devRef .tc main_v7} : Finset (DevRef τ sig)) (W3 m 0) := by
  rw [held3_eq]; unfold W3
  rw [Function.update_of_ne (by decide), Function.update_of_ne (by decide), Function.update_self]
/-- and every other buffer as it was. -/
theorem heldRest_W3 : (StableHlo.held (SparseCore.T (0 : Dev nD)) (Pipeline.ucRefs τ sig \ ({Proc.devRef .tc main_v6, Proc.devRef .tc main_v2, Proc.devRef .tc main_v7} : Finset (DevRef τ sig))) (W2 m 0) : sProp 𝕄)
    = StableHlo.held (SparseCore.T (0 : Dev nD)) (Pipeline.ucRefs τ sig \ ({Proc.devRef .tc main_v6, Proc.devRef .tc main_v2, Proc.devRef .tc main_v7} : Finset (DevRef τ sig))) (W3 m 0) := by
  unfold StableHlo.held
  refine bigSep_congr fun b hb => ?_
  have hne : b ≠ Proc.devRef .tc main_v7 := fun e => (Finset.mem_sdiff.mp hb).2 (by rw [e]; simp)
  unfold W3; rw [Function.update_of_ne hne]

theorem hmain (κ : GSem nD τ sig → ℕ) (d : Dev nD) :
    iprop((K (F := F)).ctx EH (PP m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  obtain rfl : d = 0 := Subsingleton.elim _ _
  rw [main_eq]
  unfold SparseCore.Cfg.tcRes
  rw [show (fun b : Ref sig .tc => m ((SparseCore.T (0 : Dev nD)).loc b)) = fun b => W0 m 0 (Proc.tc.devRef b) from rfl, Pipeline.unscopedBufs_held]
  iintro ⟨#Hctx, Hst, ⟨Hb, Hub, Hsem, Hpr⟩, HG⟩
  ihave Hlev0 := (SparseCore.Cfg.ctx_levAts (K := K (F := F)) (EH := EH) (P := PP m) κ) $$ Hctx
  icases Hlev0 with #Hlev
  ihave H := (tcSt_open (F := F) 0 0) $$ Hst
  icases H with ⟨HO, Hclose⟩
  -- the first host stretch
  iapply (StableHlo.wp_seq (defs := (K (F := F)).defs (D (F := F))) 𝒱 none Set.univ (0 : Dev nD) (Pipeline.ucRefs τ sig) _ hostOpsA hostOpsA_sub hostOpsA_fresh (W0 m 0)) $$ [Hb Hub]
  · isplitl [Hb] <;> iassumption
  iintro ⟨Hb, Hub⟩
  -- the first region, with its share of the pipelines' ghost state
  rw [wp_bind]
  ihave HG' := (Entails.of_eq (Gd_eq (F := F))) $$ HG
  icases HG' with ⟨⟨Hcg0, Htk0⟩, ⟨Hcg1, Htk1⟩⟩
  iapply ((K (F := F)).wp_liftProg (D (F := F)) 𝒱 (SparseCore.T 0) Set.univ none
    (Prog.op (TpuEff.customCall (Pipeline.entry (0 : Fin 2)) ()) fun _ => Prog.ret PUnit.unit) _)
  iapply (Pipeline.RegionSeg.wp (pcfgs (F := F)) adm (pdats m) none cellOf_inj (EP (F := F)) defs₀ 𝒱₀ (K (F := F)).L (K (F := F)).lev (reg0 m) (0 : Dev nD) none
    (fun _ h => nomatch h) (fun _ => Prog.ret PUnit.unit) _)
  rw [reg0_pre, reg0_post]
  isplitr [Hb Hub HO Hpr Hcg0 Htk0]
  swap
  · isplitl [Hb]; · iexact Hb
    isplitl [Hub HO Hpr]
    · isplitl [Hub]; · iexact Hub
      isplitl [Hpr]; · iexists _; iexact Hpr
      iexact HO
    isplitr; · iexact Hlev
    isplitl [Hcg0]; · iexact Hcg0
    iexact Htk0
  iintro ⟨Hb, Hub, Hpr, HO⟩
  rw [wp_ret]; imodintro
  -- the SparseCore call: the table, the list and the output out of the held buffers, dealt to the tiles
  rw [wp_bind]
  ihave Hsp := (Entails.of_eq (StableHlo.held_sub_split (SparseCore.T (0 : Dev nD)) hT3 (W2 m 0))) $$ Hub
  icases Hsp with ⟨H3, Hrest⟩
  ihave H3' := (Entails.of_eq (held3_eq (F := F) (W2 m 0))) $$ H3
  ihave Hsplit := (arrays_split (V2 m 0 main_v6) (V2 m 0 main_v2) (V2 m 0 main_v7) 0) $$ H3'
  icases Hsplit with ⟨Htd, Hst⟩
  iapply ((K (F := F)).wp_run (D (F := F)) 𝒱 (EH := EH) (P := PP m) κ 0 0)
  isplitr; · iexact Hctx
  isplitl [Hclose HO]; · iapply Hclose; iexact HO
  isplitl [Hst]
  · rw [st_eq]; iexact Hst
  iintro ⟨Hst1, Hdn0⟩
  ihave Hdn := (Entails.of_eq (dn_eq m 0)) $$ Hdn0
  ihave Hj := (arrays_join (V2 m 0 main_v6) (V2 m 0 main_v2) (gath (V2 m 0 main_v6) (V2 m 0 main_v2)) 0) $$ [Htd Hdn]
  · isplitl [Htd] <;> iassumption
  ihave H3 := (Entails.of_eq (held3_W3 m)) $$ Hj
  ihave Hrest' := (Entails.of_eq (heldRest_W3 m)) $$ Hrest
  ihave Hub := (Entails.of_eq (StableHlo.held_sub_split (SparseCore.T (0 : Dev nD)) hT3 (W3 m 0)).symm) $$ [H3 Hrest']
  · isplitl [H3] <;> iassumption
  -- the second host stretch
  iapply (StableHlo.wp_seq (defs := (K (F := F)).defs (D (F := F))) 𝒱 none Set.univ (0 : Dev nD) (Pipeline.ucRefs τ sig) _ hostOpsB hostOpsB_sub hostOpsB_fresh (W3 m 0)) $$ [Hb Hub]
  · isplitl [Hb] <;> iassumption
  iintro ⟨Hb, Hub⟩
  -- the second region
  rw [wp_bind]
  ihave Hst1' := (show ((K (F := F)).tcSt EH (0 : Dev nD) ((0 : Fin 1).val + 1) : sProp 𝕄) ⊢ (K (F := F)).tcSt EH 0 1 from BI.Entails.refl _) $$ Hst1
  ihave H := (tcSt_open (F := F) 0 1) $$ Hst1'
  icases H with ⟨HO, Hclose⟩
  iapply ((K (F := F)).wp_liftProg (D (F := F)) 𝒱 (SparseCore.T 0) Set.univ none
    (Prog.op (TpuEff.customCall (Pipeline.entry (1 : Fin 2)) ()) fun _ => Prog.ret PUnit.unit) _)
  iapply (Pipeline.RegionSeg.wp (pcfgs (F := F)) adm (pdats m) none cellOf_inj (EP (F := F)) defs₀ 𝒱₀ (K (F := F)).L (K (F := F)).lev (reg2 m) (0 : Dev nD) none
    (fun _ h => nomatch h) (fun _ => Prog.ret PUnit.unit) _)
  rw [reg2_pre, reg2_post]
  isplitr [Hb Hub HO Hpr Hcg1 Htk1]
  swap
  · isplitl [Hb]; · iexact Hb
    isplitl [Hub HO Hpr]
    · isplitl [Hub]; · iexact Hub
      isplitl [Hpr]; · iexact Hpr
      iexact HO
    isplitr; · iexact Hlev
    isplitl [Hcg1]; · iexact Hcg1
    iexact Htk1
  iintro ⟨Hb, Hub, Hpr, HO⟩
  rw [wp_ret]; imodintro
  -- the last transpose, and the return
  iapply (StableHlo.wp_seq (defs := (K (F := F)).defs (D (F := F))) 𝒱 none Set.univ (0 : Dev nD) (Pipeline.ucRefs τ sig) _ hostOpsC hostOpsC_sub hostOpsC_fresh (W5 m 0)) $$ [Hb Hub]
  · isplitl [Hb] <;> iassumption
  iintro ⟨Hb, Hub⟩
  rw [wp_pure]; imodintro
  isplitl [Hclose HO]; · iapply Hclose; iexact HO
  iexact Hub

/-- What the final memory is read for: the result and the ten arguments. -/
def fq (d : Dev nD) (s' : Phys nD τ sig (Elt F)) : Prop :=
  ∀ b ∈ Pipeline.ucRefs τ sig, s'.mem.mem (((SparseCore.T d : Thread nD τ)).1, b) = W6 m d b

theorem hfin (d : Dev nD) (s' : Phys nD τ sig (Elt F)) : iprop(FIN m d ∗ SI s') ⊢ (⌜fq m d s'⌝ : sProp 𝕄) := by
  unfold FIN StableHlo.held fq
  iintro ⟨Hh, HSI⟩
  ihave H := (pointsTo_read_all (Pipeline.ucRefs τ sig) (fun b => (((SparseCore.T d : Thread nD τ)).1, b)) (W6 m d) s') $$ [Hh HSI]
  · isplitl [Hh] <;> iassumption
  icases H with ⟨%h, -⟩
  ipureintro; exact h

def QC : PUnit × MemSt nD τ sig (Elt F) → Prop := fun r => ∀ d : Dev nD, ∀ b ∈ Pipeline.ucRefs τ sig, r.2.mem (((SparseCore.T d : Thread nD τ)).1, b) = W6 m d b

theorem vecSplit : (K (F := F)).VecSplit' (PP m) 0 := by
  intro d c
  have e : ∀ o, (bigSep Finset.univ fun i : Fin ((K (F := F)).nSub 0) =>
        tileRes (V2 m 0 main_v6) (V2 m 0 main_v2) d (tw (Fin.cast nCore_zero c) (Fin.cast nSub_zero i)) o : sProp 𝕄)
      = bigSep Finset.univ fun i : Fin 16 => tileRes (V2 m 0 main_v6) (V2 m 0 main_v2) d (tw (Fin.cast nCore_zero c) i) o :=
    fun o => bigSep_congr fun i _ => by simp only [Fin.cast_eq_self]
  show (bigSep Finset.univ fun i : Fin 16 => tileRes (V2 m 0 main_v6) (V2 m 0 main_v2) d (tw (Fin.cast nCore_zero c) i) (V2 m 0 main_v7))
    ⊢ |={Set.univ}=> iprop((bigSep Finset.univ fun i : Fin ((K (F := F)).nSub 0) =>
        tileRes (V2 m 0 main_v6) (V2 m 0 main_v2) d (tw (Fin.cast nCore_zero c) (Fin.cast nSub_zero i)) (V2 m 0 main_v7))
      ∗ ((bigSep Finset.univ fun i : Fin ((K (F := F)).nSub 0) =>
        tileRes (V2 m 0 main_v6) (V2 m 0 main_v2) d (tw (Fin.cast nCore_zero c) (Fin.cast nSub_zero i)) (gath (V2 m 0 main_v6) (V2 m 0 main_v2)))
        -∗ bigSep Finset.univ fun i : Fin 16 => tileRes (V2 m 0 main_v6) (V2 m 0 main_v2) d (tw (Fin.cast nCore_zero c) i) (gath (V2 m 0 main_v6) (V2 m 0 main_v2))))
  rw [e, e]
  iintro H
  imodintro
  isplitl [H]; · iexact H
  iintro H
  iexact H

theorem run_main [∀ e, Nonempty (Elt F e)] (htile : (K (F := F)).TileObl (D (F := F)) 𝒱 (PP m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit m))
    m ρ main (fun d => Gd d) (FIN m) (u₀ (F := F)) (hu₀ m) (hmain m ρ) (fq m) (hfin m) (QC m) (fun _ h d => h d)

end Cert.KernelIdeal.Hand

end
-- ==== Proof.ScArgs.lean ====
/-
  Every argument buffer ends as launched. The boundary contents are folded through the program from the
  launch memory; at an argument's buffer the fold walks back unchanged: no host operation writes an
  argument, the SparseCore call changes the gathered output only, and a region either does not touch an
  argument or reads it through an input window, whose array is never written.
-/
import proofs.«206068_g62534723830210_cont_9to1_m_587_24_alg».proof.Proof.ScSeg0

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.StableHlo (nullary unary binary seq)

variable {F : FTy → Type} [FloatOps F]

local notation "𝕄" => MT nD τ sig (HIx 1) (Elt F) ℕ UU ℕ

/-! ## A host stretch leaves a buffer it does not write -/

/-- The first stretch writes the constant and the six values it computes, nothing else. -/
theorem after_hostA (V : Valuation τ sig (Elt F)) (b : Ref sig .tc)
    (hb : b ∉ ([main_c, main_v0, main_v1, main_v2, main_v3, main_v4, main_v5] : List (Ref sig .tc))) :
    StableHlo.after (hostOpsA (F := F)) V (Proc.devRef .tc b) = V (Proc.devRef .tc b) :=
  StableHlo.after_of_forall_not_mem (b := Proc.devRef .tc b) _ _ (List.forall_iff_forall_mem.mp (by
    simp only [hostOpsA, List.Forall, StableHlo.nullary_writes, StableHlo.unary_writes, StableHlo.binary_writes,
      StableHlo.reshape_writes, Finset.mem_singleton]
    repeat' apply And.intro
    all_goals exact StableHlo.devRef_ne_of_ne (by rintro rfl; exact hb (by decide))))

/-- The second stretch writes the six operands it prepares for the second region. -/
theorem after_hostB (V : Valuation τ sig (Elt F)) (b : Ref sig .tc)
    (hb : b ∉ ([main_v8, main_v9, main_v10, main_v11, main_v12, main_v13] : List (Ref sig .tc))) :
    StableHlo.after (hostOpsB (F := F)) V (Proc.devRef .tc b) = V (Proc.devRef .tc b) :=
  StableHlo.after_of_forall_not_mem (b := Proc.devRef .tc b) _ _ (List.forall_iff_forall_mem.mp (by
    simp only [hostOpsB, List.Forall, StableHlo.nullary_writes, StableHlo.unary_writes, StableHlo.binary_writes,
      StableHlo.reshape_writes, Finset.mem_singleton]
    repeat' apply And.intro
    all_goals exact StableHlo.devRef_ne_of_ne (by rintro rfl; exact hb (by decide))))

/-- The last stretch writes the result. -/
theorem after_hostC (V : Valuation τ sig (Elt F)) (b : Ref sig .tc) (hb : b ≠ main_v15) :
    StableHlo.after (hostOpsC (F := F)) V (Proc.devRef .tc b) = V (Proc.devRef .tc b) :=
  StableHlo.after_of_forall_not_mem (b := Proc.devRef .tc b) _ _ (List.forall_iff_forall_mem.mp (by
    simp only [hostOpsC, List.Forall, StableHlo.nullary_writes, StableHlo.unary_writes, StableHlo.binary_writes,
      StableHlo.reshape_writes, Finset.mem_singleton]
    exact StableHlo.devRef_ne_of_ne hb))

section Args

variable (m : (ℓ : Loc nD τ sig) → Buf (Elt F) ℓ)

/-- The SparseCore call changes the gathered output only. -/
theorem W3_of_ne (c : Dev nD) (b : Ref sig .tc) (hb : b ≠ main_v7) :
    W3 m c (Proc.devRef .tc b) = W2 m c (Proc.devRef .tc b) := by
  unfold W3; exact Function.update_of_ne (StableHlo.devRef_ne_of_ne hb) _ _

/-- The second region leaves a buffer that is no array of its windows as it entered. -/
theorem W5_frame (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

/-- Window 3 is the one window of the second region on its array: the region leaves that array at what the window's data say. -/
theorem W5_win3 (c : Dev nD) :
    W5 m c (Proc.devRef .tc (Pipeline.arrRef spec2 3)) = (dat2 (V4 m) (O1 (F := F)) (B1 (F := F)) c).arrAt 3 cfg2.N := by
  unfold W5 Pipeline.withArrays
  have h : ∃ w', Proc.devRef .tc (Pipeline.arrRef spec2 w') = Proc.devRef (τ := τ) .tc (Pipeline.arrRef spec2 3) := ⟨3, rfl⟩
  rw [dif_pos h]
  suffices ∀ (w' : Fin cfg2.W) (e : Proc.devRef .tc (Pipeline.arrRef spec2 w') = Proc.devRef (τ := τ) .tc (Pipeline.arrRef spec2 3)),
      cast (congrArg (fun b' : DevRef τ sig => b'.ty.Contents (Elt F)) e) ((dat2 (V4 m) (O1 (F := F)) (B1 (F := F)) c).arrAt w' cfg2.N)
        = (dat2 (V4 m) (O1 (F := F)) (B1 (F := F)) c).arrAt 3 cfg2.N from this _ h.choose_spec
  intro w' e
  obtain rfl : w' = 3 :=
    (by decide : ∀ w' : Fin 12, Pipeline.arrRef spec2 w' = Pipeline.arrRef spec2 3 → w' = 3) w' (Proc.devRef_injective _ e)
  rfl

/-- The fold from the second region's entry back to the first region's exit, at a buffer neither the second stretch nor the call writes. -/
theorem W4_eq_W2 (c : Dev nD) (b : Ref sig .tc)
    (hB : b ∉ ([main_v8, main_v9, main_v10, main_v11, main_v12, main_v13] : List (Ref sig .tc))) (h7 : b ≠ main_v7) :
    W4 m c (Proc.devRef .tc b) = W2 m c (Proc.devRef .tc b) :=
  (after_hostB _ b hB).trans (W3_of_ne m c b h7)

/-- A buffer nothing writes — no stretch, no region's array, not the gathered output — ends as launched. -/
theorem W6_of_frame (c : Dev nD) (b : Ref sig .tc) (hC : b ≠ main_v15) (h2 : ∀ w, Pipeline.arrRef spec2 w ≠ b)
    (hB : b ∉ ([main_v8, main_v9, main_v10, main_v11, main_v12, main_v13] : List (Ref sig .tc))) (h7 : b ≠ main_v7)
    (h0 : ∀ w, Pipeline.arrRef spec0 w ≠ b)
    (hA : b ∉ ([main_c, main_v0, main_v1, main_v2, main_v3, main_v4, main_v5] : List (Ref sig .tc))) :
    W6 m c (Proc.devRef .tc b) = m ((c : Thread nD τ).loc b) :=
  calc W6 m c (Proc.devRef .tc b)
    _ = W5 m c (Proc.devRef .tc b) := after_hostC _ b hC
    _ = W4 m c (Proc.devRef .tc b) := W5_frame m c b h2
    _ = W2 m c (Proc.devRef .tc b) := W4_eq_W2 m c b hB h7
    _ = W1 m c (Proc.devRef .tc b) := W2_of_ne m c b h0
    _ = W0 m c (Proc.devRef .tc b) := after_hostA _ b hA
    _ = m ((c : Thread nD τ).loc b) := rfl

/-! ## The ten arguments -/

/-- The first region reads the node features through its input window 0. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := after_hostC _ main_arg0 (by decide)
    _ = W4 m c (Proc.devRef .tc main_arg0) := W5_frame m c main_arg0 (by decide)
    _ = W2 m c (Proc.devRef .tc main_arg0) := W4_eq_W2 m c main_arg0 (by decide) (by decide)
    _ = W1 m c (Proc.devRef .tc main_arg0) :=
        (W2_arr m c 0).trans (((dat0 (V1 m) (O0 (F := F)) (B0 (F := F)) c).arrAt_in 0 rfl _).trans (A_eq0 (V1 m) (O0 (F := F)) (B0 (F := F)) c 0))
    _ = W0 m c (Proc.devRef .tc main_arg0) := after_hostA _ main_arg0 (by decide)
    _ = m ((c : Thread nD τ).loc main_arg0) := rfl

theorem W6_main_arg1 (c : Dev nD) : W6 m c (Proc.devRef .tc main_arg1) = m ((c : Thread nD τ).loc main_arg1) :=
  W6_of_frame m c main_arg1 (by decide) (by decide) (by decide) (by decide) (by decide) (by decide)
theorem W6_main_arg2 (c : Dev nD) : W6 m c (Proc.devRef .tc main_arg2) = m ((c : Thread nD τ).loc main_arg2) :=
  W6_of_frame m c main_arg2 (by decide) (by decide) (by decide) (by decide) (by decide) (by decide)

/-- The second region reads the edge-side operand through its input window 3. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := after_hostC _ main_arg3 (by decide)
    _ = W4 m c (Proc.devRef .tc main_arg3) :=
        (W5_win3 m c).trans (((dat2 (V4 m) (O1 (F := F)) (B1 (F := F)) c).arrAt_in 3 rfl _).trans (A_eq2 (V4 m) (O1 (F := F)) (B1 (F := F)) c 3))
    _ = W2 m c (Proc.devRef .tc main_arg3) := W4_eq_W2 m c main_arg3 (by decide) (by decide)
    _ = W1 m c (Proc.devRef .tc main_arg3) := W2_of_ne m c main_arg3 (by decide)
    _ = W0 m c (Proc.devRef .tc main_arg3) := after_hostA _ main_arg3 (by decide)
    _ = m ((c : Thread nD τ).loc main_arg3) := rfl

theorem W6_main_arg4 (c : Dev nD) : W6 m c (Proc.devRef .tc main_arg4) = m ((c : Thread nD τ).loc main_arg4) :=
  W6_of_frame m c main_arg4 (by decide) (by decide) (by decide) (by decide) (by decide) (by decide)
theorem W6_main_arg5 (c : Dev nD) : W6 m c (Proc.devRef .tc main_arg5) = m ((c : Thread nD τ).loc main_arg5) :=
  W6_of_frame m c main_arg5 (by decide) (by decide) (by decide) (by decide) (by decide) (by decide)
theorem W6_main_arg6 (c : Dev nD) : W6 m c (Proc.devRef .tc main_arg6) = m ((c : Thread nD τ).loc main_arg6) :=
  W6_of_frame m c main_arg6 (by decide) (by decide) (by decide) (by decide) (by decide) (by decide)
theorem W6_main_arg7 (c : Dev nD) : W6 m c (Proc.devRef .tc main_arg7) = m ((c : Thread nD τ).loc main_arg7) :=
  W6_of_frame m c main_arg7 (by decide) (by decide) (by decide) (by decide) (by decide) (by decide)
theorem W6_main_arg8 (c : Dev nD) : W6 m c (Proc.devRef .tc main_arg8) = m ((c : Thread nD τ).loc main_arg8) :=
  W6_of_frame m c main_arg8 (by decide) (by decide) (by decide) (by decide) (by decide) (by decide)
theorem W6_main_arg9 (c : Dev nD) : W6 m c (Proc.devRef .tc main_arg9) = m ((c : Thread nD τ).loc main_arg9) :=
  W6_of_frame m c main_arg9 (by decide) (by decide) (by decide) (by decide) (by decide) (by decide)

/-- Every argument buffer ends as launched. -/
theorem W6_arg (c : Dev nD) (b : Ref sig .tc)
    (hb : b ∈ ({main_arg0, main_arg1, main_arg2, main_arg3, main_arg4, main_arg5, main_arg6, main_arg7, main_arg8, main_arg9} : Finset (Ref sig .tc))) :
    W6 m c (Proc.devRef .tc b) = m ((c : Thread nD τ).loc b) := by
  simp only [Finset.mem_insert, Finset.mem_singleton] at hb
  rcases hb with rfl | rfl | rfl | rfl | rfl | rfl | rfl | rfl | rfl | rfl
  · exact W6_main_arg0 m c
  · exact W6_main_arg1 m c
  · exact W6_main_arg2 m c
  · exact W6_main_arg3 m c
  · exact W6_main_arg4 m c
  · exact W6_main_arg5 m c
  · exact W6_main_arg6 m c
  · exact W6_main_arg7 m c
  · exact W6_main_arg8 m c
  · exact W6_main_arg9 m c

end Args

end Cert.KernelIdeal.Hand

end
-- ==== Proof.ScClaims.lean ====
/-
  The kernel program's run read for the claims: every argument ends as launched, and the result buffer
  ends at the last boundary's contents.
-/
import proofs.«206068_g62534723830210_cont_9to1_m_587_24_alg».proof.Proof.ScMain
import proofs.«206068_g62534723830210_cont_9to1_m_587_24_alg».proof.Proof.ScArgs

set_option maxRecDepth 16384

noncomputable section

namespace Cert.KernelIdeal.Hand

open Cert.KernelIdeal Cert.KernelIdeal.Gen

open Idealize.ShloMosaic Idealize.ShloMosaic.TcCoe
open Idealize.SL Idealize.SL.Sem
open Idealize.ShloMosaic.SparseCore.Cfg (HIx)

variable {F : FTy → Type} [FloatOps F] [∀ e, Nonempty (Elt F e)]

variable (m : (ℓ : Loc nD τ sig) → Buf (Elt F) ℓ) (ρ : Dev nD → PrngReg)

/-- The frame: every weakly fair execution of the whole mesh terminates, and the ten arguments end as launched. -/
theorem frame_of_run (htile : (K (F := F)).TileObl (D (F := F)) 𝒱 (PP m) v₀ 0) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.KernelIdeal.defs (F := F)) _ _).mono (fun r h c =>
    ⟨(h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c)⟩) (run_main m ρ htile)

/-- The same run with the result named: the result buffer ends at the last boundary's contents. -/
theorem value_of_run (htile : (K (F := F)).TileObl (D (F := F)) 𝒱 (PP m) v₀ 0) :
    θ_run (Cert.KernelIdeal.defs (F := F)) (Cert.KernelIdeal.threads (F := F)) ⟨m, fun _ => 0, ρ⟩ (fun r => ∀ c : Dev nD,
      r.2.mem ((c.tc : Thread nD τ).loc main_v15) = W6 m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.KernelIdeal.defs (F := F)) _ _).mono (fun r h c =>
    ⟨h c _ (mem_uc main_v15 (by decide)),
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c)⟩) (run_main m ρ htile)

end Cert.KernelIdeal.Hand

end
-- ==== Proof.WScCommon.lean ====
/-
  The kernel as printed (the word-level instance) as the SparseCore launch theorem sees it: the program's configuration of
  SparseCore calls, the body table of its two TensorCore pipelines and its vector-subcore kernel,
  and the ghost state the proof runs over — the launch handshakes' rounds, the pipelines' staging
  cells' rounds, and the counters of the tiles' own transfers.
-/
import proofs.«206068_g62534723830210_cont_9to1_m_587_24_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«206068_g62534723830210_cont_9to1_m_587_24_alg».proof.Proof.Gen.Kernel
import proofs.«206068_g62534723830210_cont_9to1_m_587_24_alg».proof.Proof.Gen.Kernel.Skeleton
import proofs.«206068_g62534723830210_cont_9to1_m_587_24_alg».proof.Proof.Gen.Kernel.Launch
import proofs.«206068_g62534723830210_cont_9to1_m_587_24_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

end Cert.Kernel.Hand

end
-- ==== Proof.WScPay.lean ====
/-
  What the launch handshakes carry. The gather's three HBM arrays are the table (20000 rows of 128,
  the two projected copies of the node features), the list of 640000 row numbers, and the output
  (640000 rows of 128). The kernel cuts the output, and the list with it, into 2500 blocks of 256
  rows; tile w of the 32 takes the blocks from lo w on, cnt w of them (79 for the first four tiles,
  78 for the others: 4 * 79 + 28 * 78 = 2500). Every tile reads the whole table, through a read share.
  A tile hands back its blocks of the output holding, row by row, the table's row the list names.
-/
import proofs.«206068_g62534723830210_cont_9to1_m_587_24_alg».proof.Proof.WScCommon
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev EH : Emb UH (MT nD τ sig (HIx 1) (Elt F) ℕ UU ℕ) := embL

/-! ## The three arrays -/

abbrev tLoc (d : Dev nD) : Loc nD τ sig := (SparseCore.T d).loc main_v6
abbrev iLoc (d : Dev nD) : Loc nD τ sig := (SparseCore.T d).loc main_v2
abbrev oLoc (d : Dev nD) : Loc nD τ sig := (SparseCore.T d).loc main_v7

abbrev tV : Memref sig .scVector .hbm S20000x128 .f32 := Memref.whole main_v6_scv
abbrev iV : Memref sig .scVector .hbm S1x640000 .i32 := Memref.whole main_v2_scv
abbrev oV : Memref sig .scVector .hbm S640000x128 .f32 := Memref.whole main_v7_scv

/-! ## The blocks and the tiles' ranges -/

/-- The first block of tile `w`. -/
def lo (w : ℕ) : ℕ := if w < 4 then 79 * w else 78 * w + 4
/-- How many blocks tile `w` takes. -/
def cnt (w : ℕ) : ℕ := if w < 4 then 79 else 78

theorem lo_add_lt {w k : ℕ} (hw : w < 32) (hk : k < cnt w) : lo w + k < 2500 := by
  by_cases h : w < 4
  · have e1 : lo w = 79 * w := if_pos h
    have e2 : cnt w = 79 := if_pos h
    rw [e1]; rw [e2] at hk; omega
  · have e1 : lo w = 78 * w + 4 := if_neg h
    have e2 : cnt w = 78 := if_neg h
    rw [e1]; rw [e2] at hk; omega

theorem oRect_inb (b : Fin 2500) : ∀ a, (![256 * b.val, 0] : Fin 2 → Nat) a + S256x128.size a ≤ S640000x128.size a := by
  intro a; match a with
  | 0 => have := b.isLt; simp; omega
  | 1 => simp
theorem iRect_inb (b : Fin 2500) : ∀ a, (![0, 256 * b.val] : Fin 2 → Nat) a + S1x256.size a ≤ S1x640000.size a := by
  intro a; match a with
  | 0 => simp
  | 1 => have := b.isLt; simp; omega

/-- Block `b` of the output: its rows 256 b … 256 b + 255; and of the list. -/
abbrev oRect (b : Fin 2500) : Rect S640000x128 := Rect.unit (s := S640000x128) ![256 * b.val, 0] S256x128.size (oRect_inb b)
abbrev iRect (b : Fin 2500) : Rect S1x640000 := Rect.unit (s := S1x640000) ![0, 256 * b.val] S1x256.size (iRect_inb b)
abbrev oBlkSet (b : Fin 2500) : Finset S640000x128.Idx := ((oV).view.slice (oRect b)).set
abbrev iBlkSet (b : Fin 2500) : Finset S1x640000.Idx := ((iV).view.slice (iRect b)).set

/-- Tile `(c, i)`'s number among the 32. -/
def tw (c : Fin 2) (i : Fin 16) : Fin 32 := ⟨16 * c.val + i.val, by omega⟩
/-- Its `k`-th block. -/
def tblk (w : Fin 32) (k : Fin (cnt w.val)) : Fin 2500 := ⟨lo w.val + k.val, lo_add_lt w.isLt k.isLt⟩

/-! ## What the gather leaves -/

/-- The row of the table that entry `r` of the list names (a total function: the word modulo the table's height). -/
def rowAt (ix : Buf (Elt F) (iLoc (0 : Dev nD))) (r : Fin 640000) : Fin 20000 :=
  ⟨(ix (ValueIdx.ix2 (0 : Fin 1) r)).toNat % 20000, Nat.mod_lt _ (by decide)⟩

/-- The output after the gather: row `r` is the table's row `rowAt ix r`. -/
@[irreducible] def gath (tbl : Buf (Elt F) (tLoc (0 : Dev nD))) (ix : Buf (Elt F) (iLoc (0 : Dev nD))) : Buf (Elt F) (oLoc (0 : Dev nD)) :=
  fun j => tbl (ValueIdx.ix2 (rowAt ix ⟨(j 0).val, (j 0).isLt⟩) (⟨(j 1).val, (j 1).isLt⟩ : Fin 128))

theorem gath_apply (tbl : Buf (Elt F) (tLoc (0 : Dev nD))) (ix : Buf (Elt F) (iLoc (0 : Dev nD))) (j : S640000x128.Idx) :
    gath tbl ix j = tbl (ValueIdx.ix2 (rowAt ix ⟨(j 0).val, (j 0).isLt⟩) (⟨(j 1).val, (j 1).isLt⟩ : Fin 128)) := by
  unfold gath; rfl

/-! ## The payloads -/

section Pay

variable (tbl : Buf (Elt F) (tLoc (0 : Dev nD))) (ix : Buf (Elt F) (iLoc (0 : Dev nD))) (o0 : Buf (Elt F) (oLoc (0 : Dev nD)))

/-- What a tile holds of the three arrays: a read share of the whole table, its blocks of the list, its blocks of
    the output at contents `o`. -/
def tileRes (d : Dev nD) (w : Fin 32) (o : Buf (Elt F) (oLoc (0 : Dev nD))) : sProp 𝕄 :=
  iprop((tLoc d ↦{Transfers.shareTok fullShare 32 w} tbl)
    ∗ bigSep Finset.univ fun k : Fin (cnt w.val) =>
        iprop((iLoc d ↦[iBlkSet (tblk w k)]{fullShare} ix) ∗ (oLoc d ↦[oBlkSet (tblk w k)]{fullShare} o)))

/-- The one SparseCore call: the start hands a SparseCore its sixteen tiles' holdings, the output as the launch left
    it; the done hands them back, the output's blocks gathered. A tile's go and taskDone carry its own. -/
def P : (K (F := F)).Pay (nD := nD) (Val := Elt F) (Name := ℕ) (U := UU) where
  st := fun q d c => match q with
    | 0 => bigSep Finset.univ fun i : Fin 16 => tileRes tbl ix d (tw (Fin.cast nCore_zero c) i) o0
  dn := fun q d c => match q with
    | 0 => bigSep Finset.univ fun i : Fin 16 => tileRes tbl ix d (tw (Fin.cast nCore_zero c) i) (gath tbl ix)
  go := fun q d c i => match q with
    | 0 => tileRes tbl ix d (tw (Fin.cast nCore_zero c) (Fin.cast nSub_zero i)) o0
  td := fun q d c i => match q with
    | 0 => tileRes tbl ix d (tw (Fin.cast nCore_zero c) (Fin.cast nSub_zero i)) (gath tbl ix)
  x := fun _ _ => iprop(emp)

instance tileRes_storable (d : Dev nD) (w : Fin 32) (o : Buf (Elt F) (oLoc (0 : Dev nD))) :
    BI.Storable (upEmb : UEmb _ 𝕄) (tileRes tbl ix d w o) := by
  unfold tileRes; infer_instance

attribute [irreducible] tileRes

instance P_storable : (P (F := F) tbl ix o0).IsStorable where
  st q d c := match q with
    | 0 => (inferInstance : BI.Storable (upEmb : UEmb _ 𝕄) (bigSep Finset.univ fun i : Fin 16 => tileRes tbl ix d (tw (Fin.cast nCore_zero c) i) o0))
  dn q d c := match q with
    | 0 => (inferInstance : BI.Storable (upEmb : UEmb _ 𝕄) (bigSep Finset.univ fun i : Fin 16 => tileRes tbl ix d (tw (Fin.cast nCore_zero c) i) (gath tbl ix)))
  go q d c i := match q with
    | 0 => (inferInstance : BI.Storable (upEmb : UEmb _ 𝕄) (tileRes tbl ix d (tw (Fin.cast nCore_zero c) (Fin.cast nSub_zero i)) o0))
  td q d c i := match q with
    | 0 => (inferInstance : BI.Storable (upEmb : UEmb _ 𝕄) (tileRes tbl ix d (tw (Fin.cast nCore_zero c) (Fin.cast nSub_zero i)) (gath tbl ix)))

end Pay

end Cert.Kernel.Hand

end
-- ==== Proof.WScRegion0.lean ====
/-
  The first TensorCore region: one matrix product per grid point. At point (t, i) the body reads
  block i of the node features (2000 rows of 128) and one half of the first 256 rows of the first
  layer's weights (128 x 128; the half is chosen by t), and writes their product as block 5 t + i
  of the table (20000 rows of 128). Stated at any contents V of the arrays at the region's entry and
  any tallies O the core owes throughout (it still owes the SparseCores their start signals).
-/
import proofs.«206068_g62534723830210_cont_9to1_m_587_24_alg».proof.Proof.WScPay
import Idealize.ShloMosaic.Lib.Pipeline.FrameBody
import Idealize.ShloMosaic.Lib.Pipeline.RegionsLoop
import Idealize.ShloMosaic.Lib.Pipeline.FrameSuffix
import Idealize.ShloMosaic.Lib.Ring

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

section Region0

variable (V : (c : Dev nD) → (b : Ref sig .tc) → Buf (Elt F) ((c : Thread nD τ).loc b))
variable (O : Dev nD → CellTallies nD τ sig (HIx 1))
variable (B : Dev nD → Set (SemLoc sig × HIx 1))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 2000 x 128 buffer, and the whole 128 x 128 one. -/
abbrev rA : Rect S2000x128 := Rect.unit (s := S2000x128) ![0, 0] S2000x128.size inb_S2000x128_S2000x128_0_0
abbrev rW : Rect S128x128 := Rect.unit (s := S128x128) ![0, 0] S128x128.size inb_S128x128_S128x128_0_0

/-- The output buffer after the body: its one store, the product of the two input blocks. -/
def out0_2 (x0 : Vec F S2000x128 .f32) (x1 : Vec F S128x128 .f32) : Vec F S2000x128 .f32 :=
  View.canon [⟨rA, k0_pay1 (View.ld x0 rA) (View.ld x1 rW)⟩]

theorem cover0_2 (p0 : Vec F S2000x128 .f32) (y : S2000x128.Idx) :
    ∃ pc ∈ ([⟨rA, p0⟩] : List (View.Piece (Elt F) S2000x128 .f32)), y ∈ pc.1.set :=
  View.cover_of_tiled [⟨rA, p0⟩] S2000x128.size (by rfl) y

set_option maxHeartbeats 1000000 in
/-- The body on whole staging buffers: the inputs are left as found, the output holds the product. -/
theorem sound_kernel0 (c : Dev nD) (E : Set ℕ) (i : grid0.Coords) (arg2 : Memref sig .tc .vmem S2000x128 .f32) (harg2 : arg2.IsWhole)
    (arg3 : Memref sig .tc .vmem S128x128 .f32) (harg3 : arg3.IsWhole) (arg4 : Memref sig .tc .vmem S2000x128 .f32) (harg4 : arg4.IsWhole)
    (x0 : Vec F S2000x128 .f32) (x1 : Vec F S128x128 .f32) (Kc : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ Kc ⟨⟩))
      ⊢ wp frame (wpE (defs₀ (F := F)) Variants.none c none) E (cc0_body i arg2 harg2 arg3 harg3 arg4 harg4) Kc := by
  simp only [cc0_body_eq_skeleton]; unfold cc0_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What rides through the region untouched: the scoped buffers no window stages, and the generator register. -/
def Φ0 (c : Dev nD) : sProp 𝕄 :=
  iprop(Pipeline.scopedRest (Ix := HIx 1) (Name := ℕ) (U := UU) (Lvl := ℕ) (Val := Elt F) spec0 c ∗ ∃ r, prngReg c r)

/-- The proof data of the first pipeline on core `c`. -/
def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Φ0 c
  q _ := fullShare
  owed _ := O c
  recorded _ := B c

theorem A_eq0 (c : Dev nD) (w : Fin cfg0.W) : (dat0 V O B c).A w = V c (Pipeline.arrRef spec0 w) := by
  dsimp only [dat0]
theorem after0_0 (c : Dev nD) (t : Fin cfg0.N) : (dat0 V O B c).after 0 t = iblk0 V c 0 t := by dsimp only [dat0]
theorem after0_1 (c : Dev nD) (t : Fin cfg0.N) : (dat0 V O B c).after 1 t = iblk0 V c 1 t := by dsimp only [dat0]
theorem after0_2 (c : Dev nD) (t : Fin cfg0.N) : (dat0 V O B c).after 2 t = out0_2 (iblk0 V c 0 t) (iblk0 V c 1 t) := by dsimp only [dat0]
theorem before0_0 (c : Dev nD) (t : Fin cfg0.N) (d) : (dat0 V O B c).before 0 t d = iblk0 V c 0 t :=
  before0_0_of V (dat0 V O B c) (A_eq0 V O B c 0) (after0_0 V O B c) t d
theorem before0_1 (c : Dev nD) (t : Fin cfg0.N) (d) : (dat0 V O B c).before 1 t d = iblk0 V c 1 t :=
  before0_1_of V (dat0 V O B c) (A_eq0 V O B c 1) (after0_1 V O B c) t d

def bodyPre0 (c : Dev nD) (t : Fin cfg0.N) : sProp 𝕄 :=
  iprop((dat0 V O B c).Φ t.castSucc ∗ (dat0 V O B c).owesAt none t.castSucc
    ∗ (∃ d, owns (c : Thread nD τ) (st0_0 t) fullShare ((dat0 V O B c).before 0 t d))
    ∗ (∃ d, owns (c : Thread nD τ) (st0_1 t) fullShare ((dat0 V O B c).before 1 t d))
    ∗ (∃ d, owns (c : Thread nD τ) (st0_2 t) fullShare ((dat0 V O B c).before 2 t d)))

def bodyPost0 (c : Dev nD) (t : Fin cfg0.N) : sProp 𝕄 :=
  iprop((dat0 V O B c).Φ t.succ ∗ (dat0 V O B c).owesAt none t.succ
    ∗ owns (c : Thread nD τ) (st0_0 t) fullShare ((dat0 V O B c).after 0 t)
    ∗ owns (c : Thread nD τ) (st0_1 t) fullShare ((dat0 V O B c).after 1 t)
    ∗ owns (c : Thread nD τ) (st0_2 t) fullShare ((dat0 V O B c).after 2 t))

theorem sound_body0 (c : Dev nD) (t : Fin cfg0.N) :
    bodyPre0 V O B c t ⊢ wp frame (wpE (defs₀ (F := F)) Variants.none c none) Set.univ (bodyAt0 t) (fun _ => bodyPost0 V O B c t) := by
  unfold bodyPre0 bodyPost0 bodyAt0
  simp only [before0_0, before0_1]
  rw [show (dat0 V O B c).Φ t.succ = (dat0 V O B c).Φ t.castSucc from rfl,
    show (dat0 V O B c).owesAt none t.succ = (dat0 V O B c).owesAt none t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V O B c) (defs₀ (F := F)) Variants.none none Set.univ := fun t => by
  rw [bigSep_W0, bigSep_W0]
  exact sound_body0 V O B c t

end Region0

end Cert.Kernel.Hand

end
-- ==== Proof.WScRegion2.lean ====
/-
  The second TensorCore region: the edge network's tail, one block of 3200 edges per grid point.
  At point i the body reads block i of the gathered sender rows and block 100 + i of the gathered
  receiver rows (both out of the one gathered array), block i of the transposed edge features, the
  global features, three slices of the first layer's weights, its bias, the transposed second
  layer's weights and bias, and the normalisation's scale and shift; it writes block i of the
  transposed result. Stated at any contents V of the arrays at the region's entry and any tallies O
  the core owes throughout.
-/
import proofs.«206068_g62534723830210_cont_9to1_m_587_24_alg».proof.Proof.WScRegion0

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

section Region2

variable (V : (c : Dev nD) → (b : Ref sig .tc) → Buf (Elt F) ((c : Thread nD τ).loc b))
variable (O : Dev nD → CellTallies nD τ sig (HIx 1))
variable (B : Dev nD → Set (SemLoc sig × HIx 1))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) (HIx 1) ℕ UU ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) (HIx 1) ℕ UU ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) (HIx 1) ℕ UU ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) (HIx 1) ℕ UU ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
theorem before2_9_of {c : Dev nD} (dat : Dat τ (Elt F) (HIx 1) ℕ UU ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
theorem before2_10_of {c : Dev nD} (dat : Dat τ (Elt F) (HIx 1) ℕ UU ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)

/-- The whole buffers the body loads and stores. -/
abbrev rB : Rect S3200x128 := Rect.unit (s := S3200x128) ![0, 0] S3200x128.size inb_S3200x128_S3200x128_0_0
abbrev rE : Rect S16x3200 := Rect.unit (s := S16x3200) ![0, 0] S16x3200.size inb_S16x3200_S16x3200_0_0
abbrev rU : Rect S1x16 := Rect.unit (s := S1x16) ![0, 0] S1x16.size inb_S1x16_S1x16_0_0
abbrev rM : Rect S16x128 := Rect.unit (s := S16x128) ![0, 0] S16x128.size inb_S16x128_S16x128_0_0
abbrev rb : Rect S1x128 := Rect.unit (s := S1x128) ![0, 0] S1x128.size inb_S1x128_S1x128_0_0
abbrev rc : Rect S16x1 := Rect.unit (s := S16x1) ![0, 0] S16x1.size inb_S16x1_S16x1_0_0

/-- The result block as a function of the eleven input blocks: the two hidden layers, then the normalisation. -/
def tail2 (x0 : Vec F S3200x128 .f32) (x1 : Vec F S3200x128 .f32) (x2 : Vec F S16x3200 .f32) (x3 : Vec F S1x16 .f32) (x4 : Vec F S16x128 .f32) (x5 : Vec F S16x128 .f32) (x6 : Vec F S1x128 .f32) (x7 : Vec F S16x128 .f32) (x8 : Vec F S16x1 .f32) (x9 : Vec F S16x1 .f32) (x10 : Vec F S16x1 .f32) : FVec F S16x3200 .f32 :=
  k2_pay1
    (k2_pay2 (View.ld x0 rB) (View.ld x1 rB) (View.ld x2 rE) (View.ld x4 rM) (View.ld x3 rU) (View.ld x5 rM) (View.ld x6 rb) (View.ld x7 rM) (View.ld x8 rc))
    (k2_pay3 (View.ld x0 rB) (View.ld x1 rB) (View.ld x2 rE) (View.ld x4 rM) (View.ld x3 rU) (View.ld x5 rM) (View.ld x6 rb) (View.ld x7 rM) (View.ld x8 rc))
    (Scalar.ofBits .f32 0x41800000#32) (View.ld x9 rc) (View.ld x10 rc)

/-- The output buffer after the body: its one store. -/
def out2_11 (x0 : Vec F S3200x128 .f32) (x1 : Vec F S3200x128 .f32) (x2 : Vec F S16x3200 .f32) (x3 : Vec F S1x16 .f32) (x4 : Vec F S16x128 .f32) (x5 : Vec F S16x128 .f32) (x6 : Vec F S1x128 .f32) (x7 : Vec F S16x128 .f32) (x8 : Vec F S16x1 .f32) (x9 : Vec F S16x1 .f32) (x10 : Vec F S16x1 .f32) : Vec F S16x3200 .f32 :=
  View.canon [⟨rE, tail2 x0 x1 x2 x3 x4 x5 x6 x7 x8 x9 x10⟩]

theorem cover2_11 (p0 : Vec F S16x3200 .f32) (y : S16x3200.Idx) :
    ∃ pc ∈ ([⟨rE, p0⟩] : List (View.Piece (Elt F) S16x3200 .f32)), y ∈ pc.1.set :=
  View.cover_of_tiled [⟨rE, p0⟩] S16x3200.size (by rfl) y

set_option maxHeartbeats 4000000 in
/-- The body on whole staging buffers: the inputs are left as found, the output holds the tail of the input blocks. -/
theorem sound_kernel2 (c : Dev nD) (E : Set ℕ) (i : grid2.Coords) (arg1 : Memref sig .tc .vmem S3200x128 .f32) (harg1 : arg1.IsWhole) (arg2 : Memref sig .tc .vmem S3200x128 .f32) (harg2 : arg2.IsWhole) (arg3 : Memref sig .tc .vmem S16x3200 .f32) (harg3 : arg3.IsWhole) (arg4 : Memref sig .tc .vmem S1x16 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S1x128 .f32) (harg7 : arg7.IsWhole) (arg8 : Memref sig .tc .vmem S16x128 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S16x1 .f32) (harg11 : arg11.IsWhole) (arg12 : Memref sig .tc .vmem S16x3200 .f32) (harg12 : arg12.IsWhole)
    (x0 : Vec F S3200x128 .f32) (x1 : Vec F S3200x128 .f32) (x2 : Vec F S16x3200 .f32) (x3 : Vec F S1x16 .f32) (x4 : Vec F S16x128 .f32) (x5 : Vec F S16x128 .f32) (x6 : Vec F S1x128 .f32) (x7 : Vec F S16x128 .f32) (x8 : Vec F S16x1 .f32) (x9 : Vec F S16x1 .f32) (x10 : Vec F S16x1 .f32) (Kc : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out2_11 x0 x1 x2 x3 x4 x5 x6 x7 x8 x9 x10)) -∗ Kc ⟨⟩))
      ⊢ wp frame (wpE (defs₀ (F := F)) Variants.none c none) E (cc2_body i arg1 harg1 arg2 harg2 arg3 harg3 arg4 harg4 arg5 harg5 arg6 harg6 arg7 harg7 arg8 harg8 arg9 harg9 arg10 harg10 arg11 harg11 arg12 harg12) Kc := by
  simp only [cc2_body_eq_skeleton]; unfold cc2_body_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover2_11 _)

/-- What rides through the region untouched: the scoped buffers no window stages, and the generator register. -/
def Φ2 (c : Dev nD) : sProp 𝕄 :=
  iprop(Pipeline.scopedRest (Ix := HIx 1) (Name := ℕ) (U := UU) (Lvl := ℕ) (Val := Elt F) spec2 c ∗ ∃ r, prngReg c r)

/-- The proof data of the second pipeline on core `c`. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t)
  Φ _ := Φ2 c
  q w := match w with
    | ⟨0, _⟩ => (fullShare : PosShare TreeShare).left
    | ⟨1, _⟩ => (fullShare : PosShare TreeShare).right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := O c
  recorded _ := B c

theorem A_eq2 (c : Dev nD) (w : Fin cfg2.W) : (dat2 V O B c).A w = V c (Pipeline.arrRef spec2 w) := by
  dsimp only [dat2]
theorem after2_0 (c : Dev nD) (t : Fin cfg2.N) : (dat2 V O B c).after 0 t = iblk2 V c 0 t := by dsimp only [dat2]
theorem after2_1 (c : Dev nD) (t : Fin cfg2.N) : (dat2 V O B c).after 1 t = iblk2 V c 1 t := by dsimp only [dat2]
theorem after2_2 (c : Dev nD) (t : Fin cfg2.N) : (dat2 V O B c).after 2 t = iblk2 V c 2 t := by dsimp only [dat2]
theorem after2_3 (c : Dev nD) (t : Fin cfg2.N) : (dat2 V O B c).after 3 t = iblk2 V c 3 t := by dsimp only [dat2]
theorem after2_4 (c : Dev nD) (t : Fin cfg2.N) : (dat2 V O B c).after 4 t = iblk2 V c 4 t := by dsimp only [dat2]
theorem after2_5 (c : Dev nD) (t : Fin cfg2.N) : (dat2 V O B c).after 5 t = iblk2 V c 5 t := by dsimp only [dat2]
theorem after2_6 (c : Dev nD) (t : Fin cfg2.N) : (dat2 V O B c).after 6 t = iblk2 V c 6 t := by dsimp only [dat2]
theorem after2_7 (c : Dev nD) (t : Fin cfg2.N) : (dat2 V O B c).after 7 t = iblk2 V c 7 t := by dsimp only [dat2]
theorem after2_8 (c : Dev nD) (t : Fin cfg2.N) : (dat2 V O B c).after 8 t = iblk2 V c 8 t := by dsimp only [dat2]
theorem after2_9 (c : Dev nD) (t : Fin cfg2.N) : (dat2 V O B c).after 9 t = iblk2 V c 9 t := by dsimp only [dat2]
theorem after2_10 (c : Dev nD) (t : Fin cfg2.N) : (dat2 V O B c).after 10 t = iblk2 V c 10 t := by dsimp only [dat2]
theorem after2_11 (c : Dev nD) (t : Fin cfg2.N) : (dat2 V O B c).after 11 t = out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) := by dsimp only [dat2]
theorem before2_0 (c : Dev nD) (t : Fin cfg2.N) (d) : (dat2 V O B c).before 0 t d = iblk2 V c 0 t :=
  before2_0_of V (dat2 V O B c) (A_eq2 V O B c 0) (after2_0 V O B c) t d
theorem before2_1 (c : Dev nD) (t : Fin cfg2.N) (d) : (dat2 V O B c).before 1 t d = iblk2 V c 1 t :=
  before2_1_of V (dat2 V O B c) (A_eq2 V O B c 1) (after2_1 V O B c) t d
theorem before2_2 (c : Dev nD) (t : Fin cfg2.N) (d) : (dat2 V O B c).before 2 t d = iblk2 V c 2 t :=
  before2_2_of V (dat2 V O B c) (A_eq2 V O B c 2) (after2_2 V O B c) t d
theorem before2_3 (c : Dev nD) (t : Fin cfg2.N) (d) : (dat2 V O B c).before 3 t d = iblk2 V c 3 t :=
  before2_3_of V (dat2 V O B c) (A_eq2 V O B c 3) (after2_3 V O B c) t d
theorem before2_4 (c : Dev nD) (t : Fin cfg2.N) (d) : (dat2 V O B c).before 4 t d = iblk2 V c 4 t :=
  before2_4_of V (dat2 V O B c) (A_eq2 V O B c 4) (after2_4 V O B c) t d
theorem before2_5 (c : Dev nD) (t : Fin cfg2.N) (d) : (dat2 V O B c).before 5 t d = iblk2 V c 5 t :=
  before2_5_of V (dat2 V O B c) (A_eq2 V O B c 5) (after2_5 V O B c) t d
theorem before2_6 (c : Dev nD) (t : Fin cfg2.N) (d) : (dat2 V O B c).before 6 t d = iblk2 V c 6 t :=
  before2_6_of V (dat2 V O B c) (A_eq2 V O B c 6) (after2_6 V O B c) t d
theorem before2_7 (c : Dev nD) (t : Fin cfg2.N) (d) : (dat2 V O B c).before 7 t d = iblk2 V c 7 t :=
  before2_7_of V (dat2 V O B c) (A_eq2 V O B c 7) (after2_7 V O B c) t d
theorem before2_8 (c : Dev nD) (t : Fin cfg2.N) (d) : (dat2 V O B c).before 8 t d = iblk2 V c 8 t :=
  before2_8_of V (dat2 V O B c) (A_eq2 V O B c 8) (after2_8 V O B c) t d
theorem before2_9 (c : Dev nD) (t : Fin cfg2.N) (d) : (dat2 V O B c).before 9 t d = iblk2 V c 9 t :=
  before2_9_of V (dat2 V O B c) (A_eq2 V O B c 9) (after2_9 V O B c) t d
theorem before2_10 (c : Dev nD) (t : Fin cfg2.N) (d) : (dat2 V O B c).before 10 t d = iblk2 V c 10 t :=
  before2_10_of V (dat2 V O B c) (A_eq2 V O B c 10) (after2_10 V O B c) t d

def bodyPre2 (c : Dev nD) (t : Fin cfg2.N) : sProp 𝕄 :=
  iprop((dat2 V O B c).Φ t.castSucc ∗ (dat2 V O B c).owesAt none t.castSucc
    ∗ (∃ d, owns (c : Thread nD τ) (st2_0 t) fullShare ((dat2 V O B c).before 0 t d))
    ∗ (∃ d, owns (c : Thread nD τ) (st2_1 t) fullShare ((dat2 V O B c).before 1 t d))
    ∗ (∃ d, owns (c : Thread nD τ) (st2_2 t) fullShare ((dat2 V O B c).before 2 t d))
    ∗ (∃ d, owns (c : Thread nD τ) (st2_3 t) fullShare ((dat2 V O B c).before 3 t d))
    ∗ (∃ d, owns (c : Thread nD τ) (st2_4 t) fullShare ((dat2 V O B c).before 4 t d))
    ∗ (∃ d, owns (c : Thread nD τ) (st2_5 t) fullShare ((dat2 V O B c).before 5 t d))
    ∗ (∃ d, owns (c : Thread nD τ) (st2_6 t) fullShare ((dat2 V O B c).before 6 t d))
    ∗ (∃ d, owns (c : Thread nD τ) (st2_7 t) fullShare ((dat2 V O B c).before 7 t d))
    ∗ (∃ d, owns (c : Thread nD τ) (st2_8 t) fullShare ((dat2 V O B c).before 8 t d))
    ∗ (∃ d, owns (c : Thread nD τ) (st2_9 t) fullShare ((dat2 V O B c).before 9 t d))
    ∗ (∃ d, owns (c : Thread nD τ) (st2_10 t) fullShare ((dat2 V O B c).before 10 t d))
    ∗ (∃ d, owns (c : Thread nD τ) (st2_11 t) fullShare ((dat2 V O B c).before 11 t d)))

def bodyPost2 (c : Dev nD) (t : Fin cfg2.N) : sProp 𝕄 :=
  iprop((dat2 V O B c).Φ t.succ ∗ (dat2 V O B c).owesAt none t.succ
    ∗ owns (c : Thread nD τ) (st2_0 t) fullShare ((dat2 V O B c).after 0 t)
    ∗ owns (c : Thread nD τ) (st2_1 t) fullShare ((dat2 V O B c).after 1 t)
    ∗ owns (c : Thread nD τ) (st2_2 t) fullShare ((dat2 V O B c).after 2 t)
    ∗ owns (c : Thread nD τ) (st2_3 t) fullShare ((dat2 V O B c).after 3 t)
    ∗ owns (c : Thread nD τ) (st2_4 t) fullShare ((dat2 V O B c).after 4 t)
    ∗ owns (c : Thread nD τ) (st2_5 t) fullShare ((dat2 V O B c).after 5 t)
    ∗ owns (c : Thread nD τ) (st2_6 t) fullShare ((dat2 V O B c).after 6 t)
    ∗ owns (c : Thread nD τ) (st2_7 t) fullShare ((dat2 V O B c).after 7 t)
    ∗ owns (c : Thread nD τ) (st2_8 t) fullShare ((dat2 V O B c).after 8 t)
    ∗ owns (c : Thread nD τ) (st2_9 t) fullShare ((dat2 V O B c).after 9 t)
    ∗ owns (c : Thread nD τ) (st2_10 t) fullShare ((dat2 V O B c).after 10 t)
    ∗ owns (c : Thread nD τ) (st2_11 t) fullShare ((dat2 V O B c).after 11 t))

set_option maxHeartbeats 1000000 in
theorem sound_body2 (c : Dev nD) (t : Fin cfg2.N) :
    bodyPre2 V O B c t ⊢ wp frame (wpE (defs₀ (F := F)) Variants.none c none) Set.univ (bodyAt2 t) (fun _ => bodyPost2 V O B c t) := by
  unfold bodyPre2 bodyPost2 bodyAt2
  simp only [before2_0, before2_1, before2_2, before2_3, before2_4, before2_5, before2_6, before2_7, before2_8, before2_9, before2_10]
  rw [show (dat2 V O B c).Φ t.succ = (dat2 V O B c).Φ t.castSucc from rfl,
    show (dat2 V O B c).owesAt none t.succ = (dat2 V O B c).owesAt none t.castSucc from rfl,
    after2_0, after2_1, after2_2, after2_3, after2_4, after2_5, after2_6, after2_7, after2_8, after2_9, after2_10, after2_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel2 c Set.univ (grid2.coords t) _ _ _ _ _ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation2 (c : Dev nD) : BodyObligation (dat2 (F := F) V O B c) (defs₀ (F := F)) Variants.none none Set.univ := fun t => by
  rw [bigSep_W2, bigSep_W2]
  exact sound_body2 V O B c t

end Region2

end Cert.Kernel.Hand

end
-- ==== Proof.WScBounds.lean ====
/-
  The TensorCore's program as a chain: three stretches of host operations, the two TensorCore regions
  and the SparseCore call between them; and the buffers' contents at each boundary, folded through the
  program from the launch memory.
-/
import proofs.«206068_g62534723830210_cont_9to1_m_587_24_alg».proof.Proof.WScRegion2

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.StableHlo (nullary unary binary seq)

variable {F : FTy → Type} [FloatOps F]

local notation "𝕄" => MT nD τ sig (HIx 1) (Elt F) ℕ UU ℕ

/-! ## The host stretches -/

/-- Before the first region: the shifted row numbers as one list, and the three slices of the first layer's weights. -/
abbrev hostOpsA : List (HloOp τ sig (Elt F)) :=
  [ nullary main_c (fun i => lit0 (S2x1.rowMajor i)),
    unary main_c main_v0 (broadcastInDim S2x320000 ![0, 1] bcast_S2x1_S2x320000_0_1 : (⟨S2x1, .i32⟩ : BufTy).Contents (Elt F) → (⟨S2x320000, .i32⟩ : BufTy).Contents (Elt F)),
    binary main_arg1 main_v0 main_v1 (addi : (⟨S2x320000, .i32⟩ : BufTy).Contents (Elt F) → (⟨S2x320000, .i32⟩ : BufTy).Contents (Elt F) → (⟨S2x320000, .i32⟩ : BufTy).Contents (Elt F)),
    StableHlo.reshape main_v1 main_v2 rfl shapeCasts_S2x320000_S1x640000,
    unary main_arg4 main_v3 ((extractStridedSlice S256x128 ![0, 0] · slices_S288x128_S256x128_0_0) : (⟨S288x128, .f32⟩ : BufTy).Contents (Elt F) → (⟨S256x128, .f32⟩ : BufTy).Contents (Elt F)),
    unary main_arg4 main_v4 ((extractStridedSlice S16x128 ![256, 0] · slices_S288x128_S16x128_256_0) : (⟨S288x128, .f32⟩ : BufTy).Contents (Elt F) → (⟨S16x128, .f32⟩ : BufTy).Contents (Elt F)),
    unary main_arg4 main_v5 ((extractStridedSlice S16x128 ![272, 0] · slices_S288x128_S16x128_272_0) : (⟨S288x128, .f32⟩ : BufTy).Contents (Elt F) → (⟨S16x128, .f32⟩ : BufTy).Contents (Elt F)) ]

/-- Between the SparseCore call and the second region: the transposes and reshapes of the tail's operands. -/
abbrev hostOpsB : List (HloOp τ sig (Elt F)) :=
  [ unary main_arg2 main_v8 ((transpose S16x320000 [1, 0] · transposes_S320000x16_S16x320000_1_0) : (⟨S320000x16, .f32⟩ : BufTy).Contents (Elt F) → (⟨S16x320000, .f32⟩ : BufTy).Contents (Elt F)),
    StableHlo.reshape main_arg5 main_v9 rfl shapeCasts_S128_S1x128,
    unary main_arg6 main_v10 ((transpose S16x128 [1, 0] · transposes_S128x16_S16x128_1_0) : (⟨S128x16, .f32⟩ : BufTy).Contents (Elt F) → (⟨S16x128, .f32⟩ : BufTy).Contents (Elt F)),
    StableHlo.reshape main_arg7 main_v11 rfl shapeCasts_S16_S16x1,
    StableHlo.reshape main_arg8 main_v12 rfl shapeCasts_S16_S16x1,
    StableHlo.reshape main_arg9 main_v13 rfl shapeCasts_S16_S16x1 ]

/-- After the second region: the result transposed back. -/
abbrev hostOpsC : List (HloOp τ sig (Elt F)) :=
  [ unary main_v14 main_v15 ((transpose S320000x16 [1, 0] · transposes_S16x320000_S320000x16_1_0) : (⟨S16x320000, .f32⟩ : BufTy).Contents (Elt F) → (⟨S320000x16, .f32⟩ : BufTy).Contents (Elt F)) ]

/-- The program is its stretches, its two regions and the SparseCore call, in order. -/
theorem main_eq (d : Dev nD) : main (F := F) d =
    (seq hostOpsA >>= fun _ => Prog.lift (.customCall (SparseCore.inner (Pipeline.entry 0)) ()) >>= fun _ => sc.run d 0 >>= fun _ =>
      seq hostOpsB >>= fun _ => Prog.lift (.customCall (SparseCore.inner (Pipeline.entry 1)) ()) >>= fun _ => seq hostOpsC >>= fun _ => pure ⟨⟩) := rfl

/-! ## The contents at each boundary -/

section Contents

variable (m : (ℓ : Loc nD τ sig) → Buf (Elt F) ℓ)

/-- What the TensorCore owes before the SparseCore call (the call's start signals) and after it. -/
abbrev O0 : Dev nD → CellTallies nD τ sig (HIx 1) := fun d => (K (F := F)).Otc d 0
abbrev O1 : Dev nD → CellTallies nD τ sig (HIx 1) := fun d => (K (F := F)).Otc d 1
/-- The wait pairs the TensorCore may have recorded by then: those at level 0 before the call, at most 8 after it. -/
abbrev B0 : Dev nD → Set (SemLoc sig × HIx 1) := fun d => {p | (K (F := F)).lev (SparseCore.T d, p.1) p.2 ≤ 8 * 0}
abbrev B1 : Dev nD → Set (SemLoc sig × HIx 1) := fun d => {p | (K (F := F)).lev (SparseCore.T d, p.1) p.2 ≤ 8 * 1}

/-- Core `c`'s buffers at launch; -/
abbrev W0 : Dev nD → Valuation τ sig (Elt F) := fun c b => m (c, b)
/-- after the first host stretch (the first region's entry); -/
abbrev W1 : Dev nD → Valuation τ sig (Elt F) := fun c => StableHlo.after hostOpsA (W0 m c)
abbrev V1 : (c : Dev nD) → (b : Ref sig .tc) → Buf (Elt F) ((c : Thread nD τ).loc b) := fun c b => W1 m c b
/-- at the first region's exit: the table written, everything else as entered; -/
def W2 (c : Dev nD) : Valuation τ sig (Elt F) :=
  Pipeline.withArrays spec0 c (W1 m c) fun w => (dat0 (V1 m) (O0 (F := F)) (B0 (F := F)) c).arrAt w cfg0.N
abbrev V2 : (c : Dev nD) → (b : Ref sig .tc) → Buf (Elt F) ((c : Thread nD τ).loc b) := fun c b => W2 m c b
/-- after the SparseCore call: the output holds the gathered rows; -/
def W3 (c : Dev nD) : Valuation τ sig (Elt F) :=
  Function.update (W2 m c) (Proc.devRef .tc main_v7) (gath (V2 m c main_v6) (V2 m c main_v2))
/-- after the second host stretch (the second region's entry); -/
abbrev W4 : Dev nD → Valuation τ sig (Elt F) := fun c => StableHlo.after hostOpsB (W3 m c)
abbrev V4 : (c : Dev nD) → (b : Ref sig .tc) → Buf (Elt F) ((c : Thread nD τ).loc b) := fun c b => W4 m c b
/-- at the second region's exit: the transposed result written; -/
def W5 (c : Dev nD) : Valuation τ sig (Elt F) :=
  Pipeline.withArrays spec2 c (W4 m c) fun w => (dat2 (V4 m) (O1 (F := F)) (B1 (F := F)) c).arrAt w cfg2.N
/-- and at the return. -/
abbrev W6 : Dev nD → Valuation τ sig (Elt F) := fun c => StableHlo.after hostOpsC (W5 m c)

/-- No pipeline prefetches a table. -/
abbrev adm : (p : Fin 2) → (pcfgs (F := F) p).Adm := fun p => (cfgs p).toPCfg_adm

/-- Every pipeline's proof data, each at its region's entry contents. -/
def pdats : (p : Fin 2) → (c : Dev nD) → Dat τ (Elt F) (HIx 1) ℕ UU ℕ (Pipeline.pin (pcfgs (F := F)) adm p) c
  | ⟨0, _⟩ => fun c => dat0 (V1 m) (O0 (F := F)) (B0 (F := F)) c
  | ⟨1, _⟩ => fun c => dat2 (V4 m) (O1 (F := F)) (B1 (F := F)) c

end Contents

end Cert.Kernel.Hand

end
-- ==== Proof.WScSeg0.lean ====
/-
  The first region as a segment of the TensorCore's program: entered with every unscoped buffer held
  at the contents the first host stretch left, left with the table written. The core owes the
  SparseCores their start signals throughout: its waits on the staging cells sit below that debt.
-/
import proofs.«206068_g62534723830210_cont_9to1_m_587_24_alg».proof.Proof.WScBounds

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/-- The pipelines' staging cells' rounds: the middle component of the ghost state. -/
abbrev EP : Emb UK (MT nD τ sig (HIx 1) (Elt F) ℕ UU ℕ) :=
  (Emb.inl : Emb UK (UK × Counters)).trans (embR : Emb (UK × Counters) (MT nD τ sig (HIx 1) (Elt F) ℕ UU ℕ))
instance EP_landsIn : (EP : Emb UK 𝕄).LandsIn (upEmb : UEmb _ 𝕄) := by infer_instance

/-- The TensorCore owes nothing at the kernels' own index. -/
theorem Otc_none (d : Dev nD) (n : ℕ) (g : GSem nD τ sig) : (K (F := F)).Otc d n g none = 0 := by
  by_contra h
  have := (K (F := F)).lev_of_Otc_pos (Nat.pos_of_ne_zero h)
  rw [SparseCore.Cfg.lev_none] at this; omega

variable (m : (ℓ : Loc nD τ sig) → Buf (Elt F) ℓ)

/-- What rides beside the buffers through a segment before (`n = 0`) or after (`n = 1`) the SparseCore call: the
    generator register, and the core's debt with its recorded wait pairs bounded. -/
abbrev Rst (n : ℕ) (c : Dev nD) : sProp 𝕄 :=
  iprop((∃ r, prngReg c r) ∗ ∃ W, ⌜(K (F := F)).WBelow (SparseCore.T c) W (8 * n)⌝ ∗ owes (SparseCore.T c) ((K (F := F)).Otc c n) W)

theorem W2_arr (c : Dev nD) (w : Fin cfg0.W) :
    W2 m c (Proc.devRef .tc (Pipeline.arrRef spec0 w)) = (dat0 (V1 m) (O0 (F := F)) (B0 (F := F)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) (O0 (F := F)) (B0 (F := F)) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
/-- The first region over the thread state. -/
def reg0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V1 m) (O0 (F := F)) (B0 (F := F)) c).loose
  hwaits c := Pipeline.cellsWaits_intro (Pipeline.pin (pcfgs (F := F)) adm) (pdats m) none 0 c
    fun w s t => (K (F := F)).mayWait_none _ (Otc_none c 0)
  pre c := iprop(StableHlo.held (c : Thread nD τ) (Pipeline.ucRefs τ sig) (W1 m c) ∗ Rst 0 c)
  post c := iprop(StableHlo.held (c : Thread nD τ) (Pipeline.ucRefs τ sig) (W2 m c) ∗ Rst 0 c)
  X c := iprop(∃ r, prngReg c r)
  Y c := iprop(∃ r, prngReg c r)
  Z c := Pipeline.unscopedRest (Ix := HIx 1) (Name := ℕ) (U := UU) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = Φ0 c from rfl]; unfold Φ0
    iintro ⟨Hp, -, Hr⟩
    isplitl [Hr]; · iexact Hr
    iexact Hp
  hout c := by
    rw [Pipeline.ownSems0_none, show (pdats m 0 c).Φ (Fin.last _) = Φ0 c from rfl]; unfold Φ0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]
    iexact HO

end Cert.Kernel.Hand

end
-- ==== Proof.WScSeg2.lean ====
/-
  The second region as a segment of the TensorCore's program: entered with every unscoped buffer
  held at the contents the second host stretch left, left with the transposed result written. Two of
  its windows read the one gathered array: each holds half of it.
-/
import proofs.«206068_g62534723830210_cont_9to1_m_587_24_alg».proof.Proof.WScSeg0

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- Two windows of the second region have the same array only if they are the same window, or the two that read the gathered array. -/
theorem arr_eq_cases : ∀ w' w : Fin 12, Pipeline.arrRef spec2 w' = Pipeline.arrRef spec2 w → w' = w ∨ ((w' = 0 ∨ w' = 1) ∧ (w = 0 ∨ w = 1)) := by decide

theorem W5_arr (c : Dev nD) (w : Fin cfg2.W) :
    W5 m c (Proc.devRef .tc (Pipeline.arrRef spec2 w)) = (dat2 (V4 m) (O1 (F := F)) (B1 (F := F)) c).arrAt w cfg2.N := by
  unfold W5 Pipeline.withArrays
  have h : ∃ w', Proc.devRef .tc (Pipeline.arrRef spec2 w') = Proc.devRef (τ := τ) .tc (Pipeline.arrRef spec2 w) := ⟨w, rfl⟩
  rw [dif_pos h]
  suffices ∀ (w' : Fin cfg2.W) (e : Proc.devRef .tc (Pipeline.arrRef spec2 w') = Proc.devRef (τ := τ) .tc (Pipeline.arrRef spec2 w)),
      cast (congrArg (fun b' : DevRef τ sig => b'.ty.Contents (Elt F)) e) ((dat2 (V4 m) (O1 (F := F)) (B1 (F := F)) c).arrAt w' cfg2.N)
        = (dat2 (V4 m) (O1 (F := F)) (B1 (F := F)) c).arrAt w cfg2.N from this _ h.choose_spec
  intro w' e
  rcases arr_eq_cases w' w (Proc.devRef_injective _ e) with rfl | ⟨hw', hw⟩
  · exact cast_eq _ _
  · have h0 := (dat2 (V4 m) (O1 (F := F)) (B1 (F := F)) c).arrAt_in 0 rfl cfg2.N
    have h1 := (dat2 (V4 m) (O1 (F := F)) (B1 (F := F)) c).arrAt_in 1 rfl cfg2.N
    rcases hw' with rfl | rfl <;> rcases hw with rfl | rfl
    · exact cast_eq _ _
    · rw [h0, h1, A_eq2, A_eq2]; exact cast_eq _ _
    · rw [h1, h0, A_eq2, A_eq2]; exact cast_eq _ _
    · exact cast_eq _ _
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (dat2 (V4 m) (O1 (F := F)) (B1 (F := F)) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- The windows' arrays, each whole, at the windows' shares. -/
theorem arrays2_flat (c : Dev nD) (G : (w : Fin cfg2.W) → Buf (Elt F) ((cfg2.win w).arr.view.loc (c.tc : Thread nD τ))) :
    ((pdats m 1 c).arrays G : sProp 𝕄)
      = bigSep Finset.univ fun w : Fin cfg2.W => (((c.tc : Thread nD τ).loc (Pipeline.arrRef spec2 w)) ↦{(pdats m 1 c).share w} G w : sProp 𝕄) := by
  unfold Pipeline.Dat.arrays
  refine bigSep_congr fun w _ => ?_
  have h : ((Pipeline.pin (pcfgs (F := F)) adm 1).win w).arr.view.set = Finset.univ := (arr_whole2 w).set_eq_univ
  rw [h]; rfl

theorem share2_0 (c : Dev nD) : (pdats m 1 c).share 0 = (fullShare : PosShare TreeShare).left := rfl
theorem share2_1 (c : Dev nD) : (pdats m 1 c).share 1 = (fullShare : PosShare TreeShare).right := rfl
theorem share2_2 (c : Dev nD) : (pdats m 1 c).share 2 = fullShare := rfl
theorem share2_3 (c : Dev nD) : (pdats m 1 c).share 3 = fullShare := rfl
theorem share2_4 (c : Dev nD) : (pdats m 1 c).share 4 = fullShare := rfl
theorem share2_5 (c : Dev nD) : (pdats m 1 c).share 5 = fullShare := rfl
theorem share2_6 (c : Dev nD) : (pdats m 1 c).share 6 = fullShare := rfl
theorem share2_7 (c : Dev nD) : (pdats m 1 c).share 7 = fullShare := rfl
theorem share2_8 (c : Dev nD) : (pdats m 1 c).share 8 = fullShare := rfl
theorem share2_9 (c : Dev nD) : (pdats m 1 c).share 9 = fullShare := rfl
theorem share2_10 (c : Dev nD) : (pdats m 1 c).share 10 = fullShare := rfl
theorem share2_11 (c : Dev nD) : (pdats m 1 c).share 11 = fullShare := rfl

theorem img2 : (Finset.univ.image (Pipeline.arrRef spec2) : Finset (Ref sig .tc)) = {main_v7, main_v8, main_arg3, main_v4, main_v5, main_v9, main_v10, main_v11, main_v12, main_v13, main_v14} := by decide

set_option maxHeartbeats 4000000 in
/-- The eleven distinct buffers behind the twelve windows, whole, are the windows' arrays at their shares: the gathered
    array's full share is its two halves. -/
theorem arrays2_eq (c : Dev nD) (A : (b : Ref sig .tc) → Buf (Elt F) ((c : Thread nD τ).loc b)) :
    (Pipeline.arrBufs (Ix := HIx 1) (Name := ℕ) (U := UU) (Lvl := ℕ) spec2 c A : sProp 𝕄) ⊣⊢ (pdats m 1 c).arrays (fun w => A (Pipeline.arrRef spec2 w)) := by
  rw [arrays2_flat]
  unfold Pipeline.arrBufs
  rw [img2]
  rw [bigSep_W2]
  rw [share2_0, share2_1, share2_2, share2_3, share2_4, share2_5, share2_6, share2_7, share2_8, share2_9, share2_10, share2_11]
  rw [SparseCore.bigSep_insert' (by decide)]
  rw [SparseCore.bigSep_insert' (by decide)]
  rw [SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), SparseCore.bigSep_insert' (by decide), bigSep_singleton]
  constructor
  · iintro ⟨H7, H8, H3, H4, H5, H9, H10, H11, H12, H13, H14⟩
    ihave H7' := (pointsTo_share (PosShare.mem_left_op_right (fullShare : PosShare TreeShare))).1 $$ H7
    icases H7' with ⟨H7l, H7r⟩
    isplitl [H7l]; · iexact H7l
    isplitl [H7r]; · iexact H7r
    isplitl [H8]; · iexact H8
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H13]; · iexact H13
    iexact H14
  · iintro ⟨H7l, H7r, H8, H3, H4, H5, H9, H10, H11, H12, H13, H14⟩
    isplitl [H7l H7r]
    · iapply (pointsTo_share (PosShare.mem_left_op_right (fullShare : PosShare TreeShare))).2
      isplitl [H7l]; · iexact H7l
      iexact H7r
    isplitl [H8]; · iexact H8
    isplitl [H3]; · iexact H3
    isplitl [H4]; · iexact H4
    isplitl [H5]; · iexact H5
    isplitl [H9]; · iexact H9
    isplitl [H10]; · iexact H10
    isplitl [H11]; · iexact H11
    isplitl [H12]; · iexact H12
    isplitl [H13]; · iexact H13
    iexact H14

set_option backward.isDefEq.respectTransparency.types false in
/-- The second region over the thread state. -/
def reg2 : Pipeline.RegionSeg (pcfgs (F := F)) adm (pdats m) none defs₀ 𝒱₀ (K (F := F)).L (K (F := F)).lev 1 where
  win := winFacts₀2
  block_pos := block_pos2
  stage_whole := stage_whole2
  K := PEmpty
  osem k := k.elim
  ho := Pipeline.OwnSemFacts.none _
  hbody c := (body_obligation2 (V4 m) (O1 (F := F)) (B1 (F := F)) c).loose
  hwaits c := Pipeline.cellsWaits_intro (Pipeline.pin (pcfgs (F := F)) adm) (pdats m) none 1 c
    fun w s t => (K (F := F)).mayWait_none _ (Otc_none c 1)
  pre c := iprop(StableHlo.held (c : Thread nD τ) (Pipeline.ucRefs τ sig) (W4 m c) ∗ Rst 1 c)
  post c := iprop(StableHlo.held (c : Thread nD τ) (Pipeline.ucRefs τ sig) (W5 m c) ∗ Rst 1 c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.unscopedBufs_split₀ (Ix := HIx 1) (Name := ℕ) (U := UU) (Lvl := ℕ) (Val := Elt F)
      (Pipeline.pin (pcfgs (F := F)) adm) 1 winFacts₀2.arr_unscoped c (V4 m c)
    rw [Pipeline.unscopedBufs_held] at hsplit
    iintro ⟨⟨Hub, Hp, HO⟩, -, -⟩
    ihave H := (Entails.of_eq hsplit) $$ Hub
    icases H with ⟨Ha, Hrest⟩
    ihave Ha' := (arrays2_eq m c (V4 m c)).1 $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 1 c).Φ 0 = Φ2 c from rfl]; unfold Φ2
    iintro ⟨Hp, -, Hr⟩
    isplitl [Hr]; · iexact Hr
    iexact Hp
  hout c := by
    rw [Pipeline.ownSems0_none, show (pdats m 1 c).Φ (Fin.last _) = Φ2 c from rfl]; unfold Φ2
    iintro ⟨Hr, Hp⟩
    isplitl [Hp]; · iexact Hp
    isplitr; · iempintro
    iexact Hr
  hexit c := by
    have hsplit := Pipeline.unscopedBufs_split₀ (Ix := HIx 1) (Name := ℕ) (U := UU) (Lvl := ℕ) (Val := Elt F)
      (Pipeline.pin (pcfgs (F := F)) adm) 1 winFacts₀2.arr_unscoped c (V5 m c)
    rw [Pipeline.unscopedBufs_held] at hsplit
    have hF : (fun w => (pdats m 1 c).arrAt w cfg2.N) = fun w => V5 m c (Pipeline.arrRef spec2 w) := funext (hF2 m c)
    have hR : (Pipeline.unscopedRest (Ix := HIx 1) (Name := ℕ) (U := UU) (Lvl := ℕ) spec2 c (V4 m c) : sProp 𝕄)
        = Pipeline.unscopedRest spec2 c (V5 m c) := by
      unfold Pipeline.unscopedRest
      exact bigSep_congr fun b hb => by rw [hrest2 m c b (Finset.mem_sdiff.mp hb).2]
    iintro ⟨Ha, HO, HY, Hrest⟩
    imodintro
    isplitl [Ha Hrest]
    · iapply (Entails.of_eq hsplit.symm)
      isplitl [Ha]
      · iapply (arrays2_eq m c (V5 m c)).2
        iapply (Entails.of_eq (congrArg (pdats m 1 c).arrays hF))
        iexact Ha
      · iapply (Entails.of_eq hR); iexact Hrest
    isplitl [HY]; · iexact HY
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]; exact Nat.zero_le _
    iexact HO

end Cert.Kernel.Hand

end
-- ==== Proof.WScSplit.lean ====
/-
  The TensorCore's three whole arrays as the 32 tiles' holdings, and back. The table's full share is a
  remainder and 32 read shares, one per tile. The list and the output are cut into their 2500 blocks
  (pairwise disjoint, together everything: an index lies in block b exactly when its row, for the list its
  column, lies in 256 b … 256 b + 255), and the blocks are regrouped by tile: block b is the k-th block of
  tile w for exactly one (w, k), since the tiles' ranges lo w … lo w + cnt w - 1 follow one another and end at 2500.
-/
import proofs.«206068_g62534723830210_cont_9to1_m_587_24_alg».proof.Proof.WScPay

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The tiles' ranges partition the 2500 blocks -/

/-- The tiles' ranges do not overlap: a block number is `lo w + k` with `k < cnt w` in one way only. -/
theorem lo_add_inj {w w' k k' : ℕ} (hk : k < cnt w) (hk' : k' < cnt w') (hv : lo w + k = lo w' + k') :
    w = w' ∧ k = k' := by
  unfold lo at hv; unfold cnt at hk hk'
  by_cases h1 : w < 4 <;> by_cases h2 : w' < 4
  · rw [if_pos h1] at hv hk; rw [if_pos h2] at hv hk'; omega
  · rw [if_pos h1] at hv hk; rw [if_neg h2] at hv hk'; omega
  · rw [if_neg h1] at hv hk; rw [if_pos h2] at hv hk'; omega
  · rw [if_neg h1] at hv hk; rw [if_neg h2] at hv hk'; omega

/-- Two tiles' blocks coincide only for the same tile and the same position in its range. -/
theorem tblk_inj {w w' : Fin 32} {k : Fin (cnt w.val)} {k' : Fin (cnt w'.val)} (h : tblk w k = tblk w' k') :
    w = w' ∧ k.val = k'.val := by
  have key := lo_add_inj k.isLt k'.isLt (congrArg Fin.val h)
  exact ⟨Fin.ext key.1, key.2⟩

/-- Every block is some tile's. -/
theorem exists_tblk (b : Fin 2500) : ∃ (w : Fin 32) (k : Fin (cnt w.val)), tblk w k = b := by
  have hb := b.isLt
  by_cases h : b.val < 316
  · have hw : b.val / 79 < 4 := by omega
    refine ⟨⟨b.val / 79, by omega⟩, ⟨b.val % 79, ?_⟩, Fin.ext ?_⟩
    · show b.val % 79 < cnt (b.val / 79)
      rw [cnt, if_pos hw]; omega
    · show lo (b.val / 79) + b.val % 79 = b.val
      rw [lo, if_pos hw]; omega
  · have hw : ¬ (b.val - 4) / 78 < 4 := by omega
    refine ⟨⟨(b.val - 4) / 78, by omega⟩, ⟨(b.val - 4) % 78, ?_⟩, Fin.ext ?_⟩
    · show (b.val - 4) % 78 < cnt ((b.val - 4) / 78)
      rw [cnt, if_neg hw]; omega
    · show lo ((b.val - 4) / 78) + (b.val - 4) % 78 = b.val
      rw [lo, if_neg hw]; omega

/-! ## The blocks' index sets, by coordinates -/

omit [FloatOps F] in
theorem oBlkSet_eq (b : Fin 2500) : oBlkSet b = (oRect b).set := by
  show ((View.whole (main_v7_scv : Ref sig .scVector)).slice (oRect b)).set = _
  exact View.set_slice_whole _ _
omit [FloatOps F] in
theorem iBlkSet_eq (b : Fin 2500) : iBlkSet b = (iRect b).set := by
  show ((View.whole (main_v2_scv : Ref sig .scVector)).slice (iRect b)).set = _
  exact View.set_slice_whole _ _

/-- An index of the output lies in block `b` exactly when its row does. -/
theorem mem_oBlkSet {b : Fin 2500} {j : S640000x128.Idx} :
    j ∈ oBlkSet b ↔ 256 * b.val ≤ (j 0).val ∧ (j 0).val < 256 * b.val + 256 := by
  rw [oBlkSet_eq, Rect.mem_set_unit]
  constructor
  · intro h; exact h 0
  · intro h a
    match a with
    | 0 => exact h
    | 1 => exact ⟨Nat.zero_le _, by have := (j 1).isLt; simpa using this⟩

/-- An index of the list lies in block `b` exactly when its column does. -/
theorem mem_iBlkSet {b : Fin 2500} {j : S1x640000.Idx} :
    j ∈ iBlkSet b ↔ 256 * b.val ≤ (j 1).val ∧ (j 1).val < 256 * b.val + 256 := by
  rw [iBlkSet_eq, Rect.mem_set_unit]
  constructor
  · intro h; exact h 1
  · intro h a
    match a with
    | 0 => exact ⟨Nat.zero_le _, by have := (j 0).isLt; simpa using this⟩
    | 1 => exact h

theorem oBlk_disjoint {b b' : Fin 2500} (h : b ≠ b') : Disjoint (oBlkSet b) (oBlkSet b') := by
  rw [Finset.disjoint_left]; intro j h1 h2
  rw [mem_oBlkSet] at h1 h2
  exact h (Fin.ext (by omega))
theorem iBlk_disjoint {b b' : Fin 2500} (h : b ≠ b') : Disjoint (iBlkSet b) (iBlkSet b') := by
  rw [Finset.disjoint_left]; intro j h1 h2
  rw [mem_iBlkSet] at h1 h2
  exact h (Fin.ext (by omega))

theorem exists_oBlk (j : S640000x128.Idx) : ∃ b : Fin 2500, j ∈ oBlkSet b := by
  have hj : (j 0).val < 640000 := (j 0).isLt
  exact ⟨⟨(j 0).val / 256, by omega⟩, mem_oBlkSet.mpr (by show 256 * ((j 0).val / 256) ≤ _ ∧ _ < 256 * ((j 0).val / 256) + 256; omega)⟩
theorem exists_iBlk (j : S1x640000.Idx) : ∃ b : Fin 2500, j ∈ iBlkSet b := by
  have hj : (j 1).val < 640000 := (j 1).isLt
  exact ⟨⟨(j 1).val / 256, by omega⟩, mem_iBlkSet.mpr (by show 256 * ((j 1).val / 256) ≤ _ ∧ _ < 256 * ((j 1).val / 256) + 256; omega)⟩

/-! ## A whole array as the tiles' blocks -/

/-- A points-to over everything, cut along 2500 pairwise disjoint sets that together are everything, the sets
    grouped by the tile whose range holds their number. -/
theorem pts_tiles {ℓ : Loc nD τ sig} (B : Fin 2500 → Finset (Idx ℓ)) (hd : ∀ b b', b ≠ b' → Disjoint (B b) (B b'))
    (hc : ∀ j, ∃ b, j ∈ B b) (q : PosShare TreeShare) (f : Buf (Elt F) ℓ) :
    (ℓ ↦{q} f : sProp 𝕄)
      = bigSep Finset.univ fun w : Fin 32 => bigSep Finset.univ fun k : Fin (cnt w.val) => ℓ ↦[B (tblk w k)]{q} f := by
  have h1 : (Finset.univ : Finset (Idx ℓ))
      = (Finset.univ : Finset (Fin 32)).biUnion fun w => (Finset.univ : Finset (Fin (cnt w.val))).biUnion fun k => B (tblk w k) := by
    ext j
    simp only [Finset.mem_univ, Finset.mem_biUnion, true_and, true_iff]
    obtain ⟨b, hb⟩ := hc j
    obtain ⟨w, k, rfl⟩ := exists_tblk b
    exact ⟨w, k, hb⟩
  show pointsTo ℓ Finset.univ q f = _
  rw [h1, pointsTo_biUnion]
  · refine bigSep_congr fun w _ => ?_
    rw [pointsTo_biUnion]
    intro k _ k' _ hk
    exact hd _ _ fun e => hk (Fin.ext (tblk_inj e).2)
  · intro w _ w' _ hw
    rw [Finset.disjoint_biUnion_left]; intro k _
    rw [Finset.disjoint_biUnion_right]; intro k' _
    exact hd _ _ fun e => hw (tblk_inj e).1

/-! ## The 32 tiles as 2 SparseCores of 16 -/

/-- Tile `(c, i)` has number `16 c + i`: every number below 32 once. -/
def twEquiv : Fin 2 × Fin 16 ≃ Fin 32 where
  toFun p := tw p.1 p.2
  invFun w := (⟨w.val / 16, by omega⟩, ⟨w.val % 16, by omega⟩)
  left_inv p := by
    rcases p with ⟨c, i⟩
    have hc := c.isLt; have hi := i.isLt
    refine Prod.ext (Fin.ext ?_) (Fin.ext ?_)
    · show (16 * c.val + i.val) / 16 = c.val; omega
    · show (16 * c.val + i.val) % 16 = i.val; omega
  right_inv w := by
    refine Fin.ext ?_
    show 16 * (w.val / 16) + w.val % 16 = w.val; omega

theorem bigSep_tiles (Φ : Fin 32 → sProp 𝕄) :
    (bigSep Finset.univ fun c : Fin 2 => bigSep Finset.univ fun i : Fin 16 => Φ (tw c i)) = bigSep Finset.univ Φ := by
  rw [bigSep_univ_equiv twEquiv Φ, bigSep_univ_prod]; rfl

/-! ## The three arrays and the tiles' holdings -/

section Split

variable (tbl : Buf (Elt F) (tLoc (0 : Dev nD))) (ix : Buf (Elt F) (iLoc (0 : Dev nD))) (o : Buf (Elt F) (oLoc (0 : Dev nD)))

/-- The three whole arrays are the table's remainder and the 32 tiles' holdings. -/
theorem arrays_tiles_eq (d : Dev nD) :
    (iprop((tLoc d ↦{fullShare} tbl) ∗ (iLoc d ↦{fullShare} ix) ∗ (oLoc d ↦{fullShare} o)) : sProp 𝕄)
      = iprop((tLoc d ↦{Transfers.shareDrop fullShare 32} tbl)
          ∗ bigSep Finset.univ fun c : Fin 2 => bigSep Finset.univ fun i : Fin 16 => tileRes tbl ix d (tw c i) o) := by
  rw [bigSep_tiles (fun w => tileRes tbl ix d w o)]
  have ht : (tLoc d ↦{fullShare} tbl : sProp 𝕄)
      = iprop((tLoc d ↦{Transfers.shareDrop fullShare 32} tbl)
          ∗ bigSep Finset.univ (fun w : Fin 32 => tLoc d ↦{Transfers.shareTok fullShare 32 w} tbl)) :=
    Entails.antisymm (Transfers.pointsTo_toks fullShare 32).1 (Transfers.pointsTo_toks fullShare 32).2
  have hi := pts_tiles (F := F) (ℓ := iLoc d) iBlkSet (fun _ _ h => iBlk_disjoint h) exists_iBlk fullShare ix
  have ho := pts_tiles (F := F) (ℓ := oLoc d) oBlkSet (fun _ _ h => oBlk_disjoint h) exists_oBlk fullShare o
  rw [ht, hi, ho]
  unfold tileRes
  simp only [bigSep_sep']
  refine Entails.antisymm ?_ ?_
  · exact Idealize.SL.BI.sep_assoc
  · exact Idealize.SL.BI.sep_assoc'

/-- Split: what the TensorCore does with its arrays before the SparseCore call. -/
theorem arrays_split (d : Dev nD) :
    iprop((tLoc d ↦{fullShare} tbl) ∗ (iLoc d ↦{fullShare} ix) ∗ (oLoc d ↦{fullShare} o))
      ⊢ (iprop((tLoc d ↦{Transfers.shareDrop fullShare 32} tbl)
          ∗ bigSep Finset.univ fun c : Fin 2 => bigSep Finset.univ fun i : Fin 16 => tileRes tbl ix d (tw c i) o) : sProp 𝕄) :=
  Entails.of_eq (arrays_tiles_eq tbl ix o d)

/-- Join: after it. -/
theorem arrays_join (d : Dev nD) :
    iprop((tLoc d ↦{Transfers.shareDrop fullShare 32} tbl)
          ∗ bigSep Finset.univ fun c : Fin 2 => bigSep Finset.univ fun i : Fin 16 => tileRes tbl ix d (tw c i) o)
      ⊢ (iprop((tLoc d ↦{fullShare} tbl) ∗ (iLoc d ↦{fullShare} ix) ∗ (oLoc d ↦{fullShare} o)) : sProp 𝕄) :=
  Entails.of_eq (arrays_tiles_eq tbl ix o d).symm

theorem arrays_tiles (d : Dev nD) :
    iprop((tLoc d ↦{fullShare} tbl) ∗ (iLoc d ↦{fullShare} ix) ∗ (oLoc d ↦{fullShare} o))
      ⊣⊢ (iprop((tLoc d ↦{Transfers.shareDrop fullShare 32} tbl)
          ∗ bigSep Finset.univ fun c : Fin 2 => bigSep Finset.univ fun i : Fin 16 => tileRes tbl ix d (tw c i) o) : sProp 𝕄) :=
  ⟨arrays_split tbl ix o d, arrays_join tbl ix o d⟩

end Split

end Cert.Kernel.Hand

end
-- ==== Proof.WScMain.lean ====
/-
  The launch: the ghost state's launch element, the TensorCore's program from the launch to the
  return, and the whole mesh's run.
-/
import proofs.«206068_g62534723830210_cont_9to1_m_587_24_alg».proof.Proof.WScSeg2
import proofs.«206068_g62534723830210_cont_9to1_m_587_24_alg».proof.Proof.WScSplit

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-- The payloads at this launch memory: the table as the first region leaves it, the list as the first host
    stretch leaves it, the output as launched. -/
abbrev PP : (K (F := F)).Pay (nD := nD) (Val := Elt F) (Name := ℕ) (U := UU) :=
  P (V2 m 0 main_v6) (V2 m 0 main_v2) (V2 m 0 main_v7)

/-- What the TensorCore starts with beside the launch's dealings: both pipelines' staging cells' ghost state. -/
abbrev Gd (d : Dev nD) : sProp 𝕄 := Pipeline.ghostOn (pcfgs (F := F)) adm EP Finset.univ d

/-- What it ends with: every unscoped buffer at the last boundary's contents. -/
abbrev FIN (d : Dev nD) : sProp 𝕄 := StableHlo.held (SparseCore.T d) (Pipeline.ucRefs τ sig) (W6 m d)

/-- The launch element: the handshakes' rounds, the pipelines' staging cells' rounds, the counters at rest. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), (1 : Counters)))

omit [FloatOps F] in
theorem bigSep_emp' {I : Type} (s : Finset I) : (bigSep s fun _ => iprop(emp)) = (iprop(emp) : sProp 𝕄) := bigSep_emp_const s

theorem hu₀ : iprop((ownU (u₀ (F := F)) : sProp 𝕄) ∗ (PP m).oxCred ∗ (K (F := F)).freeSems0)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (PP m).x q thr) := by
  unfold u₀
  iintro ⟨Hu, -, -⟩
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), (1 : Counters)) : UK × Counters)) $$ Hu
  icases H with ⟨HH, HR⟩
  ihave H2 := (own_pair_emb (embR : Emb (UK × Counters) 𝕄)
    (initOf (Pipeline.cells (Pipeline.pin (pcfgs (F := F)) adm) cellOf_inj) (Pipeline.launchToks (Pipeline.pin (pcfgs (F := F)) adm) cellOf_inj)) (1 : Counters)) $$ HR
  icases H2 with ⟨HP, -⟩
  imod (Pipeline.fund_ghost (Pipeline.pin (pcfgs (F := F)) adm) (EP (F := F)) cellOf_inj) $$ HP with ⟨Hcg, Htk⟩
  imodintro
  isplitl [HH]; · iexact HH
  isplitl [Hcg Htk]
  · simp only [Gd, Pipeline.ghostOn, Pipeline.PerCore.ghostOn, bigSep_sep']
    isplitl [Hcg]; · iexact Hcg
    iexact Htk
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-- The TensorCore's debt taken out of its state before call `n`, and put back. -/
theorem tcSt_open (d : Dev nD) (n : ℕ) :
    (K (F := F)).tcSt EH d n ⊢ (iprop((∃ W, ⌜(K (F := F)).WBelow (SparseCore.T d) W (8 * n)⌝ ∗ owes (SparseCore.T d) ((K (F := F)).Otc d n) W)
      ∗ ((∃ W, ⌜(K (F := F)).WBelow (SparseCore.T d) W (8 * n)⌝ ∗ owes (SparseCore.T d) ((K (F := F)).Otc d n) W) -∗ (K (F := F)).tcSt EH d n)) : sProp 𝕄) := by
  unfold SparseCore.Cfg.tcSt
  iintro ⟨HO, Hrest⟩
  isplitl [HO]; · iexact HO
  iintro HO
  isplitl [HO]; · iexact HO
  iexact Hrest

theorem hostOpsA_sub : ∀ op ∈ (hostOpsA : List (HloOp τ sig (Elt F))), op.bufs ⊆ Pipeline.ucRefs τ sig := fun op h =>
  Pipeline.sub_ucRefs op ((List.forall_iff_forall_mem.mp (show (hostOpsA : List (HloOp τ sig (Elt F))).Forall fun op => op.bufs ⊆ StableHlo.tcRefs τ sig from
    ⟨StableHlo.nullary_bufs_sub .., StableHlo.unary_bufs_sub .., StableHlo.binary_bufs_sub .., StableHlo.reshape_bufs_sub .., StableHlo.unary_bufs_sub .., StableHlo.unary_bufs_sub .., StableHlo.unary_bufs_sub ..⟩)) op h)
theorem hostOpsB_sub : ∀ op ∈ (hostOpsB : List (HloOp τ sig (Elt F))), op.bufs ⊆ Pipeline.ucRefs τ sig := fun op h =>
  Pipeline.sub_ucRefs op ((List.forall_iff_forall_mem.mp (show (hostOpsB : List (HloOp τ sig (Elt F))).Forall fun op => op.bufs ⊆ StableHlo.tcRefs τ sig from
    ⟨StableHlo.unary_bufs_sub .., StableHlo.reshape_bufs_sub .., StableHlo.unary_bufs_sub .., StableHlo.reshape_bufs_sub .., StableHlo.reshape_bufs_sub .., StableHlo.reshape_bufs_sub ..⟩)) op h)
theorem hostOpsC_sub : ∀ op ∈ (hostOpsC : List (HloOp τ sig (Elt F))), op.bufs ⊆ Pipeline.ucRefs τ sig := fun op h =>
  Pipeline.sub_ucRefs op ((List.forall_iff_forall_mem.mp (show (hostOpsC : List (HloOp τ sig (Elt F))).Forall fun op => op.bufs ⊆ StableHlo.tcRefs τ sig from
    StableHlo.unary_bufs_sub ..)) op h)
theorem hostOpsA_fresh : ∀ op ∈ (hostOpsA : List (HloOp τ sig (Elt F))), op.fresh = ∅ := fun op h =>
  (List.forall_iff_forall_mem.mp (show (hostOpsA : List (HloOp τ sig (Elt F))).Forall fun op => op.fresh = ∅ from by simp only [List.Forall]; repeat' constructor)) op h
theorem hostOpsB_fresh : ∀ op ∈ (hostOpsB : List (HloOp τ sig (Elt F))), op.fresh = ∅ := fun op h =>
  (List.forall_iff_forall_mem.mp (show (hostOpsB : List (HloOp τ sig (Elt F))).Forall fun op => op.fresh = ∅ from by simp only [List.Forall]; repeat' constructor)) op h
theorem hostOpsC_fresh : ∀ op ∈ (hostOpsC : List (HloOp τ sig (Elt F))), op.fresh = ∅ := fun op h =>
  (List.forall_iff_forall_mem.mp (show (hostOpsC : List (HloOp τ sig (Elt F))).Forall fun op => op.fresh = ∅ from by simp only [List.Forall]; repeat' constructor)) op h

theorem reg0_pre (c : Dev nD) : (reg0 m).pre c = iprop(StableHlo.held (c : Thread nD τ) (Pipeline.ucRefs τ sig) (W1 m c) ∗ Rst 0 c) := rfl
theorem reg0_post (c : Dev nD) : (reg0 m).post c = iprop(StableHlo.held (c : Thread nD τ) (Pipeline.ucRefs τ sig) (W2 m c) ∗ Rst 0 c) := rfl
theorem reg2_pre (c : Dev nD) : (reg2 m).pre c = iprop(StableHlo.held (c : Thread nD τ) (Pipeline.ucRefs τ sig) (W4 m c) ∗ Rst 1 c) := rfl
theorem reg2_post (c : Dev nD) : (reg2 m).post c = iprop(StableHlo.held (c : Thread nD τ) (Pipeline.ucRefs τ sig) (W5 m c) ∗ Rst 1 c) := rfl

/-- The two pipelines' ghost state, one after the other. -/
theorem Gd_eq : Gd (F := F) 0 = iprop((Pipeline.cellsGhost (Pipeline.pin (pcfgs (F := F)) adm) EP 0 0 ∗ Pipeline.toksInit (Pipeline.pin (pcfgs (F := F)) adm) EP 0 0)
    ∗ (Pipeline.cellsGhost (Pipeline.pin (pcfgs (F := F)) adm) EP 1 0 ∗ Pipeline.toksInit (Pipeline.pin (pcfgs (F := F)) adm) EP 1 0)) := by
  show (bigSep (Finset.univ : Finset (Fin 2)) fun p => iprop(Pipeline.cellsGhost (Pipeline.pin (pcfgs (F := F)) adm) EP p 0 ∗ Pipeline.toksInit (Pipeline.pin (pcfgs (F := F)) adm) EP p 0)) = _
  rw [show (Finset.univ : Finset (Fin 2)) = {0, 1} from by decide, SparseCore.bigSep_insert' (by decide), bigSep_singleton]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The gather's three arrays are among the unscoped buffers. -/
theorem hT3 : ({Proc.devRef .tc main_v6, Proc.devRef .tc main_v2, Proc.devRef .tc main_v7} : Finset (DevRef τ sig)) ⊆ Pipeline.ucRefs τ sig := by
  intro b hb
  simp only [Finset.mem_insert, Finset.mem_singleton] at hb
  rcases hb with rfl | rfl | rfl
  · exact mem_uc main_v6 (by decide)
  · exact mem_uc main_v2 (by decide)
  · exact mem_uc main_v7 (by decide)

theorem held3_eq (W : Valuation τ sig (Elt F)) :
    (StableHlo.held (SparseCore.T (0 : Dev nD)) ({Proc.devRef .tc main_v6, Proc.devRef .tc main_v2, Proc.devRef .tc main_v7} : Finset (DevRef τ sig)) W : sProp 𝕄)
      = iprop((tLoc 0 ↦{fullShare} W (Proc.devRef .tc main_v6)) ∗ (iLoc 0 ↦{fullShare} W (Proc.devRef .tc main_v2)) ∗ (oLoc 0 ↦{fullShare} W (Proc.devRef .tc main_v7))) := by
  unfold StableHlo.held
  rw [SparseCore.bigSep_insert' (by decide), SparseCore.bigSep_insert' (by decide), bigSep_singleton]

/-- What the call's start hands over, and what its done hands back: every tile's holdings. -/
theorem st_eq (d : Dev nD) : (bigSep Finset.univ fun c : Fin ((K (F := F)).nCore 0) => (PP m).st 0 d c)
    = bigSep Finset.univ fun c : Fin 2 => bigSep Finset.univ fun i : Fin 16 => tileRes (V2 m 0 main_v6) (V2 m 0 main_v2) d (tw c i) (V2 m 0 main_v7) := by
  show (bigSep Finset.univ fun c : Fin 2 => bigSep Finset.univ fun i : Fin 16 => tileRes (V2 m 0 main_v6) (V2 m 0 main_v2) d (tw (Fin.cast nCore_zero c) i) (V2 m 0 main_v7)) = _
  exact bigSep_congr fun c _ => by simp only [Fin.cast_eq_self]
theorem dn_eq (d : Dev nD) : (bigSep Finset.univ fun c : Fin ((K (F := F)).nCore 0) => (PP m).dn 0 d c)
    = bigSep Finset.univ fun c : Fin 2 => bigSep Finset.univ fun i : Fin 16 => tileRes (V2 m 0 main_v6) (V2 m 0 main_v2) d (tw c i) (gath (V2 m 0 main_v6) (V2 m 0 main_v2)) := by
  show (bigSep Finset.univ fun c : Fin 2 => bigSep Finset.univ fun i : Fin 16 => tileRes (V2 m 0 main_v6) (V2 m 0 main_v2) d (tw (Fin.cast nCore_zero c) i) (gath (V2 m 0 main_v6) (V2 m 0 main_v2))) = _
  exact bigSep_congr fun c _ => by simp only [Fin.cast_eq_self]

/-- After the call the three arrays are held at the new contents: the table and the list as before, the output gathered. -/
theorem held3_W3 : (iprop((tLoc 0 ↦{fullShare} V2 m 0 main_v6) ∗ (iLoc 0 ↦{fullShare} V2 m 0 main_v2) ∗ (oLoc 0 ↦{fullShare} gath (V2 m 0 main_v6) (V2 m 0 main_v2))) : sProp 𝕄)
    = StableHlo.held (SparseCore.T (0 : Dev nD)) ({Proc.devRef .tc main_v6, Proc.devRef .tc main_v2, Proc.devRef .tc main_v7} : Finset (DevRef τ sig)) (W3 m 0) := by
  rw [held3_eq]; unfold W3
  rw [Function.update_of_ne (by decide), Function.update_of_ne (by decide), Function.update_self]
/-- and every other buffer as it was. -/
theorem heldRest_W3 : (StableHlo.held (SparseCore.T (0 : Dev nD)) (Pipeline.ucRefs τ sig \ ({Proc.devRef .tc main_v6, Proc.devRef .tc main_v2, Proc.devRef .tc main_v7} : Finset (DevRef τ sig))) (W2 m 0) : sProp 𝕄)
    = StableHlo.held (SparseCore.T (0 : Dev nD)) (Pipeline.ucRefs τ sig \ ({Proc.devRef .tc main_v6, Proc.devRef .tc main_v2, Proc.devRef .tc main_v7} : Finset (DevRef τ sig))) (W3 m 0) := by
  unfold StableHlo.held
  refine bigSep_congr fun b hb => ?_
  have hne : b ≠ Proc.devRef .tc main_v7 := fun e => (Finset.mem_sdiff.mp hb).2 (by rw [e]; simp)
  unfold W3; rw [Function.update_of_ne hne]

theorem hmain (κ : GSem nD τ sig → ℕ) (d : Dev nD) :
    iprop((K (F := F)).ctx EH (PP m) κ ∗ (K (F := F)).tcSt EH d 0 ∗ (K (F := F)).tcRes m ρ d ∗ Gd d)
      ⊢ wp frame (wpE ((K (F := F)).defs (D (F := F))) 𝒱 (SparseCore.T d) none) Set.univ (main d)
          fun _ => iprop((K (F := F)).tcSt EH d 1 ∗ FIN m d) := by
  obtain rfl : d = 0 := Subsingleton.elim _ _
  rw [main_eq]
  unfold SparseCore.Cfg.tcRes
  rw [show (fun b : Ref sig .tc => m ((SparseCore.T (0 : Dev nD)).loc b)) = fun b => W0 m 0 (Proc.tc.devRef b) from rfl, Pipeline.unscopedBufs_held]
  iintro ⟨#Hctx, Hst, ⟨Hb, Hub, Hsem, Hpr⟩, HG⟩
  ihave Hlev0 := (SparseCore.Cfg.ctx_levAts (K := K (F := F)) (EH := EH) (P := PP m) κ) $$ Hctx
  icases Hlev0 with #Hlev
  ihave H := (tcSt_open (F := F) 0 0) $$ Hst
  icases H with ⟨HO, Hclose⟩
  -- the first host stretch
  iapply (StableHlo.wp_seq (defs := (K (F := F)).defs (D (F := F))) 𝒱 none Set.univ (0 : Dev nD) (Pipeline.ucRefs τ sig) _ hostOpsA hostOpsA_sub hostOpsA_fresh (W0 m 0)) $$ [Hb Hub]
  · isplitl [Hb] <;> iassumption
  iintro ⟨Hb, Hub⟩
  -- the first region, with its share of the pipelines' ghost state
  rw [wp_bind]
  ihave HG' := (Entails.of_eq (Gd_eq (F := F))) $$ HG
  icases HG' with ⟨⟨Hcg0, Htk0⟩, ⟨Hcg1, Htk1⟩⟩
  iapply ((K (F := F)).wp_liftProg (D (F := F)) 𝒱 (SparseCore.T 0) Set.univ none
    (Prog.op (TpuEff.customCall (Pipeline.entry (0 : Fin 2)) ()) fun _ => Prog.ret PUnit.unit) _)
  iapply (Pipeline.RegionSeg.wp (pcfgs (F := F)) adm (pdats m) none cellOf_inj (EP (F := F)) defs₀ 𝒱₀ (K (F := F)).L (K (F := F)).lev (reg0 m) (0 : Dev nD) none
    (fun _ h => nomatch h) (fun _ => Prog.ret PUnit.unit) _)
  rw [reg0_pre, reg0_post]
  isplitr [Hb Hub HO Hpr Hcg0 Htk0]
  swap
  · isplitl [Hb]; · iexact Hb
    isplitl [Hub HO Hpr]
    · isplitl [Hub]; · iexact Hub
      isplitl [Hpr]; · iexists _; iexact Hpr
      iexact HO
    isplitr; · iexact Hlev
    isplitl [Hcg0]; · iexact Hcg0
    iexact Htk0
  iintro ⟨Hb, Hub, Hpr, HO⟩
  rw [wp_ret]; imodintro
  -- the SparseCore call: the table, the list and the output out of the held buffers, dealt to the tiles
  rw [wp_bind]
  ihave Hsp := (Entails.of_eq (StableHlo.held_sub_split (SparseCore.T (0 : Dev nD)) hT3 (W2 m 0))) $$ Hub
  icases Hsp with ⟨H3, Hrest⟩
  ihave H3' := (Entails.of_eq (held3_eq (F := F) (W2 m 0))) $$ H3
  ihave Hsplit := (arrays_split (V2 m 0 main_v6) (V2 m 0 main_v2) (V2 m 0 main_v7) 0) $$ H3'
  icases Hsplit with ⟨Htd, Hst⟩
  iapply ((K (F := F)).wp_run (D (F := F)) 𝒱 (EH := EH) (P := PP m) κ 0 0)
  isplitr; · iexact Hctx
  isplitl [Hclose HO]; · iapply Hclose; iexact HO
  isplitl [Hst]
  · rw [st_eq]; iexact Hst
  iintro ⟨Hst1, Hdn0⟩
  ihave Hdn := (Entails.of_eq (dn_eq m 0)) $$ Hdn0
  ihave Hj := (arrays_join (V2 m 0 main_v6) (V2 m 0 main_v2) (gath (V2 m 0 main_v6) (V2 m 0 main_v2)) 0) $$ [Htd Hdn]
  · isplitl [Htd] <;> iassumption
  ihave H3 := (Entails.of_eq (held3_W3 m)) $$ Hj
  ihave Hrest' := (Entails.of_eq (heldRest_W3 m)) $$ Hrest
  ihave Hub := (Entails.of_eq (StableHlo.held_sub_split (SparseCore.T (0 : Dev nD)) hT3 (W3 m 0)).symm) $$ [H3 Hrest']
  · isplitl [H3] <;> iassumption
  -- the second host stretch
  iapply (StableHlo.wp_seq (defs := (K (F := F)).defs (D (F := F))) 𝒱 none Set.univ (0 : Dev nD) (Pipeline.ucRefs τ sig) _ hostOpsB hostOpsB_sub hostOpsB_fresh (W3 m 0)) $$ [Hb Hub]
  · isplitl [Hb] <;> iassumption
  iintro ⟨Hb, Hub⟩
  -- the second region
  rw [wp_bind]
  ihave Hst1' := (show ((K (F := F)).tcSt EH (0 : Dev nD) ((0 : Fin 1).val + 1) : sProp 𝕄) ⊢ (K (F := F)).tcSt EH 0 1 from BI.Entails.refl _) $$ Hst1
  ihave H := (tcSt_open (F := F) 0 1) $$ Hst1'
  icases H with ⟨HO, Hclose⟩
  iapply ((K (F := F)).wp_liftProg (D (F := F)) 𝒱 (SparseCore.T 0) Set.univ none
    (Prog.op (TpuEff.customCall (Pipeline.entry (1 : Fin 2)) ()) fun _ => Prog.ret PUnit.unit) _)
  iapply (Pipeline.RegionSeg.wp (pcfgs (F := F)) adm (pdats m) none cellOf_inj (EP (F := F)) defs₀ 𝒱₀ (K (F := F)).L (K (F := F)).lev (reg2 m) (0 : Dev nD) none
    (fun _ h => nomatch h) (fun _ => Prog.ret PUnit.unit) _)
  rw [reg2_pre, reg2_post]
  isplitr [Hb Hub HO Hpr Hcg1 Htk1]
  swap
  · isplitl [Hb]; · iexact Hb
    isplitl [Hub HO Hpr]
    · isplitl [Hub]; · iexact Hub
      isplitl [Hpr]; · iexact Hpr
      iexact HO
    isplitr; · iexact Hlev
    isplitl [Hcg1]; · iexact Hcg1
    iexact Htk1
  iintro ⟨Hb, Hub, Hpr, HO⟩
  rw [wp_ret]; imodintro
  -- the last transpose, and the return
  iapply (StableHlo.wp_seq (defs := (K (F := F)).defs (D (F := F))) 𝒱 none Set.univ (0 : Dev nD) (Pipeline.ucRefs τ sig) _ hostOpsC hostOpsC_sub hostOpsC_fresh (W5 m 0)) $$ [Hb Hub]
  · isplitl [Hb] <;> iassumption
  iintro ⟨Hb, Hub⟩
  rw [wp_pure]; imodintro
  isplitl [Hclose HO]; · iapply Hclose; iexact HO
  iexact Hub

/-- What the final memory is read for: the result and the ten arguments. -/
def fq (d : Dev nD) (s' : Phys nD τ sig (Elt F)) : Prop :=
  ∀ b ∈ Pipeline.ucRefs τ sig, s'.mem.mem (((SparseCore.T d : Thread nD τ)).1, b) = W6 m d b

theorem hfin (d : Dev nD) (s' : Phys nD τ sig (Elt F)) : iprop(FIN m d ∗ SI s') ⊢ (⌜fq m d s'⌝ : sProp 𝕄) := by
  unfold FIN StableHlo.held fq
  iintro ⟨Hh, HSI⟩
  ihave H := (pointsTo_read_all (Pipeline.ucRefs τ sig) (fun b => (((SparseCore.T d : Thread nD τ)).1, b)) (W6 m d) s') $$ [Hh HSI]
  · isplitl [Hh] <;> iassumption
  icases H with ⟨%h, -⟩
  ipureintro; exact h

def QC : PUnit × MemSt nD τ sig (Elt F) → Prop := fun r => ∀ d : Dev nD, ∀ b ∈ Pipeline.ucRefs τ sig, r.2.mem (((SparseCore.T d : Thread nD τ)).1, b) = W6 m d b

theorem vecSplit : (K (F := F)).VecSplit' (PP m) 0 := by
  intro d c
  have e : ∀ o, (bigSep Finset.univ fun i : Fin ((K (F := F)).nSub 0) =>
        tileRes (V2 m 0 main_v6) (V2 m 0 main_v2) d (tw (Fin.cast nCore_zero c) (Fin.cast nSub_zero i)) o : sProp 𝕄)
      = bigSep Finset.univ fun i : Fin 16 => tileRes (V2 m 0 main_v6) (V2 m 0 main_v2) d (tw (Fin.cast nCore_zero c) i) o :=
    fun o => bigSep_congr fun i _ => by simp only [Fin.cast_eq_self]
  show (bigSep Finset.univ fun i : Fin 16 => tileRes (V2 m 0 main_v6) (V2 m 0 main_v2) d (tw (Fin.cast nCore_zero c) i) (V2 m 0 main_v7))
    ⊢ |={Set.univ}=> iprop((bigSep Finset.univ fun i : Fin ((K (F := F)).nSub 0) =>
        tileRes (V2 m 0 main_v6) (V2 m 0 main_v2) d (tw (Fin.cast nCore_zero c) (Fin.cast nSub_zero i)) (V2 m 0 main_v7))
      ∗ ((bigSep Finset.univ fun i : Fin ((K (F := F)).nSub 0) =>
        tileRes (V2 m 0 main_v6) (V2 m 0 main_v2) d (tw (Fin.cast nCore_zero c) (Fin.cast nSub_zero i)) (gath (V2 m 0 main_v6) (V2 m 0 main_v2)))
        -∗ bigSep Finset.univ fun i : Fin 16 => tileRes (V2 m 0 main_v6) (V2 m 0 main_v2) d (tw (Fin.cast nCore_zero c) i) (gath (V2 m 0 main_v6) (V2 m 0 main_v2))))
  rw [e, e]
  iintro H
  imodintro
  isplitl [H]; · iexact H
  iintro H
  iexact H

theorem run_main [∀ e, Nonempty (Elt F e)] (htile : (K (F := F)).TileObl (D (F := F)) 𝒱 (PP m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => htile)
    (fun q _ => match q with | 0 => SparseCore.Cfg.VecSplit.of_plain (vecSplit m))
    m ρ main (fun d => Gd d) (FIN m) (u₀ (F := F)) (hu₀ m) (hmain m ρ) (fq m) (hfin m) (QC m) (fun _ h d => h d)

end Cert.Kernel.Hand

end
-- ==== Proof.WScArgs.lean ====
/-
  Every argument buffer ends as launched. The boundary contents are folded through the program from the
  launch memory; at an argument's buffer the fold walks back unchanged: no host operation writes an
  argument, the SparseCore call changes the gathered output only, and a region either does not touch an
  argument or reads it through an input window, whose array is never written.
-/
import proofs.«206068_g62534723830210_cont_9to1_m_587_24_alg».proof.Proof.WScSeg0

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)
open Idealize.ShloMosaic.StableHlo (nullary unary binary seq)

variable {F : FTy → Type} [FloatOps F]

local notation "𝕄" => MT nD τ sig (HIx 1) (Elt F) ℕ UU ℕ

/-! ## A host stretch leaves a buffer it does not write -/

/-- The first stretch writes the constant and the six values it computes, nothing else. -/
theorem after_hostA (V : Valuation τ sig (Elt F)) (b : Ref sig .tc)
    (hb : b ∉ ([main_c, main_v0, main_v1, main_v2, main_v3, main_v4, main_v5] : List (Ref sig .tc))) :
    StableHlo.after (hostOpsA (F := F)) V (Proc.devRef .tc b) = V (Proc.devRef .tc b) :=
  StableHlo.after_of_forall_not_mem (b := Proc.devRef .tc b) _ _ (List.forall_iff_forall_mem.mp (by
    simp only [hostOpsA, List.Forall, StableHlo.nullary_writes, StableHlo.unary_writes, StableHlo.binary_writes,
      StableHlo.reshape_writes, Finset.mem_singleton]
    repeat' apply And.intro
    all_goals exact StableHlo.devRef_ne_of_ne (by rintro rfl; exact hb (by decide))))

/-- The second stretch writes the six operands it prepares for the second region. -/
theorem after_hostB (V : Valuation τ sig (Elt F)) (b : Ref sig .tc)
    (hb : b ∉ ([main_v8, main_v9, main_v10, main_v11, main_v12, main_v13] : List (Ref sig .tc))) :
    StableHlo.after (hostOpsB (F := F)) V (Proc.devRef .tc b) = V (Proc.devRef .tc b) :=
  StableHlo.after_of_forall_not_mem (b := Proc.devRef .tc b) _ _ (List.forall_iff_forall_mem.mp (by
    simp only [hostOpsB, List.Forall, StableHlo.nullary_writes, StableHlo.unary_writes, StableHlo.binary_writes,
      StableHlo.reshape_writes, Finset.mem_singleton]
    repeat' apply And.intro
    all_goals exact StableHlo.devRef_ne_of_ne (by rintro rfl; exact hb (by decide))))

/-- The last stretch writes the result. -/
theorem after_hostC (V : Valuation τ sig (Elt F)) (b : Ref sig .tc) (hb : b ≠ main_v15) :
    StableHlo.after (hostOpsC (F := F)) V (Proc.devRef .tc b) = V (Proc.devRef .tc b) :=
  StableHlo.after_of_forall_not_mem (b := Proc.devRef .tc b) _ _ (List.forall_iff_forall_mem.mp (by
    simp only [hostOpsC, List.Forall, StableHlo.nullary_writes, StableHlo.unary_writes, StableHlo.binary_writes,
      StableHlo.reshape_writes, Finset.mem_singleton]
    exact StableHlo.devRef_ne_of_ne hb))

section Args

variable (m : (ℓ : Loc nD τ sig) → Buf (Elt F) ℓ)

/-- The SparseCore call changes the gathered output only. -/
theorem W3_of_ne (c : Dev nD) (b : Ref sig .tc) (hb : b ≠ main_v7) :
    W3 m c (Proc.devRef .tc b) = W2 m c (Proc.devRef .tc b) := by
  unfold W3; exact Function.update_of_ne (StableHlo.devRef_ne_of_ne hb) _ _

/-- The second region leaves a buffer that is no array of its windows as it entered. -/
theorem W5_frame (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

/-- Window 3 is the one window of the second region on its array: the region leaves that array at what the window's data say. -/
theorem W5_win3 (c : Dev nD) :
    W5 m c (Proc.devRef .tc (Pipeline.arrRef spec2 3)) = (dat2 (V4 m) (O1 (F := F)) (B1 (F := F)) c).arrAt 3 cfg2.N := by
  unfold W5 Pipeline.withArrays
  have h : ∃ w', Proc.devRef .tc (Pipeline.arrRef spec2 w') = Proc.devRef (τ := τ) .tc (Pipeline.arrRef spec2 3) := ⟨3, rfl⟩
  rw [dif_pos h]
  suffices ∀ (w' : Fin cfg2.W) (e : Proc.devRef .tc (Pipeline.arrRef spec2 w') = Proc.devRef (τ := τ) .tc (Pipeline.arrRef spec2 3)),
      cast (congrArg (fun b' : DevRef τ sig => b'.ty.Contents (Elt F)) e) ((dat2 (V4 m) (O1 (F := F)) (B1 (F := F)) c).arrAt w' cfg2.N)
        = (dat2 (V4 m) (O1 (F := F)) (B1 (F := F)) c).arrAt 3 cfg2.N from this _ h.choose_spec
  intro w' e
  obtain rfl : w' = 3 :=
    (by decide : ∀ w' : Fin 12, Pipeline.arrRef spec2 w' = Pipeline.arrRef spec2 3 → w' = 3) w' (Proc.devRef_injective _ e)
  rfl

/-- The fold from the second region's entry back to the first region's exit, at a buffer neither the second stretch nor the call writes. -/
theorem W4_eq_W2 (c : Dev nD) (b : Ref sig .tc)
    (hB : b ∉ ([main_v8, main_v9, main_v10, main_v11, main_v12, main_v13] : List (Ref sig .tc))) (h7 : b ≠ main_v7) :
    W4 m c (Proc.devRef .tc b) = W2 m c (Proc.devRef .tc b) :=
  (after_hostB _ b hB).trans (W3_of_ne m c b h7)

/-- A buffer nothing writes — no stretch, no region's array, not the gathered output — ends as launched. -/
theorem W6_of_frame (c : Dev nD) (b : Ref sig .tc) (hC : b ≠ main_v15) (h2 : ∀ w, Pipeline.arrRef spec2 w ≠ b)
    (hB : b ∉ ([main_v8, main_v9, main_v10, main_v11, main_v12, main_v13] : List (Ref sig .tc))) (h7 : b ≠ main_v7)
    (h0 : ∀ w, Pipeline.arrRef spec0 w ≠ b)
    (hA : b ∉ ([main_c, main_v0, main_v1, main_v2, main_v3, main_v4, main_v5] : List (Ref sig .tc))) :
    W6 m c (Proc.devRef .tc b) = m ((c : Thread nD τ).loc b) :=
  calc W6 m c (Proc.devRef .tc b)
    _ = W5 m c (Proc.devRef .tc b) := after_hostC _ b hC
    _ = W4 m c (Proc.devRef .tc b) := W5_frame m c b h2
    _ = W2 m c (Proc.devRef .tc b) := W4_eq_W2 m c b hB h7
    _ = W1 m c (Proc.devRef .tc b) := W2_of_ne m c b h0
    _ = W0 m c (Proc.devRef .tc b) := after_hostA _ b hA
    _ = m ((c : Thread nD τ).loc b) := rfl

/-! ## The ten arguments -/

/-- The first region reads the node features through its input window 0. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := after_hostC _ main_arg0 (by decide)
    _ = W4 m c (Proc.devRef .tc main_arg0) := W5_frame m c main_arg0 (by decide)
    _ = W2 m c (Proc.devRef .tc main_arg0) := W4_eq_W2 m c main_arg0 (by decide) (by decide)
    _ = W1 m c (Proc.devRef .tc main_arg0) :=
        (W2_arr m c 0).trans (((dat0 (V1 m) (O0 (F := F)) (B0 (F := F)) c).arrAt_in 0 rfl _).trans (A_eq0 (V1 m) (O0 (F := F)) (B0 (F := F)) c 0))
    _ = W0 m c (Proc.devRef .tc main_arg0) := after_hostA _ main_arg0 (by decide)
    _ = m ((c : Thread nD τ).loc main_arg0) := rfl

theorem W6_main_arg1 (c : Dev nD) : W6 m c (Proc.devRef .tc main_arg1) = m ((c : Thread nD τ).loc main_arg1) :=
  W6_of_frame m c main_arg1 (by decide) (by decide) (by decide) (by decide) (by decide) (by decide)
theorem W6_main_arg2 (c : Dev nD) : W6 m c (Proc.devRef .tc main_arg2) = m ((c : Thread nD τ).loc main_arg2) :=
  W6_of_frame m c main_arg2 (by decide) (by decide) (by decide) (by decide) (by decide) (by decide)

/-- The second region reads the edge-side operand through its input window 3. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := after_hostC _ main_arg3 (by decide)
    _ = W4 m c (Proc.devRef .tc main_arg3) :=
        (W5_win3 m c).trans (((dat2 (V4 m) (O1 (F := F)) (B1 (F := F)) c).arrAt_in 3 rfl _).trans (A_eq2 (V4 m) (O1 (F := F)) (B1 (F := F)) c 3))
    _ = W2 m c (Proc.devRef .tc main_arg3) := W4_eq_W2 m c main_arg3 (by decide) (by decide)
    _ = W1 m c (Proc.devRef .tc main_arg3) := W2_of_ne m c main_arg3 (by decide)
    _ = W0 m c (Proc.devRef .tc main_arg3) := after_hostA _ main_arg3 (by decide)
    _ = m ((c : Thread nD τ).loc main_arg3) := rfl

theorem W6_main_arg4 (c : Dev nD) : W6 m c (Proc.devRef .tc main_arg4) = m ((c : Thread nD τ).loc main_arg4) :=
  W6_of_frame m c main_arg4 (by decide) (by decide) (by decide) (by decide) (by decide) (by decide)
theorem W6_main_arg5 (c : Dev nD) : W6 m c (Proc.devRef .tc main_arg5) = m ((c : Thread nD τ).loc main_arg5) :=
  W6_of_frame m c main_arg5 (by decide) (by decide) (by decide) (by decide) (by decide) (by decide)
theorem W6_main_arg6 (c : Dev nD) : W6 m c (Proc.devRef .tc main_arg6) = m ((c : Thread nD τ).loc main_arg6) :=
  W6_of_frame m c main_arg6 (by decide) (by decide) (by decide) (by decide) (by decide) (by decide)
theorem W6_main_arg7 (c : Dev nD) : W6 m c (Proc.devRef .tc main_arg7) = m ((c : Thread nD τ).loc main_arg7) :=
  W6_of_frame m c main_arg7 (by decide) (by decide) (by decide) (by decide) (by decide) (by decide)
theorem W6_main_arg8 (c : Dev nD) : W6 m c (Proc.devRef .tc main_arg8) = m ((c : Thread nD τ).loc main_arg8) :=
  W6_of_frame m c main_arg8 (by decide) (by decide) (by decide) (by decide) (by decide) (by decide)
theorem W6_main_arg9 (c : Dev nD) : W6 m c (Proc.devRef .tc main_arg9) = m ((c : Thread nD τ).loc main_arg9) :=
  W6_of_frame m c main_arg9 (by decide) (by decide) (by decide) (by decide) (by decide) (by decide)

/-- Every argument buffer ends as launched. -/
theorem W6_arg (c : Dev nD) (b : Ref sig .tc)
    (hb : b ∈ ({main_arg0, main_arg1, main_arg2, main_arg3, main_arg4, main_arg5, main_arg6, main_arg7, main_arg8, main_arg9} : Finset (Ref sig .tc))) :
    W6 m c (Proc.devRef .tc b) = m ((c : Thread nD τ).loc b) := by
  simp only [Finset.mem_insert, Finset.mem_singleton] at hb
  rcases hb with rfl | rfl | rfl | rfl | rfl | rfl | rfl | rfl | rfl | rfl
  · exact W6_main_arg0 m c
  · exact W6_main_arg1 m c
  · exact W6_main_arg2 m c
  · exact W6_main_arg3 m c
  · exact W6_main_arg4 m c
  · exact W6_main_arg5 m c
  · exact W6_main_arg6 m c
  · exact W6_main_arg7 m c
  · exact W6_main_arg8 m c
  · exact W6_main_arg9 m c

end Args

end Cert.Kernel.Hand

end
-- ==== Proof.WScClaims.lean ====
/-
  The kernel program's run read for the claims: every argument ends as launched, and the result buffer
  ends at the last boundary's contents.
-/
import proofs.«206068_g62534723830210_cont_9to1_m_587_24_alg».proof.Proof.WScMain
import proofs.«206068_g62534723830210_cont_9to1_m_587_24_alg».proof.Proof.WScArgs

set_option maxRecDepth 16384

noncomputable section

namespace Cert.Kernel.Hand

open Cert.Kernel Cert.Kernel.Gen

open Idealize.ShloMosaic Idealize.ShloMosaic.TcCoe
open Idealize.SL Idealize.SL.Sem
open Idealize.ShloMosaic.SparseCore.Cfg (HIx)

variable {F : FTy → Type} [FloatOps F] [∀ e, Nonempty (Elt F e)]

variable (m : (ℓ : Loc nD τ sig) → Buf (Elt F) ℓ) (ρ : Dev nD → PrngReg)

/-- The frame: every weakly fair execution of the whole mesh terminates, and the ten arguments end as launched. -/
theorem frame_of_run (htile : (K (F := F)).TileObl (D (F := F)) 𝒱 (PP m) v₀ 0) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.Kernel.defs (F := F)) _ _).mono (fun r h c =>
    ⟨(h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c)⟩) (run_main m ρ htile)

/-- The same run with the result named: the result buffer ends at the last boundary's contents. -/
theorem value_of_run (htile : (K (F := F)).TileObl (D (F := F)) 𝒱 (PP m) v₀ 0) :
    θ_run (Cert.Kernel.defs (F := F)) (Cert.Kernel.threads (F := F)) ⟨m, fun _ => 0, ρ⟩ (fun r => ∀ c : Dev nD,
      r.2.mem ((c.tc : Thread nD τ).loc main_v15) = W6 m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run (Cert.Kernel.defs (F := F)) _ _).mono (fun r h c =>
    ⟨h c _ (mem_uc main_v15 (by decide)),
      (h c _ (mem_uc main_arg0 (by decide))).trans (W6_main_arg0 m c),
      (h c _ (mem_uc main_arg1 (by decide))).trans (W6_main_arg1 m c),
      (h c _ (mem_uc main_arg2 (by decide))).trans (W6_main_arg2 m c),
      (h c _ (mem_uc main_arg3 (by decide))).trans (W6_main_arg3 m c),
      (h c _ (mem_uc main_arg4 (by decide))).trans (W6_main_arg4 m c),
      (h c _ (mem_uc main_arg5 (by decide))).trans (W6_main_arg5 m c),
      (h c _ (mem_uc main_arg6 (by decide))).trans (W6_main_arg6 m c),
      (h c _ (mem_uc main_arg7 (by decide))).trans (W6_main_arg7 m c),
      (h c _ (mem_uc main_arg8 (by decide))).trans (W6_main_arg8 m c),
      (h c _ (mem_uc main_arg9 (by decide))).trans (W6_main_arg9 m c)⟩) (run_main m ρ htile)

end Cert.Kernel.Hand

end
-- ==== Proof.ScTileFacts.lean ====
/-
  Arithmetic of the tile's pipeline: how many steps a tile takes, which of a step's guarded
  operations run, where a step's slices sit and what the step hands to the next, each as a
  closed form of the tile's coordinates and the step, checked over the 32 tiles and their steps.
-/
import proofs.«206068_g62534723830210_cont_9to1_m_587_24_alg».proof.Proof.ScPay

set_option Elab.async false

noncomputable section

namespace Cert.KernelIdeal.Hand

open Cert.KernelIdeal Cert.KernelIdeal.Gen
open Idealize.ShloMosaic

/-- The tile's number, from its grid coordinates. -/
def wN (L : grid1.Coords) : ℕ := 16 * (L 0).val + (L 1).val

theorem trips1 : ∀ L : grid1.Coords, (k1_t1_loop L).trips = cnt (wN L) := by decide +kernel
theorem trips2 (L : grid1.Coords) : (k1_t2_loop L).trips = 0 := Nat.le_zero.mp (k1_t2_abs L).2.1
theorem cond1 : ∀ L : grid1.Coords, k1_cond1 L = 1#1 := by decide +kernel
theorem cond17 : ∀ L : grid1.Coords, k1_cond17 L = 1#1 := by decide +kernel
theorem off2_eq : ∀ L : grid1.Coords, k1_off2 L = ![0, 256 * lo (wN L)] := by decide +kernel

/-! ## Which guarded operations a step runs -/

theorem cond2_at : ∀ (L : grid1.Coords) (k : Fin (k1_t1_loop L).trips),
    k1_cond2 L k (BitVec.ofNat 32 k.val) = if k.val + 1 < (k1_t1_loop L).trips then 1#1 else 0#1 := by decide +kernel
theorem cond3_at : ∀ (L : grid1.Coords) (k : Fin (k1_t1_loop L).trips), k1_cond3 L k (BitVec.ofNat 32 k.val) = 1#1 := by decide +kernel
theorem cond6_at : ∀ (L : grid1.Coords) (k : Fin (k1_t1_loop L).trips), k1_cond6 L k (BitVec.ofNat 32 k.val) = 1#1 := by decide +kernel
theorem cond8_at : ∀ (L : grid1.Coords) (k : Fin (k1_t1_loop L).trips),
    k1_cond8 L k (BitVec.ofNat 32 k.val) = if k.val = 0 then 0#1 else 1#1 := by decide +kernel

/-! ## Where a step's blocks sit -/

theorem off5_at : ∀ (L : grid1.Coords) (k : Fin (k1_t1_loop L).trips), k.val + 1 < (k1_t1_loop L).trips →
    k1_off5 L (BitVec.ofNat 32 k.val) = ![0, 256 * (lo (wN L) + (k.val + 1))] := by decide +kernel
theorem off8_at : ∀ (L : grid1.Coords) (k : Fin (k1_t1_loop L).trips),
    k1_off8 L (BitVec.ofNat 32 k.val) = ![0, 256 * (lo (wN L) + k.val)] := by decide +kernel
theorem off13_at : ∀ (L : grid1.Coords) (k : Fin (k1_t1_loop L).trips),
    k1_off13 L (BitVec.ofNat 32 k.val) = ![256 * (lo (wN L) + k.val), 0] := by decide +kernel
theorem off16_at : ∀ (L : grid1.Coords) (k : Fin (k1_t1_loop L).trips), 0 < k.val →
    k1_off16 L (BitVec.ofNat 32 k.val) = ![256 * (lo (wN L) + (k.val - 1)), 0] := by decide +kernel
theorem off33_at : ∀ (L : grid1.Coords), k1_off33 L 0#32 = ![256 * (lo (wN L) + (cnt (wN L) - 1)), 0] := by decide +kernel

/-! ## The checks the body assumes -/

theorem rem2_lt (a : BitVec 32) : (Scalar.remui a 2#32).toNat < 2 := by
  have h : Scalar.remui a 2#32 = a % 2#32 := by
    unfold Scalar.remui IntOp.remui; simp
  rw [h, BitVec.toNat_umod]; exact Nat.mod_lt _ (by decide)

theorem chk2_all (L : grid1.Coords) (a : BitVec 32) : k1_chk2 L a := by
  intro _ x
  have := rem2_lt a
  fin_cases x
  · show (Scalar.remui a 2#32).toNat + 1 ≤ 2; omega
  · show 0 + 256 ≤ 256; omega
  · show 0 + 128 ≤ 128; omega
theorem chk3_all (L : grid1.Coords) (a : BitVec 32) : k1_chk3 L a := by
  intro _ x
  have := rem2_lt a
  fin_cases x
  · show (Scalar.remui a 2#32).toNat + 1 ≤ 2; omega
  · show 0 + 1 ≤ 1; omega
  · show 0 + 256 ≤ 256; omega

theorem slotA_inb (a : BitVec 32) : ∀ x, (![(Scalar.remui a 2#32).toNat, 0, 0] : Fin 3 → ℕ) x + S1x1x256.size x ≤ S2x1x256.size x := by
  intro x
  have := rem2_lt a
  fin_cases x
  · show (Scalar.remui a 2#32).toNat + 1 ≤ 2; omega
  · show 0 + 1 ≤ 1; omega
  · show 0 + 256 ≤ 256; omega
theorem slotG_inb (a : BitVec 32) : ∀ x, (![(Scalar.remui a 2#32).toNat, 0, 0] : Fin 3 → ℕ) x + S1x256x128.size x ≤ S2x256x128.size x := by
  intro x
  have := rem2_lt a
  fin_cases x
  · show (Scalar.remui a 2#32).toNat + 1 ≤ 2; omega
  · show 0 + 256 ≤ 256; omega
  · show 0 + 128 ≤ 128; omega
theorem slotS_inb (a : BitVec 32) : ∀ x, (![(Scalar.remui a 2#32).toNat] : Fin 1 → ℕ) x + S1.size x ≤ S2.size x := by
  intro x
  have := rem2_lt a
  fin_cases x
  show (Scalar.remui a 2#32).toNat + 1 ≤ 2; omega

theorem blk5_inb : ∀ (L : grid1.Coords) (k : Fin (k1_t1_loop L).trips), ∀ x, (k1_off5 L (BitVec.ofNat 32 k.val)) x + S1x256.size x ≤ S1x640000.size x := by decide +kernel
theorem blk8_inb : ∀ (L : grid1.Coords) (k : Fin (k1_t1_loop L).trips), ∀ x, (k1_off8 L (BitVec.ofNat 32 k.val)) x + S1x256.size x ≤ S1x640000.size x := by decide +kernel
theorem blk13_inb : ∀ (L : grid1.Coords) (k : Fin (k1_t1_loop L).trips), ∀ x, (k1_off13 L (BitVec.ofNat 32 k.val)) x + S256x128.size x ≤ S640000x128.size x := by decide +kernel
theorem blk16_inb : ∀ (L : grid1.Coords) (k : Fin (k1_t1_loop L).trips), ∀ x, (k1_off16 L (BitVec.ofNat 32 k.val)) x + S256x128.size x ≤ S640000x128.size x := by decide +kernel
theorem blk33_inb : ∀ (L : grid1.Coords), ∀ x, (k1_off33 L 0#32) x + S256x128.size x ≤ S640000x128.size x := by decide +kernel

theorem chk1_at (L : grid1.Coords) (k : Fin (k1_t1_loop L).trips) (a6 a7 a8 a9 : BitVec 32) :
    k1_chk1 L k a6 a7 a8 a9 (BitVec.ofNat 32 k.val) :=
  ⟨fun _ _ => slotA_inb a6, fun _ _ => blk5_inb L k, fun _ _ => slotS_inb a6,
   fun _ _ => slotA_inb a7, fun _ _ => blk8_inb L k, fun _ _ => slotS_inb a7,
   fun _ _ => slotG_inb a8, fun _ _ => blk13_inb L k, fun _ _ => slotS_inb a8,
   fun _ _ => slotG_inb a9, fun _ _ => blk16_inb L k, fun _ _ => slotS_inb a9⟩

theorem chk7_all (L : grid1.Coords) (a : BitVec 32) : k1_chk7 L a :=
  ⟨fun _ _ => slotG_inb a, fun _ _ => slotS_inb a, fun _ _ => slotG_inb a⟩
theorem chk8_at (L : grid1.Coords) : k1_chk8 L 0#32 := fun _ _ => blk33_inb L

end Cert.KernelIdeal.Hand

end
-- ==== Proof.ScTileDefs.lean ====
/-
  The vector subcore's task, its vocabulary: the tile's own cells and buffers taken out of its
  scoped storage, the two rings' slots and their semaphores as the body addresses them, the blocks
  of the list and of the output as the body slices them, a family of blocks some of which are lent
  to transfers in flight, and the fact that a fetched list names rows of the table.
-/
import proofs.«206068_g62534723830210_cont_9to1_m_587_24_alg».proof.Proof.ScTileFacts

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
/-- The tile's number among the 32, from its grid coordinates. -/
abbrev wL (L : grid1.Coords) : Fin 32 := tw (Fin.cast bound_zero (L 0)) (Fin.cast bound_one (L 1))

variable (d : Dev nD) (L : grid1.Coords)

/-! ## The tile's own cells and buffers -/

/-- DMA semaphore number `n` of the tile: 6 and 7 serve the list's two slots, 8 and 9 the rows' two slots, 10 and 11
    the two loops' gathers. -/
abbrev cellN (n : ℕ) (h : n < 28) (d : Dev nD) (c : Fin τ.nSC) (i : Fin τ.nSub) : GSem nD τ sig := (V d c i, .dma ⟨n, h⟩)

omit [FloatOps F] in
theorem cell_scoped (n : ℕ) (h : n < 28) (h6 : 6 ≤ n) (h12 : n < 12) : (cellN n h d (cV L) (jV L)) ∈ ownCells (V d (cV L) (jV L)) :=
  (mem_ownCells (g := cellN n h d (cV L) (jV L))).mpr ⟨rfl, by
    show (SemLoc.dma ⟨n, h⟩ : SemLoc sig).isScoped .scVector = true
    interval_cases n <;> first | rfl | decide +revert⟩

omit [FloatOps F] in
theorem cellN_ne {n m : ℕ} (hn : n < 28) (hm : m < 28) (h : n ≠ m) (c : Fin τ.nSC) (i : Fin τ.nSub) : cellN n hn d c i ≠ cellN m hm d c i := by
  intro e
  have e2 : (SemLoc.dma ⟨n, hn⟩ : SemLoc sig) = SemLoc.dma ⟨m, hm⟩ := congrArg Prod.snd e
  exact h (Fin.mk.inj (SemLoc.dma.inj e2))

omit [FloatOps F] in
theorem ownSems0_V :
    (ownSems0 (V d (cV L) (jV L)) : sProp 𝕄)
      = iprop(semVal (cellN 6 (by omega) d (cV L) (jV L)) 0 ∗ semVal (cellN 7 (by omega) d (cV L) (jV L)) 0
          ∗ semVal (cellN 8 (by omega) d (cV L) (jV L)) 0 ∗ semVal (cellN 9 (by omega) d (cV L) (jV L)) 0
          ∗ semVal (cellN 10 (by omega) d (cV L) (jV L)) 0 ∗ semVal (cellN 11 (by omega) d (cV L) (jV L)) 0
          ∗ bigSep ((((((((ownCells (V d (cV L) (jV L))).erase (cellN 6 (by omega) d (cV L) (jV L))).erase (cellN 7 (by omega) d (cV L) (jV L))).erase
              (cellN 8 (by omega) d (cV L) (jV L))).erase (cellN 9 (by omega) d (cV L) (jV L))).erase (cellN 10 (by omega) d (cV L) (jV L))).erase
              (cellN 11 (by omega) d (cV L) (jV L)))) fun g => semVal g 0) := by
  unfold SparseCore.Cfg.ownSems0
  rw [SparseCore.bigSep_erase' (cell_scoped d L 6 (by omega) (by omega) (by omega)),
    SparseCore.bigSep_erase' (Finset.mem_erase.mpr ⟨cellN_ne d _ _ (by omega) _ _, cell_scoped d L 7 (by omega) (by omega) (by omega)⟩),
    SparseCore.bigSep_erase' (Finset.mem_erase.mpr ⟨cellN_ne d _ _ (by omega) _ _, Finset.mem_erase.mpr ⟨cellN_ne d _ _ (by omega) _ _, cell_scoped d L 8 (by omega) (by omega) (by omega)⟩⟩),
    SparseCore.bigSep_erase' (Finset.mem_erase.mpr ⟨cellN_ne d _ _ (by omega) _ _, Finset.mem_erase.mpr ⟨cellN_ne d _ _ (by omega) _ _, Finset.mem_erase.mpr ⟨cellN_ne d _ _ (by omega) _ _,
      cell_scoped d L 9 (by omega) (by omega) (by omega)⟩⟩⟩),
    SparseCore.bigSep_erase' (Finset.mem_erase.mpr ⟨cellN_ne d _ _ (by omega) _ _, Finset.mem_erase.mpr ⟨cellN_ne d _ _ (by omega) _ _, Finset.mem_erase.mpr ⟨cellN_ne d _ _ (by omega) _ _,
      Finset.mem_erase.mpr ⟨cellN_ne d _ _ (by omega) _ _, cell_scoped d L 10 (by omega) (by omega) (by omega)⟩⟩⟩⟩),
    SparseCore.bigSep_erase' (Finset.mem_erase.mpr ⟨cellN_ne d _ _ (by omega) _ _, Finset.mem_erase.mpr ⟨cellN_ne d _ _ (by omega) _ _, Finset.mem_erase.mpr ⟨cellN_ne d _ _ (by omega) _ _,
      Finset.mem_erase.mpr ⟨cellN_ne d _ _ (by omega) _ _, Finset.mem_erase.mpr ⟨cellN_ne d _ _ (by omega) _ _, cell_scoped d L 11 (by omega) (by omega) (by omega)⟩⟩⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc1_scoped0 ↦{fullShare} f) ∗ (∃ f, (V d (cV L) (jV L)).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-! ## The two scratch rings' slots -/

omit [FloatOps F] in
theorem inbA (s : Fin 2) : ∀ a, (![s.val, 0, 0] : Fin 3 → Nat) a + S1x1x256.size a ≤ S2x1x256.size a := by
  have := s.isLt; intro a; fin_cases a
  · show s.val + 1 ≤ 2; omega
  · show 0 + 1 ≤ 1; omega
  · show 0 + 256 ≤ 256; omega
omit [FloatOps F] in
theorem inbG (s : Fin 2) : ∀ a, (![s.val, 0, 0] : Fin 3 → Nat) a + S1x256x128.size a ≤ S2x256x128.size a := by
  have := s.isLt; intro a; fin_cases a
  · show s.val + 1 ≤ 2; omega
  · show 0 + 256 ≤ 256; omega
  · show 0 + 128 ≤ 128; omega
/-- Slot `s` of the list's ring and of the rows' ring, as the body addresses them. -/
abbrev aSlot (s : Fin 2) : Memref sig .scVector .vmem S1x256 .i32 :=
  ((Memref.whole cc1_scoped0).slice (Rect.unit (s := S2x1x256) ![s.val, 0, 0] S1x1x256.size (inbA s)) (fun _ => rfl)).squeeze S1x256 squeezes_S1x1x256_S1x256
abbrev gSlot (s : Fin 2) : Memref sig .scVector .vmem S256x128 .f32 :=
  ((Memref.whole cc1_scoped2).slice (Rect.unit (s := S2x256x128) ![s.val, 0, 0] S1x256x128.size (inbG s)) (fun _ => rfl)).squeeze S256x128 squeezes_S1x256x128_S256x128

omit [FloatOps F] in
theorem aSlot_set (s : Fin 2) : (aSlot s).view.set = Finset.univ.filter fun j : S2x1x256.Idx => (j 0).val = s.val := by
  show (((Memref.whole cc1_scoped0).view.slice (Rect.unit (s := S2x1x256) ![s.val, 0, 0] S1x1x256.size (inbA s))).reshape S1x256 squeezes_S1x1x256_S1x256.numel_eq).set = _
  rw [View.set_reshape]
  show ((View.whole cc1_scoped0).slice _).set = _
  rw [View.set_slice_whole]
  ext j
  simp only [Rect.mem_set_unit, Finset.mem_filter, Finset.mem_univ, true_and]
  constructor
  · intro h; have h0 : s.val ≤ (j 0).val ∧ (j 0).val < s.val + 1 := h 0; omega
  · intro h a; fin_cases a
    · show s.val ≤ (j 0).val ∧ (j 0).val < s.val + 1; omega
    · have h1 : (j 1).val < 1 := (j 1).isLt; show 0 ≤ (j 1).val ∧ (j 1).val < 0 + 1; omega
    · have h2 : (j 2).val < 256 := (j 2).isLt; show 0 ≤ (j 2).val ∧ (j 2).val < 0 + 256; omega
omit [FloatOps F] in
theorem gSlot_set (s : Fin 2) : (gSlot s).view.set = Finset.univ.filter fun j : S2x256x128.Idx => (j 0).val = s.val := by
  show (((Memref.whole cc1_scoped2).view.slice (Rect.unit (s := S2x256x128) ![s.val, 0, 0] S1x256x128.size (inbG s))).reshape S256x128 squeezes_S1x256x128_S256x128.numel_eq).set = _
  rw [View.set_reshape]
  show ((View.whole cc1_scoped2).slice _).set = _
  rw [View.set_slice_whole]
  ext j
  simp only [Rect.mem_set_unit, Finset.mem_filter, Finset.mem_univ, true_and]
  constructor
  · intro h; have h0 : s.val ≤ (j 0).val ∧ (j 0).val < s.val + 1 := h 0; omega
  · intro h a; fin_cases a
    · show s.val ≤ (j 0).val ∧ (j 0).val < s.val + 1; omega
    · have h1 : (j 1).val < 256 := (j 1).isLt; show 0 ≤ (j 1).val ∧ (j 1).val < 0 + 256; omega
    · have h2 : (j 2).val < 128 := (j 2).isLt; show 0 ≤ (j 2).val ∧ (j 2).val < 0 + 128; omega
omit [FloatOps F] in
theorem aSlot_compl : (Finset.univ : Finset S2x1x256.Idx) \ (aSlot 0).view.set = (aSlot 1).view.set := by
  rw [aSlot_set, aSlot_set]; ext j
  have := (j 0).isLt
  simp only [Finset.mem_sdiff, Finset.mem_univ, Finset.mem_filter, true_and]
  show ¬ (j 0).val = 0 ↔ (j 0).val = 1
  have h2 : (j 0).val < 2 := this
  omega
omit [FloatOps F] in
theorem gSlot_compl : (Finset.univ : Finset S2x256x128.Idx) \ (gSlot 0).view.set = (gSlot 1).view.set := by
  rw [gSlot_set, gSlot_set]; ext j
  have := (j 0).isLt
  simp only [Finset.mem_sdiff, Finset.mem_univ, Finset.mem_filter, true_and]
  show ¬ (j 0).val = 0 ↔ (j 0).val = 1
  have h2 : (j 0).val < 2 := this
  omega

/-! ## The blocks as the body slices them -/

/-- A block of the list and of the output at the offsets the body computed. -/
abbrev iBlkM (off : Fin 2 → ℕ) (h : ∀ a, off a + S1x256.size a ≤ S1x640000.size a) : Memref sig .scVector .hbm S1x256 .i32 :=
  (iV).slice (Rect.unit (s := S1x640000) off S1x256.size h) (fun _ => rfl)
abbrev oBlkM (off : Fin 2 → ℕ) (h : ∀ a, off a + S256x128.size a ≤ S640000x128.size a) : Memref sig .scVector .hbm S256x128 .f32 :=
  (oV).slice (Rect.unit (s := S640000x128) off S256x128.size h) (fun _ => rfl)

omit [FloatOps F] in
theorem pts_iBlk (b : Fin 2500) (off : Fin 2 → ℕ) (h : ∀ a, off a + S1x256.size a ≤ S1x640000.size a) (e : off = ![0, 256 * b.val])
    (f : Buf (Elt F) (iLoc d)) :
    ((iBlkM off h).view.loc (V d (cV L) (jV L)) ↦[(iBlkM off h).view.set]{fullShare} f : sProp 𝕄) = iLoc d ↦[iBlkSet b]{fullShare} f := by
  subst e; rfl
omit [FloatOps F] in
theorem pts_oBlk (b : Fin 2500) (off : Fin 2 → ℕ) (h : ∀ a, off a + S256x128.size a ≤ S640000x128.size a) (e : off = ![256 * b.val, 0])
    (f : Buf (Elt F) (oLoc d)) :
    ((oBlkM off h).view.loc (V d (cV L) (jV L)) ↦[(oBlkM off h).view.set]{fullShare} f : sProp 𝕄) = oLoc d ↦[oBlkSet b]{fullShare} f := by
  subst e; rfl

omit [FloatOps F] in
theorem wN_eq : wN L = (wL L).val := rfl

omit [FloatOps F] in
/-- A ring held whole is its two slots. -/
theorem alloca_split (fa : Buf (Elt F) ((V d (cV L) (jV L)).loc cc1_scoped0)) :
    ((V d (cV L) (jV L)).loc cc1_scoped0 ↦{fullShare} fa : sProp 𝕄)
      ⊣⊢ iprop(((aSlot 0).view.loc (V d (cV L) (jV L)) ↦[(aSlot 0).view.set]{fullShare} fa)
          ∗ ((aSlot 1).view.loc (V d (cV L) (jV L)) ↦[(aSlot 1).view.set]{fullShare} fa)) := by
  have h : ((V d (cV L) (jV L)).loc cc1_scoped0 ↦[Finset.univ]{fullShare} fa : sProp 𝕄)
      ⊣⊢ iprop(((V d (cV L) (jV L)).loc cc1_scoped0 ↦[(aSlot 0).view.set]{fullShare} fa)
          ∗ ((V d (cV L) (jV L)).loc cc1_scoped0 ↦[Finset.univ \ (aSlot 0).view.set]{fullShare} fa)) :=
    pointsTo_split_subset (Finset.subset_univ (aSlot 0).view.set)
  rw [aSlot_compl] at h
  exact h
omit [FloatOps F] in
theorem alloca4_split (fg : Buf (Elt F) ((V d (cV L) (jV L)).loc cc1_scoped2)) :
    ((V d (cV L) (jV L)).loc cc1_scoped2 ↦{fullShare} fg : sProp 𝕄)
      ⊣⊢ iprop(((gSlot 0).view.loc (V d (cV L) (jV L)) ↦[(gSlot 0).view.set]{fullShare} fg)
          ∗ ((gSlot 1).view.loc (V d (cV L) (jV L)) ↦[(gSlot 1).view.set]{fullShare} fg)) := by
  have h : ((V d (cV L) (jV L)).loc cc1_scoped2 ↦[Finset.univ]{fullShare} fg : sProp 𝕄)
      ⊣⊢ iprop(((V d (cV L) (jV L)).loc cc1_scoped2 ↦[(gSlot 0).view.set]{fullShare} fg)
          ∗ ((V d (cV L) (jV L)).loc cc1_scoped2 ↦[Finset.univ \ (gSlot 0).view.set]{fullShare} fg)) :=
    pointsTo_split_subset (Finset.subset_univ (gSlot 0).view.set)
  rw [gSlot_compl] at h
  exact h

omit [FloatOps F] in
theorem pts_tV (q : PosShare TreeShare) (f : Buf (Elt F) (tLoc d)) :
    ((tV).view.loc (V d (cV L) (jV L)) ↦{q} f : sProp 𝕄) = tLoc d ↦{q} f := rfl

/-! ## Slots and cells by the words the body carries -/

omit [FloatOps F] in
theorem inbS (s : Fin 2) : ∀ a, (![s.val] : Fin 1 → Nat) a + S1.size a ≤ S2.size a := by
  have := s.isLt; intro a; fin_cases a
  show s.val + 1 ≤ 2; omega
/-- The semaphore of slot `s` of the list's ring, and of the rows' ring, as the body addresses them. -/
abbrev semI (s : Fin 2) : DmaSem sig := ((cc1_scoped1.slice (Rect.unit (s := S2) ![s.val] S1.size (inbS s))).squeeze S_ squeezes_S1_S_).sem
abbrev semO (s : Fin 2) : DmaSem sig := ((cc1_scoped3.slice (Rect.unit (s := S2) ![s.val] S1.size (inbS s))).squeeze S_ squeezes_S1_S_).sem
/-- The slot a word names: its remainder by two. -/
abbrev slotW (a : BitVec 32) : Fin 2 := ⟨(Scalar.remui a 2#32).toNat, rem2_lt a⟩
/-- The slot of step `k`. -/
def sl (k : ℕ) : Fin 2 := ⟨k % 2, Nat.mod_lt _ (by decide)⟩

omit [FloatOps F] in
theorem slotW_ofNat (m : ℕ) (hm : m < 2 ^ 32) : slotW (BitVec.ofNat 32 m) = sl m := by
  apply Fin.ext
  show (Scalar.remui (BitVec.ofNat 32 m) 2#32).toNat = m % 2
  have h : Scalar.remui (BitVec.ofNat 32 m) 2#32 = BitVec.ofNat 32 m % 2#32 := by
    unfold Scalar.remui IntOp.remui; simp
  rw [h, BitVec.toNat_umod, BitVec.toNat_ofNat, Nat.mod_eq_of_lt hm]; rfl

omit [FloatOps F] in
theorem semI_0 : semI 0 = ⟨6, by decide⟩ := rfl
omit [FloatOps F] in
theorem semI_1 : semI 1 = ⟨7, by decide⟩ := rfl
omit [FloatOps F] in
theorem semO_0 : semO 0 = ⟨8, by decide⟩ := rfl
omit [FloatOps F] in
theorem semO_1 : semO 1 = ⟨9, by decide⟩ := rfl

/-- The list of slot `s` as the gather addresses it. -/
abbrev lSlot (s : Fin 2) : Memref sig .scVector .vmem S256 .i32 :=
  ((aSlot s).slice (Rect.unit (s := S1x256) ![0, 0] S1x256.size inb_S1x256_S1x256_0_0) (fun _ => rfl)).squeeze S256 squeezes_S1x256_S256

/-- A slot's list as the gather addresses it, at the offsets the body computed. -/
abbrev lSlotP (off : Fin 3 → ℕ) (h : ∀ a, off a + S1x1x256.size a ≤ S2x1x256.size a) : Memref sig .scVector .vmem S256 .i32 :=
  ((((Memref.whole cc1_scoped0).slice (Rect.unit (s := S2x1x256) off S1x1x256.size h) (fun _ => rfl)).squeeze S1x256 squeezes_S1x1x256_S1x256).slice
    (Rect.unit (s := S1x256) ![0, 0] S1x256.size inb_S1x256_S1x256_0_0) (fun _ => rfl)).squeeze S256 squeezes_S1x256_S256

omit [FloatOps F] in
theorem rect00_set : (Rect.unit (s := S1x256) ![0, 0] S1x256.size inb_S1x256_S1x256_0_0).set = Finset.univ := by
  ext i
  simp only [Rect.mem_set_unit, Finset.mem_univ, iff_true]
  intro a; fin_cases a
  · have h0 : (i 0).val < 1 := (i 0).isLt
    show 0 ≤ (i 0).val ∧ (i 0).val < 0 + 1; omega
  · have h1 : (i 1).val < 256 := (i 1).isLt
    show 0 ≤ (i 1).val ∧ (i 1).val < 0 + 256; omega

omit [FloatOps F] in
theorem lSlotP_set (a : BitVec 32) (h : ∀ x, (k1_off11 a) x + S1x1x256.size x ≤ S2x1x256.size x) :
    (lSlotP (k1_off11 a) h).view.set = (aSlot (slotW a)).view.set := by
  show ((((aSlot (slotW a)).view).slice (Rect.unit (s := S1x256) ![0, 0] S1x256.size inb_S1x256_S1x256_0_0)).reshape S256 squeezes_S1x256_S256.numel_eq).set = _
  rw [View.set_reshape, View.set_slice, rect00_set]
  try rfl

omit [FloatOps F] in
theorem pts_lSlot (a : BitVec 32) (h : ∀ x, (k1_off11 a) x + S1x1x256.size x ≤ S2x1x256.size x)
    (f : Buf (Elt F) ((aSlot (slotW a)).view.loc (V d (cV L) (jV L)))) :
    ((lSlotP (k1_off11 a) h).view.loc (V d (cV L) (jV L)) ↦[(lSlotP (k1_off11 a) h).view.set]{fullShare} f : sProp 𝕄)
      = ((aSlot (slotW a)).view.loc (V d (cV L) (jV L)) ↦[(aSlot (slotW a)).view.set]{fullShare} f) := by
  rw [lSlotP_set]
  try rfl

/-! ## A family of blocks, some of them lent out -/

/-- The blocks `Φ j` of a tile, those whose number satisfies `p` being elsewhere (in a transfer in flight). -/
def famB {n : ℕ} (Φ : Fin n → sProp 𝕄) (p : ℕ → Prop) [DecidablePred p] : sProp 𝕄 :=
  bigSep Finset.univ fun j : Fin n => if p j.val then iprop(emp) else Φ j

omit [FloatOps F] in
theorem famB_take {n : ℕ} (Φ : Fin n → sProp 𝕄) (p : ℕ → Prop) [DecidablePred p] (j : Fin n) (hj : ¬ p j.val) :
    famB (F := F) Φ p ⊢ iprop(Φ j ∗ famB (F := F) Φ (fun m => p m ∨ m = j.val)) := by
  unfold famB
  refine (bigSep_univ_update (Φ := fun j' : Fin n => if p j'.val then iprop(emp) else Φ j')
    (Ψ := fun j' : Fin n => if (p j'.val ∨ j'.val = j.val) then iprop(emp) else Φ j') j ?_).trans ?_
  · intro j' hne
    have hv : j'.val ≠ j.val := fun e => hne (Fin.ext e)
    by_cases hp : p j'.val
    · simp only [hp, true_or, if_true]
    · simp only [hp, hv, or_self, if_false]
  · beta_reduce
    rw [if_neg hj, if_pos (Or.inr rfl : p j.val ∨ j.val = j.val)]
    iintro ⟨H, Hw⟩
    isplitl [H]; · iexact H
    iapply Hw
    iempintro

omit [FloatOps F] in
theorem famB_put {n : ℕ} (Φ : Fin n → sProp 𝕄) (p : ℕ → Prop) [DecidablePred p] (j : Fin n) (hj : p j.val) :
    iprop(Φ j ∗ famB (F := F) Φ p) ⊢ famB (F := F) Φ (fun m => p m ∧ m ≠ j.val) := by
  unfold famB
  iintro ⟨H, HB⟩
  ihave HB' := (bigSep_univ_update (Φ := fun j' : Fin n => if p j'.val then iprop(emp) else Φ j')
    (Ψ := fun j' : Fin n => if (p j'.val ∧ j'.val ≠ j.val) then iprop(emp) else Φ j') j (by
      intro j' hne
      have hv : j'.val ≠ j.val := fun e => hne (Fin.ext e)
      by_cases hp : p j'.val
      · simp only [hp, hv, ne_eq, not_false_eq_true, and_self, if_true]
      · simp only [hp, false_and, if_false])) $$ HB
  icases HB' with ⟨-, Hw⟩
  iapply Hw
  rw [if_neg (show ¬ (p j.val ∧ j.val ≠ j.val) from fun h => h.2 rfl)]
  iexact H

omit [FloatOps F] in
theorem famB_congr {n : ℕ} (Φ : Fin n → sProp 𝕄) (p q : ℕ → Prop) [DecidablePred p] [DecidablePred q] (h : ∀ m, p m ↔ q m) :
    famB (F := F) Φ p = famB (F := F) Φ q := by
  unfold famB
  congr 1; funext j
  by_cases hp : p j.val
  · rw [if_pos hp, if_pos ((h _).mp hp)]
  · rw [if_neg hp, if_neg (fun hq => hp ((h _).mpr hq))]

variable (ix : Buf (Elt F) (iLoc (0 : Dev nD)))

omit [FloatOps F] in
/-- The list a fetch landed names rows of the table: its words are words of the list of row numbers. -/
theorem list_inb (hin : ∀ r : Fin 640000, (ix (ValueIdx.ix2 (0 : Fin 1) r)).toNat < 20000) (s : Fin 2)
    (fa : Buf (Elt F) ((aSlot s).view.loc (V d (cV L) (jV L)))) (off : Fin 2 → ℕ) (h : ∀ a, off a + S1x256.size a ≤ S1x640000.size a)
    (pay : S1x256.Idx → Elt F .i32) (hpay : pay = ReadAs.same.apply ((iBlkM off h).view.read (Elt F) ix)) :
    ∀ x, ((lSlot s).view.read (Elt F) ((aSlot s).view.writes (Elt F) fa [⟨Rect.whole S1x256, pay⟩]) x).toNat
      < S20000x128.size gathers_S20000x128_S256x128.axis := by
  intro x
  subst hpay
  have hsub : (lSlot s).view.set ⊆ (aSlot s).view.set := by
    show (((aSlot s).view.slice (Rect.unit (s := S1x256) ![0, 0] S1x256.size inb_S1x256_S1x256_0_0)).reshape S256 squeezes_S1x256_S256.numel_eq).set ⊆ _
    rw [View.set_reshape]; exact View.set_slice_subset _ _
  have hmem : (lSlot s).view.emb x ∈ ((aSlot s).view.slice (Rect.whole S1x256)).set := by
    have e : ((aSlot s).view.slice (Rect.whole S1x256)).set = (aSlot s).view.set := by
      rw [View.set_slice, Rect.set_whole]; rfl
    rw [e]
    exact hsub (Finset.mem_map_of_mem _ (Finset.mem_univ x))
  obtain ⟨x', -, hx'⟩ := Finset.mem_map.mp hmem
  rw [View.read_apply, View.writes_singleton, ← hx', View.write_emb_of_mem _ _ (Finset.mem_univ x')]
  rw [cast_cast, cast_eq]
  show ((iBlkM off h).view.read (Elt F) ix x').toNat < 20000
  rw [View.read_apply, cast_eq]
  have e2 := ValueIdx.eq_ix2 (n0 := 1) (n1 := 640000) ((iBlkM off h).view.emb x')
  have hlt : (((iBlkM off h).view.emb x') 0).val < 1 := (((iBlkM off h).view.emb x') 0).isLt
  have e0 : ((iBlkM off h).view.emb x') 0 = (0 : Fin 1) := Fin.ext (by show (((iBlkM off h).view.emb x') 0).val = 0; omega)
  rw [e0] at e2
  rw [e2]
  exact hin _

end Tile
end Cert.KernelIdeal.Hand
end
-- ==== Proof.ScTileValC.lean ====
/-
  What a fetched block of the list holds, word by word. The fetch copies block b of the list of row numbers
  (its columns 256 b … 256 b + 255) into a slot of the tile's ring; the gather reads the slot as a list of
  256 words. Word x of that list is entry 256 b + x of the list of row numbers: the slot's addressing
  (a slice, a dropped axis of extent one) and the block's (an offset on the columns) compose to that.
-/
import proofs.«206068_g62534723830210_cont_9to1_m_587_24_alg».proof.Proof.ScTileDefs

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Word `x` of block `b`'s list is entry `256 b + x` of the list of row numbers. -/
def lrow (b : Fin 2500) (x : S256.Idx) : Fin 640000 := ⟨256 * b.val + (x 0).val, by have := b.isLt; have h : (x 0).val < 256 := (x 0).isLt; omega⟩

section Tile

variable (d : Dev nD) (L : grid1.Coords) (tbl : Buf (Elt F) (tLoc (0 : Dev nD))) (ix : Buf (Elt F) (iLoc (0 : Dev nD)))

omit [FloatOps F] in
/-- The list a fetch of block `b` landed, as the gather reads it, is that block of the list of row numbers. -/
theorem list_eq (b : Fin 2500) (s : Fin 2) (fa : Buf (Elt F) ((aSlot s).view.loc (V d (cV L) (jV L)))) (off : Fin 2 → ℕ)
    (h : ∀ a, off a + S1x256.size a ≤ S1x640000.size a) (e : off = ![0, 256 * b.val])
    (pay : S1x256.Idx → Elt F .i32) (hpay : pay = ReadAs.same.apply ((iBlkM off h).view.read (Elt F) ix)) :
    ∀ x : S256.Idx, (lSlot s).view.read (Elt F) ((aSlot s).view.writes (Elt F) fa [⟨Rect.whole S1x256, pay⟩]) x
      = ix (ValueIdx.ix2 (0 : Fin 1) (lrow b x)) := by
  intro x
  subst hpay
  have hsub : (lSlot s).view.set ⊆ (aSlot s).view.set := by
    show (((aSlot s).view.slice (Rect.unit (s := S1x256) ![0, 0] S1x256.size inb_S1x256_S1x256_0_0)).reshape S256 squeezes_S1x256_S256.numel_eq).set ⊆ _
    rw [View.set_reshape]; exact View.set_slice_subset _ _
  have hmem : (lSlot s).view.emb x ∈ ((aSlot s).view.slice (Rect.whole S1x256)).set := by
    have e : ((aSlot s).view.slice (Rect.whole S1x256)).set = (aSlot s).view.set := by
      rw [View.set_slice, Rect.set_whole]; rfl
    rw [e]
    exact hsub (Finset.mem_map_of_mem _ (Finset.mem_univ x))
  obtain ⟨x', -, hx'⟩ := Finset.mem_map.mp hmem
  rw [View.read_apply, View.writes_singleton, ← hx', View.write_emb_of_mem _ _ (Finset.mem_univ x')]
  rw [cast_cast, cast_eq]
  show (iBlkM off h).view.read (Elt F) ix x' = _
  rw [View.read_apply, cast_eq]
  refine congrArg ix ?_
  -- the word's place in the slot, by coordinates
  have hinj : (Rect.whole S1x256).emb x'
      = (Rect.unit (s := S1x256) ![0, 0] S1x256.size inb_S1x256_S1x256_0_0).emb (Shape.reshapeEquiv squeezes_S1x256_S256.numel_eq x) :=
    (aSlot s).view.emb.injective hx'
  have h1 : (x' 1).val = ((Shape.reshapeEquiv squeezes_S1x256_S256.numel_eq x) 1).val := by
    have := congrArg (fun i : S1x256.Idx => (i 1).val) hinj
    simpa [Rect.emb_apply] using this
  have hrm := Shape.rowMajor_reshapeEquiv squeezes_S1x256_S256.numel_eq x
  rw [Shape.rowMajor_val_two, Shape.rowMajor_val_one] at hrm
  have hy0 : ((Shape.reshapeEquiv squeezes_S1x256_S256.numel_eq x) 0).val < 1 := ((Shape.reshapeEquiv squeezes_S1x256_S256.numel_eq x) 0).isLt
  have hy0' : ((Shape.reshapeEquiv squeezes_S1x256_S256.numel_eq x) 0).val = 0 := by omega
  rw [hy0', Nat.zero_mul, Nat.zero_add] at hrm
  have hx0 : (x' 0).val < 1 := (x' 0).isLt
  have hb := b.isLt
  have e0 : off 0 = 0 := by rw [e]; rfl
  have e1 : off 1 = 256 * b.val := by rw [e]; rfl
  funext a
  match a with
  | ⟨0, _⟩ =>
    apply Fin.ext
    show off 0 + 1 * (x' 0).val = 0
    omega
  | ⟨1, _⟩ =>
    apply Fin.ext
    show off 1 + 1 * (x' 1).val = 256 * b.val + (x 0).val
    omega

end Tile
end Cert.KernelIdeal.Hand
end
-- ==== Proof.ScTileValD.lean ====
/-
  What a tile's copy of one gathered block leaves in the output. The tile gathers into a slot of its
  rows' ring the table's rows that the 256 words of the slot's list name, reads the slot back and
  writes it as block b of the output (rows 256 b … 256 b + 255). Word x of the slot's list is entry
  256 b + x of the list of row numbers, and every entry is below the table's height, so at each index
  of the block the output holds what the whole gather leaves there: the table's row the list names.
-/
import proofs.«206068_g62534723830210_cont_9to1_m_587_24_alg».proof.Proof.ScTileValC

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords) (tbl : Buf (Elt F) (tLoc (0 : Dev nD))) (ix : Buf (Elt F) (iLoc (0 : Dev nD)))

/-- A block of the output written with the rows the tile gathered holds, at each of its indices, what the whole gather
    leaves there: the table's row the list names. -/
theorem copy_val (hin : ∀ r : Fin 640000, (ix (ValueIdx.ix2 (0 : Fin 1) r)).toNat < 20000) (b : Fin 2500) (s : Fin 2)
    (fI : Buf (Elt F) ((aSlot s).view.loc (V d (cV L) (jV L))))
    (hfIeq : ∀ x, (lSlot s).view.read (Elt F) fI x = ix (ValueIdx.ix2 (0 : Fin 1) (lrow b x)))
    (hfI : ∀ x, ((lSlot s).view.read (Elt F) fI x).toNat < S20000x128.size gathers_S20000x128_S256x128.axis)
    (hn : S256.numel = S256x128.size gathers_S20000x128_S256x128.axis')
    (fg0 : Buf (Elt F) ((gSlot s).view.loc (V d (cV L) (jV L)))) (ok : Buf (Elt F) (oLoc d))
    (off : Fin 2 → ℕ) (h : ∀ a, off a + S256x128.size a ≤ S640000x128.size a) (e : off = ![256 * b.val, 0])
    (G : S256x128.Idx → Elt F .f32)
    (hG : G = SparseCore.gatherPayload gathers_S20000x128_S256x128
      ((tV.slice (Rect.unit (s := S20000x128) ![0, 0] S20000x128.size inb_S20000x128_S20000x128_0_0) (fun _ => rfl)).view.read (Elt F) tbl)
      (SparseCore.rows ((lSlot s).view.read (Elt F) fI) hn hfI))
    (P : S256x128.Idx → Elt F .f32)
    (hP : P = ReadAs.same.apply ((gSlot s).view.read (Elt F) ((gSlot s).view.writes (Elt F) fg0 [⟨Rect.whole S256x128, G⟩]))) :
    ∀ i ∈ (oBlkM off h).view.set, ((oBlkM off h).view.writes (Elt F) ok [⟨Rect.whole S256x128, P⟩]) i = gath tbl ix i := by
  intro i hi
  subst e
  have eset : ((oBlkM ![256 * b.val, 0] h).view.slice (Rect.whole S256x128)).set = (oBlkM ![256 * b.val, 0] h).view.set := by
    rw [View.set_slice, Rect.set_whole]; rfl
  rw [← eset] at hi
  obtain ⟨y, -, hy⟩ := Finset.mem_map.mp hi
  rw [View.writes_singleton, ← hy, View.write_emb_of_mem _ _ (Finset.mem_univ y)]
  rw [cast_eq]
  subst hP
  have eg : ((gSlot s).view.slice (Rect.whole S256x128)).emb y = (gSlot s).view.emb y := by
    rw [View.emb_slice]
    show (gSlot s).view.emb ((Rect.whole S256x128).emb y) = _
    rw [Rect.emb_whole_apply]
  show (gSlot s).view.read (Elt F) ((gSlot s).view.writes (Elt F) fg0 [⟨Rect.whole S256x128, G⟩]) y = _
  rw [View.read_apply, View.writes_singleton, ← eg, View.write_emb_of_mem _ _ (Finset.mem_univ y), cast_cast, cast_eq]
  subst hG
  unfold SparseCore.gatherPayload
  rw [View.read_apply, cast_eq, gath_apply]
  have hy0 : (y 0).val < 256 := (y 0).isLt
  have hb := b.isLt
  have hi0 : ((((oBlkM ![256 * b.val, 0] h).view.slice (Rect.whole S256x128)).emb y) 0).val = 256 * b.val + (y 0).val := by
    rw [View.emb_slice]
    show (((oBlkM ![256 * b.val, 0] h).view.emb ((Rect.whole S256x128).emb y)) 0).val = _
    rw [Rect.emb_whole_apply]
    show 256 * b.val + 1 * (y 0).val = _
    omega
  have hi1 : ((((oBlkM ![256 * b.val, 0] h).view.slice (Rect.whole S256x128)).emb y) 1).val = (y 1).val := by
    rw [View.emb_slice]
    show (((oBlkM ![256 * b.val, 0] h).view.emb ((Rect.whole S256x128).emb y)) 1).val = _
    rw [Rect.emb_whole_apply]
    show 0 + 1 * (y 1).val = _
    omega
  refine congrArg tbl (funext fun a => Fin.ext ?_)
  match a with
  | ⟨0, _⟩ =>
    show 0 + 1 * ((gathers_S20000x128_S256x128.idx (SparseCore.rows ((lSlot s).view.read (Elt F) fI) hn hfI) y) gathers_S20000x128_S256x128.axis).val
      = (rowAt ix ⟨((((oBlkM ![256 * b.val, 0] h).view.slice (Rect.whole S256x128)).emb y) 0).val, _⟩).val
    rw [Shape.Gathers.idx_axis]
    unfold SparseCore.rows
    show 0 + 1 * ((lSlot s).view.read (Elt F) fI (S256.rowMajor.symm ((y gathers_S20000x128_S256x128.axis').cast hn.symm))).toNat = _
    rw [hfIeq]
    have hx0 : ((S256.rowMajor.symm ((y gathers_S20000x128_S256x128.axis').cast hn.symm)) 0).val = (y 0).val := by
      rw [← Shape.rowMajor_val_one (d := ![256]) (S256.rowMajor.symm ((y gathers_S20000x128_S256x128.axis').cast hn.symm))]
      show (S256.rowMajor (S256.rowMajor.symm ((y gathers_S20000x128_S256x128.axis').cast hn.symm))).val = _
      rw [Equiv.apply_symm_apply]
      rfl
    have hr : lrow b (S256.rowMajor.symm ((y gathers_S20000x128_S256x128.axis').cast hn.symm))
        = (⟨((((oBlkM ![256 * b.val, 0] h).view.slice (Rect.whole S256x128)).emb y) 0).val, by rw [hi0]; omega⟩ : Fin 640000) := by
      apply Fin.ext
      show 256 * b.val + ((S256.rowMajor.symm ((y gathers_S20000x128_S256x128.axis').cast hn.symm)) 0).val = _
      rw [hx0, hi0]
    rw [hr]
    unfold rowAt
    show 0 + 1 * (ix (ValueIdx.ix2 (0 : Fin 1) _)).toNat = (ix (ValueIdx.ix2 (0 : Fin 1) _)).toNat % 20000
    rw [Nat.mod_eq_of_lt (hin _)]
    omega
  | ⟨1, _⟩ =>
    show 0 + 1 * ((gathers_S20000x128_S256x128.idx (SparseCore.rows ((lSlot s).view.read (Elt F) fI) hn hfI) y) (1 : Fin 2)).val
      = ((((oBlkM ![256 * b.val, 0] h).view.slice (Rect.whole S256x128)).emb y) 1).val
    rw [hi1, Shape.Gathers.idx_of_ne gathers_S20000x128_S256x128 _ y (1 : Fin 2) (by decide)]
    show 0 + 1 * (y 1).val = (y 1).val
    omega

end Tile
end Cert.KernelIdeal.Hand
end
-- ==== Proof.ScTile.lean ====
/-
  The vector subcore's task: one tile of the gather. The tile's body runs a two-slot software
  pipeline over its blocks: at step k it starts the fetch of block k + 1 of the list into the other
  slot, waits for block k's, gathers the table's rows the list names into slot k mod 2 of the rows'
  ring, starts that slot's copy to block k of the output and waits for block k - 1's. One invariant
  over the steps says which fetch and which copy-out are in flight and that the blocks of the output
  below k - 1 hold the gathered rows; the body's run from the tile's holdings to its holdings with
  every block gathered follows.
-/
import proofs.«206068_g62534723830210_cont_9to1_m_587_24_alg».proof.Proof.ScTileValD

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

omit [FloatOps F] in
theorem famB_congr' {n : ℕ} (Φ : Fin n → sProp 𝕄) (p q : ℕ → Prop) [DecidablePred p] [DecidablePred q] (h : ∀ m, m < n → (p m ↔ q m)) :
    famB (F := F) Φ p = famB (F := F) Φ q := by
  unfold famB
  congr 1; funext j
  by_cases hp : p j.val
  · rw [if_pos hp, if_pos ((h _ j.isLt).mp hp)]
  · rw [if_neg hp, if_neg (fun hq => hp ((h _ j.isLt).mpr hq))]

omit [FloatOps F] in
theorem famB_of_erase {n : ℕ} (Φ : Fin n → sProp 𝕄) (j0 : Fin n) :
    bigSep (Finset.univ.erase j0) Φ ⊢ famB (F := F) Φ (fun m => m = j0.val) := by
  unfold famB
  rw [bigSep_univ_at (fun j : Fin n => if j.val = j0.val then iprop(emp) else Φ j) j0, if_pos rfl,
    show bigSep (Finset.univ.erase j0) (fun j : Fin n => if j.val = j0.val then iprop(emp) else Φ j) = bigSep (Finset.univ.erase j0) Φ from
      bigSep_congr (fun j hj => if_neg (fun e => (Finset.ne_of_mem_erase hj) (Fin.ext e)))]
  iintro H
  isplitr
  · iempintro
  · iexact H

omit [FloatOps F] in
theorem famB_to_erase {n : ℕ} (Φ : Fin n → sProp 𝕄) (j0 : Fin n) :
    famB (F := F) Φ (fun m => m = j0.val) ⊢ bigSep (Finset.univ.erase j0) Φ := by
  unfold famB
  rw [bigSep_univ_at (fun j : Fin n => if j.val = j0.val then iprop(emp) else Φ j) j0, if_pos rfl,
    show bigSep (Finset.univ.erase j0) (fun j : Fin n => if j.val = j0.val then iprop(emp) else Φ j) = bigSep (Finset.univ.erase j0) Φ from
      bigSep_congr (fun j hj => if_neg (fun e => (Finset.ne_of_mem_erase hj) (Fin.ext e)))]
  iintro ⟨-, H⟩
  iexact H

omit [FloatOps F] in
theorem famB_of_all {n : ℕ} (Φ Ψ : Fin n → sProp 𝕄) (p : ℕ → Prop) [DecidablePred p] (hp : ∀ m, m < n → ¬ p m) (h : ∀ j, Ψ j ⊢ Φ j) :
    bigSep Finset.univ Ψ ⊢ famB (F := F) Φ p := by
  unfold famB
  exact (bigSep_mono (fun j _ => h j)).trans (Entails.of_eq (bigSep_congr fun j _ => (if_neg (hp _ j.isLt)).symm))

omit [FloatOps F] in
theorem famB_to_all {n : ℕ} (Φ : Fin n → sProp 𝕄) (p : ℕ → Prop) [DecidablePred p] (hp : ∀ m, m < n → ¬ p m) :
    famB (F := F) Φ p ⊢ bigSep Finset.univ Φ := by
  unfold famB
  exact Entails.of_eq (bigSep_congr fun j _ => if_neg (hp _ j.isLt))

omit [FloatOps F] in
theorem famB_congrΦ {n : ℕ} (Φ Ψ : Fin n → sProp 𝕄) (p : ℕ → Prop) [DecidablePred p] (h : ∀ j : Fin n, ¬ p j.val → Φ j = Ψ j) :
    famB (F := F) Φ p = famB (F := F) Ψ p := by
  unfold famB
  congr 1; funext j
  by_cases hp : p j.val
  · rw [if_pos hp, if_pos hp]
  · rw [if_neg hp, if_neg hp, h j hp]

/-! ## The rings put back together, the cells by their numbers -/

omit [FloatOps F] in
theorem aSlot_cover (s t : Fin 2) (hst : s ≠ t) :
    Disjoint (aSlot s).view.set (aSlot t).view.set ∧ (aSlot s).view.set ∪ (aSlot t).view.set = Finset.univ := by
  rw [aSlot_set, aSlot_set]
  have hs := s.isLt; have ht := t.isLt
  have hne : s.val ≠ t.val := fun e => hst (Fin.ext e)
  constructor
  · rw [Finset.disjoint_left]; intro j hj hj'
    simp only [Finset.mem_filter, Finset.mem_univ, true_and] at hj hj'
    exact hne (hj.symm.trans hj')
  · ext j
    have hj : (j 0).val < 2 := (j 0).isLt
    simp only [Finset.mem_union, Finset.mem_filter, Finset.mem_univ, true_and, iff_true]
    omega
omit [FloatOps F] in
theorem gSlot_cover (s t : Fin 2) (hst : s ≠ t) :
    Disjoint (gSlot s).view.set (gSlot t).view.set ∧ (gSlot s).view.set ∪ (gSlot t).view.set = Finset.univ := by
  rw [gSlot_set, gSlot_set]
  have hs := s.isLt; have ht := t.isLt
  have hne : s.val ≠ t.val := fun e => hst (Fin.ext e)
  constructor
  · rw [Finset.disjoint_left]; intro j hj hj'
    simp only [Finset.mem_filter, Finset.mem_univ, true_and] at hj hj'
    exact hne (hj.symm.trans hj')
  · ext j
    have hj : (j 0).val < 2 := (j 0).isLt
    simp only [Finset.mem_union, Finset.mem_filter, Finset.mem_univ, true_and, iff_true]
    omega

omit [FloatOps F] in
theorem alloca_join (s t : Fin 2) (hst : s ≠ t) (f g : Buf (Elt F) ((V d (cV L) (jV L)).loc cc1_scoped0)) :
    iprop((((V d (cV L) (jV L)).loc cc1_scoped0 ↦[(aSlot s).view.set]{fullShare} f) : sProp 𝕄)
        ∗ ((V d (cV L) (jV L)).loc cc1_scoped0 ↦[(aSlot t).view.set]{fullShare} g))
      ⊢ iprop(∃ h, (V d (cV L) (jV L)).loc cc1_scoped0 ↦{fullShare} h) := by
  obtain ⟨hd, hu⟩ := aSlot_cover s t hst
  iintro H
  ihave H' := (pointsTo_join hd) $$ H
  rw [hu]
  iexists _; iexact H'
omit [FloatOps F] in
theorem alloca4_join (s t : Fin 2) (hst : s ≠ t) (f g : Buf (Elt F) ((V d (cV L) (jV L)).loc cc1_scoped2)) :
    iprop((((V d (cV L) (jV L)).loc cc1_scoped2 ↦[(gSlot s).view.set]{fullShare} f) : sProp 𝕄)
        ∗ ((V d (cV L) (jV L)).loc cc1_scoped2 ↦[(gSlot t).view.set]{fullShare} g))
      ⊢ iprop(∃ h, (V d (cV L) (jV L)).loc cc1_scoped2 ↦{fullShare} h) := by
  obtain ⟨hd, hu⟩ := gSlot_cover s t hst
  iintro H
  ihave H' := (pointsTo_join hd) $$ H
  rw [hu]
  iexists _; iexact H'

omit [FloatOps F] in
theorem cellsI_join (s t : Fin 2) (hst : s ≠ t) :
    iprop((semVal ((V d (cV L) (jV L)), SemLoc.dma (semI s)) 0 : sProp 𝕄) ∗ semVal ((V d (cV L) (jV L)), SemLoc.dma (semI t)) 0)
      ⊢ iprop(semVal (cellN 6 (by omega) d (cV L) (jV L)) 0 ∗ semVal (cellN 7 (by omega) d (cV L) (jV L)) 0) := by
  fin_cases s <;> fin_cases t
  · exact absurd rfl hst
  · iintro ⟨A, B⟩; isplitl [A]; · iexact A
    iexact B
  · iintro ⟨A, B⟩; isplitl [B]; · iexact B
    iexact A
  · exact absurd rfl hst
omit [FloatOps F] in
theorem cellsO_join (s t : Fin 2) (hst : s ≠ t) :
    iprop((semVal ((V d (cV L) (jV L)), SemLoc.dma (semO s)) 0 : sProp 𝕄) ∗ semVal ((V d (cV L) (jV L)), SemLoc.dma (semO t)) 0)
      ⊢ iprop(semVal (cellN 8 (by omega) d (cV L) (jV L)) 0 ∗ semVal (cellN 9 (by omega) d (cV L) (jV L)) 0) := by
  fin_cases s <;> fin_cases t
  · exact absurd rfl hst
  · iintro ⟨A, B⟩; isplitl [A]; · iexact A
    iexact B
  · iintro ⟨A, B⟩; isplitl [B]; · iexact B
    iexact A
  · exact absurd rfl hst

variable (tbl : Buf (Elt F) (tLoc (0 : Dev nD))) (ix : Buf (Elt F) (iLoc (0 : Dev nD))) (o0 : Buf (Elt F) (oLoc (0 : Dev nD)))

/-! ## The loop's invariant -/

/-- What the fetch of block `j` into slot `s` delivers: the slot holding block `j` of the list, and the block of the list
    back. -/
def DI (s : Fin 2) (j : Fin (cnt (wL L).val)) : sProp 𝕄 :=
  iprop((∃ fI : Buf (Elt F) ((aSlot s).view.loc (V d (cV L) (jV L))),
          ⌜∀ x, (lSlot s).view.read (Elt F) fI x = ix (ValueIdx.ix2 (0 : Fin 1) (lrow (tblk (wL L) j) x))⌝
          ∗ ((aSlot s).view.loc (V d (cV L) (jV L)) ↦[(aSlot s).view.set]{fullShare} fI))
        ∗ (iLoc d ↦[iBlkSet (tblk (wL L) j)]{fullShare} ix))

/-- What the copy of slot `s` out to block `j` delivers: the block gathered, the slot back. -/
def DO (s : Fin 2) (j : Fin (cnt (wL L).val)) : sProp 𝕄 :=
  iprop((oLoc d ↦[oBlkSet (tblk (wL L) j)]{fullShare} gath tbl ix)
        ∗ (∃ g : Buf (Elt F) ((gSlot s).view.loc (V d (cV L) (jV L))), (gSlot s).view.loc (V d (cV L) (jV L)) ↦[(gSlot s).view.set]{fullShare} g))

/-- Slot `s` of the list's ring free: at some contents, its cell at zero. The same of the rows' ring. -/
def AFree (s : Fin 2) : sProp 𝕄 :=
  iprop((∃ f : Buf (Elt F) ((aSlot s).view.loc (V d (cV L) (jV L))), (aSlot s).view.loc (V d (cV L) (jV L)) ↦[(aSlot s).view.set]{fullShare} f)
    ∗ semVal ((V d (cV L) (jV L)), SemLoc.dma (semI s)) 0)
def GFree (s : Fin 2) : sProp 𝕄 :=
  iprop((∃ g : Buf (Elt F) ((gSlot s).view.loc (V d (cV L) (jV L))), (gSlot s).view.loc (V d (cV L) (jV L)) ↦[(gSlot s).view.set]{fullShare} g)
    ∗ semVal ((V d (cV L) (jV L)), SemLoc.dma (semO s)) 0)
/-- The fetch of block `j` in flight into slot `s`; the copy-out of block `j` in flight from slot `s`. -/
def FI (s : Fin 2) (j : Fin (cnt (wL L).val)) : sProp 𝕄 :=
  Transfers.Flight countersEmb (V d (cV L) (jV L)) (SemLoc.dma (semI s)) (default : HIx 1) 8192 (DI d L ix s j)
def FO (s : Fin 2) (j : Fin (cnt (wL L).val)) : sProp 𝕄 :=
  Transfers.Flight countersEmb (V d (cV L) (jV L)) (SemLoc.dma (semO s)) (default : HIx 1) 1048576 (DO d L tbl ix s j)

/-- The blocks of the list and of the output, one by one. -/
abbrev IBk (j : Fin (cnt (wL L).val)) : sProp 𝕄 := iLoc d ↦[iBlkSet (tblk (wL L) j)]{fullShare} ix
/-- Before step `k` the blocks below `k - 1` of the output are gathered, the others as the launch left them. -/
abbrev OBk (k : ℕ) (j : Fin (cnt (wL L).val)) : sProp 𝕄 :=
  oLoc d ↦[oBlkSet (tblk (wL L) j)]{fullShare} (if j.val + 1 < k then gath tbl ix else o0)

/-- The words the loop carries into step `k` of `n`. -/
def accAt (n k : ℕ) : BitVec 32 × BitVec 32 × BitVec 32 × BitVec 32 × BitVec 32 :=
  (BitVec.ofNat 32 (min (k + 1) n), BitVec.ofNat 32 k, BitVec.ofNat 32 k, BitVec.ofNat 32 (k - 1), BitVec.ofNat 32 (if k < n then k else 0))

/-- Before step `k`: the fetch of block `k` is in flight into slot `k % 2` (unless the steps are over), the copy-out of
    block `k - 1` is in flight from the other slot of the rows' ring (unless `k = 0`), the other slots and their cells are
    free, every other block of the list is held, and of the output (the blocks below `k - 1` gathered). -/
def inv (O : CellTallies nD τ sig (HIx 1)) (W : Waits sig (HIx 1)) (k : ℕ)
    (acc : BitVec 32 × BitVec 32 × BitVec 32 × BitVec 32 × BitVec 32) : sProp 𝕄 :=
  iprop(⌜acc = accAt (cnt (wL L).val) k⌝
    ∗ Transfers.MayWaits (V d (cV L) (jV L)) (default : HIx 1) O
    ∗ (tLoc d ↦{Transfers.shareTok fullShare 32 (wL L)} tbl)
    ∗ famB (F := F) (IBk d L ix) (fun m => m = k)
    ∗ famB (F := F) (OBk d L tbl ix o0 k) (fun m => m + 1 = k)
    ∗ (if h : k < cnt (wL L).val then FI d L ix (sl k) ⟨k, h⟩ else AFree (F := F) d L (sl k))
    ∗ AFree (F := F) d L (sl (k + 1))
    ∗ (if h : 0 < k ∧ k ≤ cnt (wL L).val then FO d L tbl ix (sl (k + 1)) ⟨k - 1, by omega⟩ else GFree (F := F) d L (sl (k + 1)))
    ∗ GFree (F := F) d L (sl k)
    ∗ semVal (cellN 10 (by omega) d (cV L) (jV L)) 0
    ∗ ∃ W', ⌜∀ p ∈ W', p ∈ W ∨ p.2 = none⌝ ∗ owes (V d (cV L) (jV L)) O W')

omit [FloatOps F] in
theorem OBk_succ (k : ℕ) (j : Fin (cnt (wL L).val)) (hj : j.val + 1 ≠ k) : OBk d L tbl ix o0 k j = OBk d L tbl ix o0 (k + 1) j := by
  show (oLoc d ↦[oBlkSet (tblk (wL L) j)]{fullShare} (if j.val + 1 < k then gath tbl ix else o0) : sProp 𝕄)
    = (oLoc d ↦[oBlkSet (tblk (wL L) j)]{fullShare} (if j.val + 1 < k + 1 then gath tbl ix else o0))
  by_cases hlt : j.val + 1 < k
  · rw [if_pos hlt, if_pos (by omega)]
  · rw [if_neg hlt, if_neg (by omega)]
omit [FloatOps F] in
theorem OBk_done (k : ℕ) (j : Fin (cnt (wL L).val)) (h : j.val + 1 < k) :
    OBk d L tbl ix o0 k j = (oLoc d ↦[oBlkSet (tblk (wL L) j)]{fullShare} gath tbl ix : sProp 𝕄) := by
  show (oLoc d ↦[oBlkSet (tblk (wL L) j)]{fullShare} (if j.val + 1 < k then gath tbl ix else o0) : sProp 𝕄) = _
  rw [if_pos h]
omit [FloatOps F] in
theorem OBk_todo (k : ℕ) (j : Fin (cnt (wL L).val)) (h : ¬ j.val + 1 < k) :
    OBk d L tbl ix o0 k j = (oLoc d ↦[oBlkSet (tblk (wL L) j)]{fullShare} o0 : sProp 𝕄) := by
  show (oLoc d ↦[oBlkSet (tblk (wL L) j)]{fullShare} (if j.val + 1 < k then gath tbl ix else o0) : sProp 𝕄) = _
  rw [if_neg h]
set_option maxHeartbeats 4000000 in
theorem tile_body (hF : (K (F := F)).Facts)
    (hin : ∀ r : Fin 640000, (ix (ValueIdx.ix2 (0 : Fin 1) r)).toNat < 20000)
    (O : CellTallies nD τ sig (HIx 1)) (W : Waits sig (HIx 1)) (hO : ∀ g, O g none = 0) :
    iprop(levAts (K (F := F)).L (K (F := F)).lev ∗ emp
        ∗ tileRes tbl ix d (wL L) o0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tV (Memref.isWhole_whole _) iV (Memref.isWhole_whole _) oV (Memref.isWhole_whole _)
            (Memref.whole cc1_scoped0) (Memref.isWhole_whole _) cc1_scoped1 (Memref.whole cc1_scoped2) (Memref.isWhole_whole _)
            cc1_scoped3 cc1_scoped4 cc1_scoped5)
          fun _ => iprop(tileRes tbl ix d (wL L) (gath tbl ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hc1 : k1_cond1 L = 1#1 := cond1 L
  have hc17 : k1_cond17 L = 1#1 := cond17 L
  have hn : 0 < cnt (wL L).val := by unfold cnt; split <;> omega
  have hn79 : cnt (wL L).val ≤ 79 := by unfold cnt; split <;> omega
  have htr : (k1_t1_loop L).trips = cnt (wL L).val := trips1 L
  have htr2 : (k1_t2_loop L).trips = 0 := trips2 L
  simp only [cc1_k_eq_skeleton]; unfold cc1_k_skel
  rw [(K (F := F)).scopedBufs_V hF d (cV L) (jV L), SparseCore.Cfg.scopedSems0_V (Val := Elt F) d (cV L) (jV L), ownSems0_V, ownBufs_V]
  unfold tileRes
  rw [bigSep_sep', bigSep_univ_at (fun k : Fin (cnt (wL L).val) => (iLoc d ↦[iBlkSet (tblk (wL L) k)]{fullShare} ix : sProp 𝕄)) ⟨0, hn⟩]
  iintro ⟨#Hlv, -, ⟨Ht, ⟨Hi0, HblkI⟩, HblkO⟩, ⟨⟨%fa, Ha⟩, ⟨%fg, Hg⟩, Hbufs⟩, ⟨H6, H7, H8, H9, H10, H11, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the rings by slots
  ihave Ha' := (alloca_split (F := F) d L fa).1 $$ Ha
  icases Ha' with ⟨Ha0, Ha1⟩
  ihave Hg' := (alloca4_split (F := F) d L fg).1 $$ Hg
  icases Hg' with ⟨Hg0, Hg1⟩
  -- the list's first block, as the prologue slices it
  ihave Hi0' := (Entails.of_eq (pts_iBlk (F := F) d L (tblk (wL L) ⟨0, hn⟩) (k1_off2 L) (k1_off2_inb L hc1) (by rw [off2_eq L]; rfl) ix).symm) $$ Hi0
  sl_exec
  -- the fetch in flight, in the invariant's words
  ihave Hf0 := (Transfers.Flight_mono (EC := countersEmb) (V d (cV L) (jV L)) (D' := DI d L ix (sl 0) ⟨0, hn⟩) (by
      unfold DI
      iintro ⟨Hs, Hb⟩
      isplitl [Hs]
      · iexists _
        isplitr
        · ipureintro; exact list_eq d L ix (tblk (wL L) ⟨0, hn⟩) (sl 0) fa (k1_off2 L) (k1_off2_inb L hc1) (by rw [off2_eq L]; rfl) _ rfl
        · iexact Hs
      · iapply (Entails.of_eq (pts_iBlk (F := F) d L (tblk (wL L) ⟨0, hn⟩) (k1_off2 L) (k1_off2_inb L hc1) (by rw [off2_eq L]; rfl) ix))
        iexact Hb)) $$ H6
  -- what the invariant says when the steps are over
  have eaccEnd : accAt (cnt (wL L).val) (cnt (wL L).val) = (BitVec.ofNat 32 (cnt (wL L).val), BitVec.ofNat 32 (cnt (wL L).val), BitVec.ofNat 32 (cnt (wL L).val), BitVec.ofNat 32 (cnt (wL L).val - 1), 0#32) := by
    unfold accAt; rw [Nat.min_eq_right (by omega), if_neg (Nat.lt_irrefl _)]
  have e_nm : sl (cnt (wL L).val + 1) = slotW (BitVec.ofNat 32 (cnt (wL L).val - 1)) := by
    rw [slotW_ofNat _ (by omega)]; apply Fin.ext; show (cnt (wL L).val + 1) % 2 = (cnt (wL L).val - 1) % 2; omega
  have hEnd : ∀ acc, inv d L tbl ix o0 O W (k1_t1_loop L).trips acc ⊢ iprop(⌜acc = (BitVec.ofNat 32 (cnt (wL L).val), BitVec.ofNat 32 (cnt (wL L).val), BitVec.ofNat 32 (cnt (wL L).val), BitVec.ofNat 32 (cnt (wL L).val - 1), 0#32)⌝
      ∗ Transfers.MayWaits (V d (cV L) (jV L)) (default : HIx 1) O
      ∗ (tLoc d ↦{Transfers.shareTok fullShare 32 (wL L)} tbl)
      ∗ famB (F := F) (IBk d L ix) (fun m => m = cnt (wL L).val)
      ∗ famB (F := F) (OBk d L tbl ix o0 (cnt (wL L).val)) (fun m => m + 1 = cnt (wL L).val)
      ∗ AFree (F := F) d L (sl (cnt (wL L).val))
      ∗ AFree (F := F) d L (sl (cnt (wL L).val + 1))
      ∗ FO d L tbl ix (slotW (BitVec.ofNat 32 (cnt (wL L).val - 1))) ⟨cnt (wL L).val - 1, by omega⟩
      ∗ GFree (F := F) d L (sl (cnt (wL L).val))
      ∗ semVal (cellN 10 (by omega) d (cV L) (jV L)) 0
      ∗ ∃ W', ⌜∀ p ∈ W', p ∈ W ∨ p.2 = none⌝ ∗ owes (V d (cV L) (jV L)) O W') := by
    intro acc
    rw [htr]; unfold inv
    rw [dif_neg (Nat.lt_irrefl _), dif_pos (⟨hn, Nat.le_refl _⟩ : 0 < cnt (wL L).val ∧ cnt (wL L).val ≤ cnt (wL L).val), eaccEnd, e_nm]
  sl_for (inv d L tbl ix o0 O W) $$ [Hmw Ht HblkI HblkO Hf0 Ha1 H7 Hg0 Hg1 H8 H9 H10 HO]
  case region =>
    intro k acc
    have hk : k.val < cnt (wL L).val := htr ▸ k.isLt
    have e_k : slotW (BitVec.ofNat 32 k.val) = sl k.val := slotW_ofNat _ (by omega)
    have e_k1 : slotW (BitVec.ofNat 32 (k.val + 1)) = sl (k.val + 1) := slotW_ofNat _ (by omega)
    have e_k2 : sl (k.val + 1 + 1) = slotW (BitVec.ofNat 32 k.val) := by
      rw [e_k]; apply Fin.ext; show (k.val + 1 + 1) % 2 = k.val % 2; omega
    have hchk2 : ∀ a, k1_chk2 L a := chk2_all L
    have hchk3 : ∀ a, k1_chk3 L a := chk3_all L
    have hchk1 : ∀ a6 a7 a8 a9, k1_chk1 L k a6 a7 a8 a9 (BitVec.ofNat 32 k.val) := chk1_at L k
    have h3 : k1_cond3 L k (BitVec.ofNat 32 k.val) = 1#1 := cond3_at L k
    have h6 : k1_cond6 L k (BitVec.ofNat 32 k.val) = 1#1 := cond6_at L k
    have eacc : accAt (cnt (wL L).val) k.val = (BitVec.ofNat 32 (k.val + 1), BitVec.ofNat 32 k.val, BitVec.ofNat 32 k.val, BitVec.ofNat 32 (k.val - 1), BitVec.ofNat 32 k.val) := by
      unfold accAt; rw [Nat.min_eq_left (by omega), if_pos hk]
    unfold inv
    rw [dif_pos hk]
    by_cases h0 : k.val = 0
    · -- the first step: nothing to wait for on the rows' side
      have hl : k.val + 1 < cnt (wL L).val := by have : 78 ≤ cnt (wL L).val := by (unfold cnt; split <;> omega)
                                                 omega
      have hl' : k.val + 1 < (k1_t1_loop L).trips := by rw [htr]; exact hl
      have hneg : ¬ (0 < k.val ∧ k.val ≤ cnt (wL L).val) := by omega
      have h2 : k1_cond2 L k (BitVec.ofNat 32 k.val) = 1#1 := by rw [cond2_at L k, if_pos hl']
      have h8 : ¬ k1_cond8 L k (BitVec.ofNat 32 k.val) = 1#1 := by rw [cond8_at L k, if_pos h0]; decide
      rw [dif_neg hneg, eacc, ← e_k, ← e_k1, e_k2,
        dif_pos hl, dif_pos (⟨by omega, by omega⟩ : 0 < k.val + 1 ∧ k.val + 1 ≤ cnt (wL L).val)]
      unfold FI FO AFree GFree DI DO
      iintro ⟨%hacc, #Hmw, Ht, HIB, HOB, HfI, ⟨⟨%fa1, Ha1⟩, HcI1⟩, ⟨⟨%fg1, Hg1⟩, HcO1⟩, ⟨⟨%fg0, Hg0⟩, HcO0⟩, H10, %W', %hW', HO⟩
      subst hacc
      ihave HIB' := (famB_take (F := F) (IBk d L ix) (fun m => m = k.val) ⟨k.val + 1, hl⟩ (by show ¬ (k.val + 1 = k.val); omega)) $$ HIB
      icases HIB' with ⟨Hi1, HIB⟩
      ihave Hi1' := (Entails.of_eq (pts_iBlk (F := F) d L (tblk (wL L) ⟨k.val + 1, hl⟩) (k1_off5 L (BitVec.ofNat 32 k.val)) (blk5_inb L k)
        (by rw [off5_at L k hl']; rfl) ix).symm) $$ Hi1
      ihave HOB' := (famB_take (F := F) (OBk d L tbl ix o0 k.val) (fun m => m + 1 = k.val) ⟨k.val, hk⟩ (by show ¬ (k.val + 1 = k.val); omega)) $$ HOB
      icases HOB' with ⟨Hok, HOB⟩
      ihave Hok' := (Entails.of_eq ((OBk_todo d L tbl ix o0 k.val ⟨k.val, hk⟩ (by show ¬ (k.val + 1 < k.val); omega)).trans
        (pts_oBlk (F := F) d L (tblk (wL L) ⟨k.val, hk⟩) (k1_off13 L (BitVec.ofNat 32 k.val)) (blk13_inb L k) (by rw [off13_at L k]; rfl) o0).symm)) $$ Hok
      ihave Ht' := (Entails.of_eq (pts_tV (F := F) d L _ tbl).symm) $$ Ht
      sl_exec
      icases HfI_dst with ⟨%fI, %hfIeq, HaK⟩
      have hfI : ∀ x, ((lSlot (slotW (BitVec.ofNat 32 k.val))).view.read (Elt F) fI x).toNat < S20000x128.size gathers_S20000x128_S256x128.axis :=
        fun x => by rw [hfIeq x]; exact hin _
      ihave HaK' := (Entails.of_eq (pts_lSlot (F := F) d L (BitVec.ofNat 32 k.val) (k1_off11_inb L _ (hchk3 _) hc1) fI).symm) $$ HaK
      sl_exec
      sl_step
      isplitr
      · ipureintro
        clear * - h0 hl'
        revert L
        decide +kernel
      isplitr; · iexact Hmw
      isplitl [Ht']; · iexact Ht'
      isplitl [HIB HfI_src]
      · ihave H := (famB_put (F := F) (IBk d L ix) (fun m => m = k.val ∨ m = k.val + 1) ⟨k.val, hk⟩ (Or.inl rfl)) $$ [HfI_src HIB]
        · isplitl [HfI_src]; · iexact HfI_src
          iexact HIB
        iapply (Entails.of_eq (famB_congr' (F := F) (IBk d L ix) _ _ (fun m _ => by
          show ((m = k.val ∨ m = k.val + 1) ∧ m ≠ k.val) ↔ m = k.val + 1; omega))) $$ H
      isplitl [HOB]
      · ihave HOB2 := (Entails.of_eq (famB_congrΦ (F := F) (OBk d L tbl ix o0 k.val) (OBk d L tbl ix o0 (k.val + 1)) (fun m => m + 1 = k.val ∨ m = k.val)
            (fun j hj => OBk_succ d L tbl ix o0 k.val j (fun e => hj (Or.inl e))))) $$ HOB
        iapply (Entails.of_eq (famB_congr' (F := F) (OBk d L tbl ix o0 (k.val + 1)) _ _ (fun m _ => by
          show (m + 1 = k.val ∨ m = k.val) ↔ m + 1 = k.val + 1; omega))) $$ HOB2
      isplitl [HcI1]
      · iapply (Transfers.Flight_mono (EC := countersEmb) (V d (cV L) (jV L)) (by
          iintro ⟨Hs, Hb⟩
          isplitl [Hs]
          · iexists _
            isplitr
            · ipureintro; exact list_eq d L ix (tblk (wL L) ⟨k.val + 1, hl⟩) (slotW (BitVec.ofNat 32 (k.val + 1))) fa1 _ (blk5_inb L k)
                (by rw [off5_at L k hl']; rfl) _ rfl
            · iexact Hs
          · iapply (Entails.of_eq (pts_iBlk (F := F) d L (tblk (wL L) ⟨k.val + 1, hl⟩) (k1_off5 L (BitVec.ofNat 32 k.val)) (blk5_inb L k)
              (by rw [off5_at L k hl']; rfl) ix))
            iexact Hb)) $$ HcI1
      isplitl [HaK' HfI]
      · isplitl [HaK']
        · iexists fI
          iapply (Entails.of_eq (pts_lSlot (F := F) d L (BitVec.ofNat 32 k.val) (k1_off11_inb L _ (hchk3 _) hc1) fI)) $$ HaK'
        · iexact HfI
      isplitl [HcO0]
      · iapply (Transfers.Flight_mono (EC := countersEmb) (V d (cV L) (jV L)) (by
          iintro ⟨Ho, Hs⟩
          isplitl [Ho]
          · iapply (Entails.of_eq ((pointsTo_congr (copy_val d L tbl ix hin (tblk (wL L) ⟨k.val, hk⟩) (slotW (BitVec.ofNat 32 k.val)) fI hfIeq hfI _ fg0 o0
                (k1_off13 L (BitVec.ofNat 32 k.val)) (blk13_inb L k) (by rw [off13_at L k]; rfl) _ rfl _ rfl)).trans
              (pts_oBlk (F := F) d L (tblk (wL L) ⟨k.val, hk⟩) (k1_off13 L (BitVec.ofNat 32 k.val)) (blk13_inb L k) (by rw [off13_at L k]; rfl) (gath tbl ix))))
            iexact Ho
          · iexists _; iexact Hs)) $$ HcO0
      isplitl [Hg1 HcO1]
      · isplitl [Hg1]
        · iexists fg1; iexact Hg1
        · iexact HcO1
      isplitl [H10]; · iexact H10
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW' p hp
    by_cases hl : k.val + 1 < cnt (wL L).val
    · -- a middle step
      have hpos : 0 < k.val ∧ k.val ≤ cnt (wL L).val := ⟨by omega, by omega⟩
      have hl' : k.val + 1 < (k1_t1_loop L).trips := by rw [htr]; exact hl
      have h2 : k1_cond2 L k (BitVec.ofNat 32 k.val) = 1#1 := by rw [cond2_at L k, if_pos hl']
      have h8 : k1_cond8 L k (BitVec.ofNat 32 k.val) = 1#1 := by rw [cond8_at L k, if_neg h0]
      have e_km : slotW (BitVec.ofNat 32 (k.val - 1)) = sl (k.val + 1) := by
        rw [slotW_ofNat _ (by omega)]; apply Fin.ext; show (k.val - 1) % 2 = (k.val + 1) % 2; omega
      rw [dif_pos hpos, eacc, show FO d L tbl ix (sl (k.val + 1)) ⟨k.val - 1, by omega⟩ = FO d L tbl ix (slotW (BitVec.ofNat 32 (k.val - 1))) ⟨k.val - 1, by omega⟩ from by rw [e_km],
        show GFree (F := F) d L (sl (k.val + 1)) = GFree (F := F) d L (slotW (BitVec.ofNat 32 (k.val - 1))) from by rw [e_km],
        ← e_k, ← e_k1, e_k2,
        dif_pos hl, dif_pos (⟨by omega, by omega⟩ : 0 < k.val + 1 ∧ k.val + 1 ≤ cnt (wL L).val)]
      unfold FI FO AFree GFree DI DO
      iintro ⟨%hacc, #Hmw, Ht, HIB, HOB, HfI, ⟨⟨%fa1, Ha1⟩, HcI1⟩, HfO, ⟨⟨%fg0, Hg0⟩, HcO0⟩, H10, %W', %hW', HO⟩
      subst hacc
      ihave HIB' := (famB_take (F := F) (IBk d L ix) (fun m => m = k.val) ⟨k.val + 1, hl⟩ (by show ¬ (k.val + 1 = k.val); omega)) $$ HIB
      icases HIB' with ⟨Hi1, HIB⟩
      ihave Hi1' := (Entails.of_eq (pts_iBlk (F := F) d L (tblk (wL L) ⟨k.val + 1, hl⟩) (k1_off5 L (BitVec.ofNat 32 k.val)) (blk5_inb L k)
        (by rw [off5_at L k hl']; rfl) ix).symm) $$ Hi1
      ihave HOB' := (famB_take (F := F) (OBk d L tbl ix o0 k.val) (fun m => m + 1 = k.val) ⟨k.val, hk⟩ (by show ¬ (k.val + 1 = k.val); omega)) $$ HOB
      icases HOB' with ⟨Hok, HOB⟩
      ihave Hok' := (Entails.of_eq ((OBk_todo d L tbl ix o0 k.val ⟨k.val, hk⟩ (by show ¬ (k.val + 1 < k.val); omega)).trans
        (pts_oBlk (F := F) d L (tblk (wL L) ⟨k.val, hk⟩) (k1_off13 L (BitVec.ofNat 32 k.val)) (blk13_inb L k) (by rw [off13_at L k]; rfl) o0).symm)) $$ Hok
      ihave Ht' := (Entails.of_eq (pts_tV (F := F) d L _ tbl).symm) $$ Ht
      sl_exec
      icases HfI_dst with ⟨%fI, %hfIeq, HaK⟩
      have hfI : ∀ x, ((lSlot (slotW (BitVec.ofNat 32 k.val))).view.read (Elt F) fI x).toNat < S20000x128.size gathers_S20000x128_S256x128.axis :=
        fun x => by rw [hfIeq x]; exact hin _
      ihave HaK' := (Entails.of_eq (pts_lSlot (F := F) d L (BitVec.ofNat 32 k.val) (k1_off11_inb L _ (hchk3 _) hc1) fI).symm) $$ HaK
      sl_exec
      -- the wait for the previous block's copy-out, by the rule itself
      iapply (Transfers.wp_waitLocalO countersEmb 𝒱₀ (V d (cV L) (jV L)) none (default : HIx 1) (N := 1048576) (by rfl)) $$ [HfO HO]
      · isplitl [HfO]; · iexact HfO
        isplitl [HO]; · iexact HO
        iapply (Transfers.MayWaits.elim (SemLoc.dma _)) $$ Hmw
      iintro ⟨⟨Hokm, ⟨%gkm, Hgkm⟩⟩, HcOm, HO⟩
      sl_exec
      sl_step
      isplitr
      · ipureintro
        clear * - h0 hl'
        revert L
        decide +kernel
      isplitr; · iexact Hmw
      isplitl [Ht']; · iexact Ht'
      isplitl [HIB HfI_src]
      · ihave H := (famB_put (F := F) (IBk d L ix) (fun m => m = k.val ∨ m = k.val + 1) ⟨k.val, hk⟩ (Or.inl rfl)) $$ [HfI_src HIB]
        · isplitl [HfI_src]; · iexact HfI_src
          iexact HIB
        iapply (Entails.of_eq (famB_congr' (F := F) (IBk d L ix) _ _ (fun m _ => by
          show ((m = k.val ∨ m = k.val + 1) ∧ m ≠ k.val) ↔ m = k.val + 1; omega))) $$ H
      have hkm : k.val - 1 < cnt (wL L).val := by omega
      isplitl [HOB Hokm]
      · ihave HOB2 := (Entails.of_eq (famB_congrΦ (F := F) (OBk d L tbl ix o0 k.val) (OBk d L tbl ix o0 (k.val + 1)) (fun m => m + 1 = k.val ∨ m = k.val)
            (fun j hj => OBk_succ d L tbl ix o0 k.val j (fun e => hj (Or.inl e))))) $$ HOB
        ihave H := (famB_put (F := F) (OBk d L tbl ix o0 (k.val + 1)) (fun m => m + 1 = k.val ∨ m = k.val) ⟨k.val - 1, hkm⟩ (Or.inl (by show k.val - 1 + 1 = k.val; omega))) $$ [Hokm HOB2]
        · isplitl [Hokm]
          · iapply (Entails.of_eq (OBk_done d L tbl ix o0 (k.val + 1) ⟨k.val - 1, hkm⟩ (by show k.val - 1 + 1 < k.val + 1; omega)).symm) $$ Hokm
          iexact HOB2
        iapply (Entails.of_eq (famB_congr' (F := F) (OBk d L tbl ix o0 (k.val + 1)) _ _ (fun m _ => by
          show ((m + 1 = k.val ∨ m = k.val) ∧ m ≠ k.val - 1) ↔ m + 1 = k.val + 1; omega))) $$ H
      isplitl [HcI1]
      · iapply (Transfers.Flight_mono (EC := countersEmb) (V d (cV L) (jV L)) (by
          iintro ⟨Hs, Hb⟩
          isplitl [Hs]
          · iexists _
            isplitr
            · ipureintro; exact list_eq d L ix (tblk (wL L) ⟨k.val + 1, hl⟩) (slotW (BitVec.ofNat 32 (k.val + 1))) fa1 _ (blk5_inb L k)
                (by rw [off5_at L k hl']; rfl) _ rfl
            · iexact Hs
          · iapply (Entails.of_eq (pts_iBlk (F := F) d L (tblk (wL L) ⟨k.val + 1, hl⟩) (k1_off5 L (BitVec.ofNat 32 k.val)) (blk5_inb L k)
              (by rw [off5_at L k hl']; rfl) ix))
            iexact Hb)) $$ HcI1
      isplitl [HaK' HfI]
      · isplitl [HaK']
        · iexists fI
          iapply (Entails.of_eq (pts_lSlot (F := F) d L (BitVec.ofNat 32 k.val) (k1_off11_inb L _ (hchk3 _) hc1) fI)) $$ HaK'
        · iexact HfI
      isplitl [HcO0]
      · iapply (Transfers.Flight_mono (EC := countersEmb) (V d (cV L) (jV L)) (by
          iintro ⟨Ho, Hs⟩
          isplitl [Ho]
          · iapply (Entails.of_eq ((pointsTo_congr (copy_val d L tbl ix hin (tblk (wL L) ⟨k.val, hk⟩) (slotW (BitVec.ofNat 32 k.val)) fI hfIeq hfI _ fg0 o0
                (k1_off13 L (BitVec.ofNat 32 k.val)) (blk13_inb L k) (by rw [off13_at L k]; rfl) _ rfl _ rfl)).trans
              (pts_oBlk (F := F) d L (tblk (wL L) ⟨k.val, hk⟩) (k1_off13 L (BitVec.ofNat 32 k.val)) (blk13_inb L k) (by rw [off13_at L k]; rfl) (gath tbl ix))))
            iexact Ho
          · iexists _; iexact Hs)) $$ HcO0
      isplitl [Hgkm HcOm]
      · isplitl [Hgkm]
        · iexists gkm; iexact Hgkm
        · iexact HcOm
      isplitl [H10]; · iexact H10
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    · -- the last step: nothing more to fetch
      have hlast : k.val + 1 = cnt (wL L).val := by omega
      have hlast' : k.val + 1 = (k1_t1_loop L).trips := by rw [htr]; exact hlast
      have hpos : 0 < k.val ∧ k.val ≤ cnt (wL L).val := ⟨by omega, by omega⟩
      have h2 : ¬ k1_cond2 L k (BitVec.ofNat 32 k.val) = 1#1 := by rw [cond2_at L k, if_neg (by omega)]; decide
      have h8 : k1_cond8 L k (BitVec.ofNat 32 k.val) = 1#1 := by rw [cond8_at L k, if_neg h0]
      have e_km : slotW (BitVec.ofNat 32 (k.val - 1)) = sl (k.val + 1) := by
        rw [slotW_ofNat _ (by omega)]; apply Fin.ext; show (k.val - 1) % 2 = (k.val + 1) % 2; omega
      rw [dif_pos hpos, eacc, show FO d L tbl ix (sl (k.val + 1)) ⟨k.val - 1, by omega⟩ = FO d L tbl ix (slotW (BitVec.ofNat 32 (k.val - 1))) ⟨k.val - 1, by omega⟩ from by rw [e_km],
        show GFree (F := F) d L (sl (k.val + 1)) = GFree (F := F) d L (slotW (BitVec.ofNat 32 (k.val - 1))) from by rw [e_km],
        ← e_k, ← e_k1, e_k2,
        dif_neg (by omega : ¬ k.val + 1 < cnt (wL L).val), dif_pos (⟨by omega, by omega⟩ : 0 < k.val + 1 ∧ k.val + 1 ≤ cnt (wL L).val)]
      unfold FI FO AFree GFree DI DO
      iintro ⟨%hacc, #Hmw, Ht, HIB, HOB, HfI, ⟨⟨%fa1, Ha1⟩, HcI1⟩, HfO, ⟨⟨%fg0, Hg0⟩, HcO0⟩, H10, %W', %hW', HO⟩
      subst hacc
      ihave HOB' := (famB_take (F := F) (OBk d L tbl ix o0 k.val) (fun m => m + 1 = k.val) ⟨k.val, hk⟩ (by show ¬ (k.val + 1 = k.val); omega)) $$ HOB
      icases HOB' with ⟨Hok, HOB⟩
      ihave Hok' := (Entails.of_eq ((OBk_todo d L tbl ix o0 k.val ⟨k.val, hk⟩ (by show ¬ (k.val + 1 < k.val); omega)).trans
        (pts_oBlk (F := F) d L (tblk (wL L) ⟨k.val, hk⟩) (k1_off13 L (BitVec.ofNat 32 k.val)) (blk13_inb L k) (by rw [off13_at L k]; rfl) o0).symm)) $$ Hok
      ihave Ht' := (Entails.of_eq (pts_tV (F := F) d L _ tbl).symm) $$ Ht
      sl_exec
      icases HfI_dst with ⟨%fI, %hfIeq, HaK⟩
      have hfI : ∀ x, ((lSlot (slotW (BitVec.ofNat 32 k.val))).view.read (Elt F) fI x).toNat < S20000x128.size gathers_S20000x128_S256x128.axis :=
        fun x => by rw [hfIeq x]; exact hin _
      ihave HaK' := (Entails.of_eq (pts_lSlot (F := F) d L (BitVec.ofNat 32 k.val) (k1_off11_inb L _ (hchk3 _) hc1) fI).symm) $$ HaK
      sl_exec
      -- the wait for the previous block's copy-out, by the rule itself
      iapply (Transfers.wp_waitLocalO countersEmb 𝒱₀ (V d (cV L) (jV L)) none (default : HIx 1) (N := 1048576) (by rfl)) $$ [HfO HO]
      · isplitl [HfO]; · iexact HfO
        isplitl [HO]; · iexact HO
        iapply (Transfers.MayWaits.elim (SemLoc.dma _)) $$ Hmw
      iintro ⟨⟨Hokm, ⟨%gkm, Hgkm⟩⟩, HcOm, HO⟩
      sl_exec
      sl_step
      isplitr
      · ipureintro
        clear * - h0 hlast'
        revert L
        decide +kernel
      isplitr; · iexact Hmw
      isplitl [Ht']; · iexact Ht'
      isplitl [HIB HfI_src]
      · ihave H := (famB_put (F := F) (IBk d L ix) (fun m => m = k.val) ⟨k.val, hk⟩ rfl) $$ [HfI_src HIB]
        · isplitl [HfI_src]; · iexact HfI_src
          iexact HIB
        iapply (Entails.of_eq (famB_congr' (F := F) (IBk d L ix) _ _ (fun m hm => by
          show (m = k.val ∧ m ≠ k.val) ↔ m = k.val + 1; omega))) $$ H
      have hkm : k.val - 1 < cnt (wL L).val := by omega
      isplitl [HOB Hokm]
      · ihave HOB2 := (Entails.of_eq (famB_congrΦ (F := F) (OBk d L tbl ix o0 k.val) (OBk d L tbl ix o0 (k.val + 1)) (fun m => m + 1 = k.val ∨ m = k.val)
            (fun j hj => OBk_succ d L tbl ix o0 k.val j (fun e => hj (Or.inl e))))) $$ HOB
        ihave H := (famB_put (F := F) (OBk d L tbl ix o0 (k.val + 1)) (fun m => m + 1 = k.val ∨ m = k.val) ⟨k.val - 1, hkm⟩ (Or.inl (by show k.val - 1 + 1 = k.val; omega))) $$ [Hokm HOB2]
        · isplitl [Hokm]
          · iapply (Entails.of_eq (OBk_done d L tbl ix o0 (k.val + 1) ⟨k.val - 1, hkm⟩ (by show k.val - 1 + 1 < k.val + 1; omega)).symm) $$ Hokm
          iexact HOB2
        iapply (Entails.of_eq (famB_congr' (F := F) (OBk d L tbl ix o0 (k.val + 1)) _ _ (fun m _ => by
          show ((m + 1 = k.val ∨ m = k.val) ∧ m ≠ k.val - 1) ↔ m + 1 = k.val + 1; omega))) $$ H
      isplitl [Ha1 HcI1]
      · isplitl [Ha1]
        · iexists fa1; iexact Ha1
        · iexact HcI1
      isplitl [HaK' HfI]
      · isplitl [HaK']
        · iexists fI
          iapply (Entails.of_eq (pts_lSlot (F := F) d L (BitVec.ofNat 32 k.val) (k1_off11_inb L _ (hchk3 _) hc1) fI)) $$ HaK'
        · iexact HfI
      isplitl [HcO0]
      · iapply (Transfers.Flight_mono (EC := countersEmb) (V d (cV L) (jV L)) (by
          iintro ⟨Ho, Hs⟩
          isplitl [Ho]
          · iapply (Entails.of_eq ((pointsTo_congr (copy_val d L tbl ix hin (tblk (wL L) ⟨k.val, hk⟩) (slotW (BitVec.ofNat 32 k.val)) fI hfIeq hfI _ fg0 o0
                (k1_off13 L (BitVec.ofNat 32 k.val)) (blk13_inb L k) (by rw [off13_at L k]; rfl) _ rfl _ rfl)).trans
              (pts_oBlk (F := F) d L (tblk (wL L) ⟨k.val, hk⟩) (k1_off13 L (BitVec.ofNat 32 k.val)) (blk13_inb L k) (by rw [off13_at L k]; rfl) (gath tbl ix))))
            iexact Ho
          · iexists _; iexact Hs)) $$ HcO0
      isplitl [Hgkm HcOm]
      · isplitl [Hgkm]
        · iexists gkm; iexact Hgkm
        · iexact HcOm
      isplitl [H10]; · iexact H10
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
  · unfold inv
    rw [dif_pos hn, dif_neg (by omega : ¬ (0 < 0 ∧ 0 ≤ cnt (wL L).val))]
    unfold FI AFree GFree
    isplitr
    · ipureintro; unfold accAt; rw [Nat.min_eq_left (by omega), if_pos hn]
    isplitl [Hmw]; · iexact Hmw
    isplitl [Ht]; · iexact Ht
    isplitl [HblkI]
    · iapply (famB_of_erase (F := F) (IBk d L ix) ⟨0, hn⟩) $$ HblkI
    isplitl [HblkO]
    · iapply (famB_of_all (F := F) (OBk d L tbl ix o0 0) (fun k => (oLoc d ↦[oBlkSet (tblk (wL L) k)]{fullShare} o0 : sProp 𝕄)) (fun m => m + 1 = 0) (fun m _ => by omega)
        (fun j => Entails.of_eq (OBk_todo d L tbl ix o0 0 j (by omega)).symm)) $$ HblkO
    isplitl [Hf0]; · iexact Hf0
    isplitl [Ha1 H7]
    · isplitl [Ha1]
      · iexists fa; iexact Ha1
      · iexact H7
    isplitl [Hg1 H9]
    · isplitl [Hg1]
      · iexists fg; iexact Hg1
      · iexact H9
    isplitl [Hg0 H8]
    · isplitl [Hg0]
      · iexists fg; iexact Hg0
      · iexact H8
    isplitl [H10]; · iexact H10
    iexists W; isplitr
    · ipureintro; exact fun p hp => .inl hp
    · iexact HO
  iintro %acc HI
  ihave HI' := (hEnd acc) $$ HI
  unfold FO AFree GFree DO
  icases HI' with ⟨%hacc, #Hmw2, Ht, HIB, HOB, ⟨⟨%fan, Han⟩, HcIn⟩, ⟨⟨%fan1, Han1⟩, HcIn1⟩, HfO, ⟨⟨%fgn, Hgn⟩, HcOn⟩, H10, %W', %hW', HO⟩
  subst hacc
  have hchk7 : ∀ a, k1_chk7 L a := chk7_all L
  have hchk8 : k1_chk8 L 0#32 := chk8_at L
  sl_exec
  -- the wait for the last block's copy-out
  iapply (Transfers.wp_waitLocalO countersEmb 𝒱₀ (V d (cV L) (jV L)) none (default : HIx 1) (N := 1048576) (by rfl)) $$ [HfO HO]
  · isplitl [HfO]; · iexact HfO
    isplitl [HO]; · iexact HO
    iapply (Transfers.MayWaits.elim (SemLoc.dma _)) $$ Hmw2
  iintro ⟨⟨Hokm, ⟨%gkm, Hgkm⟩⟩, HcOm, HO⟩
  sl_exec
  sl_step
  -- everything back in the launch's words
  have hst : sl (cnt (wL L).val) ≠ sl (cnt (wL L).val + 1) := by
    intro e; have e' : (cnt (wL L).val) % 2 = (cnt (wL L).val + 1) % 2 := congrArg Fin.val e
    omega
  have hst' : sl (cnt (wL L).val) ≠ slotW (BitVec.ofNat 32 (cnt (wL L).val - 1)) := e_nm ▸ hst
  isplitl [Ht HIB HOB Hokm]
  · isplitl [Ht]; · iexact Ht
    iapply (Entails.of_eq (bigSep_sep' Finset.univ (fun k : Fin (cnt (wL L).val) => (iLoc d ↦[iBlkSet (tblk (wL L) k)]{fullShare} ix : sProp 𝕄))
      (fun k : Fin (cnt (wL L).val) => (oLoc d ↦[oBlkSet (tblk (wL L) k)]{fullShare} gath tbl ix : sProp 𝕄))).symm)
    isplitl [HIB]
    · iapply (famB_to_all (F := F) (IBk d L ix) (fun m => m = cnt (wL L).val) (fun m hm => by omega)) $$ HIB
    · ihave HOB2 := (Entails.of_eq (famB_congrΦ (F := F) (OBk d L tbl ix o0 (cnt (wL L).val))
          (fun j : Fin (cnt (wL L).val) => (oLoc d ↦[oBlkSet (tblk (wL L) j)]{fullShare} gath tbl ix : sProp 𝕄)) (fun m => m + 1 = cnt (wL L).val)
          (fun j hj => OBk_done d L tbl ix o0 (cnt (wL L).val) j (by have := j.isLt; have hj' : ¬ (j.val + 1 = cnt (wL L).val) := hj; omega)))) $$ HOB
      ihave H := (famB_put (F := F) (fun j : Fin (cnt (wL L).val) => (oLoc d ↦[oBlkSet (tblk (wL L) j)]{fullShare} gath tbl ix : sProp 𝕄))
          (fun m => m + 1 = cnt (wL L).val) ⟨cnt (wL L).val - 1, by omega⟩ (by show cnt (wL L).val - 1 + 1 = cnt (wL L).val; omega)) $$ [Hokm HOB2]
      · isplitl [Hokm]; · iexact Hokm
        iexact HOB2
      iapply (famB_to_all (F := F) _ _ (fun m hm => by show ¬ (m + 1 = cnt (wL L).val ∧ m ≠ cnt (wL L).val - 1); omega)) $$ H
  isplitl [Han Han1 Hgn Hgkm Hbufs]
  · isplitl [Han Han1]
    · iapply (alloca_join (F := F) d L (sl (cnt (wL L).val)) (sl (cnt (wL L).val + 1)) hst fan fan1)
      isplitl [Han]; · iexact Han
      iexact Han1
    isplitl [Hgn Hgkm]
    · iapply (alloca4_join (F := F) d L (sl (cnt (wL L).val)) (slotW (BitVec.ofNat 32 (cnt (wL L).val - 1))) hst' fgn gkm)
      isplitl [Hgn]; · iexact Hgn
      iexact Hgkm
    iexact Hbufs
  isplitl [HcIn HcIn1 HcOn HcOm H10 H11 Hsems]
  · ihave HI67 := (cellsI_join (F := F) d L (sl (cnt (wL L).val)) (sl (cnt (wL L).val + 1)) hst) $$ [HcIn HcIn1]
    · isplitl [HcIn]; · iexact HcIn
      iexact HcIn1
    icases HI67 with ⟨H6, H7⟩
    ihave HO89 := (cellsO_join (F := F) d L (sl (cnt (wL L).val)) (slotW (BitVec.ofNat 32 (cnt (wL L).val - 1))) hst') $$ [HcOn HcOm]
    · isplitl [HcOn]; · iexact HcOn
      iexact HcOm
    icases HO89 with ⟨H8, H9⟩
    isplitl [H6]; · iexact H6
    isplitl [H7]; · iexact H7
    isplitl [H8]; · iexact H8
    isplitl [H9]; · iexact H9
    isplitl [H10]; · iexact H10
    isplitl [H11]; · iexact H11
    iexact Hsems
  iexists _; isplitr
  swap; · iexact HO
  ipureintro; intro p hp
  rcases Finset.mem_insert.mp hp with hp | hp; · exact .inr (hp ▸ rfl)
  exact hW' p hp

end Tile
end Cert.KernelIdeal.Hand
end
-- ==== Proof.ScTileObl.lean ====
/-
  The launch theorem's obligation for a tile of the gather, from the run of the tile's body.
-/
import proofs.«206068_g62534723830210_cont_9to1_m_587_24_alg».proof.Proof.ScTile

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (tbl : Buf (Elt F) (tLoc (0 : Dev nD))) (ix : Buf (Elt F) (iLoc (0 : Dev nD))) (o0 : Buf (Elt F) (oLoc (0 : Dev nD)))

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tV (Memref.isWhole_whole _) iV (Memref.isWhole_whole _) oV (Memref.isWhole_whole _)
          (Memref.whole cc1_scoped0) (Memref.isWhole_whole _) cc1_scoped1 (Memref.whole cc1_scoped2) (Memref.isWhole_whole _)
          cc1_scoped3 cc1_scoped4 cc1_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
set_option maxRecDepth 16384 in
theorem tileObl (hF : (K (F := F)).Facts)
    (hin : ∀ r : Fin 640000, (ix (ValueIdx.ix2 (0 : Fin 1) r)).toNat < 20000) :
    (K (F := F)).TileObl (D (F := F)) 𝒱 (P tbl ix o0) v₀ 0 := by
  intro d c i O W hO _ _
  simp only [show (P tbl ix o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tbl ix o0 hF hin O W hO).trans (wp_mono frame _ _ fun _ => obl_post)

end Tile
end Cert.KernelIdeal.Hand
end
-- ==== Proof.WScTileFacts.lean ====
/-
  Arithmetic of the tile's pipeline: how many steps a tile takes, which of a step's guarded
  operations run, where a step's slices sit and what the step hands to the next, each as a
  closed form of the tile's coordinates and the step, checked over the 32 tiles and their steps.
-/
import proofs.«206068_g62534723830210_cont_9to1_m_587_24_alg».proof.Proof.WScPay

set_option Elab.async false

noncomputable section

namespace Cert.Kernel.Hand

open Cert.Kernel Cert.Kernel.Gen
open Idealize.ShloMosaic

/-- The tile's number, from its grid coordinates. -/
def wN (L : grid1.Coords) : ℕ := 16 * (L 0).val + (L 1).val

theorem trips1 : ∀ L : grid1.Coords, (k1_t1_loop L).trips = cnt (wN L) := by decide +kernel
theorem trips2 (L : grid1.Coords) : (k1_t2_loop L).trips = 0 := Nat.le_zero.mp (k1_t2_abs L).2.1
theorem cond1 : ∀ L : grid1.Coords, k1_cond1 L = 1#1 := by decide +kernel
theorem cond17 : ∀ L : grid1.Coords, k1_cond17 L = 1#1 := by decide +kernel
theorem off2_eq : ∀ L : grid1.Coords, k1_off2 L = ![0, 256 * lo (wN L)] := by decide +kernel

/-! ## Which guarded operations a step runs -/

theorem cond2_at : ∀ (L : grid1.Coords) (k : Fin (k1_t1_loop L).trips),
    k1_cond2 L k (BitVec.ofNat 32 k.val) = if k.val + 1 < (k1_t1_loop L).trips then 1#1 else 0#1 := by decide +kernel
theorem cond3_at : ∀ (L : grid1.Coords) (k : Fin (k1_t1_loop L).trips), k1_cond3 L k (BitVec.ofNat 32 k.val) = 1#1 := by decide +kernel
theorem cond6_at : ∀ (L : grid1.Coords) (k : Fin (k1_t1_loop L).trips), k1_cond6 L k (BitVec.ofNat 32 k.val) = 1#1 := by decide +kernel
theorem cond8_at : ∀ (L : grid1.Coords) (k : Fin (k1_t1_loop L).trips),
    k1_cond8 L k (BitVec.ofNat 32 k.val) = if k.val = 0 then 0#1 else 1#1 := by decide +kernel

/-! ## Where a step's blocks sit -/

theorem off5_at : ∀ (L : grid1.Coords) (k : Fin (k1_t1_loop L).trips), k.val + 1 < (k1_t1_loop L).trips →
    k1_off5 L (BitVec.ofNat 32 k.val) = ![0, 256 * (lo (wN L) + (k.val + 1))] := by decide +kernel
theorem off8_at : ∀ (L : grid1.Coords) (k : Fin (k1_t1_loop L).trips),
    k1_off8 L (BitVec.ofNat 32 k.val) = ![0, 256 * (lo (wN L) + k.val)] := by decide +kernel
theorem off13_at : ∀ (L : grid1.Coords) (k : Fin (k1_t1_loop L).trips),
    k1_off13 L (BitVec.ofNat 32 k.val) = ![256 * (lo (wN L) + k.val), 0] := by decide +kernel
theorem off16_at : ∀ (L : grid1.Coords) (k : Fin (k1_t1_loop L).trips), 0 < k.val →
    k1_off16 L (BitVec.ofNat 32 k.val) = ![256 * (lo (wN L) + (k.val - 1)), 0] := by decide +kernel
theorem off33_at : ∀ (L : grid1.Coords), k1_off33 L 0#32 = ![256 * (lo (wN L) + (cnt (wN L) - 1)), 0] := by decide +kernel

/-! ## The checks the body assumes -/

theorem rem2_lt (a : BitVec 32) : (Scalar.remui a 2#32).toNat < 2 := by
  have h : Scalar.remui a 2#32 = a % 2#32 := by
    unfold Scalar.remui IntOp.remui; simp
  rw [h, BitVec.toNat_umod]; exact Nat.mod_lt _ (by decide)

theorem chk2_all (L : grid1.Coords) (a : BitVec 32) : k1_chk2 L a := by
  intro _ x
  have := rem2_lt a
  fin_cases x
  · show (Scalar.remui a 2#32).toNat + 1 ≤ 2; omega
  · show 0 + 256 ≤ 256; omega
  · show 0 + 128 ≤ 128; omega
theorem chk3_all (L : grid1.Coords) (a : BitVec 32) : k1_chk3 L a := by
  intro _ x
  have := rem2_lt a
  fin_cases x
  · show (Scalar.remui a 2#32).toNat + 1 ≤ 2; omega
  · show 0 + 1 ≤ 1; omega
  · show 0 + 256 ≤ 256; omega

theorem slotA_inb (a : BitVec 32) : ∀ x, (![(Scalar.remui a 2#32).toNat, 0, 0] : Fin 3 → ℕ) x + S1x1x256.size x ≤ S2x1x256.size x := by
  intro x
  have := rem2_lt a
  fin_cases x
  · show (Scalar.remui a 2#32).toNat + 1 ≤ 2; omega
  · show 0 + 1 ≤ 1; omega
  · show 0 + 256 ≤ 256; omega
theorem slotG_inb (a : BitVec 32) : ∀ x, (![(Scalar.remui a 2#32).toNat, 0, 0] : Fin 3 → ℕ) x + S1x256x128.size x ≤ S2x256x128.size x := by
  intro x
  have := rem2_lt a
  fin_cases x
  · show (Scalar.remui a 2#32).toNat + 1 ≤ 2; omega
  · show 0 + 256 ≤ 256; omega
  · show 0 + 128 ≤ 128; omega
theorem slotS_inb (a : BitVec 32) : ∀ x, (![(Scalar.remui a 2#32).toNat] : Fin 1 → ℕ) x + S1.size x ≤ S2.size x := by
  intro x
  have := rem2_lt a
  fin_cases x
  show (Scalar.remui a 2#32).toNat + 1 ≤ 2; omega

theorem blk5_inb : ∀ (L : grid1.Coords) (k : Fin (k1_t1_loop L).trips), ∀ x, (k1_off5 L (BitVec.ofNat 32 k.val)) x + S1x256.size x ≤ S1x640000.size x := by decide +kernel
theorem blk8_inb : ∀ (L : grid1.Coords) (k : Fin (k1_t1_loop L).trips), ∀ x, (k1_off8 L (BitVec.ofNat 32 k.val)) x + S1x256.size x ≤ S1x640000.size x := by decide +kernel
theorem blk13_inb : ∀ (L : grid1.Coords) (k : Fin (k1_t1_loop L).trips), ∀ x, (k1_off13 L (BitVec.ofNat 32 k.val)) x + S256x128.size x ≤ S640000x128.size x := by decide +kernel
theorem blk16_inb : ∀ (L : grid1.Coords) (k : Fin (k1_t1_loop L).trips), ∀ x, (k1_off16 L (BitVec.ofNat 32 k.val)) x + S256x128.size x ≤ S640000x128.size x := by decide +kernel
theorem blk33_inb : ∀ (L : grid1.Coords), ∀ x, (k1_off33 L 0#32) x + S256x128.size x ≤ S640000x128.size x := by decide +kernel

theorem chk1_at (L : grid1.Coords) (k : Fin (k1_t1_loop L).trips) (a6 a7 a8 a9 : BitVec 32) :
    k1_chk1 L k a6 a7 a8 a9 (BitVec.ofNat 32 k.val) :=
  ⟨fun _ _ => slotA_inb a6, fun _ _ => blk5_inb L k, fun _ _ => slotS_inb a6,
   fun _ _ => slotA_inb a7, fun _ _ => blk8_inb L k, fun _ _ => slotS_inb a7,
   fun _ _ => slotG_inb a8, fun _ _ => blk13_inb L k, fun _ _ => slotS_inb a8,
   fun _ _ => slotG_inb a9, fun _ _ => blk16_inb L k, fun _ _ => slotS_inb a9⟩

theorem chk7_all (L : grid1.Coords) (a : BitVec 32) : k1_chk7 L a :=
  ⟨fun _ _ => slotG_inb a, fun _ _ => slotS_inb a, fun _ _ => slotG_inb a⟩
theorem chk8_at (L : grid1.Coords) : k1_chk8 L 0#32 := fun _ _ => blk33_inb L

end Cert.Kernel.Hand

end
-- ==== Proof.WScTileDefs.lean ====
/-
  The vector subcore's task, its vocabulary: the tile's own cells and buffers taken out of its
  scoped storage, the two rings' slots and their semaphores as the body addresses them, the blocks
  of the list and of the output as the body slices them, a family of blocks some of which are lent
  to transfers in flight, and the fact that a fetched list names rows of the table.
-/
import proofs.«206068_g62534723830210_cont_9to1_m_587_24_alg».proof.Proof.WScTileFacts

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
/-- The tile's number among the 32, from its grid coordinates. -/
abbrev wL (L : grid1.Coords) : Fin 32 := tw (Fin.cast bound_zero (L 0)) (Fin.cast bound_one (L 1))

variable (d : Dev nD) (L : grid1.Coords)

/-! ## The tile's own cells and buffers -/

/-- DMA semaphore number `n` of the tile: 6 and 7 serve the list's two slots, 8 and 9 the rows' two slots, 10 and 11
    the two loops' gathers. -/
abbrev cellN (n : ℕ) (h : n < 28) (d : Dev nD) (c : Fin τ.nSC) (i : Fin τ.nSub) : GSem nD τ sig := (V d c i, .dma ⟨n, h⟩)

omit [FloatOps F] in
theorem cell_scoped (n : ℕ) (h : n < 28) (h6 : 6 ≤ n) (h12 : n < 12) : (cellN n h d (cV L) (jV L)) ∈ ownCells (V d (cV L) (jV L)) :=
  (mem_ownCells (g := cellN n h d (cV L) (jV L))).mpr ⟨rfl, by
    show (SemLoc.dma ⟨n, h⟩ : SemLoc sig).isScoped .scVector = true
    interval_cases n <;> first | rfl | decide +revert⟩

omit [FloatOps F] in
theorem cellN_ne {n m : ℕ} (hn : n < 28) (hm : m < 28) (h : n ≠ m) (c : Fin τ.nSC) (i : Fin τ.nSub) : cellN n hn d c i ≠ cellN m hm d c i := by
  intro e
  have e2 : (SemLoc.dma ⟨n, hn⟩ : SemLoc sig) = SemLoc.dma ⟨m, hm⟩ := congrArg Prod.snd e
  exact h (Fin.mk.inj (SemLoc.dma.inj e2))

omit [FloatOps F] in
theorem ownSems0_V :
    (ownSems0 (V d (cV L) (jV L)) : sProp 𝕄)
      = iprop(semVal (cellN 6 (by omega) d (cV L) (jV L)) 0 ∗ semVal (cellN 7 (by omega) d (cV L) (jV L)) 0
          ∗ semVal (cellN 8 (by omega) d (cV L) (jV L)) 0 ∗ semVal (cellN 9 (by omega) d (cV L) (jV L)) 0
          ∗ semVal (cellN 10 (by omega) d (cV L) (jV L)) 0 ∗ semVal (cellN 11 (by omega) d (cV L) (jV L)) 0
          ∗ bigSep ((((((((ownCells (V d (cV L) (jV L))).erase (cellN 6 (by omega) d (cV L) (jV L))).erase (cellN 7 (by omega) d (cV L) (jV L))).erase
              (cellN 8 (by omega) d (cV L) (jV L))).erase (cellN 9 (by omega) d (cV L) (jV L))).erase (cellN 10 (by omega) d (cV L) (jV L))).erase
              (cellN 11 (by omega) d (cV L) (jV L)))) fun g => semVal g 0) := by
  unfold SparseCore.Cfg.ownSems0
  rw [SparseCore.bigSep_erase' (cell_scoped d L 6 (by omega) (by omega) (by omega)),
    SparseCore.bigSep_erase' (Finset.mem_erase.mpr ⟨cellN_ne d _ _ (by omega) _ _, cell_scoped d L 7 (by omega) (by omega) (by omega)⟩),
    SparseCore.bigSep_erase' (Finset.mem_erase.mpr ⟨cellN_ne d _ _ (by omega) _ _, Finset.mem_erase.mpr ⟨cellN_ne d _ _ (by omega) _ _, cell_scoped d L 8 (by omega) (by omega) (by omega)⟩⟩),
    SparseCore.bigSep_erase' (Finset.mem_erase.mpr ⟨cellN_ne d _ _ (by omega) _ _, Finset.mem_erase.mpr ⟨cellN_ne d _ _ (by omega) _ _, Finset.mem_erase.mpr ⟨cellN_ne d _ _ (by omega) _ _,
      cell_scoped d L 9 (by omega) (by omega) (by omega)⟩⟩⟩),
    SparseCore.bigSep_erase' (Finset.mem_erase.mpr ⟨cellN_ne d _ _ (by omega) _ _, Finset.mem_erase.mpr ⟨cellN_ne d _ _ (by omega) _ _, Finset.mem_erase.mpr ⟨cellN_ne d _ _ (by omega) _ _,
      Finset.mem_erase.mpr ⟨cellN_ne d _ _ (by omega) _ _, cell_scoped d L 10 (by omega) (by omega) (by omega)⟩⟩⟩⟩),
    SparseCore.bigSep_erase' (Finset.mem_erase.mpr ⟨cellN_ne d _ _ (by omega) _ _, Finset.mem_erase.mpr ⟨cellN_ne d _ _ (by omega) _ _, Finset.mem_erase.mpr ⟨cellN_ne d _ _ (by omega) _ _,
      Finset.mem_erase.mpr ⟨cellN_ne d _ _ (by omega) _ _, Finset.mem_erase.mpr ⟨cellN_ne d _ _ (by omega) _ _, cell_scoped d L 11 (by omega) (by omega) (by omega)⟩⟩⟩⟩⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc1_scoped0 ↦{fullShare} f) ∗ (∃ f, (V d (cV L) (jV L)).loc cc1_scoped2 ↦{fullShare} f)
          ∗ bigSep (((ownRefs (τ := τ) (.scVector (cV L) (jV L))).erase ((Proc.scVector (cV L) (jV L)).devRef cc1_scoped0)).erase
              ((Proc.scVector (cV L) (jV L)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV L) (jV L)) (b := (Proc.scVector (cV L) (jV L)).devRef cc1_scoped2) rfl⟩)]

/-! ## The two scratch rings' slots -/

omit [FloatOps F] in
theorem inbA (s : Fin 2) : ∀ a, (![s.val, 0, 0] : Fin 3 → Nat) a + S1x1x256.size a ≤ S2x1x256.size a := by
  have := s.isLt; intro a; fin_cases a
  · show s.val + 1 ≤ 2; omega
  · show 0 + 1 ≤ 1; omega
  · show 0 + 256 ≤ 256; omega
omit [FloatOps F] in
theorem inbG (s : Fin 2) : ∀ a, (![s.val, 0, 0] : Fin 3 → Nat) a + S1x256x128.size a ≤ S2x256x128.size a := by
  have := s.isLt; intro a; fin_cases a
  · show s.val + 1 ≤ 2; omega
  · show 0 + 256 ≤ 256; omega
  · show 0 + 128 ≤ 128; omega
/-- Slot `s` of the list's ring and of the rows' ring, as the body addresses them. -/
abbrev aSlot (s : Fin 2) : Memref sig .scVector .vmem S1x256 .i32 :=
  ((Memref.whole cc1_scoped0).slice (Rect.unit (s := S2x1x256) ![s.val, 0, 0] S1x1x256.size (inbA s)) (fun _ => rfl)).squeeze S1x256 squeezes_S1x1x256_S1x256
abbrev gSlot (s : Fin 2) : Memref sig .scVector .vmem S256x128 .f32 :=
  ((Memref.whole cc1_scoped2).slice (Rect.unit (s := S2x256x128) ![s.val, 0, 0] S1x256x128.size (inbG s)) (fun _ => rfl)).squeeze S256x128 squeezes_S1x256x128_S256x128

omit [FloatOps F] in
theorem aSlot_set (s : Fin 2) : (aSlot s).view.set = Finset.univ.filter fun j : S2x1x256.Idx => (j 0).val = s.val := by
  show (((Memref.whole cc1_scoped0).view.slice (Rect.unit (s := S2x1x256) ![s.val, 0, 0] S1x1x256.size (inbA s))).reshape S1x256 squeezes_S1x1x256_S1x256.numel_eq).set = _
  rw [View.set_reshape]
  show ((View.whole cc1_scoped0).slice _).set = _
  rw [View.set_slice_whole]
  ext j
  simp only [Rect.mem_set_unit, Finset.mem_filter, Finset.mem_univ, true_and]
  constructor
  · intro h; have h0 : s.val ≤ (j 0).val ∧ (j 0).val < s.val + 1 := h 0; omega
  · intro h a; fin_cases a
    · show s.val ≤ (j 0).val ∧ (j 0).val < s.val + 1; omega
    · have h1 : (j 1).val < 1 := (j 1).isLt; show 0 ≤ (j 1).val ∧ (j 1).val < 0 + 1; omega
    · have h2 : (j 2).val < 256 := (j 2).isLt; show 0 ≤ (j 2).val ∧ (j 2).val < 0 + 256; omega
omit [FloatOps F] in
theorem gSlot_set (s : Fin 2) : (gSlot s).view.set = Finset.univ.filter fun j : S2x256x128.Idx => (j 0).val = s.val := by
  show (((Memref.whole cc1_scoped2).view.slice (Rect.unit (s := S2x256x128) ![s.val, 0, 0] S1x256x128.size (inbG s))).reshape S256x128 squeezes_S1x256x128_S256x128.numel_eq).set = _
  rw [View.set_reshape]
  show ((View.whole cc1_scoped2).slice _).set = _
  rw [View.set_slice_whole]
  ext j
  simp only [Rect.mem_set_unit, Finset.mem_filter, Finset.mem_univ, true_and]
  constructor
  · intro h; have h0 : s.val ≤ (j 0).val ∧ (j 0).val < s.val + 1 := h 0; omega
  · intro h a; fin_cases a
    · show s.val ≤ (j 0).val ∧ (j 0).val < s.val + 1; omega
    · have h1 : (j 1).val < 256 := (j 1).isLt; show 0 ≤ (j 1).val ∧ (j 1).val < 0 + 256; omega
    · have h2 : (j 2).val < 128 := (j 2).isLt; show 0 ≤ (j 2).val ∧ (j 2).val < 0 + 128; omega
omit [FloatOps F] in
theorem aSlot_compl : (Finset.univ : Finset S2x1x256.Idx) \ (aSlot 0).view.set = (aSlot 1).view.set := by
  rw [aSlot_set, aSlot_set]; ext j
  have := (j 0).isLt
  simp only [Finset.mem_sdiff, Finset.mem_univ, Finset.mem_filter, true_and]
  show ¬ (j 0).val = 0 ↔ (j 0).val = 1
  have h2 : (j 0).val < 2 := this
  omega
omit [FloatOps F] in
theorem gSlot_compl : (Finset.univ : Finset S2x256x128.Idx) \ (gSlot 0).view.set = (gSlot 1).view.set := by
  rw [gSlot_set, gSlot_set]; ext j
  have := (j 0).isLt
  simp only [Finset.mem_sdiff, Finset.mem_univ, Finset.mem_filter, true_and]
  show ¬ (j 0).val = 0 ↔ (j 0).val = 1
  have h2 : (j 0).val < 2 := this
  omega

/-! ## The blocks as the body slices them -/

/-- A block of the list and of the output at the offsets the body computed. -/
abbrev iBlkM (off : Fin 2 → ℕ) (h : ∀ a, off a + S1x256.size a ≤ S1x640000.size a) : Memref sig .scVector .hbm S1x256 .i32 :=
  (iV).slice (Rect.unit (s := S1x640000) off S1x256.size h) (fun _ => rfl)
abbrev oBlkM (off : Fin 2 → ℕ) (h : ∀ a, off a + S256x128.size a ≤ S640000x128.size a) : Memref sig .scVector .hbm S256x128 .f32 :=
  (oV).slice (Rect.unit (s := S640000x128) off S256x128.size h) (fun _ => rfl)

omit [FloatOps F] in
theorem pts_iBlk (b : Fin 2500) (off : Fin 2 → ℕ) (h : ∀ a, off a + S1x256.size a ≤ S1x640000.size a) (e : off = ![0, 256 * b.val])
    (f : Buf (Elt F) (iLoc d)) :
    ((iBlkM off h).view.loc (V d (cV L) (jV L)) ↦[(iBlkM off h).view.set]{fullShare} f : sProp 𝕄) = iLoc d ↦[iBlkSet b]{fullShare} f := by
  subst e; rfl
omit [FloatOps F] in
theorem pts_oBlk (b : Fin 2500) (off : Fin 2 → ℕ) (h : ∀ a, off a + S256x128.size a ≤ S640000x128.size a) (e : off = ![256 * b.val, 0])
    (f : Buf (Elt F) (oLoc d)) :
    ((oBlkM off h).view.loc (V d (cV L) (jV L)) ↦[(oBlkM off h).view.set]{fullShare} f : sProp 𝕄) = oLoc d ↦[oBlkSet b]{fullShare} f := by
  subst e; rfl

omit [FloatOps F] in
theorem wN_eq : wN L = (wL L).val := rfl

omit [FloatOps F] in
/-- A ring held whole is its two slots. -/
theorem alloca_split (fa : Buf (Elt F) ((V d (cV L) (jV L)).loc cc1_scoped0)) :
    ((V d (cV L) (jV L)).loc cc1_scoped0 ↦{fullShare} fa : sProp 𝕄)
      ⊣⊢ iprop(((aSlot 0).view.loc (V d (cV L) (jV L)) ↦[(aSlot 0).view.set]{fullShare} fa)
          ∗ ((aSlot 1).view.loc (V d (cV L) (jV L)) ↦[(aSlot 1).view.set]{fullShare} fa)) := by
  have h : ((V d (cV L) (jV L)).loc cc1_scoped0 ↦[Finset.univ]{fullShare} fa : sProp 𝕄)
      ⊣⊢ iprop(((V d (cV L) (jV L)).loc cc1_scoped0 ↦[(aSlot 0).view.set]{fullShare} fa)
          ∗ ((V d (cV L) (jV L)).loc cc1_scoped0 ↦[Finset.univ \ (aSlot 0).view.set]{fullShare} fa)) :=
    pointsTo_split_subset (Finset.subset_univ (aSlot 0).view.set)
  rw [aSlot_compl] at h
  exact h
omit [FloatOps F] in
theorem alloca4_split (fg : Buf (Elt F) ((V d (cV L) (jV L)).loc cc1_scoped2)) :
    ((V d (cV L) (jV L)).loc cc1_scoped2 ↦{fullShare} fg : sProp 𝕄)
      ⊣⊢ iprop(((gSlot 0).view.loc (V d (cV L) (jV L)) ↦[(gSlot 0).view.set]{fullShare} fg)
          ∗ ((gSlot 1).view.loc (V d (cV L) (jV L)) ↦[(gSlot 1).view.set]{fullShare} fg)) := by
  have h : ((V d (cV L) (jV L)).loc cc1_scoped2 ↦[Finset.univ]{fullShare} fg : sProp 𝕄)
      ⊣⊢ iprop(((V d (cV L) (jV L)).loc cc1_scoped2 ↦[(gSlot 0).view.set]{fullShare} fg)
          ∗ ((V d (cV L) (jV L)).loc cc1_scoped2 ↦[Finset.univ \ (gSlot 0).view.set]{fullShare} fg)) :=
    pointsTo_split_subset (Finset.subset_univ (gSlot 0).view.set)
  rw [gSlot_compl] at h
  exact h

omit [FloatOps F] in
theorem pts_tV (q : PosShare TreeShare) (f : Buf (Elt F) (tLoc d)) :
    ((tV).view.loc (V d (cV L) (jV L)) ↦{q} f : sProp 𝕄) = tLoc d ↦{q} f := rfl

/-! ## Slots and cells by the words the body carries -/

omit [FloatOps F] in
theorem inbS (s : Fin 2) : ∀ a, (![s.val] : Fin 1 → Nat) a + S1.size a ≤ S2.size a := by
  have := s.isLt; intro a; fin_cases a
  show s.val + 1 ≤ 2; omega
/-- The semaphore of slot `s` of the list's ring, and of the rows' ring, as the body addresses them. -/
abbrev semI (s : Fin 2) : DmaSem sig := ((cc1_scoped1.slice (Rect.unit (s := S2) ![s.val] S1.size (inbS s))).squeeze S_ squeezes_S1_S_).sem
abbrev semO (s : Fin 2) : DmaSem sig := ((cc1_scoped3.slice (Rect.unit (s := S2) ![s.val] S1.size (inbS s))).squeeze S_ squeezes_S1_S_).sem
/-- The slot a word names: its remainder by two. -/
abbrev slotW (a : BitVec 32) : Fin 2 := ⟨(Scalar.remui a 2#32).toNat, rem2_lt a⟩
/-- The slot of step `k`. -/
def sl (k : ℕ) : Fin 2 := ⟨k % 2, Nat.mod_lt _ (by decide)⟩

omit [FloatOps F] in
theorem slotW_ofNat (m : ℕ) (hm : m < 2 ^ 32) : slotW (BitVec.ofNat 32 m) = sl m := by
  apply Fin.ext
  show (Scalar.remui (BitVec.ofNat 32 m) 2#32).toNat = m % 2
  have h : Scalar.remui (BitVec.ofNat 32 m) 2#32 = BitVec.ofNat 32 m % 2#32 := by
    unfold Scalar.remui IntOp.remui; simp
  rw [h, BitVec.toNat_umod, BitVec.toNat_ofNat, Nat.mod_eq_of_lt hm]; rfl

omit [FloatOps F] in
theorem semI_0 : semI 0 = ⟨6, by decide⟩ := rfl
omit [FloatOps F] in
theorem semI_1 : semI 1 = ⟨7, by decide⟩ := rfl
omit [FloatOps F] in
theorem semO_0 : semO 0 = ⟨8, by decide⟩ := rfl
omit [FloatOps F] in
theorem semO_1 : semO 1 = ⟨9, by decide⟩ := rfl

/-- The list of slot `s` as the gather addresses it. -/
abbrev lSlot (s : Fin 2) : Memref sig .scVector .vmem S256 .i32 :=
  ((aSlot s).slice (Rect.unit (s := S1x256) ![0, 0] S1x256.size inb_S1x256_S1x256_0_0) (fun _ => rfl)).squeeze S256 squeezes_S1x256_S256

/-- A slot's list as the gather addresses it, at the offsets the body computed. -/
abbrev lSlotP (off : Fin 3 → ℕ) (h : ∀ a, off a + S1x1x256.size a ≤ S2x1x256.size a) : Memref sig .scVector .vmem S256 .i32 :=
  ((((Memref.whole cc1_scoped0).slice (Rect.unit (s := S2x1x256) off S1x1x256.size h) (fun _ => rfl)).squeeze S1x256 squeezes_S1x1x256_S1x256).slice
    (Rect.unit (s := S1x256) ![0, 0] S1x256.size inb_S1x256_S1x256_0_0) (fun _ => rfl)).squeeze S256 squeezes_S1x256_S256

omit [FloatOps F] in
theorem rect00_set : (Rect.unit (s := S1x256) ![0, 0] S1x256.size inb_S1x256_S1x256_0_0).set = Finset.univ := by
  ext i
  simp only [Rect.mem_set_unit, Finset.mem_univ, iff_true]
  intro a; fin_cases a
  · have h0 : (i 0).val < 1 := (i 0).isLt
    show 0 ≤ (i 0).val ∧ (i 0).val < 0 + 1; omega
  · have h1 : (i 1).val < 256 := (i 1).isLt
    show 0 ≤ (i 1).val ∧ (i 1).val < 0 + 256; omega

omit [FloatOps F] in
theorem lSlotP_set (a : BitVec 32) (h : ∀ x, (k1_off11 a) x + S1x1x256.size x ≤ S2x1x256.size x) :
    (lSlotP (k1_off11 a) h).view.set = (aSlot (slotW a)).view.set := by
  show ((((aSlot (slotW a)).view).slice (Rect.unit (s := S1x256) ![0, 0] S1x256.size inb_S1x256_S1x256_0_0)).reshape S256 squeezes_S1x256_S256.numel_eq).set = _
  rw [View.set_reshape, View.set_slice, rect00_set]
  try rfl

omit [FloatOps F] in
theorem pts_lSlot (a : BitVec 32) (h : ∀ x, (k1_off11 a) x + S1x1x256.size x ≤ S2x1x256.size x)
    (f : Buf (Elt F) ((aSlot (slotW a)).view.loc (V d (cV L) (jV L)))) :
    ((lSlotP (k1_off11 a) h).view.loc (V d (cV L) (jV L)) ↦[(lSlotP (k1_off11 a) h).view.set]{fullShare} f : sProp 𝕄)
      = ((aSlot (slotW a)).view.loc (V d (cV L) (jV L)) ↦[(aSlot (slotW a)).view.set]{fullShare} f) := by
  rw [lSlotP_set]
  try rfl

/-! ## A family of blocks, some of them lent out -/

/-- The blocks `Φ j` of a tile, those whose number satisfies `p` being elsewhere (in a transfer in flight). -/
def famB {n : ℕ} (Φ : Fin n → sProp 𝕄) (p : ℕ → Prop) [DecidablePred p] : sProp 𝕄 :=
  bigSep Finset.univ fun j : Fin n => if p j.val then iprop(emp) else Φ j

omit [FloatOps F] in
theorem famB_take {n : ℕ} (Φ : Fin n → sProp 𝕄) (p : ℕ → Prop) [DecidablePred p] (j : Fin n) (hj : ¬ p j.val) :
    famB (F := F) Φ p ⊢ iprop(Φ j ∗ famB (F := F) Φ (fun m => p m ∨ m = j.val)) := by
  unfold famB
  refine (bigSep_univ_update (Φ := fun j' : Fin n => if p j'.val then iprop(emp) else Φ j')
    (Ψ := fun j' : Fin n => if (p j'.val ∨ j'.val = j.val) then iprop(emp) else Φ j') j ?_).trans ?_
  · intro j' hne
    have hv : j'.val ≠ j.val := fun e => hne (Fin.ext e)
    by_cases hp : p j'.val
    · simp only [hp, true_or, if_true]
    · simp only [hp, hv, or_self, if_false]
  · beta_reduce
    rw [if_neg hj, if_pos (Or.inr rfl : p j.val ∨ j.val = j.val)]
    iintro ⟨H, Hw⟩
    isplitl [H]; · iexact H
    iapply Hw
    iempintro

omit [FloatOps F] in
theorem famB_put {n : ℕ} (Φ : Fin n → sProp 𝕄) (p : ℕ → Prop) [DecidablePred p] (j : Fin n) (hj : p j.val) :
    iprop(Φ j ∗ famB (F := F) Φ p) ⊢ famB (F := F) Φ (fun m => p m ∧ m ≠ j.val) := by
  unfold famB
  iintro ⟨H, HB⟩
  ihave HB' := (bigSep_univ_update (Φ := fun j' : Fin n => if p j'.val then iprop(emp) else Φ j')
    (Ψ := fun j' : Fin n => if (p j'.val ∧ j'.val ≠ j.val) then iprop(emp) else Φ j') j (by
      intro j' hne
      have hv : j'.val ≠ j.val := fun e => hne (Fin.ext e)
      by_cases hp : p j'.val
      · simp only [hp, hv, ne_eq, not_false_eq_true, and_self, if_true]
      · simp only [hp, false_and, if_false])) $$ HB
  icases HB' with ⟨-, Hw⟩
  iapply Hw
  rw [if_neg (show ¬ (p j.val ∧ j.val ≠ j.val) from fun h => h.2 rfl)]
  iexact H

omit [FloatOps F] in
theorem famB_congr {n : ℕ} (Φ : Fin n → sProp 𝕄) (p q : ℕ → Prop) [DecidablePred p] [DecidablePred q] (h : ∀ m, p m ↔ q m) :
    famB (F := F) Φ p = famB (F := F) Φ q := by
  unfold famB
  congr 1; funext j
  by_cases hp : p j.val
  · rw [if_pos hp, if_pos ((h _).mp hp)]
  · rw [if_neg hp, if_neg (fun hq => hp ((h _).mpr hq))]

variable (ix : Buf (Elt F) (iLoc (0 : Dev nD)))

omit [FloatOps F] in
/-- The list a fetch landed names rows of the table: its words are words of the list of row numbers. -/
theorem list_inb (hin : ∀ r : Fin 640000, (ix (ValueIdx.ix2 (0 : Fin 1) r)).toNat < 20000) (s : Fin 2)
    (fa : Buf (Elt F) ((aSlot s).view.loc (V d (cV L) (jV L)))) (off : Fin 2 → ℕ) (h : ∀ a, off a + S1x256.size a ≤ S1x640000.size a)
    (pay : S1x256.Idx → Elt F .i32) (hpay : pay = ReadAs.same.apply ((iBlkM off h).view.read (Elt F) ix)) :
    ∀ x, ((lSlot s).view.read (Elt F) ((aSlot s).view.writes (Elt F) fa [⟨Rect.whole S1x256, pay⟩]) x).toNat
      < S20000x128.size gathers_S20000x128_S256x128.axis := by
  intro x
  subst hpay
  have hsub : (lSlot s).view.set ⊆ (aSlot s).view.set := by
    show (((aSlot s).view.slice (Rect.unit (s := S1x256) ![0, 0] S1x256.size inb_S1x256_S1x256_0_0)).reshape S256 squeezes_S1x256_S256.numel_eq).set ⊆ _
    rw [View.set_reshape]; exact View.set_slice_subset _ _
  have hmem : (lSlot s).view.emb x ∈ ((aSlot s).view.slice (Rect.whole S1x256)).set := by
    have e : ((aSlot s).view.slice (Rect.whole S1x256)).set = (aSlot s).view.set := by
      rw [View.set_slice, Rect.set_whole]; rfl
    rw [e]
    exact hsub (Finset.mem_map_of_mem _ (Finset.mem_univ x))
  obtain ⟨x', -, hx'⟩ := Finset.mem_map.mp hmem
  rw [View.read_apply, View.writes_singleton, ← hx', View.write_emb_of_mem _ _ (Finset.mem_univ x')]
  rw [cast_cast, cast_eq]
  show ((iBlkM off h).view.read (Elt F) ix x').toNat < 20000
  rw [View.read_apply, cast_eq]
  have e2 := ValueIdx.eq_ix2 (n0 := 1) (n1 := 640000) ((iBlkM off h).view.emb x')
  have hlt : (((iBlkM off h).view.emb x') 0).val < 1 := (((iBlkM off h).view.emb x') 0).isLt
  have e0 : ((iBlkM off h).view.emb x') 0 = (0 : Fin 1) := Fin.ext (by show (((iBlkM off h).view.emb x') 0).val = 0; omega)
  rw [e0] at e2
  rw [e2]
  exact hin _

end Tile
end Cert.Kernel.Hand
end
-- ==== Proof.WScTileValC.lean ====
/-
  What a fetched block of the list holds, word by word. The fetch copies block b of the list of row numbers
  (its columns 256 b … 256 b + 255) into a slot of the tile's ring; the gather reads the slot as a list of
  256 words. Word x of that list is entry 256 b + x of the list of row numbers: the slot's addressing
  (a slice, a dropped axis of extent one) and the block's (an offset on the columns) compose to that.
-/
import proofs.«206068_g62534723830210_cont_9to1_m_587_24_alg».proof.Proof.WScTileDefs

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Word `x` of block `b`'s list is entry `256 b + x` of the list of row numbers. -/
def lrow (b : Fin 2500) (x : S256.Idx) : Fin 640000 := ⟨256 * b.val + (x 0).val, by have := b.isLt; have h : (x 0).val < 256 := (x 0).isLt; omega⟩

section Tile

variable (d : Dev nD) (L : grid1.Coords) (tbl : Buf (Elt F) (tLoc (0 : Dev nD))) (ix : Buf (Elt F) (iLoc (0 : Dev nD)))

omit [FloatOps F] in
/-- The list a fetch of block `b` landed, as the gather reads it, is that block of the list of row numbers. -/
theorem list_eq (b : Fin 2500) (s : Fin 2) (fa : Buf (Elt F) ((aSlot s).view.loc (V d (cV L) (jV L)))) (off : Fin 2 → ℕ)
    (h : ∀ a, off a + S1x256.size a ≤ S1x640000.size a) (e : off = ![0, 256 * b.val])
    (pay : S1x256.Idx → Elt F .i32) (hpay : pay = ReadAs.same.apply ((iBlkM off h).view.read (Elt F) ix)) :
    ∀ x : S256.Idx, (lSlot s).view.read (Elt F) ((aSlot s).view.writes (Elt F) fa [⟨Rect.whole S1x256, pay⟩]) x
      = ix (ValueIdx.ix2 (0 : Fin 1) (lrow b x)) := by
  intro x
  subst hpay
  have hsub : (lSlot s).view.set ⊆ (aSlot s).view.set := by
    show (((aSlot s).view.slice (Rect.unit (s := S1x256) ![0, 0] S1x256.size inb_S1x256_S1x256_0_0)).reshape S256 squeezes_S1x256_S256.numel_eq).set ⊆ _
    rw [View.set_reshape]; exact View.set_slice_subset _ _
  have hmem : (lSlot s).view.emb x ∈ ((aSlot s).view.slice (Rect.whole S1x256)).set := by
    have e : ((aSlot s).view.slice (Rect.whole S1x256)).set = (aSlot s).view.set := by
      rw [View.set_slice, Rect.set_whole]; rfl
    rw [e]
    exact hsub (Finset.mem_map_of_mem _ (Finset.mem_univ x))
  obtain ⟨x', -, hx'⟩ := Finset.mem_map.mp hmem
  rw [View.read_apply, View.writes_singleton, ← hx', View.write_emb_of_mem _ _ (Finset.mem_univ x')]
  rw [cast_cast, cast_eq]
  show (iBlkM off h).view.read (Elt F) ix x' = _
  rw [View.read_apply, cast_eq]
  refine congrArg ix ?_
  -- the word's place in the slot, by coordinates
  have hinj : (Rect.whole S1x256).emb x'
      = (Rect.unit (s := S1x256) ![0, 0] S1x256.size inb_S1x256_S1x256_0_0).emb (Shape.reshapeEquiv squeezes_S1x256_S256.numel_eq x) :=
    (aSlot s).view.emb.injective hx'
  have h1 : (x' 1).val = ((Shape.reshapeEquiv squeezes_S1x256_S256.numel_eq x) 1).val := by
    have := congrArg (fun i : S1x256.Idx => (i 1).val) hinj
    simpa [Rect.emb_apply] using this
  have hrm := Shape.rowMajor_reshapeEquiv squeezes_S1x256_S256.numel_eq x
  rw [Shape.rowMajor_val_two, Shape.rowMajor_val_one] at hrm
  have hy0 : ((Shape.reshapeEquiv squeezes_S1x256_S256.numel_eq x) 0).val < 1 := ((Shape.reshapeEquiv squeezes_S1x256_S256.numel_eq x) 0).isLt
  have hy0' : ((Shape.reshapeEquiv squeezes_S1x256_S256.numel_eq x) 0).val = 0 := by omega
  rw [hy0', Nat.zero_mul, Nat.zero_add] at hrm
  have hx0 : (x' 0).val < 1 := (x' 0).isLt
  have hb := b.isLt
  have e0 : off 0 = 0 := by rw [e]; rfl
  have e1 : off 1 = 256 * b.val := by rw [e]; rfl
  funext a
  match a with
  | ⟨0, _⟩ =>
    apply Fin.ext
    show off 0 + 1 * (x' 0).val = 0
    omega
  | ⟨1, _⟩ =>
    apply Fin.ext
    show off 1 + 1 * (x' 1).val = 256 * b.val + (x 0).val
    omega

end Tile
end Cert.Kernel.Hand
end
-- ==== Proof.WScTileValD.lean ====
/-
  What a tile's copy of one gathered block leaves in the output. The tile gathers into a slot of its
  rows' ring the table's rows that the 256 words of the slot's list name, reads the slot back and
  writes it as block b of the output (rows 256 b … 256 b + 255). Word x of the slot's list is entry
  256 b + x of the list of row numbers, and every entry is below the table's height, so at each index
  of the block the output holds what the whole gather leaves there: the table's row the list names.
-/
import proofs.«206068_g62534723830210_cont_9to1_m_587_24_alg».proof.Proof.WScTileValC

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords) (tbl : Buf (Elt F) (tLoc (0 : Dev nD))) (ix : Buf (Elt F) (iLoc (0 : Dev nD)))

/-- A block of the output written with the rows the tile gathered holds, at each of its indices, what the whole gather
    leaves there: the table's row the list names. -/
theorem copy_val (hin : ∀ r : Fin 640000, (ix (ValueIdx.ix2 (0 : Fin 1) r)).toNat < 20000) (b : Fin 2500) (s : Fin 2)
    (fI : Buf (Elt F) ((aSlot s).view.loc (V d (cV L) (jV L))))
    (hfIeq : ∀ x, (lSlot s).view.read (Elt F) fI x = ix (ValueIdx.ix2 (0 : Fin 1) (lrow b x)))
    (hfI : ∀ x, ((lSlot s).view.read (Elt F) fI x).toNat < S20000x128.size gathers_S20000x128_S256x128.axis)
    (hn : S256.numel = S256x128.size gathers_S20000x128_S256x128.axis')
    (fg0 : Buf (Elt F) ((gSlot s).view.loc (V d (cV L) (jV L)))) (ok : Buf (Elt F) (oLoc d))
    (off : Fin 2 → ℕ) (h : ∀ a, off a + S256x128.size a ≤ S640000x128.size a) (e : off = ![256 * b.val, 0])
    (G : S256x128.Idx → Elt F .f32)
    (hG : G = SparseCore.gatherPayload gathers_S20000x128_S256x128
      ((tV.slice (Rect.unit (s := S20000x128) ![0, 0] S20000x128.size inb_S20000x128_S20000x128_0_0) (fun _ => rfl)).view.read (Elt F) tbl)
      (SparseCore.rows ((lSlot s).view.read (Elt F) fI) hn hfI))
    (P : S256x128.Idx → Elt F .f32)
    (hP : P = ReadAs.same.apply ((gSlot s).view.read (Elt F) ((gSlot s).view.writes (Elt F) fg0 [⟨Rect.whole S256x128, G⟩]))) :
    ∀ i ∈ (oBlkM off h).view.set, ((oBlkM off h).view.writes (Elt F) ok [⟨Rect.whole S256x128, P⟩]) i = gath tbl ix i := by
  intro i hi
  subst e
  have eset : ((oBlkM ![256 * b.val, 0] h).view.slice (Rect.whole S256x128)).set = (oBlkM ![256 * b.val, 0] h).view.set := by
    rw [View.set_slice, Rect.set_whole]; rfl
  rw [← eset] at hi
  obtain ⟨y, -, hy⟩ := Finset.mem_map.mp hi
  rw [View.writes_singleton, ← hy, View.write_emb_of_mem _ _ (Finset.mem_univ y)]
  rw [cast_eq]
  subst hP
  have eg : ((gSlot s).view.slice (Rect.whole S256x128)).emb y = (gSlot s).view.emb y := by
    rw [View.emb_slice]
    show (gSlot s).view.emb ((Rect.whole S256x128).emb y) = _
    rw [Rect.emb_whole_apply]
  show (gSlot s).view.read (Elt F) ((gSlot s).view.writes (Elt F) fg0 [⟨Rect.whole S256x128, G⟩]) y = _
  rw [View.read_apply, View.writes_singleton, ← eg, View.write_emb_of_mem _ _ (Finset.mem_univ y), cast_cast, cast_eq]
  subst hG
  unfold SparseCore.gatherPayload
  rw [View.read_apply, cast_eq, gath_apply]
  have hy0 : (y 0).val < 256 := (y 0).isLt
  have hb := b.isLt
  have hi0 : ((((oBlkM ![256 * b.val, 0] h).view.slice (Rect.whole S256x128)).emb y) 0).val = 256 * b.val + (y 0).val := by
    rw [View.emb_slice]
    show (((oBlkM ![256 * b.val, 0] h).view.emb ((Rect.whole S256x128).emb y)) 0).val = _
    rw [Rect.emb_whole_apply]
    show 256 * b.val + 1 * (y 0).val = _
    omega
  have hi1 : ((((oBlkM ![256 * b.val, 0] h).view.slice (Rect.whole S256x128)).emb y) 1).val = (y 1).val := by
    rw [View.emb_slice]
    show (((oBlkM ![256 * b.val, 0] h).view.emb ((Rect.whole S256x128).emb y)) 1).val = _
    rw [Rect.emb_whole_apply]
    show 0 + 1 * (y 1).val = _
    omega
  refine congrArg tbl (funext fun a => Fin.ext ?_)
  match a with
  | ⟨0, _⟩ =>
    show 0 + 1 * ((gathers_S20000x128_S256x128.idx (SparseCore.rows ((lSlot s).view.read (Elt F) fI) hn hfI) y) gathers_S20000x128_S256x128.axis).val
      = (rowAt ix ⟨((((oBlkM ![256 * b.val, 0] h).view.slice (Rect.whole S256x128)).emb y) 0).val, _⟩).val
    rw [Shape.Gathers.idx_axis]
    unfold SparseCore.rows
    show 0 + 1 * ((lSlot s).view.read (Elt F) fI (S256.rowMajor.symm ((y gathers_S20000x128_S256x128.axis').cast hn.symm))).toNat = _
    rw [hfIeq]
    have hx0 : ((S256.rowMajor.symm ((y gathers_S20000x128_S256x128.axis').cast hn.symm)) 0).val = (y 0).val := by
      rw [← Shape.rowMajor_val_one (d := ![256]) (S256.rowMajor.symm ((y gathers_S20000x128_S256x128.axis').cast hn.symm))]
      show (S256.rowMajor (S256.rowMajor.symm ((y gathers_S20000x128_S256x128.axis').cast hn.symm))).val = _
      rw [Equiv.apply_symm_apply]
      rfl
    have hr : lrow b (S256.rowMajor.symm ((y gathers_S20000x128_S256x128.axis').cast hn.symm))
        = (⟨((((oBlkM ![256 * b.val, 0] h).view.slice (Rect.whole S256x128)).emb y) 0).val, by rw [hi0]; omega⟩ : Fin 640000) := by
      apply Fin.ext
      show 256 * b.val + ((S256.rowMajor.symm ((y gathers_S20000x128_S256x128.axis').cast hn.symm)) 0).val = _
      rw [hx0, hi0]
    rw [hr]
    unfold rowAt
    show 0 + 1 * (ix (ValueIdx.ix2 (0 : Fin 1) _)).toNat = (ix (ValueIdx.ix2 (0 : Fin 1) _)).toNat % 20000
    rw [Nat.mod_eq_of_lt (hin _)]
    omega
  | ⟨1, _⟩ =>
    show 0 + 1 * ((gathers_S20000x128_S256x128.idx (SparseCore.rows ((lSlot s).view.read (Elt F) fI) hn hfI) y) (1 : Fin 2)).val
      = ((((oBlkM ![256 * b.val, 0] h).view.slice (Rect.whole S256x128)).emb y) 1).val
    rw [hi1, Shape.Gathers.idx_of_ne gathers_S20000x128_S256x128 _ y (1 : Fin 2) (by decide)]
    show 0 + 1 * (y 1).val = (y 1).val
    omega

end Tile
end Cert.Kernel.Hand
end
-- ==== Proof.WScTile.lean ====
/-
  The vector subcore's task: one tile of the gather. The tile's body runs a two-slot software
  pipeline over its blocks: at step k it starts the fetch of block k + 1 of the list into the other
  slot, waits for block k's, gathers the table's rows the list names into slot k mod 2 of the rows'
  ring, starts that slot's copy to block k of the output and waits for block k - 1's. One invariant
  over the steps says which fetch and which copy-out are in flight and that the blocks of the output
  below k - 1 hold the gathered rows; the body's run from the tile's holdings to its holdings with
  every block gathered follows.
-/
import proofs.«206068_g62534723830210_cont_9to1_m_587_24_alg».proof.Proof.WScTileValD

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (d : Dev nD) (L : grid1.Coords)

omit [FloatOps F] in
theorem famB_congr' {n : ℕ} (Φ : Fin n → sProp 𝕄) (p q : ℕ → Prop) [DecidablePred p] [DecidablePred q] (h : ∀ m, m < n → (p m ↔ q m)) :
    famB (F := F) Φ p = famB (F := F) Φ q := by
  unfold famB
  congr 1; funext j
  by_cases hp : p j.val
  · rw [if_pos hp, if_pos ((h _ j.isLt).mp hp)]
  · rw [if_neg hp, if_neg (fun hq => hp ((h _ j.isLt).mpr hq))]

omit [FloatOps F] in
theorem famB_of_erase {n : ℕ} (Φ : Fin n → sProp 𝕄) (j0 : Fin n) :
    bigSep (Finset.univ.erase j0) Φ ⊢ famB (F := F) Φ (fun m => m = j0.val) := by
  unfold famB
  rw [bigSep_univ_at (fun j : Fin n => if j.val = j0.val then iprop(emp) else Φ j) j0, if_pos rfl,
    show bigSep (Finset.univ.erase j0) (fun j : Fin n => if j.val = j0.val then iprop(emp) else Φ j) = bigSep (Finset.univ.erase j0) Φ from
      bigSep_congr (fun j hj => if_neg (fun e => (Finset.ne_of_mem_erase hj) (Fin.ext e)))]
  iintro H
  isplitr
  · iempintro
  · iexact H

omit [FloatOps F] in
theorem famB_to_erase {n : ℕ} (Φ : Fin n → sProp 𝕄) (j0 : Fin n) :
    famB (F := F) Φ (fun m => m = j0.val) ⊢ bigSep (Finset.univ.erase j0) Φ := by
  unfold famB
  rw [bigSep_univ_at (fun j : Fin n => if j.val = j0.val then iprop(emp) else Φ j) j0, if_pos rfl,
    show bigSep (Finset.univ.erase j0) (fun j : Fin n => if j.val = j0.val then iprop(emp) else Φ j) = bigSep (Finset.univ.erase j0) Φ from
      bigSep_congr (fun j hj => if_neg (fun e => (Finset.ne_of_mem_erase hj) (Fin.ext e)))]
  iintro ⟨-, H⟩
  iexact H

omit [FloatOps F] in
theorem famB_of_all {n : ℕ} (Φ Ψ : Fin n → sProp 𝕄) (p : ℕ → Prop) [DecidablePred p] (hp : ∀ m, m < n → ¬ p m) (h : ∀ j, Ψ j ⊢ Φ j) :
    bigSep Finset.univ Ψ ⊢ famB (F := F) Φ p := by
  unfold famB
  exact (bigSep_mono (fun j _ => h j)).trans (Entails.of_eq (bigSep_congr fun j _ => (if_neg (hp _ j.isLt)).symm))

omit [FloatOps F] in
theorem famB_to_all {n : ℕ} (Φ : Fin n → sProp 𝕄) (p : ℕ → Prop) [DecidablePred p] (hp : ∀ m, m < n → ¬ p m) :
    famB (F := F) Φ p ⊢ bigSep Finset.univ Φ := by
  unfold famB
  exact Entails.of_eq (bigSep_congr fun j _ => if_neg (hp _ j.isLt))

omit [FloatOps F] in
theorem famB_congrΦ {n : ℕ} (Φ Ψ : Fin n → sProp 𝕄) (p : ℕ → Prop) [DecidablePred p] (h : ∀ j : Fin n, ¬ p j.val → Φ j = Ψ j) :
    famB (F := F) Φ p = famB (F := F) Ψ p := by
  unfold famB
  congr 1; funext j
  by_cases hp : p j.val
  · rw [if_pos hp, if_pos hp]
  · rw [if_neg hp, if_neg hp, h j hp]

/-! ## The rings put back together, the cells by their numbers -/

omit [FloatOps F] in
theorem aSlot_cover (s t : Fin 2) (hst : s ≠ t) :
    Disjoint (aSlot s).view.set (aSlot t).view.set ∧ (aSlot s).view.set ∪ (aSlot t).view.set = Finset.univ := by
  rw [aSlot_set, aSlot_set]
  have hs := s.isLt; have ht := t.isLt
  have hne : s.val ≠ t.val := fun e => hst (Fin.ext e)
  constructor
  · rw [Finset.disjoint_left]; intro j hj hj'
    simp only [Finset.mem_filter, Finset.mem_univ, true_and] at hj hj'
    exact hne (hj.symm.trans hj')
  · ext j
    have hj : (j 0).val < 2 := (j 0).isLt
    simp only [Finset.mem_union, Finset.mem_filter, Finset.mem_univ, true_and, iff_true]
    omega
omit [FloatOps F] in
theorem gSlot_cover (s t : Fin 2) (hst : s ≠ t) :
    Disjoint (gSlot s).view.set (gSlot t).view.set ∧ (gSlot s).view.set ∪ (gSlot t).view.set = Finset.univ := by
  rw [gSlot_set, gSlot_set]
  have hs := s.isLt; have ht := t.isLt
  have hne : s.val ≠ t.val := fun e => hst (Fin.ext e)
  constructor
  · rw [Finset.disjoint_left]; intro j hj hj'
    simp only [Finset.mem_filter, Finset.mem_univ, true_and] at hj hj'
    exact hne (hj.symm.trans hj')
  · ext j
    have hj : (j 0).val < 2 := (j 0).isLt
    simp only [Finset.mem_union, Finset.mem_filter, Finset.mem_univ, true_and, iff_true]
    omega

omit [FloatOps F] in
theorem alloca_join (s t : Fin 2) (hst : s ≠ t) (f g : Buf (Elt F) ((V d (cV L) (jV L)).loc cc1_scoped0)) :
    iprop((((V d (cV L) (jV L)).loc cc1_scoped0 ↦[(aSlot s).view.set]{fullShare} f) : sProp 𝕄)
        ∗ ((V d (cV L) (jV L)).loc cc1_scoped0 ↦[(aSlot t).view.set]{fullShare} g))
      ⊢ iprop(∃ h, (V d (cV L) (jV L)).loc cc1_scoped0 ↦{fullShare} h) := by
  obtain ⟨hd, hu⟩ := aSlot_cover s t hst
  iintro H
  ihave H' := (pointsTo_join hd) $$ H
  rw [hu]
  iexists _; iexact H'
omit [FloatOps F] in
theorem alloca4_join (s t : Fin 2) (hst : s ≠ t) (f g : Buf (Elt F) ((V d (cV L) (jV L)).loc cc1_scoped2)) :
    iprop((((V d (cV L) (jV L)).loc cc1_scoped2 ↦[(gSlot s).view.set]{fullShare} f) : sProp 𝕄)
        ∗ ((V d (cV L) (jV L)).loc cc1_scoped2 ↦[(gSlot t).view.set]{fullShare} g))
      ⊢ iprop(∃ h, (V d (cV L) (jV L)).loc cc1_scoped2 ↦{fullShare} h) := by
  obtain ⟨hd, hu⟩ := gSlot_cover s t hst
  iintro H
  ihave H' := (pointsTo_join hd) $$ H
  rw [hu]
  iexists _; iexact H'

omit [FloatOps F] in
theorem cellsI_join (s t : Fin 2) (hst : s ≠ t) :
    iprop((semVal ((V d (cV L) (jV L)), SemLoc.dma (semI s)) 0 : sProp 𝕄) ∗ semVal ((V d (cV L) (jV L)), SemLoc.dma (semI t)) 0)
      ⊢ iprop(semVal (cellN 6 (by omega) d (cV L) (jV L)) 0 ∗ semVal (cellN 7 (by omega) d (cV L) (jV L)) 0) := by
  fin_cases s <;> fin_cases t
  · exact absurd rfl hst
  · iintro ⟨A, B⟩; isplitl [A]; · iexact A
    iexact B
  · iintro ⟨A, B⟩; isplitl [B]; · iexact B
    iexact A
  · exact absurd rfl hst
omit [FloatOps F] in
theorem cellsO_join (s t : Fin 2) (hst : s ≠ t) :
    iprop((semVal ((V d (cV L) (jV L)), SemLoc.dma (semO s)) 0 : sProp 𝕄) ∗ semVal ((V d (cV L) (jV L)), SemLoc.dma (semO t)) 0)
      ⊢ iprop(semVal (cellN 8 (by omega) d (cV L) (jV L)) 0 ∗ semVal (cellN 9 (by omega) d (cV L) (jV L)) 0) := by
  fin_cases s <;> fin_cases t
  · exact absurd rfl hst
  · iintro ⟨A, B⟩; isplitl [A]; · iexact A
    iexact B
  · iintro ⟨A, B⟩; isplitl [B]; · iexact B
    iexact A
  · exact absurd rfl hst

variable (tbl : Buf (Elt F) (tLoc (0 : Dev nD))) (ix : Buf (Elt F) (iLoc (0 : Dev nD))) (o0 : Buf (Elt F) (oLoc (0 : Dev nD)))

/-! ## The loop's invariant -/

/-- What the fetch of block `j` into slot `s` delivers: the slot holding block `j` of the list, and the block of the list
    back. -/
def DI (s : Fin 2) (j : Fin (cnt (wL L).val)) : sProp 𝕄 :=
  iprop((∃ fI : Buf (Elt F) ((aSlot s).view.loc (V d (cV L) (jV L))),
          ⌜∀ x, (lSlot s).view.read (Elt F) fI x = ix (ValueIdx.ix2 (0 : Fin 1) (lrow (tblk (wL L) j) x))⌝
          ∗ ((aSlot s).view.loc (V d (cV L) (jV L)) ↦[(aSlot s).view.set]{fullShare} fI))
        ∗ (iLoc d ↦[iBlkSet (tblk (wL L) j)]{fullShare} ix))

/-- What the copy of slot `s` out to block `j` delivers: the block gathered, the slot back. -/
def DO (s : Fin 2) (j : Fin (cnt (wL L).val)) : sProp 𝕄 :=
  iprop((oLoc d ↦[oBlkSet (tblk (wL L) j)]{fullShare} gath tbl ix)
        ∗ (∃ g : Buf (Elt F) ((gSlot s).view.loc (V d (cV L) (jV L))), (gSlot s).view.loc (V d (cV L) (jV L)) ↦[(gSlot s).view.set]{fullShare} g))

/-- Slot `s` of the list's ring free: at some contents, its cell at zero. The same of the rows' ring. -/
def AFree (s : Fin 2) : sProp 𝕄 :=
  iprop((∃ f : Buf (Elt F) ((aSlot s).view.loc (V d (cV L) (jV L))), (aSlot s).view.loc (V d (cV L) (jV L)) ↦[(aSlot s).view.set]{fullShare} f)
    ∗ semVal ((V d (cV L) (jV L)), SemLoc.dma (semI s)) 0)
def GFree (s : Fin 2) : sProp 𝕄 :=
  iprop((∃ g : Buf (Elt F) ((gSlot s).view.loc (V d (cV L) (jV L))), (gSlot s).view.loc (V d (cV L) (jV L)) ↦[(gSlot s).view.set]{fullShare} g)
    ∗ semVal ((V d (cV L) (jV L)), SemLoc.dma (semO s)) 0)
/-- The fetch of block `j` in flight into slot `s`; the copy-out of block `j` in flight from slot `s`. -/
def FI (s : Fin 2) (j : Fin (cnt (wL L).val)) : sProp 𝕄 :=
  Transfers.Flight countersEmb (V d (cV L) (jV L)) (SemLoc.dma (semI s)) (default : HIx 1) 8192 (DI d L ix s j)
def FO (s : Fin 2) (j : Fin (cnt (wL L).val)) : sProp 𝕄 :=
  Transfers.Flight countersEmb (V d (cV L) (jV L)) (SemLoc.dma (semO s)) (default : HIx 1) 1048576 (DO d L tbl ix s j)

/-- The blocks of the list and of the output, one by one. -/
abbrev IBk (j : Fin (cnt (wL L).val)) : sProp 𝕄 := iLoc d ↦[iBlkSet (tblk (wL L) j)]{fullShare} ix
/-- Before step `k` the blocks below `k - 1` of the output are gathered, the others as the launch left them. -/
abbrev OBk (k : ℕ) (j : Fin (cnt (wL L).val)) : sProp 𝕄 :=
  oLoc d ↦[oBlkSet (tblk (wL L) j)]{fullShare} (if j.val + 1 < k then gath tbl ix else o0)

/-- The words the loop carries into step `k` of `n`. -/
def accAt (n k : ℕ) : BitVec 32 × BitVec 32 × BitVec 32 × BitVec 32 × BitVec 32 :=
  (BitVec.ofNat 32 (min (k + 1) n), BitVec.ofNat 32 k, BitVec.ofNat 32 k, BitVec.ofNat 32 (k - 1), BitVec.ofNat 32 (if k < n then k else 0))

/-- Before step `k`: the fetch of block `k` is in flight into slot `k % 2` (unless the steps are over), the copy-out of
    block `k - 1` is in flight from the other slot of the rows' ring (unless `k = 0`), the other slots and their cells are
    free, every other block of the list is held, and of the output (the blocks below `k - 1` gathered). -/
def inv (O : CellTallies nD τ sig (HIx 1)) (W : Waits sig (HIx 1)) (k : ℕ)
    (acc : BitVec 32 × BitVec 32 × BitVec 32 × BitVec 32 × BitVec 32) : sProp 𝕄 :=
  iprop(⌜acc = accAt (cnt (wL L).val) k⌝
    ∗ Transfers.MayWaits (V d (cV L) (jV L)) (default : HIx 1) O
    ∗ (tLoc d ↦{Transfers.shareTok fullShare 32 (wL L)} tbl)
    ∗ famB (F := F) (IBk d L ix) (fun m => m = k)
    ∗ famB (F := F) (OBk d L tbl ix o0 k) (fun m => m + 1 = k)
    ∗ (if h : k < cnt (wL L).val then FI d L ix (sl k) ⟨k, h⟩ else AFree (F := F) d L (sl k))
    ∗ AFree (F := F) d L (sl (k + 1))
    ∗ (if h : 0 < k ∧ k ≤ cnt (wL L).val then FO d L tbl ix (sl (k + 1)) ⟨k - 1, by omega⟩ else GFree (F := F) d L (sl (k + 1)))
    ∗ GFree (F := F) d L (sl k)
    ∗ semVal (cellN 10 (by omega) d (cV L) (jV L)) 0
    ∗ ∃ W', ⌜∀ p ∈ W', p ∈ W ∨ p.2 = none⌝ ∗ owes (V d (cV L) (jV L)) O W')

omit [FloatOps F] in
theorem OBk_succ (k : ℕ) (j : Fin (cnt (wL L).val)) (hj : j.val + 1 ≠ k) : OBk d L tbl ix o0 k j = OBk d L tbl ix o0 (k + 1) j := by
  show (oLoc d ↦[oBlkSet (tblk (wL L) j)]{fullShare} (if j.val + 1 < k then gath tbl ix else o0) : sProp 𝕄)
    = (oLoc d ↦[oBlkSet (tblk (wL L) j)]{fullShare} (if j.val + 1 < k + 1 then gath tbl ix else o0))
  by_cases hlt : j.val + 1 < k
  · rw [if_pos hlt, if_pos (by omega)]
  · rw [if_neg hlt, if_neg (by omega)]
omit [FloatOps F] in
theorem OBk_done (k : ℕ) (j : Fin (cnt (wL L).val)) (h : j.val + 1 < k) :
    OBk d L tbl ix o0 k j = (oLoc d ↦[oBlkSet (tblk (wL L) j)]{fullShare} gath tbl ix : sProp 𝕄) := by
  show (oLoc d ↦[oBlkSet (tblk (wL L) j)]{fullShare} (if j.val + 1 < k then gath tbl ix else o0) : sProp 𝕄) = _
  rw [if_pos h]
omit [FloatOps F] in
theorem OBk_todo (k : ℕ) (j : Fin (cnt (wL L).val)) (h : ¬ j.val + 1 < k) :
    OBk d L tbl ix o0 k j = (oLoc d ↦[oBlkSet (tblk (wL L) j)]{fullShare} o0 : sProp 𝕄) := by
  show (oLoc d ↦[oBlkSet (tblk (wL L) j)]{fullShare} (if j.val + 1 < k then gath tbl ix else o0) : sProp 𝕄) = _
  rw [if_neg h]
set_option maxHeartbeats 4000000 in
theorem tile_body (hF : (K (F := F)).Facts)
    (hin : ∀ r : Fin 640000, (ix (ValueIdx.ix2 (0 : Fin 1) r)).toNat < 20000)
    (O : CellTallies nD τ sig (HIx 1)) (W : Waits sig (HIx 1)) (hO : ∀ g, O g none = 0) :
    iprop(levAts (K (F := F)).L (K (F := F)).lev ∗ emp
        ∗ tileRes tbl ix d (wL L) o0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tV (Memref.isWhole_whole _) iV (Memref.isWhole_whole _) oV (Memref.isWhole_whole _)
            (Memref.whole cc1_scoped0) (Memref.isWhole_whole _) cc1_scoped1 (Memref.whole cc1_scoped2) (Memref.isWhole_whole _)
            cc1_scoped3 cc1_scoped4 cc1_scoped5)
          fun _ => iprop(tileRes tbl ix d (wL L) (gath tbl ix)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hc1 : k1_cond1 L = 1#1 := cond1 L
  have hc17 : k1_cond17 L = 1#1 := cond17 L
  have hn : 0 < cnt (wL L).val := by unfold cnt; split <;> omega
  have hn79 : cnt (wL L).val ≤ 79 := by unfold cnt; split <;> omega
  have htr : (k1_t1_loop L).trips = cnt (wL L).val := trips1 L
  have htr2 : (k1_t2_loop L).trips = 0 := trips2 L
  simp only [cc1_k_eq_skeleton]; unfold cc1_k_skel
  rw [(K (F := F)).scopedBufs_V hF d (cV L) (jV L), SparseCore.Cfg.scopedSems0_V (Val := Elt F) d (cV L) (jV L), ownSems0_V, ownBufs_V]
  unfold tileRes
  rw [bigSep_sep', bigSep_univ_at (fun k : Fin (cnt (wL L).val) => (iLoc d ↦[iBlkSet (tblk (wL L) k)]{fullShare} ix : sProp 𝕄)) ⟨0, hn⟩]
  iintro ⟨#Hlv, -, ⟨Ht, ⟨Hi0, HblkI⟩, HblkO⟩, ⟨⟨%fa, Ha⟩, ⟨%fg, Hg⟩, Hbufs⟩, ⟨H6, H7, H8, H9, H10, H11, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the rings by slots
  ihave Ha' := (alloca_split (F := F) d L fa).1 $$ Ha
  icases Ha' with ⟨Ha0, Ha1⟩
  ihave Hg' := (alloca4_split (F := F) d L fg).1 $$ Hg
  icases Hg' with ⟨Hg0, Hg1⟩
  -- the list's first block, as the prologue slices it
  ihave Hi0' := (Entails.of_eq (pts_iBlk (F := F) d L (tblk (wL L) ⟨0, hn⟩) (k1_off2 L) (k1_off2_inb L hc1) (by rw [off2_eq L]; rfl) ix).symm) $$ Hi0
  sl_exec
  -- the fetch in flight, in the invariant's words
  ihave Hf0 := (Transfers.Flight_mono (EC := countersEmb) (V d (cV L) (jV L)) (D' := DI d L ix (sl 0) ⟨0, hn⟩) (by
      unfold DI
      iintro ⟨Hs, Hb⟩
      isplitl [Hs]
      · iexists _
        isplitr
        · ipureintro; exact list_eq d L ix (tblk (wL L) ⟨0, hn⟩) (sl 0) fa (k1_off2 L) (k1_off2_inb L hc1) (by rw [off2_eq L]; rfl) _ rfl
        · iexact Hs
      · iapply (Entails.of_eq (pts_iBlk (F := F) d L (tblk (wL L) ⟨0, hn⟩) (k1_off2 L) (k1_off2_inb L hc1) (by rw [off2_eq L]; rfl) ix))
        iexact Hb)) $$ H6
  -- what the invariant says when the steps are over
  have eaccEnd : accAt (cnt (wL L).val) (cnt (wL L).val) = (BitVec.ofNat 32 (cnt (wL L).val), BitVec.ofNat 32 (cnt (wL L).val), BitVec.ofNat 32 (cnt (wL L).val), BitVec.ofNat 32 (cnt (wL L).val - 1), 0#32) := by
    unfold accAt; rw [Nat.min_eq_right (by omega), if_neg (Nat.lt_irrefl _)]
  have e_nm : sl (cnt (wL L).val + 1) = slotW (BitVec.ofNat 32 (cnt (wL L).val - 1)) := by
    rw [slotW_ofNat _ (by omega)]; apply Fin.ext; show (cnt (wL L).val + 1) % 2 = (cnt (wL L).val - 1) % 2; omega
  have hEnd : ∀ acc, inv d L tbl ix o0 O W (k1_t1_loop L).trips acc ⊢ iprop(⌜acc = (BitVec.ofNat 32 (cnt (wL L).val), BitVec.ofNat 32 (cnt (wL L).val), BitVec.ofNat 32 (cnt (wL L).val), BitVec.ofNat 32 (cnt (wL L).val - 1), 0#32)⌝
      ∗ Transfers.MayWaits (V d (cV L) (jV L)) (default : HIx 1) O
      ∗ (tLoc d ↦{Transfers.shareTok fullShare 32 (wL L)} tbl)
      ∗ famB (F := F) (IBk d L ix) (fun m => m = cnt (wL L).val)
      ∗ famB (F := F) (OBk d L tbl ix o0 (cnt (wL L).val)) (fun m => m + 1 = cnt (wL L).val)
      ∗ AFree (F := F) d L (sl (cnt (wL L).val))
      ∗ AFree (F := F) d L (sl (cnt (wL L).val + 1))
      ∗ FO d L tbl ix (slotW (BitVec.ofNat 32 (cnt (wL L).val - 1))) ⟨cnt (wL L).val - 1, by omega⟩
      ∗ GFree (F := F) d L (sl (cnt (wL L).val))
      ∗ semVal (cellN 10 (by omega) d (cV L) (jV L)) 0
      ∗ ∃ W', ⌜∀ p ∈ W', p ∈ W ∨ p.2 = none⌝ ∗ owes (V d (cV L) (jV L)) O W') := by
    intro acc
    rw [htr]; unfold inv
    rw [dif_neg (Nat.lt_irrefl _), dif_pos (⟨hn, Nat.le_refl _⟩ : 0 < cnt (wL L).val ∧ cnt (wL L).val ≤ cnt (wL L).val), eaccEnd, e_nm]
  sl_for (inv d L tbl ix o0 O W) $$ [Hmw Ht HblkI HblkO Hf0 Ha1 H7 Hg0 Hg1 H8 H9 H10 HO]
  case region =>
    intro k acc
    have hk : k.val < cnt (wL L).val := htr ▸ k.isLt
    have e_k : slotW (BitVec.ofNat 32 k.val) = sl k.val := slotW_ofNat _ (by omega)
    have e_k1 : slotW (BitVec.ofNat 32 (k.val + 1)) = sl (k.val + 1) := slotW_ofNat _ (by omega)
    have e_k2 : sl (k.val + 1 + 1) = slotW (BitVec.ofNat 32 k.val) := by
      rw [e_k]; apply Fin.ext; show (k.val + 1 + 1) % 2 = k.val % 2; omega
    have hchk2 : ∀ a, k1_chk2 L a := chk2_all L
    have hchk3 : ∀ a, k1_chk3 L a := chk3_all L
    have hchk1 : ∀ a6 a7 a8 a9, k1_chk1 L k a6 a7 a8 a9 (BitVec.ofNat 32 k.val) := chk1_at L k
    have h3 : k1_cond3 L k (BitVec.ofNat 32 k.val) = 1#1 := cond3_at L k
    have h6 : k1_cond6 L k (BitVec.ofNat 32 k.val) = 1#1 := cond6_at L k
    have eacc : accAt (cnt (wL L).val) k.val = (BitVec.ofNat 32 (k.val + 1), BitVec.ofNat 32 k.val, BitVec.ofNat 32 k.val, BitVec.ofNat 32 (k.val - 1), BitVec.ofNat 32 k.val) := by
      unfold accAt; rw [Nat.min_eq_left (by omega), if_pos hk]
    unfold inv
    rw [dif_pos hk]
    by_cases h0 : k.val = 0
    · -- the first step: nothing to wait for on the rows' side
      have hl : k.val + 1 < cnt (wL L).val := by have : 78 ≤ cnt (wL L).val := by (unfold cnt; split <;> omega)
                                                 omega
      have hl' : k.val + 1 < (k1_t1_loop L).trips := by rw [htr]; exact hl
      have hneg : ¬ (0 < k.val ∧ k.val ≤ cnt (wL L).val) := by omega
      have h2 : k1_cond2 L k (BitVec.ofNat 32 k.val) = 1#1 := by rw [cond2_at L k, if_pos hl']
      have h8 : ¬ k1_cond8 L k (BitVec.ofNat 32 k.val) = 1#1 := by rw [cond8_at L k, if_pos h0]; decide
      rw [dif_neg hneg, eacc, ← e_k, ← e_k1, e_k2,
        dif_pos hl, dif_pos (⟨by omega, by omega⟩ : 0 < k.val + 1 ∧ k.val + 1 ≤ cnt (wL L).val)]
      unfold FI FO AFree GFree DI DO
      iintro ⟨%hacc, #Hmw, Ht, HIB, HOB, HfI, ⟨⟨%fa1, Ha1⟩, HcI1⟩, ⟨⟨%fg1, Hg1⟩, HcO1⟩, ⟨⟨%fg0, Hg0⟩, HcO0⟩, H10, %W', %hW', HO⟩
      subst hacc
      ihave HIB' := (famB_take (F := F) (IBk d L ix) (fun m => m = k.val) ⟨k.val + 1, hl⟩ (by show ¬ (k.val + 1 = k.val); omega)) $$ HIB
      icases HIB' with ⟨Hi1, HIB⟩
      ihave Hi1' := (Entails.of_eq (pts_iBlk (F := F) d L (tblk (wL L) ⟨k.val + 1, hl⟩) (k1_off5 L (BitVec.ofNat 32 k.val)) (blk5_inb L k)
        (by rw [off5_at L k hl']; rfl) ix).symm) $$ Hi1
      ihave HOB' := (famB_take (F := F) (OBk d L tbl ix o0 k.val) (fun m => m + 1 = k.val) ⟨k.val, hk⟩ (by show ¬ (k.val + 1 = k.val); omega)) $$ HOB
      icases HOB' with ⟨Hok, HOB⟩
      ihave Hok' := (Entails.of_eq ((OBk_todo d L tbl ix o0 k.val ⟨k.val, hk⟩ (by show ¬ (k.val + 1 < k.val); omega)).trans
        (pts_oBlk (F := F) d L (tblk (wL L) ⟨k.val, hk⟩) (k1_off13 L (BitVec.ofNat 32 k.val)) (blk13_inb L k) (by rw [off13_at L k]; rfl) o0).symm)) $$ Hok
      ihave Ht' := (Entails.of_eq (pts_tV (F := F) d L _ tbl).symm) $$ Ht
      sl_exec
      icases HfI_dst with ⟨%fI, %hfIeq, HaK⟩
      have hfI : ∀ x, ((lSlot (slotW (BitVec.ofNat 32 k.val))).view.read (Elt F) fI x).toNat < S20000x128.size gathers_S20000x128_S256x128.axis :=
        fun x => by rw [hfIeq x]; exact hin _
      ihave HaK' := (Entails.of_eq (pts_lSlot (F := F) d L (BitVec.ofNat 32 k.val) (k1_off11_inb L _ (hchk3 _) hc1) fI).symm) $$ HaK
      sl_exec
      sl_step
      isplitr
      · ipureintro
        clear * - h0 hl'
        revert L
        decide +kernel
      isplitr; · iexact Hmw
      isplitl [Ht']; · iexact Ht'
      isplitl [HIB HfI_src]
      · ihave H := (famB_put (F := F) (IBk d L ix) (fun m => m = k.val ∨ m = k.val + 1) ⟨k.val, hk⟩ (Or.inl rfl)) $$ [HfI_src HIB]
        · isplitl [HfI_src]; · iexact HfI_src
          iexact HIB
        iapply (Entails.of_eq (famB_congr' (F := F) (IBk d L ix) _ _ (fun m _ => by
          show ((m = k.val ∨ m = k.val + 1) ∧ m ≠ k.val) ↔ m = k.val + 1; omega))) $$ H
      isplitl [HOB]
      · ihave HOB2 := (Entails.of_eq (famB_congrΦ (F := F) (OBk d L tbl ix o0 k.val) (OBk d L tbl ix o0 (k.val + 1)) (fun m => m + 1 = k.val ∨ m = k.val)
            (fun j hj => OBk_succ d L tbl ix o0 k.val j (fun e => hj (Or.inl e))))) $$ HOB
        iapply (Entails.of_eq (famB_congr' (F := F) (OBk d L tbl ix o0 (k.val + 1)) _ _ (fun m _ => by
          show (m + 1 = k.val ∨ m = k.val) ↔ m + 1 = k.val + 1; omega))) $$ HOB2
      isplitl [HcI1]
      · iapply (Transfers.Flight_mono (EC := countersEmb) (V d (cV L) (jV L)) (by
          iintro ⟨Hs, Hb⟩
          isplitl [Hs]
          · iexists _
            isplitr
            · ipureintro; exact list_eq d L ix (tblk (wL L) ⟨k.val + 1, hl⟩) (slotW (BitVec.ofNat 32 (k.val + 1))) fa1 _ (blk5_inb L k)
                (by rw [off5_at L k hl']; rfl) _ rfl
            · iexact Hs
          · iapply (Entails.of_eq (pts_iBlk (F := F) d L (tblk (wL L) ⟨k.val + 1, hl⟩) (k1_off5 L (BitVec.ofNat 32 k.val)) (blk5_inb L k)
              (by rw [off5_at L k hl']; rfl) ix))
            iexact Hb)) $$ HcI1
      isplitl [HaK' HfI]
      · isplitl [HaK']
        · iexists fI
          iapply (Entails.of_eq (pts_lSlot (F := F) d L (BitVec.ofNat 32 k.val) (k1_off11_inb L _ (hchk3 _) hc1) fI)) $$ HaK'
        · iexact HfI
      isplitl [HcO0]
      · iapply (Transfers.Flight_mono (EC := countersEmb) (V d (cV L) (jV L)) (by
          iintro ⟨Ho, Hs⟩
          isplitl [Ho]
          · iapply (Entails.of_eq ((pointsTo_congr (copy_val d L tbl ix hin (tblk (wL L) ⟨k.val, hk⟩) (slotW (BitVec.ofNat 32 k.val)) fI hfIeq hfI _ fg0 o0
                (k1_off13 L (BitVec.ofNat 32 k.val)) (blk13_inb L k) (by rw [off13_at L k]; rfl) _ rfl _ rfl)).trans
              (pts_oBlk (F := F) d L (tblk (wL L) ⟨k.val, hk⟩) (k1_off13 L (BitVec.ofNat 32 k.val)) (blk13_inb L k) (by rw [off13_at L k]; rfl) (gath tbl ix))))
            iexact Ho
          · iexists _; iexact Hs)) $$ HcO0
      isplitl [Hg1 HcO1]
      · isplitl [Hg1]
        · iexists fg1; iexact Hg1
        · iexact HcO1
      isplitl [H10]; · iexact H10
      iexists _; isplitr
      swap; · iexact HO
      ipureintro; intro p hp
      rcases Finset.mem_insert.mp hp with hp | hp; · exact .inr (hp ▸ rfl)
      rcases Finset.mem_insert.mp hp with hp | hp; · exact .inr (hp ▸ rfl)
      exact hW' p hp
    by_cases hl : k.val + 1 < cnt (wL L).val
    · -- a middle step
      have hpos : 0 < k.val ∧ k.val ≤ cnt (wL L).val := ⟨by omega, by omega⟩
      have hl' : k.val + 1 < (k1_t1_loop L).trips := by rw [htr]; exact hl
      have h2 : k1_cond2 L k (BitVec.ofNat 32 k.val) = 1#1 := by rw [cond2_at L k, if_pos hl']
      have h8 : k1_cond8 L k (BitVec.ofNat 32 k.val) = 1#1 := by rw [cond8_at L k, if_neg h0]
      have e_km : slotW (BitVec.ofNat 32 (k.val - 1)) = sl (k.val + 1) := by
        rw [slotW_ofNat _ (by omega)]; apply Fin.ext; show (k.val - 1) % 2 = (k.val + 1) % 2; omega
      rw [dif_pos hpos, eacc, show FO d L tbl ix (sl (k.val + 1)) ⟨k.val - 1, by omega⟩ = FO d L tbl ix (slotW (BitVec.ofNat 32 (k.val - 1))) ⟨k.val - 1, by omega⟩ from by rw [e_km],
        show GFree (F := F) d L (sl (k.val + 1)) = GFree (F := F) d L (slotW (BitVec.ofNat 32 (k.val - 1))) from by rw [e_km],
        ← e_k, ← e_k1, e_k2,
        dif_pos hl, dif_pos (⟨by omega, by omega⟩ : 0 < k.val + 1 ∧ k.val + 1 ≤ cnt (wL L).val)]
      unfold FI FO AFree GFree DI DO
      iintro ⟨%hacc, #Hmw, Ht, HIB, HOB, HfI, ⟨⟨%fa1, Ha1⟩, HcI1⟩, HfO, ⟨⟨%fg0, Hg0⟩, HcO0⟩, H10, %W', %hW', HO⟩
      subst hacc
      ihave HIB' := (famB_take (F := F) (IBk d L ix) (fun m => m = k.val) ⟨k.val + 1, hl⟩ (by show ¬ (k.val + 1 = k.val); omega)) $$ HIB
      icases HIB' with ⟨Hi1, HIB⟩
      ihave Hi1' := (Entails.of_eq (pts_iBlk (F := F) d L (tblk (wL L) ⟨k.val + 1, hl⟩) (k1_off5 L (BitVec.ofNat 32 k.val)) (blk5_inb L k)
        (by rw [off5_at L k hl']; rfl) ix).symm) $$ Hi1
      ihave HOB' := (famB_take (F := F) (OBk d L tbl ix o0 k.val) (fun m => m + 1 = k.val) ⟨k.val, hk⟩ (by show ¬ (k.val + 1 = k.val); omega)) $$ HOB
      icases HOB' with ⟨Hok, HOB⟩
      ihave Hok' := (Entails.of_eq ((OBk_todo d L tbl ix o0 k.val ⟨k.val, hk⟩ (by show ¬ (k.val + 1 < k.val); omega)).trans
        (pts_oBlk (F := F) d L (tblk (wL L) ⟨k.val, hk⟩) (k1_off13 L (BitVec.ofNat 32 k.val)) (blk13_inb L k) (by rw [off13_at L k]; rfl) o0).symm)) $$ Hok
      ihave Ht' := (Entails.of_eq (pts_tV (F := F) d L _ tbl).symm) $$ Ht
      sl_exec
      icases HfI_dst with ⟨%fI, %hfIeq, HaK⟩
      have hfI : ∀ x, ((lSlot (slotW (BitVec.ofNat 32 k.val))).view.read (Elt F) fI x).toNat < S20000x128.size gathers_S20000x128_S256x128.axis :=
        fun x => by rw [hfIeq x]; exact hin _
      ihave HaK' := (Entails.of_eq (pts_lSlot (F := F) d L (BitVec.ofNat 32 k.val) (k1_off11_inb L _ (hchk3 _) hc1) fI).symm) $$ HaK
      sl_exec
      -- the wait for the previous block's copy-out, by the rule itself
      iapply (Transfers.wp_waitLocalO countersEmb 𝒱₀ (V d (cV L) (jV L)) none (default : HIx 1) (N := 1048576) (by rfl)) $$ [HfO HO]
      · isplitl [HfO]; · iexact HfO
        isplitl [HO]; · iexact HO
        iapply (Transfers.MayWaits.elim (SemLoc.dma _)) $$ Hmw
      iintro ⟨⟨Hokm, ⟨%gkm, Hgkm⟩⟩, HcOm, HO⟩
      sl_exec
      sl_step
      isplitr
      · ipureintro
        clear * - h0 hl'
        revert L
        decide +kernel
      isplitr; · iexact Hmw
      isplitl [Ht']; · iexact Ht'
      isplitl [HIB HfI_src]
      · ihave H := (famB_put (F := F) (IBk d L ix) (fun m => m = k.val ∨ m = k.val + 1) ⟨k.val, hk⟩ (Or.inl rfl)) $$ [HfI_src HIB]
        · isplitl [HfI_src]; · iexact HfI_src
          iexact HIB
        iapply (Entails.of_eq (famB_congr' (F := F) (IBk d L ix) _ _ (fun m _ => by
          show ((m = k.val ∨ m = k.val + 1) ∧ m ≠ k.val) ↔ m = k.val + 1; omega))) $$ H
      have hkm : k.val - 1 < cnt (wL L).val := by omega
      isplitl [HOB Hokm]
      · ihave HOB2 := (Entails.of_eq (famB_congrΦ (F := F) (OBk d L tbl ix o0 k.val) (OBk d L tbl ix o0 (k.val + 1)) (fun m => m + 1 = k.val ∨ m = k.val)
            (fun j hj => OBk_succ d L tbl ix o0 k.val j (fun e => hj (Or.inl e))))) $$ HOB
        ihave H := (famB_put (F := F) (OBk d L tbl ix o0 (k.val + 1)) (fun m => m + 1 = k.val ∨ m = k.val) ⟨k.val - 1, hkm⟩ (Or.inl (by show k.val - 1 + 1 = k.val; omega))) $$ [Hokm HOB2]
        · isplitl [Hokm]
          · iapply (Entails.of_eq (OBk_done d L tbl ix o0 (k.val + 1) ⟨k.val - 1, hkm⟩ (by show k.val - 1 + 1 < k.val + 1; omega)).symm) $$ Hokm
          iexact HOB2
        iapply (Entails.of_eq (famB_congr' (F := F) (OBk d L tbl ix o0 (k.val + 1)) _ _ (fun m _ => by
          show ((m + 1 = k.val ∨ m = k.val) ∧ m ≠ k.val - 1) ↔ m + 1 = k.val + 1; omega))) $$ H
      isplitl [HcI1]
      · iapply (Transfers.Flight_mono (EC := countersEmb) (V d (cV L) (jV L)) (by
          iintro ⟨Hs, Hb⟩
          isplitl [Hs]
          · iexists _
            isplitr
            · ipureintro; exact list_eq d L ix (tblk (wL L) ⟨k.val + 1, hl⟩) (slotW (BitVec.ofNat 32 (k.val + 1))) fa1 _ (blk5_inb L k)
                (by rw [off5_at L k hl']; rfl) _ rfl
            · iexact Hs
          · iapply (Entails.of_eq (pts_iBlk (F := F) d L (tblk (wL L) ⟨k.val + 1, hl⟩) (k1_off5 L (BitVec.ofNat 32 k.val)) (blk5_inb L k)
              (by rw [off5_at L k hl']; rfl) ix))
            iexact Hb)) $$ HcI1
      isplitl [HaK' HfI]
      · isplitl [HaK']
        · iexists fI
          iapply (Entails.of_eq (pts_lSlot (F := F) d L (BitVec.ofNat 32 k.val) (k1_off11_inb L _ (hchk3 _) hc1) fI)) $$ HaK'
        · iexact HfI
      isplitl [HcO0]
      · iapply (Transfers.Flight_mono (EC := countersEmb) (V d (cV L) (jV L)) (by
          iintro ⟨Ho, Hs⟩
          isplitl [Ho]
          · iapply (Entails.of_eq ((pointsTo_congr (copy_val d L tbl ix hin (tblk (wL L) ⟨k.val, hk⟩) (slotW (BitVec.ofNat 32 k.val)) fI hfIeq hfI _ fg0 o0
                (k1_off13 L (BitVec.ofNat 32 k.val)) (blk13_inb L k) (by rw [off13_at L k]; rfl) _ rfl _ rfl)).trans
              (pts_oBlk (F := F) d L (tblk (wL L) ⟨k.val, hk⟩) (k1_off13 L (BitVec.ofNat 32 k.val)) (blk13_inb L k) (by rw [off13_at L k]; rfl) (gath tbl ix))))
            iexact Ho
          · iexists _; iexact Hs)) $$ HcO0
      isplitl [Hgkm HcOm]
      · isplitl [Hgkm]
        · iexists gkm; iexact Hgkm
        · iexact HcOm
      isplitl [H10]; · iexact H10
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
    · -- the last step: nothing more to fetch
      have hlast : k.val + 1 = cnt (wL L).val := by omega
      have hlast' : k.val + 1 = (k1_t1_loop L).trips := by rw [htr]; exact hlast
      have hpos : 0 < k.val ∧ k.val ≤ cnt (wL L).val := ⟨by omega, by omega⟩
      have h2 : ¬ k1_cond2 L k (BitVec.ofNat 32 k.val) = 1#1 := by rw [cond2_at L k, if_neg (by omega)]; decide
      have h8 : k1_cond8 L k (BitVec.ofNat 32 k.val) = 1#1 := by rw [cond8_at L k, if_neg h0]
      have e_km : slotW (BitVec.ofNat 32 (k.val - 1)) = sl (k.val + 1) := by
        rw [slotW_ofNat _ (by omega)]; apply Fin.ext; show (k.val - 1) % 2 = (k.val + 1) % 2; omega
      rw [dif_pos hpos, eacc, show FO d L tbl ix (sl (k.val + 1)) ⟨k.val - 1, by omega⟩ = FO d L tbl ix (slotW (BitVec.ofNat 32 (k.val - 1))) ⟨k.val - 1, by omega⟩ from by rw [e_km],
        show GFree (F := F) d L (sl (k.val + 1)) = GFree (F := F) d L (slotW (BitVec.ofNat 32 (k.val - 1))) from by rw [e_km],
        ← e_k, ← e_k1, e_k2,
        dif_neg (by omega : ¬ k.val + 1 < cnt (wL L).val), dif_pos (⟨by omega, by omega⟩ : 0 < k.val + 1 ∧ k.val + 1 ≤ cnt (wL L).val)]
      unfold FI FO AFree GFree DI DO
      iintro ⟨%hacc, #Hmw, Ht, HIB, HOB, HfI, ⟨⟨%fa1, Ha1⟩, HcI1⟩, HfO, ⟨⟨%fg0, Hg0⟩, HcO0⟩, H10, %W', %hW', HO⟩
      subst hacc
      ihave HOB' := (famB_take (F := F) (OBk d L tbl ix o0 k.val) (fun m => m + 1 = k.val) ⟨k.val, hk⟩ (by show ¬ (k.val + 1 = k.val); omega)) $$ HOB
      icases HOB' with ⟨Hok, HOB⟩
      ihave Hok' := (Entails.of_eq ((OBk_todo d L tbl ix o0 k.val ⟨k.val, hk⟩ (by show ¬ (k.val + 1 < k.val); omega)).trans
        (pts_oBlk (F := F) d L (tblk (wL L) ⟨k.val, hk⟩) (k1_off13 L (BitVec.ofNat 32 k.val)) (blk13_inb L k) (by rw [off13_at L k]; rfl) o0).symm)) $$ Hok
      ihave Ht' := (Entails.of_eq (pts_tV (F := F) d L _ tbl).symm) $$ Ht
      sl_exec
      icases HfI_dst with ⟨%fI, %hfIeq, HaK⟩
      have hfI : ∀ x, ((lSlot (slotW (BitVec.ofNat 32 k.val))).view.read (Elt F) fI x).toNat < S20000x128.size gathers_S20000x128_S256x128.axis :=
        fun x => by rw [hfIeq x]; exact hin _
      ihave HaK' := (Entails.of_eq (pts_lSlot (F := F) d L (BitVec.ofNat 32 k.val) (k1_off11_inb L _ (hchk3 _) hc1) fI).symm) $$ HaK
      sl_exec
      -- the wait for the previous block's copy-out, by the rule itself
      iapply (Transfers.wp_waitLocalO countersEmb 𝒱₀ (V d (cV L) (jV L)) none (default : HIx 1) (N := 1048576) (by rfl)) $$ [HfO HO]
      · isplitl [HfO]; · iexact HfO
        isplitl [HO]; · iexact HO
        iapply (Transfers.MayWaits.elim (SemLoc.dma _)) $$ Hmw
      iintro ⟨⟨Hokm, ⟨%gkm, Hgkm⟩⟩, HcOm, HO⟩
      sl_exec
      sl_step
      isplitr
      · ipureintro
        clear * - h0 hlast'
        revert L
        decide +kernel
      isplitr; · iexact Hmw
      isplitl [Ht']; · iexact Ht'
      isplitl [HIB HfI_src]
      · ihave H := (famB_put (F := F) (IBk d L ix) (fun m => m = k.val) ⟨k.val, hk⟩ rfl) $$ [HfI_src HIB]
        · isplitl [HfI_src]; · iexact HfI_src
          iexact HIB
        iapply (Entails.of_eq (famB_congr' (F := F) (IBk d L ix) _ _ (fun m hm => by
          show (m = k.val ∧ m ≠ k.val) ↔ m = k.val + 1; omega))) $$ H
      have hkm : k.val - 1 < cnt (wL L).val := by omega
      isplitl [HOB Hokm]
      · ihave HOB2 := (Entails.of_eq (famB_congrΦ (F := F) (OBk d L tbl ix o0 k.val) (OBk d L tbl ix o0 (k.val + 1)) (fun m => m + 1 = k.val ∨ m = k.val)
            (fun j hj => OBk_succ d L tbl ix o0 k.val j (fun e => hj (Or.inl e))))) $$ HOB
        ihave H := (famB_put (F := F) (OBk d L tbl ix o0 (k.val + 1)) (fun m => m + 1 = k.val ∨ m = k.val) ⟨k.val - 1, hkm⟩ (Or.inl (by show k.val - 1 + 1 = k.val; omega))) $$ [Hokm HOB2]
        · isplitl [Hokm]
          · iapply (Entails.of_eq (OBk_done d L tbl ix o0 (k.val + 1) ⟨k.val - 1, hkm⟩ (by show k.val - 1 + 1 < k.val + 1; omega)).symm) $$ Hokm
          iexact HOB2
        iapply (Entails.of_eq (famB_congr' (F := F) (OBk d L tbl ix o0 (k.val + 1)) _ _ (fun m _ => by
          show ((m + 1 = k.val ∨ m = k.val) ∧ m ≠ k.val - 1) ↔ m + 1 = k.val + 1; omega))) $$ H
      isplitl [Ha1 HcI1]
      · isplitl [Ha1]
        · iexists fa1; iexact Ha1
        · iexact HcI1
      isplitl [HaK' HfI]
      · isplitl [HaK']
        · iexists fI
          iapply (Entails.of_eq (pts_lSlot (F := F) d L (BitVec.ofNat 32 k.val) (k1_off11_inb L _ (hchk3 _) hc1) fI)) $$ HaK'
        · iexact HfI
      isplitl [HcO0]
      · iapply (Transfers.Flight_mono (EC := countersEmb) (V d (cV L) (jV L)) (by
          iintro ⟨Ho, Hs⟩
          isplitl [Ho]
          · iapply (Entails.of_eq ((pointsTo_congr (copy_val d L tbl ix hin (tblk (wL L) ⟨k.val, hk⟩) (slotW (BitVec.ofNat 32 k.val)) fI hfIeq hfI _ fg0 o0
                (k1_off13 L (BitVec.ofNat 32 k.val)) (blk13_inb L k) (by rw [off13_at L k]; rfl) _ rfl _ rfl)).trans
              (pts_oBlk (F := F) d L (tblk (wL L) ⟨k.val, hk⟩) (k1_off13 L (BitVec.ofNat 32 k.val)) (blk13_inb L k) (by rw [off13_at L k]; rfl) (gath tbl ix))))
            iexact Ho
          · iexists _; iexact Hs)) $$ HcO0
      isplitl [Hgkm HcOm]
      · isplitl [Hgkm]
        · iexists gkm; iexact Hgkm
        · iexact HcOm
      isplitl [H10]; · iexact H10
      iexists _; isplitr
      swap; · iexact HO
      ipureintro; intro p hp
      rcases Finset.mem_insert.mp hp with hp | hp; · exact .inr (hp ▸ rfl)
      rcases Finset.mem_insert.mp hp with hp | hp; · exact .inr (hp ▸ rfl)
      rcases Finset.mem_insert.mp hp with hp | hp; · exact .inr (hp ▸ rfl)
      exact hW' p hp
  · unfold inv
    rw [dif_pos hn, dif_neg (by omega : ¬ (0 < 0 ∧ 0 ≤ cnt (wL L).val))]
    unfold FI AFree GFree
    isplitr
    · ipureintro; unfold accAt; rw [Nat.min_eq_left (by omega), if_pos hn]
    isplitl [Hmw]; · iexact Hmw
    isplitl [Ht]; · iexact Ht
    isplitl [HblkI]
    · iapply (famB_of_erase (F := F) (IBk d L ix) ⟨0, hn⟩) $$ HblkI
    isplitl [HblkO]
    · iapply (famB_of_all (F := F) (OBk d L tbl ix o0 0) (fun k => (oLoc d ↦[oBlkSet (tblk (wL L) k)]{fullShare} o0 : sProp 𝕄)) (fun m => m + 1 = 0) (fun m _ => by omega)
        (fun j => Entails.of_eq (OBk_todo d L tbl ix o0 0 j (by omega)).symm)) $$ HblkO
    isplitl [Hf0]; · iexact Hf0
    isplitl [Ha1 H7]
    · isplitl [Ha1]
      · iexists fa; iexact Ha1
      · iexact H7
    isplitl [Hg1 H9]
    · isplitl [Hg1]
      · iexists fg; iexact Hg1
      · iexact H9
    isplitl [Hg0 H8]
    · isplitl [Hg0]
      · iexists fg; iexact Hg0
      · iexact H8
    isplitl [H10]; · iexact H10
    iexists W; isplitr
    · ipureintro; exact fun p hp => .inl hp
    · iexact HO
  iintro %acc HI
  ihave HI' := (hEnd acc) $$ HI
  unfold FO AFree GFree DO
  icases HI' with ⟨%hacc, #Hmw2, Ht, HIB, HOB, ⟨⟨%fan, Han⟩, HcIn⟩, ⟨⟨%fan1, Han1⟩, HcIn1⟩, HfO, ⟨⟨%fgn, Hgn⟩, HcOn⟩, H10, %W', %hW', HO⟩
  subst hacc
  have hchk7 : ∀ a, k1_chk7 L a := chk7_all L
  have hchk8 : k1_chk8 L 0#32 := chk8_at L
  sl_exec
  -- the wait for the last block's copy-out
  iapply (Transfers.wp_waitLocalO countersEmb 𝒱₀ (V d (cV L) (jV L)) none (default : HIx 1) (N := 1048576) (by rfl)) $$ [HfO HO]
  · isplitl [HfO]; · iexact HfO
    isplitl [HO]; · iexact HO
    iapply (Transfers.MayWaits.elim (SemLoc.dma _)) $$ Hmw2
  iintro ⟨⟨Hokm, ⟨%gkm, Hgkm⟩⟩, HcOm, HO⟩
  sl_exec
  sl_step
  -- everything back in the launch's words
  have hst : sl (cnt (wL L).val) ≠ sl (cnt (wL L).val + 1) := by
    intro e; have e' : (cnt (wL L).val) % 2 = (cnt (wL L).val + 1) % 2 := congrArg Fin.val e
    omega
  have hst' : sl (cnt (wL L).val) ≠ slotW (BitVec.ofNat 32 (cnt (wL L).val - 1)) := e_nm ▸ hst
  isplitl [Ht HIB HOB Hokm]
  · isplitl [Ht]; · iexact Ht
    iapply (Entails.of_eq (bigSep_sep' Finset.univ (fun k : Fin (cnt (wL L).val) => (iLoc d ↦[iBlkSet (tblk (wL L) k)]{fullShare} ix : sProp 𝕄))
      (fun k : Fin (cnt (wL L).val) => (oLoc d ↦[oBlkSet (tblk (wL L) k)]{fullShare} gath tbl ix : sProp 𝕄))).symm)
    isplitl [HIB]
    · iapply (famB_to_all (F := F) (IBk d L ix) (fun m => m = cnt (wL L).val) (fun m hm => by omega)) $$ HIB
    · ihave HOB2 := (Entails.of_eq (famB_congrΦ (F := F) (OBk d L tbl ix o0 (cnt (wL L).val))
          (fun j : Fin (cnt (wL L).val) => (oLoc d ↦[oBlkSet (tblk (wL L) j)]{fullShare} gath tbl ix : sProp 𝕄)) (fun m => m + 1 = cnt (wL L).val)
          (fun j hj => OBk_done d L tbl ix o0 (cnt (wL L).val) j (by have := j.isLt; have hj' : ¬ (j.val + 1 = cnt (wL L).val) := hj; omega)))) $$ HOB
      ihave H := (famB_put (F := F) (fun j : Fin (cnt (wL L).val) => (oLoc d ↦[oBlkSet (tblk (wL L) j)]{fullShare} gath tbl ix : sProp 𝕄))
          (fun m => m + 1 = cnt (wL L).val) ⟨cnt (wL L).val - 1, by omega⟩ (by show cnt (wL L).val - 1 + 1 = cnt (wL L).val; omega)) $$ [Hokm HOB2]
      · isplitl [Hokm]; · iexact Hokm
        iexact HOB2
      iapply (famB_to_all (F := F) _ _ (fun m hm => by show ¬ (m + 1 = cnt (wL L).val ∧ m ≠ cnt (wL L).val - 1); omega)) $$ H
  isplitl [Han Han1 Hgn Hgkm Hbufs]
  · isplitl [Han Han1]
    · iapply (alloca_join (F := F) d L (sl (cnt (wL L).val)) (sl (cnt (wL L).val + 1)) hst fan fan1)
      isplitl [Han]; · iexact Han
      iexact Han1
    isplitl [Hgn Hgkm]
    · iapply (alloca4_join (F := F) d L (sl (cnt (wL L).val)) (slotW (BitVec.ofNat 32 (cnt (wL L).val - 1))) hst' fgn gkm)
      isplitl [Hgn]; · iexact Hgn
      iexact Hgkm
    iexact Hbufs
  isplitl [HcIn HcIn1 HcOn HcOm H10 H11 Hsems]
  · ihave HI67 := (cellsI_join (F := F) d L (sl (cnt (wL L).val)) (sl (cnt (wL L).val + 1)) hst) $$ [HcIn HcIn1]
    · isplitl [HcIn]; · iexact HcIn
      iexact HcIn1
    icases HI67 with ⟨H6, H7⟩
    ihave HO89 := (cellsO_join (F := F) d L (sl (cnt (wL L).val)) (slotW (BitVec.ofNat 32 (cnt (wL L).val - 1))) hst') $$ [HcOn HcOm]
    · isplitl [HcOn]; · iexact HcOn
      iexact HcOm
    icases HO89 with ⟨H8, H9⟩
    isplitl [H6]; · iexact H6
    isplitl [H7]; · iexact H7
    isplitl [H8]; · iexact H8
    isplitl [H9]; · iexact H9
    isplitl [H10]; · iexact H10
    isplitl [H11]; · iexact H11
    iexact Hsems
  iexists _; isplitr
  swap; · iexact HO
  ipureintro; intro p hp
  rcases Finset.mem_insert.mp hp with hp | hp; · exact .inr (hp ▸ rfl)
  exact hW' p hp

end Tile
end Cert.Kernel.Hand
end
-- ==== Proof.WScTileObl.lean ====
/-
  The launch theorem's obligation for a tile of the gather, from the run of the tile's body.
-/
import proofs.«206068_g62534723830210_cont_9to1_m_587_24_alg».proof.Proof.WScTile

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Tile

variable (tbl : Buf (Elt F) (tLoc (0 : Dev nD))) (ix : Buf (Elt F) (iLoc (0 : Dev nD))) (o0 : Buf (Elt F) (oLoc (0 : Dev nD)))

/-- The grid point of subcore `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_k (coordsV c s)
          tV (Memref.isWhole_whole _) iV (Memref.isWhole_whole _) oV (Memref.isWhole_whole _)
          (Memref.whole cc1_scoped0) (Memref.isWhole_whole _) cc1_scoped1 (Memref.whole cc1_scoped2) (Memref.isWhole_whole _)
          cc1_scoped3 cc1_scoped4 cc1_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxHeartbeats 4000000 in
set_option maxRecDepth 16384 in
theorem tileObl (hF : (K (F := F)).Facts)
    (hin : ∀ r : Fin 640000, (ix (ValueIdx.ix2 (0 : Fin 1) r)).toNat < 20000) :
    (K (F := F)).TileObl (D (F := F)) 𝒱 (P tbl ix o0) v₀ 0 := by
  intro d c i O W hO _ _
  simp only [show (P tbl ix o0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) tbl ix o0 hF hin O W hO).trans (wp_mono frame _ _ fun _ => obl_post)

end Tile
end Cert.Kernel.Hand
end
-- ==== Proof.KValList.lean ====
/-
  The list of row numbers the gather reads. The first host stretch adds 0 to the senders and 10000
  to the receivers (a 32-bit word addition) and reshapes the 2 x 320000 endpoints to one row of
  640000: entry e below 320000 is the sender of edge e, entry 320000 + e the receiver of edge e plus
  10000. The first region does not write the list. With every endpoint below 10000 the addition does
  not wrap, and every entry is below 20000, the table's height.
-/
import proofs.«206068_g62534723830210_cont_9to1_m_587_24_alg».proof.Proof.ScBounds
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

variable {F : FTy → Type} [FloatOps F]
variable (m : (ℓ : Loc nD τ sig) → Buf (Elt F) ℓ)

/-! ## The list as the first host stretch leaves it, and through the first region -/

/-- The list of row numbers: the edge endpoints, the receivers shifted by the node count, as one row. -/
theorem V1_v2 (c : Dev nD) : (V1 m c main_v2 : S1x640000.Idx → BitVec 32) =
    shapeCast S1x640000 (addi (m ((c : Thread nD τ).loc main_arg1))
      (broadcastInDim S2x320000 ![0, 1] bcast_S2x1_S2x320000_0_1 (fun i => lit0 (S2x1.rowMajor i)))) shapeCasts_S2x320000_S1x640000 := by
  show StableHlo.after hostOpsA (fun b => m (c, b)) (Proc.devRef .tc main_v2) = _
  after_results
  rfl

/-- Every other buffer holds what it held at the region's entry. -/
theorem W2_off_arr (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem ne_arr0 (b : Ref sig .tc) (h0 : main_arg0 ≠ b) (h1 : main_v3 ≠ b) (h2 : main_v6 ≠ b) : ∀ w, Pipeline.arrRef spec0 w ≠ b := by
  intro w
  match w with
  | ⟨0, _⟩ => exact h0
  | ⟨1, _⟩ => exact h1
  | ⟨2, _⟩ => exact h2

/-! ## The list of row numbers at an index -/

/-- The edge endpoints as words, and the list. -/
abbrev eiOf (c : Dev nD) : S2x320000.Idx → BitVec 32 := m ((c : Thread nD τ).loc main_arg1)
abbrev listOf (c : Dev nD) : S1x640000.Idx → BitVec 32 := V1 m c main_v2

/-- The shift added to row r of the endpoints: 0 for the senders, 10000 for the receivers. -/
theorem shift_apply (r : Fin 2) (e : Fin 320000) :
    broadcastInDim S2x320000 ![0, 1] bcast_S2x1_S2x320000_0_1 (fun i => lit0 (S2x1.rowMajor i)) (ix2 r e) = lit0 r := by
  refine (broadcastInDim_apply _ _ _ (ix2 r e) (ix2 r (0 : Fin 1)) fun a => ?_).trans ?_
  · match a with
    | ⟨0, _⟩ => rfl
    | ⟨1, _⟩ => rfl
  · show lit0 (S2x1.rowMajor (ix2 r (0 : Fin 1))) = lit0 r
    congr 1; apply Fin.ext; rw [Shape.rowMajor_val_two]; show r.val * 1 + 0 = r.val; omega

/-- Entry e below 320000 of the list is the sender of edge e. -/
theorem list_sender (c : Dev nD) (e : Fin 320000) :
    listOf m c (ix2 (0 : Fin 1) (⟨e.val, by omega⟩ : Fin 640000)) = eiOf m c (ix2 (0 : Fin 2) e) + 0#32 := by
  show (V1 m c main_v2 : S1x640000.Idx → BitVec 32) _ = _
  rw [V1_v2]
  refine (shapeCast_apply _ _ _ (ix2 (0 : Fin 2) e) ?_).trans ?_
  · rw [Shape.rowMajor_val_two, Shape.rowMajor_val_two]
    show 0 * 320000 + e.val = 0 * 640000 + e.val
    omega
  · show IntOp.addi _ _ = _
    rw [shift_apply]; rfl

/-- Entry 320000 + e is the receiver of edge e, shifted by the node count. -/
theorem list_receiver (c : Dev nD) (e : Fin 320000) :
    listOf m c (ix2 (0 : Fin 1) (⟨320000 + e.val, by omega⟩ : Fin 640000)) = eiOf m c (ix2 (1 : Fin 2) e) + 10000#32 := by
  show (V1 m c main_v2 : S1x640000.Idx → BitVec 32) _ = _
  rw [V1_v2]
  refine (shapeCast_apply _ _ _ (ix2 (1 : Fin 2) e) ?_).trans ?_
  · rw [Shape.rowMajor_val_two, Shape.rowMajor_val_two]
    show 1 * 320000 + e.val = 0 * 640000 + (320000 + e.val)
    omega
  · show IntOp.addi _ _ = _
    rw [shift_apply]; rfl

/-- A word below 10000, shifted by 10000, read as a number. -/
theorem toNat_add_shift (w : BitVec 32) (h : w.toNat < 10000) : (w + 10000#32).toNat = w.toNat + 10000 := by
  rw [BitVec.toNat_add]
  show (w.toNat + 10000) % 2 ^ 32 = _
  omega
theorem toNat_add_zero (w : BitVec 32) : (w + 0#32).toNat = w.toNat := by
  rw [BitVec.add_zero]

/-! ## Every entry of the list names a row of the table -/

/-- Under the range hypothesis on the endpoints every entry of the list, at the SparseCore call, is below 20000: a sender
    is below 10000, a receiver plus 10000 does not wrap and is below 20000. -/
theorem list_lt (hrange : ∀ i : S2x320000.Idx, (m ((SparseCore.T (0 : Dev nD)).loc main_arg1) i).toNat < 10000) (r : Fin 640000) :
    (V2 m 0 main_v2 (ValueIdx.ix2 (0 : Fin 1) r)).toNat < 20000 := by
  have e2 : V2 m 0 main_v2 = V1 m 0 main_v2 := W2_off_arr m 0 main_v2 (ne_arr0 _ (by decide) (by decide) (by decide))
  rw [e2]
  have hr := r.isLt
  by_cases h : r.val < 320000
  · have hn : (eiOf m 0 (ix2 (0 : Fin 2) (⟨r.val, h⟩ : Fin 320000))).toNat < 10000 := hrange _
    have hs := list_sender m 0 (⟨r.val, h⟩ : Fin 320000)
    show (listOf m 0 (ix2 (0 : Fin 1) r)).toNat < 20000
    rw [show r = (⟨(⟨r.val, h⟩ : Fin 320000).val, by omega⟩ : Fin 640000) from rfl, hs, toNat_add_zero]
    omega
  · have h' : r.val - 320000 < 320000 := by omega
    have hn : (eiOf m 0 (ix2 (1 : Fin 2) (⟨r.val - 320000, h'⟩ : Fin 320000))).toNat < 10000 := hrange _
    have hs := list_receiver m 0 (⟨r.val - 320000, h'⟩ : Fin 320000)
    show (listOf m 0 (ix2 (0 : Fin 1) r)).toNat < 20000
    rw [show r = (⟨320000 + (⟨r.val - 320000, h'⟩ : Fin 320000).val, by omega⟩ : Fin 640000) from Fin.ext (by show r.val = 320000 + (r.val - 320000); omega),
      hs, toNat_add_shift _ hn]
    omega

end Cert.KernelIdeal.Hand
end
-- ==== Proof.WKValList.lean ====
/-
  The list of row numbers the gather reads. The first host stretch adds 0 to the senders and 10000
  to the receivers (a 32-bit word addition) and reshapes the 2 x 320000 endpoints to one row of
  640000: entry e below 320000 is the sender of edge e, entry 320000 + e the receiver of edge e plus
  10000. The first region does not write the list. With every endpoint below 10000 the addition does
  not wrap, and every entry is below 20000, the table's height.
-/
import proofs.«206068_g62534723830210_cont_9to1_m_587_24_alg».proof.Proof.WScBounds
import Idealize.ShloMosaic.Lib.Pipeline.Value
import Idealize.ShloMosaic.Lib.ValueIdx

set_option maxRecDepth 16384

noncomputable section

open scoped BigOperators

namespace Cert.Kernel.Hand

open Cert.Kernel Cert.Kernel.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

variable {F : FTy → Type} [FloatOps F]
variable (m : (ℓ : Loc nD τ sig) → Buf (Elt F) ℓ)

/-! ## The list as the first host stretch leaves it, and through the first region -/

/-- The list of row numbers: the edge endpoints, the receivers shifted by the node count, as one row. -/
theorem V1_v2 (c : Dev nD) : (V1 m c main_v2 : S1x640000.Idx → BitVec 32) =
    shapeCast S1x640000 (addi (m ((c : Thread nD τ).loc main_arg1))
      (broadcastInDim S2x320000 ![0, 1] bcast_S2x1_S2x320000_0_1 (fun i => lit0 (S2x1.rowMajor i)))) shapeCasts_S2x320000_S1x640000 := by
  show StableHlo.after hostOpsA (fun b => m (c, b)) (Proc.devRef .tc main_v2) = _
  after_results
  rfl

/-- Every other buffer holds what it held at the region's entry. -/
theorem W2_off_arr (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem ne_arr0 (b : Ref sig .tc) (h0 : main_arg0 ≠ b) (h1 : main_v3 ≠ b) (h2 : main_v6 ≠ b) : ∀ w, Pipeline.arrRef spec0 w ≠ b := by
  intro w
  match w with
  | ⟨0, _⟩ => exact h0
  | ⟨1, _⟩ => exact h1
  | ⟨2, _⟩ => exact h2

/-! ## The list of row numbers at an index -/

/-- The edge endpoints as words, and the list. -/
abbrev eiOf (c : Dev nD) : S2x320000.Idx → BitVec 32 := m ((c : Thread nD τ).loc main_arg1)
abbrev listOf (c : Dev nD) : S1x640000.Idx → BitVec 32 := V1 m c main_v2

/-- The shift added to row r of the endpoints: 0 for the senders, 10000 for the receivers. -/
theorem shift_apply (r : Fin 2) (e : Fin 320000) :
    broadcastInDim S2x320000 ![0, 1] bcast_S2x1_S2x320000_0_1 (fun i => lit0 (S2x1.rowMajor i)) (ix2 r e) = lit0 r := by
  refine (broadcastInDim_apply _ _ _ (ix2 r e) (ix2 r (0 : Fin 1)) fun a => ?_).trans ?_
  · match a with
    | ⟨0, _⟩ => rfl
    | ⟨1, _⟩ => rfl
  · show lit0 (S2x1.rowMajor (ix2 r (0 : Fin 1))) = lit0 r
    congr 1; apply Fin.ext; rw [Shape.rowMajor_val_two]; show r.val * 1 + 0 = r.val; omega

/-- Entry e below 320000 of the list is the sender of edge e. -/
theorem list_sender (c : Dev nD) (e : Fin 320000) :
    listOf m c (ix2 (0 : Fin 1) (⟨e.val, by omega⟩ : Fin 640000)) = eiOf m c (ix2 (0 : Fin 2) e) + 0#32 := by
  show (V1 m c main_v2 : S1x640000.Idx → BitVec 32) _ = _
  rw [V1_v2]
  refine (shapeCast_apply _ _ _ (ix2 (0 : Fin 2) e) ?_).trans ?_
  · rw [Shape.rowMajor_val_two, Shape.rowMajor_val_two]
    show 0 * 320000 + e.val = 0 * 640000 + e.val
    omega
  · show IntOp.addi _ _ = _
    rw [shift_apply]; rfl

/-- Entry 320000 + e is the receiver of edge e, shifted by the node count. -/
theorem list_receiver (c : Dev nD) (e : Fin 320000) :
    listOf m c (ix2 (0 : Fin 1) (⟨320000 + e.val, by omega⟩ : Fin 640000)) = eiOf m c (ix2 (1 : Fin 2) e) + 10000#32 := by
  show (V1 m c main_v2 : S1x640000.Idx → BitVec 32) _ = _
  rw [V1_v2]
  refine (shapeCast_apply _ _ _ (ix2 (1 : Fin 2) e) ?_).trans ?_
  · rw [Shape.rowMajor_val_two, Shape.rowMajor_val_two]
    show 1 * 320000 + e.val = 0 * 640000 + (320000 + e.val)
    omega
  · show IntOp.addi _ _ = _
    rw [shift_apply]; rfl

/-- A word below 10000, shifted by 10000, read as a number. -/
theorem toNat_add_shift (w : BitVec 32) (h : w.toNat < 10000) : (w + 10000#32).toNat = w.toNat + 10000 := by
  rw [BitVec.toNat_add]
  show (w.toNat + 10000) % 2 ^ 32 = _
  omega
theorem toNat_add_zero (w : BitVec 32) : (w + 0#32).toNat = w.toNat := by
  rw [BitVec.add_zero]

/-! ## Every entry of the list names a row of the table -/

/-- Under the range hypothesis on the endpoints every entry of the list, at the SparseCore call, is below 20000: a sender
    is below 10000, a receiver plus 10000 does not wrap and is below 20000. -/
theorem list_lt (hrange : ∀ i : S2x320000.Idx, (m ((SparseCore.T (0 : Dev nD)).loc main_arg1) i).toNat < 10000) (r : Fin 640000) :
    (V2 m 0 main_v2 (ValueIdx.ix2 (0 : Fin 1) r)).toNat < 20000 := by
  have e2 : V2 m 0 main_v2 = V1 m 0 main_v2 := W2_off_arr m 0 main_v2 (ne_arr0 _ (by decide) (by decide) (by decide))
  rw [e2]
  have hr := r.isLt
  by_cases h : r.val < 320000
  · have hn : (eiOf m 0 (ix2 (0 : Fin 2) (⟨r.val, h⟩ : Fin 320000))).toNat < 10000 := hrange _
    have hs := list_sender m 0 (⟨r.val, h⟩ : Fin 320000)
    show (listOf m 0 (ix2 (0 : Fin 1) r)).toNat < 20000
    rw [show r = (⟨(⟨r.val, h⟩ : Fin 320000).val, by omega⟩ : Fin 640000) from rfl, hs, toNat_add_zero]
    omega
  · have h' : r.val - 320000 < 320000 := by omega
    have hn : (eiOf m 0 (ix2 (1 : Fin 2) (⟨r.val - 320000, h'⟩ : Fin 320000))).toNat < 10000 := hrange _
    have hs := list_receiver m 0 (⟨r.val - 320000, h'⟩ : Fin 320000)
    show (listOf m 0 (ix2 (0 : Fin 1) r)).toNat < 20000
    rw [show r = (⟨320000 + (⟨r.val - 320000, h'⟩ : Fin 320000).val, by omega⟩ : Fin 640000) from Fin.ext (by show r.val = 320000 + (r.val - 320000); omega),
      hs, toNat_add_shift _ hn]
    omega

end Cert.Kernel.Hand
end
-- ==== Proof.Spec.lean ====
/-
  The specification of the edge-update block, as one function of the ten argument arrays.

  Per edge e and output feature o:
    row e, col e   the two endpoints of edge e, read from edge_index (as node numbers below 10000);
    cat e k        the 288 concatenated input features: receiver node features x[col e, ·] (128),
                   sender node features x[row e, ·] (128), the edge's own 16 attributes, the 16 global ones;
    h1 e l         = max (Σ_k cat e k · W1[k, l] + b1[l]) 0            (first linear layer and ReLU, 128 wide)
    h2 e o         = max (Σ_l h1 e l · W2[l, o] + b2[o]) 0            (second linear layer and ReLU, 16 wide)
    mean e         = (0 + Σ_o h2 e o) / 16
    c e o          = h2 e o − mean e
    var e          = (0 + Σ_o c e o · c e o) / 16
    out e o        = c e o / sqrt (var e + eps) · gamma[o] + beta[o]    (layer normalisation over the 16 features)
  All arithmetic is that of the extended reals; the two float literals (16 and eps) are kept as their words.
-/
import Idealize.ShloMosaic.PureOps.Ideal
import Idealize.ShloMosaic.Lib.ValueIdx

noncomputable section

open scoped BigOperators

namespace Cert.Spec

open Idealize.ShloMosaic Idealize.ShloMosaic.ValueIdx

/-! ## Shapes -/

abbrev S10000x128 : Shape := ⟨2, ![10000, 128]⟩
abbrev S2x320000 : Shape := ⟨2, ![2, 320000]⟩
abbrev S320000x16 : Shape := ⟨2, ![320000, 16]⟩
abbrev S1x16 : Shape := ⟨2, ![1, 16]⟩
abbrev S288x128 : Shape := ⟨2, ![288, 128]⟩
abbrev S128 : Shape := ⟨1, ![128]⟩
abbrev S128x16 : Shape := ⟨2, ![128, 16]⟩
abbrev S16 : Shape := ⟨1, ![16]⟩

/-! ## The contents types of the ten arguments and of the result -/

abbrev XTy : Type := (⟨S10000x128, .f32⟩ : BufTy).Contents (Elt Ideal)
abbrev EdgeIndexTy : Type := (⟨S2x320000, .i32⟩ : BufTy).Contents (Elt Ideal)
abbrev EdgeAttrTy : Type := (⟨S320000x16, .f32⟩ : BufTy).Contents (Elt Ideal)
abbrev UTy : Type := (⟨S1x16, .f32⟩ : BufTy).Contents (Elt Ideal)
abbrev W1Ty : Type := (⟨S288x128, .f32⟩ : BufTy).Contents (Elt Ideal)
abbrev B1Ty : Type := (⟨S128, .f32⟩ : BufTy).Contents (Elt Ideal)
abbrev W2Ty : Type := (⟨S128x16, .f32⟩ : BufTy).Contents (Elt Ideal)
abbrev V16Ty : Type := (⟨S16, .f32⟩ : BufTy).Contents (Elt Ideal)
abbrev OutTy : Type := (⟨S320000x16, .f32⟩ : BufTy).Contents (Elt Ideal)

/-! ## The endpoints of an edge -/

/-- The sender of edge `e`: the word `edge_index[0, e]` as a node number (total: taken modulo the node count,
    which changes nothing for a word already below it). -/
def rowOf (edge_index : EdgeIndexTy) (e : Fin 320000) : Fin 10000 :=
  ⟨(edge_index (ix2 (0 : Fin 2) e)).toNat % 10000, Nat.mod_lt _ (by decide)⟩

/-- The receiver of edge `e`: the word `edge_index[1, e]` as a node number. -/
def colOf (edge_index : EdgeIndexTy) (e : Fin 320000) : Fin 10000 :=
  ⟨(edge_index (ix2 (1 : Fin 2) e)).toNat % 10000, Nat.mod_lt _ (by decide)⟩

/-! ## The stages -/

/-- The concatenated input features of edge `e`: receiver's, sender's, the edge's own, the global ones. -/
def cat (x : XTy) (edge_index : EdgeIndexTy) (edge_attr : EdgeAttrTy) (u : UTy) (e : Fin 320000) (k : Fin 288) : EReal :=
  if h1 : k.val < 128 then x (ix2 (colOf edge_index e) (⟨k.val, h1⟩ : Fin 128))
  else if h2 : k.val < 256 then x (ix2 (rowOf edge_index e) (⟨k.val - 128, by omega⟩ : Fin 128))
  else if h3 : k.val < 272 then edge_attr (ix2 e (⟨k.val - 256, by omega⟩ : Fin 16))
  else u (ix2 (0 : Fin 1) (⟨k.val - 272, by omega⟩ : Fin 16))

/-- The first layer with its ReLU. -/
def h1 (x : XTy) (edge_index : EdgeIndexTy) (edge_attr : EdgeAttrTy) (u : UTy) (W1 : W1Ty) (b1 : B1Ty)
    (e : Fin 320000) (l : Fin 128) : EReal :=
  max ((∑ k : Fin 288, cat x edge_index edge_attr u e k * W1 (ix2 k l)) + b1 (ix1 l)) 0

/-- The second layer with its ReLU. -/
def h2 (x : XTy) (edge_index : EdgeIndexTy) (edge_attr : EdgeAttrTy) (u : UTy) (W1 : W1Ty) (b1 : B1Ty)
    (W2 : W2Ty) (b2 : V16Ty) (e : Fin 320000) (o : Fin 16) : EReal :=
  max ((∑ l : Fin 128, h1 x edge_index edge_attr u W1 b1 e l * W2 (ix2 l o)) + b2 (ix1 o)) 0

/-- The mean of a row of 16 values: the sum from zero, divided by the literal 16. -/
def mean16 (v : Fin 16 → EReal) : EReal :=
  Ideal.div (0 + ∑ o : Fin 16, v o) (Ideal.ofBits .f32 0x41800000#32)

/-- Layer normalisation of a row of 16 values, with scale `gamma` and shift `beta`. -/
def layerNorm16 (v : Fin 16 → EReal) (gamma beta : V16Ty) (o : Fin 16) : EReal :=
  Ideal.div (v o - mean16 v)
      (Ideal.sqrt (mean16 (fun o' => (v o' - mean16 v) * (v o' - mean16 v)) + Ideal.ofBits .f32 0x3727C5AC#32))
    * gamma (ix1 o) + beta (ix1 o)

/-! ## The result -/

/-- The result array as one function of the ten argument arrays. -/
def G (x : XTy) (edge_index : EdgeIndexTy) (edge_attr : EdgeAttrTy) (u : UTy) (W1 : W1Ty) (b1 : B1Ty)
    (W2 : W2Ty) (b2 : V16Ty) (gamma : V16Ty) (beta : V16Ty) : OutTy :=
  fun i => layerNorm16 (fun o => h2 x edge_index edge_attr u W1 b1 W2 b2 (i 0) o) gamma beta (i 1)

/-- The result at an edge and a feature. -/
theorem G_ix2 (x : XTy) (edge_index : EdgeIndexTy) (edge_attr : EdgeAttrTy) (u : UTy) (W1 : W1Ty) (b1 : B1Ty)
    (W2 : W2Ty) (b2 : V16Ty) (gamma : V16Ty) (beta : V16Ty) (e : Fin 320000) (o : Fin 16) :
    G x edge_index edge_attr u W1 b1 W2 b2 gamma beta (ix2 e o)
      = layerNorm16 (fun o' => h2 x edge_index edge_attr u W1 b1 W2 b2 e o') gamma beta o := rfl

end Cert.Spec

end
-- ==== Proof.KValHost.lean ====
/-
  What the first host stretch leaves in the buffers the first region reads and the second region's
  small operands come from: the node features untouched, and the three row ranges of the first
  layer's weights (rows 0 … 255, 256 … 271, 272 … 287).
-/
import proofs.«206068_g62534723830210_cont_9to1_m_587_24_alg».proof.Proof.KValList
import proofs.«206068_g62534723830210_cont_9to1_m_587_24_alg».proof.Proof.Spec
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

variable {F : FTy → Type} [FloatOps F]
variable (m : (ℓ : Loc nD τ sig) → Buf (Elt F) ℓ)

/-! ## What the first host stretch leaves -/

/-- The node features are untouched. -/
theorem V1_arg0 (c : Dev nD) : V1 m c main_arg0 = m ((c : Thread nD τ).loc main_arg0) := by
  show StableHlo.after hostOpsA (fun b => m (c, b)) (Proc.devRef .tc main_arg0) = _
  after_results

/-- The first 256 rows of the first layer's weights. -/
theorem V1_v3 (c : Dev nD) : (V1 m c main_v3 : S256x128.Idx → Elt F .f32) =
    extractStridedSlice S256x128 ![0, 0] (m ((c : Thread nD τ).loc main_arg4)) slices_S288x128_S256x128_0_0 := by
  show StableHlo.after hostOpsA (fun b => m (c, b)) (Proc.devRef .tc main_v3) = _
  after_results

/-- Its rows 256 … 271. -/
theorem V1_v4 (c : Dev nD) : (V1 m c main_v4 : S16x128.Idx → Elt F .f32) =
    extractStridedSlice S16x128 ![256, 0] (m ((c : Thread nD τ).loc main_arg4)) slices_S288x128_S16x128_256_0 := by
  show StableHlo.after hostOpsA (fun b => m (c, b)) (Proc.devRef .tc main_v4) = _
  after_results

/-- Its rows 272 … 287. -/
theorem V1_v5 (c : Dev nD) : (V1 m c main_v5 : S16x128.Idx → Elt F .f32) =
    extractStridedSlice S16x128 ![272, 0] (m ((c : Thread nD τ).loc main_arg4)) slices_S288x128_S16x128_272_0 := by
  show StableHlo.after hostOpsA (fun b => m (c, b)) (Proc.devRef .tc main_v5) = _
  after_results

end Cert.KernelIdeal.Hand
end
-- ==== Proof.KValTable.lean ====
/-
  The table the first region writes. Each of its ten grid points multiplies a block of 2000 rows of the
  node features by one half (128 x 128) of the first 256 rows of the first layer's weights; read at an
  index the product is a sum over the 128 contracted columns. The ten blocks tile the 20000 rows, so
  the table is one function of the node features and the weights: row q below 10000 is node q's
  features times rows 128 … 255, row 10000 + q the same features times rows 0 … 127.
-/
import proofs.«206068_g62534723830210_cont_9to1_m_587_24_alg».proof.Proof.KValHost

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

/-- The first region's product at an index: row p of the left block times column q of the right one. -/
theorem pay0_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  rw [shapeCast_self]
  refine (Ideal.matmul_constant_zero_apply dot_S2000x128_S128x128_S2000x128_1_0_0_1_n_n none x0 x1 (ix2 p q)).trans ?_
  rw [← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q) ((contrEquiv1 _ 128 rfl rfl).symm c) = ix2 c q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]

/-! ## The table -/

section Table

variable (mI : (ℓ : Loc nD τ sig) → Buf (Elt Ideal) ℓ)

theorem hz0 : (![0, 0] : Fin 2 → Nat) = fun _ => 0 := funext fun a => by fin_cases a <;> rfl

/-- The table as a function of the node features and the first layer's weights: row q below 10000 is node q's
    features times rows 128 … 255 of the weights, row 10000 + q the same features times rows 0 … 127. -/
def tableOf (x : S10000x128.Idx → EReal) (W : S288x128.Idx → EReal) : S20000x128.Idx → EReal := fun i =>
  ∑ k : Fin 128, x (ix2 (⟨(i 0).val % 10000, Nat.mod_lt _ (by decide)⟩ : Fin 10000) k)
     * W (ix2 (⟨(1 - (i 0).val / 10000) * 128 + k.val, by
          have := k.isLt; have : (1 - (i 0).val / 10000) ≤ 1 := Nat.sub_le _ _; omega⟩ : Fin 288)
        (⟨(i 1).val, idx2_lt1 i⟩ : Fin 128))

/-- The printed index maps over the grid's ten points: point t reads block t mod 5 of the features and half 1 - t / 5 of
    the weights, and writes block t of the table. -/
theorem idx_facts0 : ∀ t : Fin cfg0.N, win0_0.index t (0 : Fin 2) = t.val % 5 ∧ win0_0.index t (1 : Fin 2) = 0
    ∧ win0_1.index t (0 : Fin 2) = 1 - t.val / 5 ∧ win0_1.index t (1 : Fin 2) = 0
    ∧ win0_2.index t (0 : Fin 2) = t.val ∧ win0_2.index t (1 : Fin 2) = 0 :=
  (by decide +kernel : ∀ t : Fin grid0.N, _)

/-- What point t writes back is block t of the table. -/
theorem flushed0_eq (c : Dev nD) (t : Fin cfg0.N) :
    (dat0 (V1 mI) (O0 (F := Ideal)) (B0 (F := Ideal)) c).flushed 2 t
      = ((cfg0.win 2).blk t).view.read (Elt Ideal) (tableOf (mI ((c : Thread nD τ).loc main_arg0)) (mI ((c : Thread nD τ).loc main_arg4))) := by
  show (cfg0.win 2).cut (grid0.coords t) ((dat0 (V1 mI) (O0 (F := Ideal)) (B0 (F := Ideal)) c).after 2 t) = _
  rw [after0_2]
  unfold out0_2
  rw [View.canon_unit_zero hz0]
  simp only [View.ld_unit_zero (S := S2000x128) hz0, View.ld_unit_zero (S := S128x128) hz0]
  obtain ⟨e0, e1, e2, e3, e4, e5⟩ := idx_facts0 t
  funext j
  obtain ⟨p, q, hj⟩ : ∃ (p : Fin 2000) (q : Fin 128), j = ix2 p q := ⟨j 0, j 1, eq_ix2 (n0 := 2000) (n1 := 128) j⟩
  subst hj
  show k0_pay1 (iblk0 (V1 mI) c 0 t) (iblk0 (V1 mI) c 1 t) (ix2 p q)
    = tableOf (mI ((c : Thread nD τ).loc main_arg0)) (mI ((c : Thread nD τ).loc main_arg4)) (((cfg0.win 2).blk t).view.emb (ix2 p q))
  refine (pay0_apply _ _ p q).trans ?_
  unfold tableOf
  refine Finset.sum_congr rfl fun k _ => ?_
  have hp := p.isLt
  have hk := k.isLt
  have ht : t.val < 10 := t.isLt
  have hr : ((((cfg0.win 2).blk t).view.emb (ix2 p q)) 0).val = 2000 * t.val + p.val := by
    show win0_2.index t (0 : Fin 2) * 2000 + 1 * p.val = _
    omega
  have hc : ((((cfg0.win 2).blk t).view.emb (ix2 p q)) 1).val = q.val := by
    show win0_2.index t (1 : Fin 2) * 128 + 1 * q.val = _
    omega
  congr 1
  · show V1 mI c main_arg0 (((cfg0.win 0).blk t).view.emb (ix2 p k)) = _
    rw [V1_arg0]
    refine congrArg _ (funext fun a => Fin.ext ?_)
    match a with
    | ⟨0, _⟩ =>
      show win0_0.index t (0 : Fin 2) * 2000 + 1 * p.val = ((((cfg0.win 2).blk t).view.emb (ix2 p q)) 0).val % 10000
      rw [hr]; omega
    | ⟨1, _⟩ =>
      show win0_0.index t (1 : Fin 2) * 128 + 1 * k.val = k.val
      omega
  · show V1 mI c main_v3 (((cfg0.win 1).blk t).view.emb (ix2 k q)) = _
    rw [V1_v3]
    refine extractStridedSlice_apply _ _ _ _ _ fun a => ?_
    match a with
    | ⟨0, _⟩ =>
      show (1 - ((((cfg0.win 2).blk t).view.emb (ix2 p q)) 0).val / 10000) * 128 + k.val = 0 + (win0_1.index t (0 : Fin 2) * 128 + 1 * k.val)
      rw [hr]; omega
    | ⟨1, _⟩ =>
      show ((((cfg0.win 2).blk t).view.emb (ix2 p q)) 1).val = 0 + (win0_1.index t (1 : Fin 2) * 128 + 1 * q.val)
      rw [hc]; omega

/-- An index of the table is in point t's block iff each coordinate is in the block's range. -/
theorem mem_blk0 (t : Fin cfg0.N) (i : S20000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v6).slice (win0_2.rect t)).set ↔ _
  rw [View.set_slice_whole, Rect.mem_set_unit]
  exact Iff.rfl

/-- The ten blocks cover the table: row r lies in block r / 2000. -/
theorem cover0 (i : S20000x128.Idx) : ∃ t : Fin cfg0.N, (cfg0.win 2).flush t = true ∧ i ∈ ((cfg0.win 2).blk t).view.set := by
  have hi0 : (i 0).val < 20000 := (i 0).isLt
  have hi1 : (i 1).val < 128 := (i 1).isLt
  have hN : cfg0.N = 10 := rfl
  refine ⟨⟨(i 0).val / 2000, by rw [hN]; omega⟩, flush0_2 _, ?_⟩
  rw [mem_blk0]
  obtain ⟨e0, e1, e2, e3, e4, e5⟩ := idx_facts0 ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 128 ≤ (i 1).val ∧ (i 1).val < win0_2.index _ (1 : Fin 2) * 128 + 128
    rw [e5]; omega

/-- THE TABLE after the first region. -/
theorem table_value (c : Dev nD) :
    (dat0 (V1 mI) (O0 (F := Ideal)) (B0 (F := Ideal)) c).arrAt 2 cfg0.N
      = tableOf (mI ((c : Thread nD τ).loc main_arg0)) (mI ((c : Thread nD τ).loc main_arg4)) :=
  (dat0 (V1 mI) (O0 (F := Ideal)) (B0 (F := Ideal)) c).arrAt_eq_of_cover 2 _ (fun t _ => flushed0_eq mI c t) cover0

end Table

end Cert.KernelIdeal.Hand
end
-- ==== Proof.KValGather.lean ====
/-
  The gathered rows. Through the first region only the table changes, and the gather writes only its
  output: row r of the output is the table's row the r-th entry of the list names. An endpoint is
  below 10000, so entry e of the list names table row (sender of e) and entry 320000 + e names row
  10000 + (receiver of e). Hence row e of the gathered array is the sender's features times rows
  128 … 255 of the first layer's weights, and row 320000 + e the receiver's features times rows
  0 … 127.
-/
import proofs.«206068_g62534723830210_cont_9to1_m_587_24_alg».proof.Proof.KValTable

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

variable {F : FTy → Type} [FloatOps F]
variable (m : (ℓ : Loc nD τ sig) → Buf (Elt F) ℓ)

/-! ## Through the first region and the gather: which buffers change -/

/-- After the first region a window's array holds what the region's proof data says. -/
theorem W2_at_arr (c : Dev nD) (w : Fin cfg0.W) :
    W2 m c (Proc.devRef .tc (Pipeline.arrRef spec0 w)) = (dat0 (V1 m) (O0 (F := F)) (B0 (F := F)) c).arrAt w cfg0.N := by
  unfold W2; exact Pipeline.withArrays_arr spec0 launch0.win.arr_inj c _ _ w

/-- The gather writes its output and nothing else. -/
theorem W3_out (c : Dev nD) : W3 m c (Proc.devRef .tc main_v7) = gath (V2 m c main_v6) (V2 m c main_v2) := by
  unfold W3; exact Function.update_self _ _ _

theorem W3_off_out (c : Dev nD) (b : Ref sig .tc) (hb : b ≠ main_v7) : W3 m c (Proc.devRef .tc b) = W2 m c (Proc.devRef .tc b) := by
  unfold W3; exact Function.update_of_ne (fun e => hb (Proc.devRef_injective _ e)) _ _

/-! ## The gathered rows -/

section Gathered
variable (mI : (ℓ : Loc nD τ sig) → Buf (Elt Ideal) ℓ)
variable (hrange : ∀ i : S2x320000.Idx, (mI ((SparseCore.T (0 : Dev nD)).loc main_arg1) i).toNat < 10000)

/-- The ten arguments, at the specification's types. -/
abbrev aX : Cert.Spec.XTy := mI ((SparseCore.T (0 : Dev nD)).loc main_arg0)
abbrev aEI : Cert.Spec.EdgeIndexTy := mI ((SparseCore.T (0 : Dev nD)).loc main_arg1)
abbrev aEA : Cert.Spec.EdgeAttrTy := mI ((SparseCore.T (0 : Dev nD)).loc main_arg2)
abbrev aU : Cert.Spec.UTy := mI ((SparseCore.T (0 : Dev nD)).loc main_arg3)
abbrev aW1 : Cert.Spec.W1Ty := mI ((SparseCore.T (0 : Dev nD)).loc main_arg4)
abbrev aB1 : Cert.Spec.B1Ty := mI ((SparseCore.T (0 : Dev nD)).loc main_arg5)
abbrev aW2 : Cert.Spec.W2Ty := mI ((SparseCore.T (0 : Dev nD)).loc main_arg6)
abbrev aB2 : Cert.Spec.V16Ty := mI ((SparseCore.T (0 : Dev nD)).loc main_arg7)
abbrev aGa : Cert.Spec.V16Ty := mI ((SparseCore.T (0 : Dev nD)).loc main_arg8)
abbrev aBe : Cert.Spec.V16Ty := mI ((SparseCore.T (0 : Dev nD)).loc main_arg9)

/-- The gathered array after the SparseCore call. -/
abbrev gatheredOf : S640000x128.Idx → EReal := W3 mI 0 (Proc.devRef .tc main_v7)

theorem gathered_eq : gatheredOf mI = gath (F := Ideal) (tableOf (mI ((SparseCore.T (0 : Dev nD)).loc main_arg0)) (mI ((SparseCore.T (0 : Dev nD)).loc main_arg4))) (listOf mI 0) := by
  show W3 mI 0 (Proc.devRef .tc main_v7) = _
  rw [W3_out]
  have e6 : V2 mI 0 main_v6 = tableOf (mI ((SparseCore.T (0 : Dev nD)).loc main_arg0)) (mI ((SparseCore.T (0 : Dev nD)).loc main_arg4)) :=
    (W2_at_arr mI 0 2).trans (table_value mI 0)
  have e2 : V2 mI 0 main_v2 = V1 mI 0 main_v2 := W2_off_arr mI 0 main_v2 (ne_arr0 _ (by decide) (by decide) (by decide))
  rw [e6, e2]

include hrange

/-- Row e below 320000 of the gathered array: the sender's features times rows 128 … 255 of the weights. -/
theorem gathered_sender (e : Fin 320000) (l : Fin 128) :
    gatheredOf mI (ix2 (⟨e.val, by omega⟩ : Fin 640000) l)
      = ∑ k : Fin 128, aX mI (ix2 (Cert.Spec.rowOf (aEI mI) e) k)
          * aW1 mI (ix2 (⟨128 + k.val, by omega⟩ : Fin 288) l) := by
  rw [gathered_eq, gath_apply]
  have hn : (eiOf mI 0 (ix2 (0 : Fin 2) e)).toNat < 10000 := hrange (ix2 (0 : Fin 2) e)
  have hrow : (rowAt (F := Ideal) (listOf mI 0) (⟨e.val, by omega⟩ : Fin 640000)).val = (eiOf mI 0 (ix2 (0 : Fin 2) e)).toNat := by
    unfold rowAt
    show (listOf mI 0 (ix2 (0 : Fin 1) (⟨e.val, by omega⟩ : Fin 640000))).toNat % 20000 = _
    rw [list_sender, toNat_add_zero]; omega
  unfold tableOf
  refine Finset.sum_congr rfl fun k _ => ?_
  have hk := k.isLt
  congr 1
  · refine congrArg _ (funext fun a => Fin.ext ?_)
    match a with
    | ⟨0, _⟩ =>
      show (rowAt (F := Ideal) (listOf mI 0) (⟨e.val, by omega⟩ : Fin 640000)).val % 10000 = (eiOf mI 0 (ix2 (0 : Fin 2) e)).toNat % 10000
      rw [hrow]
    | ⟨1, _⟩ => rfl
  · refine congrArg _ (funext fun a => Fin.ext ?_)
    match a with
    | ⟨0, _⟩ =>
      show (1 - (rowAt (F := Ideal) (listOf mI 0) (⟨e.val, by omega⟩ : Fin 640000)).val / 10000) * 128 + k.val = 128 + k.val
      rw [hrow]; omega
    | ⟨1, _⟩ => rfl

/-- Row 320000 + e: the receiver's features times rows 0 … 127 of the weights. -/
theorem gathered_receiver (e : Fin 320000) (l : Fin 128) :
    gatheredOf mI (ix2 (⟨320000 + e.val, by omega⟩ : Fin 640000) l)
      = ∑ k : Fin 128, aX mI (ix2 (Cert.Spec.colOf (aEI mI) e) k)
          * aW1 mI (ix2 (⟨k.val, by omega⟩ : Fin 288) l) := by
  rw [gathered_eq, gath_apply]
  have hn : (eiOf mI 0 (ix2 (1 : Fin 2) e)).toNat < 10000 := hrange (ix2 (1 : Fin 2) e)
  have hrow : (rowAt (F := Ideal) (listOf mI 0) (⟨320000 + e.val, by omega⟩ : Fin 640000)).val = (eiOf mI 0 (ix2 (1 : Fin 2) e)).toNat + 10000 := by
    unfold rowAt
    show (listOf mI 0 (ix2 (0 : Fin 1) (⟨320000 + e.val, by omega⟩ : Fin 640000))).toNat % 20000 = _
    rw [list_receiver, toNat_add_shift _ hn]; omega
  unfold tableOf
  refine Finset.sum_congr rfl fun k _ => ?_
  have hk := k.isLt
  congr 1
  · refine congrArg _ (funext fun a => Fin.ext ?_)
    match a with
    | ⟨0, _⟩ =>
      show (rowAt (F := Ideal) (listOf mI 0) (⟨320000 + e.val, by omega⟩ : Fin 640000)).val % 10000 = (eiOf mI 0 (ix2 (1 : Fin 2) e)).toNat % 10000
      rw [hrow]; omega
    | ⟨1, _⟩ => rfl
  · refine congrArg _ (funext fun a => Fin.ext ?_)
    match a with
    | ⟨0, _⟩ =>
      show (1 - (rowAt (F := Ideal) (listOf mI 0) (⟨320000 + e.val, by omega⟩ : Fin 640000)).val / 10000) * 128 + k.val = k.val
      rw [hrow]; omega
    | ⟨1, _⟩ => rfl

end Gathered

end Cert.KernelIdeal.Hand
end
-- ==== Proof.KValHostB.lean ====
/-
  What the second host stretch leaves in the arrays the second region reads. Neither the first region
  nor the gather writes an argument or the two 16-row slices of the first layer's weights, so at the
  second region's entry: the gathered array as the gather left it; the edge features transposed; the
  global features; the two weight slices; the first bias as one row; the second layer's weights
  transposed; the second bias, the scale and the shift as columns.
-/
import proofs.«206068_g62534723830210_cont_9to1_m_587_24_alg».proof.Proof.KValGather

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

variable {F : FTy → Type} [FloatOps F]
variable (m : (ℓ : Loc nD τ sig) → Buf (Elt F) ℓ)

/-! ## The buffers neither the first region nor the gather writes -/

theorem W3_arg (c : Dev nD) (b : Ref sig .tc) (hb7 : b ≠ main_v7) (h0 : main_arg0 ≠ b) (h1 : main_v3 ≠ b) (h2 : main_v6 ≠ b) :
    W3 m c (Proc.devRef .tc b) = W1 m c (Proc.devRef .tc b) :=
  (W3_off_out m c b hb7).trans (W2_off_arr m c b (ne_arr0 b h0 h1 h2))

theorem W1_arg2 (c : Dev nD) : W1 m c (Proc.devRef .tc main_arg2) = m ((c : Thread nD τ).loc main_arg2) := by
  show StableHlo.after hostOpsA (fun b => m (c, b)) (Proc.devRef .tc main_arg2) = _
  after_results
theorem W3_arg2 (c : Dev nD) : W3 m c (Proc.devRef .tc main_arg2) = m ((c : Thread nD τ).loc main_arg2) :=
  (W3_arg m c main_arg2 (by decide) (by decide) (by decide) (by decide)).trans (W1_arg2 m c)

theorem W1_arg3 (c : Dev nD) : W1 m c (Proc.devRef .tc main_arg3) = m ((c : Thread nD τ).loc main_arg3) := by
  show StableHlo.after hostOpsA (fun b => m (c, b)) (Proc.devRef .tc main_arg3) = _
  after_results
theorem W3_arg3 (c : Dev nD) : W3 m c (Proc.devRef .tc main_arg3) = m ((c : Thread nD τ).loc main_arg3) :=
  (W3_arg m c main_arg3 (by decide) (by decide) (by decide) (by decide)).trans (W1_arg3 m c)

theorem W1_arg4 (c : Dev nD) : W1 m c (Proc.devRef .tc main_arg4) = m ((c : Thread nD τ).loc main_arg4) := by
  show StableHlo.after hostOpsA (fun b => m (c, b)) (Proc.devRef .tc main_arg4) = _
  after_results
theorem W3_arg4 (c : Dev nD) : W3 m c (Proc.devRef .tc main_arg4) = m ((c : Thread nD τ).loc main_arg4) :=
  (W3_arg m c main_arg4 (by decide) (by decide) (by decide) (by decide)).trans (W1_arg4 m c)

theorem W1_arg5 (c : Dev nD) : W1 m c (Proc.devRef .tc main_arg5) = m ((c : Thread nD τ).loc main_arg5) := by
  show StableHlo.after hostOpsA (fun b => m (c, b)) (Proc.devRef .tc main_arg5) = _
  after_results
theorem W3_arg5 (c : Dev nD) : W3 m c (Proc.devRef .tc main_arg5) = m ((c : Thread nD τ).loc main_arg5) :=
  (W3_arg m c main_arg5 (by decide) (by decide) (by decide) (by decide)).trans (W1_arg5 m c)

theorem W1_arg6 (c : Dev nD) : W1 m c (Proc.devRef .tc main_arg6) = m ((c : Thread nD τ).loc main_arg6) := by
  show StableHlo.after hostOpsA (fun b => m (c, b)) (Proc.devRef .tc main_arg6) = _
  after_results
theorem W3_arg6 (c : Dev nD) : W3 m c (Proc.devRef .tc main_arg6) = m ((c : Thread nD τ).loc main_arg6) :=
  (W3_arg m c main_arg6 (by decide) (by decide) (by decide) (by decide)).trans (W1_arg6 m c)

theorem W1_arg7 (c : Dev nD) : W1 m c (Proc.devRef .tc main_arg7) = m ((c : Thread nD τ).loc main_arg7) := by
  show StableHlo.after hostOpsA (fun b => m (c, b)) (Proc.devRef .tc main_arg7) = _
  after_results
theorem W3_arg7 (c : Dev nD) : W3 m c (Proc.devRef .tc main_arg7) = m ((c : Thread nD τ).loc main_arg7) :=
  (W3_arg m c main_arg7 (by decide) (by decide) (by decide) (by decide)).trans (W1_arg7 m c)

theorem W1_arg8 (c : Dev nD) : W1 m c (Proc.devRef .tc main_arg8) = m ((c : Thread nD τ).loc main_arg8) := by
  show StableHlo.after hostOpsA (fun b => m (c, b)) (Proc.devRef .tc main_arg8) = _
  after_results
theorem W3_arg8 (c : Dev nD) : W3 m c (Proc.devRef .tc main_arg8) = m ((c : Thread nD τ).loc main_arg8) :=
  (W3_arg m c main_arg8 (by decide) (by decide) (by decide) (by decide)).trans (W1_arg8 m c)

theorem W1_arg9 (c : Dev nD) : W1 m c (Proc.devRef .tc main_arg9) = m ((c : Thread nD τ).loc main_arg9) := by
  show StableHlo.after hostOpsA (fun b => m (c, b)) (Proc.devRef .tc main_arg9) = _
  after_results
theorem W3_arg9 (c : Dev nD) : W3 m c (Proc.devRef .tc main_arg9) = m ((c : Thread nD τ).loc main_arg9) :=
  (W3_arg m c main_arg9 (by decide) (by decide) (by decide) (by decide)).trans (W1_arg9 m c)

theorem W3_v4 (c : Dev nD) : (W3 m c (Proc.devRef .tc main_v4) : S16x128.Idx → Elt F .f32) =
    extractStridedSlice S16x128 ![256, 0] (m ((c : Thread nD τ).loc main_arg4)) slices_S288x128_S16x128_256_0 :=
  (W3_arg m c main_v4 (by decide) (by decide) (by decide) (by decide)).trans (V1_v4 m c)
theorem W3_v5 (c : Dev nD) : (W3 m c (Proc.devRef .tc main_v5) : S16x128.Idx → Elt F .f32) =
    extractStridedSlice S16x128 ![272, 0] (m ((c : Thread nD τ).loc main_arg4)) slices_S288x128_S16x128_272_0 :=
  (W3_arg m c main_v5 (by decide) (by decide) (by decide) (by decide)).trans (V1_v5 m c)

/-! ## What the second host stretch leaves in the second region's arrays -/

theorem V4_v7 (c : Dev nD) : V4 m c main_v7 = W3 m c (Proc.devRef .tc main_v7) := by
  show StableHlo.after hostOpsB (W3 m c) (Proc.devRef .tc main_v7) = _
  after_results

theorem V4_v8 (c : Dev nD) : (V4 m c main_v8 : S16x320000.Idx → Elt F .f32) =
    transpose S16x320000 [1, 0] (m ((c : Thread nD τ).loc main_arg2)) transposes_S320000x16_S16x320000_1_0 := by
  show StableHlo.after hostOpsB (W3 m c) (Proc.devRef .tc main_v8) = _
  after_results
  rw [W3_arg2]

theorem V4_arg3 (c : Dev nD) : V4 m c main_arg3 = m ((c : Thread nD τ).loc main_arg3) := by
  show StableHlo.after hostOpsB (W3 m c) (Proc.devRef .tc main_arg3) = _
  after_results
  rw [W3_arg3]

theorem V4_v4 (c : Dev nD) : (V4 m c main_v4 : S16x128.Idx → Elt F .f32) =
    extractStridedSlice S16x128 ![256, 0] (m ((c : Thread nD τ).loc main_arg4)) slices_S288x128_S16x128_256_0 := by
  show StableHlo.after hostOpsB (W3 m c) (Proc.devRef .tc main_v4) = _
  after_results
  rw [W3_v4]

theorem V4_v5 (c : Dev nD) : (V4 m c main_v5 : S16x128.Idx → Elt F .f32) =
    extractStridedSlice S16x128 ![272, 0] (m ((c : Thread nD τ).loc main_arg4)) slices_S288x128_S16x128_272_0 := by
  show StableHlo.after hostOpsB (W3 m c) (Proc.devRef .tc main_v5) = _
  after_results
  rw [W3_v5]

theorem V4_v9 (c : Dev nD) : (V4 m c main_v9 : S1x128.Idx → Elt F .f32) =
    shapeCast S1x128 (m ((c : Thread nD τ).loc main_arg5)) shapeCasts_S128_S1x128 := by
  show StableHlo.after hostOpsB (W3 m c) (Proc.devRef .tc main_v9) = _
  after_results
  rw [W3_arg5]
  rfl

theorem V4_v10 (c : Dev nD) : (V4 m c main_v10 : S16x128.Idx → Elt F .f32) =
    transpose S16x128 [1, 0] (m ((c : Thread nD τ).loc main_arg6)) transposes_S128x16_S16x128_1_0 := by
  show StableHlo.after hostOpsB (W3 m c) (Proc.devRef .tc main_v10) = _
  after_results
  rw [W3_arg6]

theorem V4_v11 (c : Dev nD) : (V4 m c main_v11 : S16x1.Idx → Elt F .f32) =
    shapeCast S16x1 (m ((c : Thread nD τ).loc main_arg7)) shapeCasts_S16_S16x1 := by
  show StableHlo.after hostOpsB (W3 m c) (Proc.devRef .tc main_v11) = _
  after_results
  rw [W3_arg7]
  rfl

theorem V4_v12 (c : Dev nD) : (V4 m c main_v12 : S16x1.Idx → Elt F .f32) =
    shapeCast S16x1 (m ((c : Thread nD τ).loc main_arg8)) shapeCasts_S16_S16x1 := by
  show StableHlo.after hostOpsB (W3 m c) (Proc.devRef .tc main_v12) = _
  after_results
  rw [W3_arg8]
  rfl

theorem V4_v13 (c : Dev nD) : (V4 m c main_v13 : S16x1.Idx → Elt F .f32) =
    shapeCast S16x1 (m ((c : Thread nD τ).loc main_arg9)) shapeCasts_S16_S16x1 := by
  show StableHlo.after hostOpsB (W3 m c) (Proc.devRef .tc main_v13) = _
  after_results
  rw [W3_arg9]
  rfl

end Cert.KernelIdeal.Hand
end
-- ==== Proof.KValPay2.lean ====
/-
  The second region's body at an index, as mathematics. Its three matrix products, each a sum over
  the contracted axis; the first hidden layer of a block of 3200 edges (the two gathered parts, the
  edge's own features' and the global features' products, the bias; then the maximum with 0); the
  second hidden layer (its product with the transposed second weights, the bias, the maximum with 0);
  the row of sums over the 16 features; and the normalisation (each feature minus the mean, over the
  square root of the mean square plus eps, scaled and shifted). All at the extended reals.
-/
import proofs.«206068_g62534723830210_cont_9to1_m_587_24_alg».proof.Proof.Gen.KernelIdeal.Skeleton
import Idealize.ShloMosaic.Lib.Pipeline.Value
import Idealize.ShloMosaic.Lib.ValueLayout
import Idealize.ShloMosaic.PureOps.Ideal.Laws
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

/-! ## Two layout operations at an index -/

section Layout
variable {α : Type}

/-- A column [a, 1] broadcast across [a, b] reads, at (p, c), the operand's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Layout

/-! ## The second region's three products at an index -/

/-- The edge features' product: the transposed block (16 x 3200) contracted on its first axis with the 16 x 128 weights: entry (e, l) is the sum over the 16 features. -/
theorem matmul_edge_apply (A : FVec Ideal S16x3200 .f32) (B : FVec Ideal S16x128 .f32) (p : Fin 3200) (q : Fin 128) :
    FloatOps.matmul dot_S16x3200_S16x128_S3200x128_0_0_1_1_n_n none A B (constant S3200x128 .f32 0x00000000#32) (ix2 p q)
      = ∑ c : Fin 16, A (ix2 c p) * B (ix2 c q) := by
  refine (Ideal.matmul_constant_zero_apply dot_S16x3200_S16x128_S3200x128_0_0_1_1_n_n none A B (ix2 p q)).trans ?_
  rw [← Equiv.sum_comp (contrEquiv1 dot_S16x3200_S16x128_S3200x128_0_0_1_1_n_n 16 rfl rfl).symm]
  refine Finset.sum_congr rfl fun c _ => ?_
  have c2 := contrEquiv1_symm_val dot_S16x3200_S16x128_S3200x128_0_0_1_1_n_n 16 rfl rfl c
  have l2 : dot_S16x3200_S16x128_S3200x128_0_0_1_1_n_n.lhsIdx (ix2 p q) ((contrEquiv1 _ 16 rfl rfl).symm c) = ix2 c p := by
    funext ax; apply Fin.ext
    match ax with
    | ⟨0, _⟩ => simp [DotDims.lhsIdx, dot_S16x3200_S16x128_S3200x128_0_0_1_1_n_n] <;> exact c2
    | ⟨1, _⟩ => simp [DotDims.lhsIdx, dot_S16x3200_S16x128_S3200x128_0_0_1_1_n_n] <;> rfl
  have r2 : dot_S16x3200_S16x128_S3200x128_0_0_1_1_n_n.rhsIdx (ix2 p q) ((contrEquiv1 _ 16 rfl rfl).symm c) = ix2 c q := by
    funext ax; apply Fin.ext
    match ax with
    | ⟨0, _⟩ => simp [DotDims.rhsIdx, dot_S16x3200_S16x128_S3200x128_0_0_1_1_n_n] <;> exact c2
    | ⟨1, _⟩ => simp [DotDims.rhsIdx, dot_S16x3200_S16x128_S3200x128_0_0_1_1_n_n] <;> rfl
  rw [l2, r2]

/-- The global features' product: the one row of 16 times the 16 x 128 weights. -/
theorem matmul_glob_apply (A : FVec Ideal S1x16 .f32) (B : FVec Ideal S16x128 .f32) (p : Fin 1) (q : Fin 128) :
    FloatOps.matmul dot_S1x16_S16x128_S1x128_1_0_0_1_n_n none A B (constant S1x128 .f32 0x00000000#32) (ix2 p q)
      = ∑ c : Fin 16, A (ix2 p c) * B (ix2 c q) := by
  refine (Ideal.matmul_constant_zero_apply dot_S1x16_S16x128_S1x128_1_0_0_1_n_n none A B (ix2 p q)).trans ?_
  rw [← Equiv.sum_comp (contrEquiv1 dot_S1x16_S16x128_S1x128_1_0_0_1_n_n 16 rfl rfl).symm]
  refine Finset.sum_congr rfl fun c _ => ?_
  have c2 := contrEquiv1_symm_val dot_S1x16_S16x128_S1x128_1_0_0_1_n_n 16 rfl rfl c
  have l2 : dot_S1x16_S16x128_S1x128_1_0_0_1_n_n.lhsIdx (ix2 p q) ((contrEquiv1 _ 16 rfl rfl).symm c) = ix2 p c := by
    funext ax; apply Fin.ext
    match ax with
    | ⟨0, _⟩ => simp [DotDims.lhsIdx, dot_S1x16_S16x128_S1x128_1_0_0_1_n_n] <;> rfl
    | ⟨1, _⟩ => simp [DotDims.lhsIdx, dot_S1x16_S16x128_S1x128_1_0_0_1_n_n] <;> exact c2
  have r2 : dot_S1x16_S16x128_S1x128_1_0_0_1_n_n.rhsIdx (ix2 p q) ((contrEquiv1 _ 16 rfl rfl).symm c) = ix2 c q := by
    funext ax; apply Fin.ext
    match ax with
    | ⟨0, _⟩ => simp [DotDims.rhsIdx, dot_S1x16_S16x128_S1x128_1_0_0_1_n_n] <;> exact c2
    | ⟨1, _⟩ => simp [DotDims.rhsIdx, dot_S1x16_S16x128_S1x128_1_0_0_1_n_n] <;> rfl
  rw [l2, r2]

/-- The second layer's product: the transposed weights (16 x 128) against the hidden block (3200 x 128), both contracted on their second axis: entry (o, e) is the sum over the 128 hidden features. -/
theorem matmul_second_apply (A : FVec Ideal S16x128 .f32) (B : FVec Ideal S3200x128 .f32) (p : Fin 16) (q : Fin 3200) :
    FloatOps.matmul dot_S16x128_S3200x128_S16x3200_1_1_0_0_n_n none A B (constant S16x3200 .f32 0x00000000#32) (ix2 p q)
      = ∑ c : Fin 128, A (ix2 p c) * B (ix2 q c) := by
  refine (Ideal.matmul_constant_zero_apply dot_S16x128_S3200x128_S16x3200_1_1_0_0_n_n none A B (ix2 p q)).trans ?_
  rw [← Equiv.sum_comp (contrEquiv1 dot_S16x128_S3200x128_S16x3200_1_1_0_0_n_n 128 rfl rfl).symm]
  refine Finset.sum_congr rfl fun c _ => ?_
  have c2 := contrEquiv1_symm_val dot_S16x128_S3200x128_S16x3200_1_1_0_0_n_n 128 rfl rfl c
  have l2 : dot_S16x128_S3200x128_S16x3200_1_1_0_0_n_n.lhsIdx (ix2 p q) ((contrEquiv1 _ 128 rfl rfl).symm c) = ix2 p c := by
    funext ax; apply Fin.ext
    match ax with
    | ⟨0, _⟩ => simp [DotDims.lhsIdx, dot_S16x128_S3200x128_S16x3200_1_1_0_0_n_n] <;> rfl
    | ⟨1, _⟩ => simp [DotDims.lhsIdx, dot_S16x128_S3200x128_S16x3200_1_1_0_0_n_n] <;> exact c2
  have r2 : dot_S16x128_S3200x128_S16x3200_1_1_0_0_n_n.rhsIdx (ix2 p q) ((contrEquiv1 _ 128 rfl rfl).symm c) = ix2 q c := by
    funext ax; apply Fin.ext
    match ax with
    | ⟨0, _⟩ => simp [DotDims.rhsIdx, dot_S16x128_S3200x128_S16x3200_1_1_0_0_n_n] <;> rfl
    | ⟨1, _⟩ => simp [DotDims.rhsIdx, dot_S16x128_S3200x128_S16x3200_1_1_0_0_n_n] <;> exact c2
  rw [l2, r2]

/-! ## The sum over the 16 features -/

/-- The reduction over the first axis of a 16 x 3200 block, at edge e, is the sum of its column e. -/
theorem colsum_apply (src : FVec Ideal S16x3200 .f32) (hφ : FKind.Formats .f32)
    (hacc : (0x00000000#32 : BitVec 32) = FKind.add.neutral .f32 hφ) (e : Fin 3200) :
    multiReduction .add [0] S3200 src 0x00000000#32 reduces_S16x3200_S3200 hφ hacc (ix1 e) = ∑ o : Fin 16, src (ix2 o e) :=
  (Ideal.multiReduction_add_single src _ reduces_S16x3200_S3200 hφ hacc (ix1 e)).trans
    (Finset.sum_congr rfl fun o _ => congrArg src (funext fun a => Fin.ext (match a with | ⟨0, _⟩ => rfl | ⟨1, _⟩ => rfl)))

/-! ## The hidden layers of a block -/

/-- The first hidden layer of a block of 3200 edges (3200 x 128), as the body computes it. -/
def hid1 (v0 v2 : FVec Ideal S3200x128 .f32) (v5 : FVec Ideal S16x3200 .f32) (v7 : FVec Ideal S16x128 .f32) (v11 : FVec Ideal S1x16 .f32)
    (v12 : FVec Ideal S16x128 .f32) (v17 : FVec Ideal S1x128 .f32) : FVec Ideal S3200x128 .f32 :=
  maximumf (addf (addf (addf (addf (shapeCast S3200x128 v0 shapeCasts_S3200x128_S3200x128) (shapeCast S3200x128 v2 shapeCasts_S3200x128_S3200x128))
        (matmul dot_S16x3200_S16x128_S3200x128_0_0_1_1_n_n none (shapeCast S16x3200 v5 shapeCasts_S16x3200_S16x3200) (shapeCast S16x128 v7 shapeCasts_S16x128_S16x128) (constant S3200x128 .f32 0x00000000#32)))
      (broadcastTo S3200x128 (matmul dot_S1x16_S16x128_S1x128_1_0_0_1_n_n none v11 (shapeCast S16x128 v12 shapeCasts_S16x128_S16x128) (constant S1x128 .f32 0x00000000#32)) broadcasts_S1x128_S3200x128))
    (broadcastTo S3200x128 (shapeCast S1x128 v17 shapeCasts_S1x128_S1x128) broadcasts_S1x128_S3200x128))
    (broadcast S3200x128 (Scalar.ofBits .f32 0x00000000#32))

/-- At edge e and hidden feature l: the two gathered parts, the edge's own features' and the global features'
    products, and the bias, added in that order; then the maximum with 0. -/
theorem hid1_apply (v0 v2 : FVec Ideal S3200x128 .f32) (v5 : FVec Ideal S16x3200 .f32) (v7 : FVec Ideal S16x128 .f32) (v11 : FVec Ideal S1x16 .f32)
    (v12 : FVec Ideal S16x128 .f32) (v17 : FVec Ideal S1x128 .f32) (e : Fin 3200) (l : Fin 128) :
    hid1 v0 v2 v5 v7 v11 v12 v17 (ix2 e l)
      = max (((((v0 (ix2 e l) + v2 (ix2 e l)) + ∑ a : Fin 16, v5 (ix2 a e) * v7 (ix2 a l))
          + ∑ b : Fin 16, v11 (ix2 (0 : Fin 1) b) * v12 (ix2 b l)) + v17 (ix2 (0 : Fin 1) l))) 0 := by
  unfold hid1
  simp only [shapeCast_self]
  show max (((((v0 (ix2 e l) + v2 (ix2 e l)) + FloatOps.matmul dot_S16x3200_S16x128_S3200x128_0_0_1_1_n_n none v5 v7 (constant S3200x128 .f32 0x00000000#32) (ix2 e l))
      + broadcastTo S3200x128 (matmul dot_S1x16_S16x128_S1x128_1_0_0_1_n_n none v11 v12 (constant S1x128 .f32 0x00000000#32)) broadcasts_S1x128_S3200x128 (ix2 e l))
      + broadcastTo S3200x128 v17 broadcasts_S1x128_S3200x128 (ix2 e l))) (Ideal.ofBits .f32 0x00000000#32) = _
  rw [matmul_edge_apply, broadcastTo_1b_ab_apply, broadcastTo_1b_ab_apply, Ideal.ofBits_zero_f32]
  show max ((((_ + _) + _) + FloatOps.matmul dot_S1x16_S16x128_S1x128_1_0_0_1_n_n none v11 v12 (constant S1x128 .f32 0x00000000#32) (ix2 (0 : Fin 1) l)) + _) 0 = _
  rw [matmul_glob_apply]

/-- The second hidden layer of a block (16 x 3200) is the second product of the first, its bias added, the maximum with 0. -/
theorem pay2_eq (v0 v2 : FVec Ideal S3200x128 .f32) (v5 : FVec Ideal S16x3200 .f32) (v7 : FVec Ideal S16x128 .f32) (v11 : FVec Ideal S1x16 .f32)
    (v12 : FVec Ideal S16x128 .f32) (v17 : FVec Ideal S1x128 .f32) (v23 : FVec Ideal S16x128 .f32) (v26 : FVec Ideal S16x1 .f32) :
    k2_pay2 (F := Ideal) v0 v2 v5 v7 v11 v12 v17 v23 v26
      = maximumf (addf (matmul dot_S16x128_S3200x128_S16x3200_1_1_0_0_n_n none (shapeCast S16x128 v23 shapeCasts_S16x128_S16x128)
            (hid1 v0 v2 v5 v7 v11 v12 v17) (constant S16x3200 .f32 0x00000000#32))
          (broadcastTo S16x3200 (shapeCast S16x1 v26 shapeCasts_S16x1_S16x1) broadcasts_S16x1_S16x3200))
        (broadcast S16x3200 (Scalar.ofBits .f32 0x00000000#32)) := rfl

theorem pay2_apply (v0 v2 : FVec Ideal S3200x128 .f32) (v5 : FVec Ideal S16x3200 .f32) (v7 : FVec Ideal S16x128 .f32) (v11 : FVec Ideal S1x16 .f32)
    (v12 : FVec Ideal S16x128 .f32) (v17 : FVec Ideal S1x128 .f32) (v23 : FVec Ideal S16x128 .f32) (v26 : FVec Ideal S16x1 .f32) (o : Fin 16) (e : Fin 3200) :
    k2_pay2 (F := Ideal) v0 v2 v5 v7 v11 v12 v17 v23 v26 (ix2 o e)
      = max ((∑ l : Fin 128, v23 (ix2 o l) * hid1 v0 v2 v5 v7 v11 v12 v17 (ix2 e l)) + v26 (ix2 o (0 : Fin 1))) 0 := by
  rw [pay2_eq]
  simp only [shapeCast_self]
  show max (FloatOps.matmul dot_S16x128_S3200x128_S16x3200_1_1_0_0_n_n none v23 (hid1 v0 v2 v5 v7 v11 v12 v17) (constant S16x3200 .f32 0x00000000#32) (ix2 o e)
      + broadcastTo S16x3200 v26 broadcasts_S16x1_S16x3200 (ix2 o e)) (Ideal.ofBits .f32 0x00000000#32) = _
  rw [matmul_second_apply, broadcastTo_a1_ab_apply, Ideal.ofBits_zero_f32]

/-- The row of sums over the 16 features. -/
theorem pay3_apply (v0 v2 : FVec Ideal S3200x128 .f32) (v5 : FVec Ideal S16x3200 .f32) (v7 : FVec Ideal S16x128 .f32) (v11 : FVec Ideal S1x16 .f32)
    (v12 : FVec Ideal S16x128 .f32) (v17 : FVec Ideal S1x128 .f32) (v23 : FVec Ideal S16x128 .f32) (v26 : FVec Ideal S16x1 .f32) (e : Fin 3200) :
    k2_pay3 (F := Ideal) v0 v2 v5 v7 v11 v12 v17 v23 v26 (ix2 (0 : Fin 1) e) = ∑ o : Fin 16, k2_pay2 (F := Ideal) v0 v2 v5 v7 v11 v12 v17 v23 v26 (ix2 o e) := by
  unfold k2_pay3
  refine (shapeCast_a_1a_apply _ _ (0 : Fin 1) e).trans ?_
  exact colsum_apply _ _ _ e

/-! ## The normalisation of a block -/

/-- A block minus its row of means (the row of sums divided by the count). -/
def cen (v31 : FVec Ideal S16x3200 .f32) (v33 : FVec Ideal S1x3200 .f32) (cst : Ideal .f32) : FVec Ideal S16x3200 .f32 :=
  subf v31 (broadcastTo S16x3200 (divf v33 (broadcast S1x3200 cst)) broadcasts_S1x3200_S16x3200)

theorem cen_apply (v31 : FVec Ideal S16x3200 .f32) (v33 : FVec Ideal S1x3200 .f32) (cst : Ideal .f32) (o : Fin 16) (e : Fin 3200) :
    cen v31 v33 cst (ix2 o e) = v31 (ix2 o e) - Ideal.div (v33 (ix2 (0 : Fin 1) e)) cst := by
  unfold cen
  show v31 (ix2 o e) - broadcastTo S16x3200 (divf v33 (broadcast S1x3200 cst)) broadcasts_S1x3200_S16x3200 (ix2 o e) = _
  rw [broadcastTo_1b_ab_apply]
  rfl

theorem pay1_eq (v31 : FVec Ideal S16x3200 .f32) (v33 : FVec Ideal S1x3200 .f32) (cst : Ideal .f32) (v48 v52 : FVec Ideal S16x1 .f32) :
    k2_pay1 (F := Ideal) v31 v33 cst v48 v52
      = addf (mulf (divf (cen v31 v33 cst)
            (broadcastTo S16x3200 (sqrt (addf (divf (shapeCast S1x3200
                (multiReduction .add [0] S3200 (mulf (cen v31 v33 cst) (cen v31 v33 cst)) 0x00000000#32 reduces_S16x3200_S3200 (.inl rfl) rfl) shapeCasts_S3200_S1x3200)
                (broadcast S1x3200 (Scalar.ofBits .f32 0x41800000#32))) (broadcast S1x3200 (Scalar.ofBits .f32 0x3727C5AC#32)))) broadcasts_S1x3200_S16x3200))
          (broadcastTo S16x3200 (shapeCast S16x1 v48 shapeCasts_S16x1_S16x1) broadcasts_S16x1_S16x3200))
        (broadcastTo S16x3200 (shapeCast S16x1 v52 shapeCasts_S16x1_S16x1) broadcasts_S16x1_S16x3200) := rfl

/-- At feature o of edge e: the centred value over the square root of the mean square plus eps, scaled and shifted. -/
theorem pay1_apply (v31 : FVec Ideal S16x3200 .f32) (v33 : FVec Ideal S1x3200 .f32) (cst : Ideal .f32) (v48 v52 : FVec Ideal S16x1 .f32)
    (o : Fin 16) (e : Fin 3200) :
    k2_pay1 (F := Ideal) v31 v33 cst v48 v52 (ix2 o e)
      = Ideal.div (cen v31 v33 cst (ix2 o e))
          (Ideal.sqrt (Ideal.div (∑ o' : Fin 16, cen v31 v33 cst (ix2 o' e) * cen v31 v33 cst (ix2 o' e)) (Ideal.ofBits .f32 0x41800000#32)
            + Ideal.ofBits .f32 0x3727C5AC#32))
        * v48 (ix2 o (0 : Fin 1)) + v52 (ix2 o (0 : Fin 1)) := by
  rw [pay1_eq]
  simp only [shapeCast_self]
  show Ideal.div (cen v31 v33 cst (ix2 o e))
        (broadcastTo S16x3200 (sqrt (addf (divf (shapeCast S1x3200
                (multiReduction .add [0] S3200 (mulf (cen v31 v33 cst) (cen v31 v33 cst)) 0x00000000#32 reduces_S16x3200_S3200 (.inl rfl) rfl) shapeCasts_S3200_S1x3200)
                (broadcast S1x3200 (Scalar.ofBits .f32 0x41800000#32))) (broadcast S1x3200 (Scalar.ofBits .f32 0x3727C5AC#32)))) broadcasts_S1x3200_S16x3200 (ix2 o e))
      * broadcastTo S16x3200 v48 broadcasts_S16x1_S16x3200 (ix2 o e) + broadcastTo S16x3200 v52 broadcasts_S16x1_S16x3200 (ix2 o e) = _
  rw [broadcastTo_1b_ab_apply, broadcastTo_a1_ab_apply, broadcastTo_a1_ab_apply]
  show Ideal.div _ (Ideal.sqrt (Ideal.div (shapeCast S1x3200
                (multiReduction .add [0] S3200 (mulf (cen v31 v33 cst) (cen v31 v33 cst)) 0x00000000#32 reduces_S16x3200_S3200 (.inl rfl) rfl) shapeCasts_S3200_S1x3200 (ix2 (0 : Fin 1) e))
              (Ideal.ofBits .f32 0x41800000#32) + Ideal.ofBits .f32 0x3727C5AC#32)) * _ + _ = _
  rw [shapeCast_a_1a_apply]
  have hs := colsum_apply (mulf (cen v31 v33 cst) (cen v31 v33 cst)) (.inl rfl) rfl e
  exact congrArg (fun s => Ideal.div (cen v31 v33 cst (ix2 o e)) (Ideal.sqrt (Ideal.div s (Ideal.ofBits .f32 0x41800000#32)
    + Ideal.ofBits .f32 0x3727C5AC#32)) * v48 (ix2 o (0 : Fin 1)) + v52 (ix2 o (0 : Fin 1))) hs

end Cert.KernelIdeal.Hand
end
-- ==== Proof.KValTail.lean ====
/-
  The tail of a block at an edge is the specification there. The specification's first layer sums 288
  products in the order receiver's features (128), sender's (128), the edge's own (16), the global
  ones (16); the body adds the sender's part to the receiver's, then the edge's and the global
  products. The sum over 288 splits into its four ranges, and addition of extended reals is
  commutative and associative, so the two agree; no finiteness is used. The second layer agrees by
  commutativity of multiplication. The mean and the mean square are the same sums divided by the
  same literal, the specification's starting from 0.
-/
import proofs.«206068_g62534723830210_cont_9to1_m_587_24_alg».proof.Proof.KValPay2
import proofs.«206068_g62534723830210_cont_9to1_m_587_24_alg».proof.Proof.Spec

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

/-! ## The specification's sum over the 288 concatenated features, split into its four ranges -/

section Split

open Cert.Spec (rowOf colOf cat h1 h2 mean16 layerNorm16 G)

/-- A sum over 288 terms as its first 128, next 128, next 16 and last 16. -/
theorem sum288 (f : Fin 288 → EReal) :
    ∑ k, f k = ((∑ k : Fin 128, f ⟨k.val, by omega⟩ + ∑ k : Fin 128, f ⟨128 + k.val, by omega⟩)
        + ∑ a : Fin 16, f ⟨256 + a.val, by omega⟩) + ∑ b : Fin 16, f ⟨272 + b.val, by omega⟩ := by
  have e1 := @Fin.sum_univ_add EReal _ (128 + 128 + 16) 16 f
  have e2 := @Fin.sum_univ_add EReal _ (128 + 128) 16 fun i => f (Fin.castAdd 16 i)
  have e3 := @Fin.sum_univ_add EReal _ 128 128 fun i => f (Fin.castAdd 16 (Fin.castAdd 16 i))
  rw [e2, e3] at e1
  exact e1

variable (x : Cert.Spec.XTy) (ei : Cert.Spec.EdgeIndexTy) (ea : Cert.Spec.EdgeAttrTy) (u : Cert.Spec.UTy) (e : Fin 320000)

theorem cat_recv (k : Fin 128) : cat x ei ea u e (⟨k.val, by omega⟩ : Fin 288) = x (ix2 (colOf ei e) k) := by
  unfold Cert.Spec.cat
  rw [dif_pos (show k.val < 128 from k.isLt)]

theorem cat_send (k : Fin 128) : cat x ei ea u e (⟨128 + k.val, by omega⟩ : Fin 288) = x (ix2 (rowOf ei e) k) := by
  have hk := k.isLt
  unfold Cert.Spec.cat
  rw [dif_neg (show ¬ 128 + k.val < 128 by omega), dif_pos (show 128 + k.val < 256 by omega)]
  exact congrArg x (funext fun a => match a with | ⟨0, _⟩ => rfl | ⟨1, _⟩ => Fin.ext (show 128 + k.val - 128 = k.val by omega))

theorem cat_edge (a : Fin 16) : cat x ei ea u e (⟨256 + a.val, by omega⟩ : Fin 288) = ea (ix2 e a) := by
  have ha := a.isLt
  unfold Cert.Spec.cat
  rw [dif_neg (show ¬ 256 + a.val < 128 by omega), dif_neg (show ¬ 256 + a.val < 256 by omega), dif_pos (show 256 + a.val < 272 by omega)]
  exact congrArg ea (funext fun b => match b with | ⟨0, _⟩ => rfl | ⟨1, _⟩ => Fin.ext (show 256 + a.val - 256 = a.val by omega))

theorem cat_glob (b : Fin 16) : cat x ei ea u e (⟨272 + b.val, by omega⟩ : Fin 288) = u (ix2 (0 : Fin 1) b) := by
  have hb := b.isLt
  unfold Cert.Spec.cat
  rw [dif_neg (show ¬ 272 + b.val < 128 by omega), dif_neg (show ¬ 272 + b.val < 256 by omega), dif_neg (show ¬ 272 + b.val < 272 by omega)]
  exact congrArg u (funext fun a => match a with | ⟨0, _⟩ => rfl | ⟨1, _⟩ => Fin.ext (show 272 + b.val - 272 = b.val by omega))

end Split

/-! ## The tail of a block at an edge is the specification there -/

section Tail

open Cert.Spec (rowOf colOf cat h1 h2 mean16 layerNorm16 G)

variable (x : Cert.Spec.XTy) (ei : Cert.Spec.EdgeIndexTy) (ea : Cert.Spec.EdgeAttrTy) (u : Cert.Spec.UTy)
  (W1 : Cert.Spec.W1Ty) (b1 : Cert.Spec.B1Ty) (W2 : Cert.Spec.W2Ty) (b2 ga be : Cert.Spec.V16Ty)
variable (B0 B1 : FVec Ideal S3200x128 .f32) (B2 : FVec Ideal S16x3200 .f32) (B3 : FVec Ideal S1x16 .f32) (B4 B5 : FVec Ideal S16x128 .f32)
  (B6 : FVec Ideal S1x128 .f32) (B7 : FVec Ideal S16x128 .f32) (B8 B9 B10 : FVec Ideal S16x1 .f32)
variable (e : Fin 320000) (e' : Fin 3200)
variable (h0 : ∀ l : Fin 128, B0 (ix2 e' l) = ∑ k : Fin 128, x (ix2 (rowOf ei e) k) * W1 (ix2 (⟨128 + k.val, by omega⟩ : Fin 288) l))
  (h1' : ∀ l : Fin 128, B1 (ix2 e' l) = ∑ k : Fin 128, x (ix2 (colOf ei e) k) * W1 (ix2 (⟨k.val, by omega⟩ : Fin 288) l))
  (h2' : ∀ a : Fin 16, B2 (ix2 a e') = ea (ix2 e a))
  (h3 : ∀ b : Fin 16, B3 (ix2 (0 : Fin 1) b) = u (ix2 (0 : Fin 1) b))
  (h4 : ∀ (a : Fin 16) (l : Fin 128), B4 (ix2 a l) = W1 (ix2 (⟨256 + a.val, by omega⟩ : Fin 288) l))
  (h5 : ∀ (b : Fin 16) (l : Fin 128), B5 (ix2 b l) = W1 (ix2 (⟨272 + b.val, by omega⟩ : Fin 288) l))
  (h6 : ∀ l : Fin 128, B6 (ix2 (0 : Fin 1) l) = b1 (ix1 l))
  (h7 : ∀ (o : Fin 16) (l : Fin 128), B7 (ix2 o l) = W2 (ix2 l o))
  (h8 : ∀ o : Fin 16, B8 (ix2 o (0 : Fin 1)) = b2 (ix1 o))
  (h9 : ∀ o : Fin 16, B9 (ix2 o (0 : Fin 1)) = ga (ix1 o))
  (h10 : ∀ o : Fin 16, B10 (ix2 o (0 : Fin 1)) = be (ix1 o))

include h0 h1' h2' h3 h4 h5 h6 in
/-- The first hidden layer: the body adds the sender's part, the receiver's, the edge's and the global one; the
    specification sums the 288 products in the order receiver, sender, edge, global. Addition commutes. -/
theorem hid1_spec (l : Fin 128) : hid1 B0 B1 B2 B4 B3 B5 B6 (ix2 e' l) = h1 x ei ea u W1 b1 e l := by
  rw [hid1_apply]
  unfold Cert.Spec.h1
  rw [sum288, h0, h1', h6]
  simp only [cat_recv, cat_send, cat_edge, cat_glob, h2', h3, h4, h5]
  rw [add_comm (∑ k : Fin 128, x (ix2 (rowOf ei e) k) * W1 (ix2 (⟨128 + k.val, by omega⟩ : Fin 288) l))]

include h0 h1' h2' h3 h4 h5 h6 h7 h8 in
/-- The second hidden layer. -/
theorem pay2_spec (o : Fin 16) : k2_pay2 (F := Ideal) B0 B1 B2 B4 B3 B5 B6 B7 B8 (ix2 o e') = h2 x ei ea u W1 b1 W2 b2 e o := by
  rw [pay2_apply]
  unfold Cert.Spec.h2
  rw [h8]
  refine congrArg (fun s => max (s + b2 (ix1 o)) 0) (Finset.sum_congr rfl fun l _ => ?_)
  rw [hid1_spec x ei ea u W1 b1 B0 B1 B2 B3 B4 B5 B6 e e' h0 h1' h2' h3 h4 h5 h6 l, h7, mul_comm]

include h0 h1' h2' h3 h4 h5 h6 h7 h8 in
/-- A feature minus the mean of the 16. -/
theorem cen_spec (o : Fin 16) :
    cen (k2_pay2 (F := Ideal) B0 B1 B2 B4 B3 B5 B6 B7 B8) (k2_pay3 (F := Ideal) B0 B1 B2 B4 B3 B5 B6 B7 B8) (Scalar.ofBits .f32 0x41800000#32) (ix2 o e')
      = h2 x ei ea u W1 b1 W2 b2 e o - mean16 (fun o' => h2 x ei ea u W1 b1 W2 b2 e o') := by
  rw [cen_apply, pay3_apply]
  unfold Cert.Spec.mean16
  rw [zero_add]
  simp only [pay2_spec x ei ea u W1 b1 W2 b2 B0 B1 B2 B3 B4 B5 B6 B7 B8 e e' h0 h1' h2' h3 h4 h5 h6 h7 h8]
  rfl

include h0 h1' h2' h3 h4 h5 h6 h7 h8 h9 h10 in
/-- THE TAIL AT AN EDGE: entry (o, e') of the block the body stores is the specification at edge e and feature o. -/
theorem tail_spec (o : Fin 16) :
    k2_pay1 (F := Ideal) (k2_pay2 (F := Ideal) B0 B1 B2 B4 B3 B5 B6 B7 B8) (k2_pay3 (F := Ideal) B0 B1 B2 B4 B3 B5 B6 B7 B8) (Scalar.ofBits .f32 0x41800000#32) B9 B10 (ix2 o e')
      = G x ei ea u W1 b1 W2 b2 ga be (ix2 e o) := by
  rw [Cert.Spec.G_ix2, pay1_apply, h9, h10]
  simp only [cen_spec x ei ea u W1 b1 W2 b2 B0 B1 B2 B3 B4 B5 B6 B7 B8 e e' h0 h1' h2' h3 h4 h5 h6 h7 h8]
  unfold Cert.Spec.layerNorm16
  conv_rhs => rw [show mean16 (fun o' => (h2 x ei ea u W1 b1 W2 b2 e o' - mean16 fun o' => h2 x ei ea u W1 b1 W2 b2 e o') * (h2 x ei ea u W1 b1 W2 b2 e o' - mean16 fun o' => h2 x ei ea u W1 b1 W2 b2 e o'))
      = Ideal.div (∑ o' : Fin 16, (h2 x ei ea u W1 b1 W2 b2 e o' - mean16 fun o' => h2 x ei ea u W1 b1 W2 b2 e o') * (h2 x ei ea u W1 b1 W2 b2 e o' - mean16 fun o' => h2 x ei ea u W1 b1 W2 b2 e o')) (Ideal.ofBits .f32 0x41800000#32) from by
    unfold Cert.Spec.mean16; rw [zero_add]]

end Tail

end Cert.KernelIdeal.Hand
end
-- ==== Proof.KValResult.lean ====
/-
  The second region's result and the kernel's value. At grid point t the body reads rows 3200 t … of
  the gathered array (the senders' parts), rows 320000 + 3200 t … (the receivers' parts), columns
  3200 t … of the transposed edge features and the whole of every small operand; by the tail's value
  at an edge it writes column block t of the transposed result, whose entry (o, e) is the
  specification at edge e and feature o. The hundred blocks tile the 16 x 320000 array. The last host
  operation transposes it back, so the result buffer at the return is the specification.
-/
import proofs.«206068_g62534723830210_cont_9to1_m_587_24_alg».proof.Proof.KValHostB
import proofs.«206068_g62534723830210_cont_9to1_m_587_24_alg».proof.Proof.KValTail

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.SparseCore.Cfg (HIx)
open Idealize.ShloMosaic.Pipeline (Dat Cfg Window)
open Idealize.ShloMosaic.StableHlo (nullary unary binary seq)

section Region2Value

variable (mI : (ℓ : Loc nD τ sig) → Buf (Elt Ideal) ℓ)
variable (hrange : ∀ i : S2x320000.Idx, (mI ((SparseCore.T (0 : Dev nD)).loc main_arg1) i).toNat < 10000)

/-- The transposed result as one function of the ten arguments: entry (o, e) is the specification at edge e, feature o. -/
def outT : S16x320000.Idx → EReal := fun i =>
  Cert.Spec.G (aX mI) (aEI mI) (aEA mI) (aU mI) (aW1 mI) (aB1 mI) (aW2 mI) (aB2 mI) (aGa mI) (aBe mI)
    (ix2 (⟨(i 1).val, idx2_lt1 i⟩ : Fin 320000) (⟨(i 0).val, idx2_lt0 i⟩ : Fin 16))

/-- The printed index maps over the grid's hundred points: point t reads blocks t and 100 + t of the gathered array,
    column block t of the transposed edge features, the whole of every small operand, and writes column block t. -/
theorem idx_facts2 : ∀ t : Fin cfg2.N,
    win2_0.index t (0 : Fin 2) = t.val ∧ win2_0.index t (1 : Fin 2) = 0
    ∧ win2_1.index t (0 : Fin 2) = 100 + t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = t.val :=
  (by decide +kernel : ∀ t : Fin grid2.N, _)

include hrange in
/-- What point t writes back is column block t of the transposed result. -/
theorem flushed2_eq (t : Fin cfg2.N) :
    (dat2 (V4 mI) (O1 (F := Ideal)) (B1 (F := Ideal)) 0).flushed 11 t
      = ((cfg2.win 11).blk t).view.read (Elt Ideal) (outT mI) := by
  show (cfg2.win 11).cut (grid2.coords t) ((dat2 (V4 mI) (O1 (F := Ideal)) (B1 (F := Ideal)) 0).after 11 t) = _
  rw [after2_11]
  unfold out2_11
  rw [View.canon_unit_zero hz0]
  unfold tail2
  simp only [View.ld_unit_zero (S := S3200x128) hz0, View.ld_unit_zero (S := S16x3200) hz0, View.ld_unit_zero (S := S1x16) hz0,
    View.ld_unit_zero (S := S16x128) hz0, View.ld_unit_zero (S := S1x128) hz0, View.ld_unit_zero (S := S16x1) hz0]
  obtain ⟨a0, a1, b0, b1, c0, c1, z30, z31, z40, z41, z50, z51, z60, z61, z70, z71, z80, z81, z90, z91, z100, z101, o0, o1⟩ := idx_facts2 t
  funext j
  obtain ⟨o, e', hj⟩ : ∃ (o : Fin 16) (e' : Fin 3200), j = ix2 o e' := ⟨j 0, j 1, eq_ix2 (n0 := 16) (n1 := 3200) j⟩
  subst hj
  have ht : t.val < 100 := t.isLt
  have he' := e'.isLt
  have ho := o.isLt
  have hE : 3200 * t.val + e'.val < 320000 := by omega
  have h0 : ∀ l : Fin 128, (iblk2 (V4 mI) 0 0 t : FVec Ideal S3200x128 .f32) (ix2 e' l)
      = ∑ k : Fin 128, aX mI (ix2 (Cert.Spec.rowOf (aEI mI) ⟨3200 * t.val + e'.val, hE⟩) k) * aW1 mI (ix2 (⟨128 + k.val, by omega⟩ : Fin 288) l) := fun l => by
    show V4 mI 0 main_v7 (((cfg2.win 0).blk t).view.emb (ix2 e' l)) = _
    rw [V4_v7]
    refine Eq.trans (congrArg (gatheredOf mI) (funext fun a => Fin.ext ?_)) (gathered_sender mI hrange ⟨3200 * t.val + e'.val, hE⟩ l)
    match a with
    | ⟨0, _⟩ => show win2_0.index t (0 : Fin 2) * 3200 + 1 * e'.val = 3200 * t.val + e'.val; omega
    | ⟨1, _⟩ => show win2_0.index t (1 : Fin 2) * 128 + 1 * l.val = l.val; omega
  have h1 : ∀ l : Fin 128, (iblk2 (V4 mI) 0 1 t : FVec Ideal S3200x128 .f32) (ix2 e' l)
      = ∑ k : Fin 128, aX mI (ix2 (Cert.Spec.colOf (aEI mI) ⟨3200 * t.val + e'.val, hE⟩) k) * aW1 mI (ix2 (⟨k.val, by omega⟩ : Fin 288) l) := fun l => by
    show V4 mI 0 main_v7 (((cfg2.win 1).blk t).view.emb (ix2 e' l)) = _
    rw [V4_v7]
    refine Eq.trans (congrArg (gatheredOf mI) (funext fun a => Fin.ext ?_)) (gathered_receiver mI hrange ⟨3200 * t.val + e'.val, hE⟩ l)
    match a with
    | ⟨0, _⟩ => show win2_1.index t (0 : Fin 2) * 3200 + 1 * e'.val = 320000 + (3200 * t.val + e'.val); omega
    | ⟨1, _⟩ => show win2_1.index t (1 : Fin 2) * 128 + 1 * l.val = l.val; omega
  have h2 : ∀ a : Fin 16, (iblk2 (V4 mI) 0 2 t : FVec Ideal S16x3200 .f32) (ix2 a e') = aEA mI (ix2 (⟨3200 * t.val + e'.val, hE⟩ : Fin 320000) a) := fun a => by
    show V4 mI 0 main_v8 (((cfg2.win 2).blk t).view.emb (ix2 a e')) = _
    rw [V4_v8]
    refine transpose_apply _ _ _ _ (ix2 (⟨3200 * t.val + e'.val, hE⟩ : Fin 320000) a) fun b => ?_
    match b with
    | ⟨0, _⟩ => show a.val = win2_2.index t (0 : Fin 2) * 16 + 1 * a.val; omega
    | ⟨1, _⟩ => show 3200 * t.val + e'.val = win2_2.index t (1 : Fin 2) * 3200 + 1 * e'.val; omega
  have h3 : ∀ b : Fin 16, (iblk2 (V4 mI) 0 3 t : FVec Ideal S1x16 .f32) (ix2 (0 : Fin 1) b) = aU mI (ix2 (0 : Fin 1) b) := fun b => by
    show V4 mI 0 main_arg3 (((cfg2.win 3).blk t).view.emb (ix2 (0 : Fin 1) b)) = _
    rw [V4_arg3]
    refine congrArg (aU mI) (funext fun a => Fin.ext ?_)
    match a with
    | ⟨0, _⟩ => show win2_3.index t (0 : Fin 2) * 1 + 1 * 0 = 0; omega
    | ⟨1, _⟩ => show win2_3.index t (1 : Fin 2) * 16 + 1 * b.val = b.val; omega
  have h4 : ∀ (a : Fin 16) (l : Fin 128), (iblk2 (V4 mI) 0 4 t : FVec Ideal S16x128 .f32) (ix2 a l) = aW1 mI (ix2 (⟨256 + a.val, by omega⟩ : Fin 288) l) := fun a l => by
    show V4 mI 0 main_v4 (((cfg2.win 4).blk t).view.emb (ix2 a l)) = _
    rw [V4_v4]
    refine extractStridedSlice_apply _ _ _ _ (ix2 (⟨256 + a.val, by omega⟩ : Fin 288) l) fun ax => ?_
    match ax with
    | ⟨0, _⟩ => show 256 + a.val = 256 + (win2_4.index t (0 : Fin 2) * 16 + 1 * a.val); omega
    | ⟨1, _⟩ => show l.val = 0 + (win2_4.index t (1 : Fin 2) * 128 + 1 * l.val); omega
  have h5 : ∀ (b : Fin 16) (l : Fin 128), (iblk2 (V4 mI) 0 5 t : FVec Ideal S16x128 .f32) (ix2 b l) = aW1 mI (ix2 (⟨272 + b.val, by omega⟩ : Fin 288) l) := fun b l => by
    show V4 mI 0 main_v5 (((cfg2.win 5).blk t).view.emb (ix2 b l)) = _
    rw [V4_v5]
    refine extractStridedSlice_apply _ _ _ _ (ix2 (⟨272 + b.val, by omega⟩ : Fin 288) l) fun ax => ?_
    match ax with
    | ⟨0, _⟩ => show 272 + b.val = 272 + (win2_5.index t (0 : Fin 2) * 16 + 1 * b.val); omega
    | ⟨1, _⟩ => show l.val = 0 + (win2_5.index t (1 : Fin 2) * 128 + 1 * l.val); omega
  have h6 : ∀ l : Fin 128, (iblk2 (V4 mI) 0 6 t : FVec Ideal S1x128 .f32) (ix2 (0 : Fin 1) l) = aB1 mI (ix1 l) := fun l => by
    show V4 mI 0 main_v9 (((cfg2.win 6).blk t).view.emb (ix2 (0 : Fin 1) l)) = _
    rw [V4_v9]
    refine shapeCast_apply _ _ _ (ix1 l) ?_
    rw [Shape.rowMajor_val_one, Shape.rowMajor_val_two]
    show l.val = (win2_6.index t (0 : Fin 2) * 1 + 1 * 0) * 128 + (win2_6.index t (1 : Fin 2) * 128 + 1 * l.val)
    omega
  have h7 : ∀ (o : Fin 16) (l : Fin 128), (iblk2 (V4 mI) 0 7 t : FVec Ideal S16x128 .f32) (ix2 o l) = aW2 mI (ix2 l o) := fun o l => by
    show V4 mI 0 main_v10 (((cfg2.win 7).blk t).view.emb (ix2 o l)) = _
    rw [V4_v10]
    refine transpose_apply _ _ _ _ (ix2 l o) fun b => ?_
    match b with
    | ⟨0, _⟩ => show o.val = win2_7.index t (0 : Fin 2) * 16 + 1 * o.val; omega
    | ⟨1, _⟩ => show l.val = win2_7.index t (1 : Fin 2) * 128 + 1 * l.val; omega
  have h8 : ∀ o : Fin 16, (iblk2 (V4 mI) 0 8 t : FVec Ideal S16x1 .f32) (ix2 o (0 : Fin 1)) = aB2 mI (ix1 o) := fun o => by
    show V4 mI 0 main_v11 (((cfg2.win 8).blk t).view.emb (ix2 o (0 : Fin 1))) = _
    rw [V4_v11]
    refine shapeCast_apply _ _ _ (ix1 o) ?_
    rw [Shape.rowMajor_val_one, Shape.rowMajor_val_two]
    show o.val = (win2_8.index t (0 : Fin 2) * 16 + 1 * o.val) * 1 + (win2_8.index t (1 : Fin 2) * 1 + 1 * 0)
    omega
  have h9 : ∀ o : Fin 16, (iblk2 (V4 mI) 0 9 t : FVec Ideal S16x1 .f32) (ix2 o (0 : Fin 1)) = aGa mI (ix1 o) := fun o => by
    show V4 mI 0 main_v12 (((cfg2.win 9).blk t).view.emb (ix2 o (0 : Fin 1))) = _
    rw [V4_v12]
    refine shapeCast_apply _ _ _ (ix1 o) ?_
    rw [Shape.rowMajor_val_one, Shape.rowMajor_val_two]
    show o.val = (win2_9.index t (0 : Fin 2) * 16 + 1 * o.val) * 1 + (win2_9.index t (1 : Fin 2) * 1 + 1 * 0)
    omega
  have h10 : ∀ o : Fin 16, (iblk2 (V4 mI) 0 10 t : FVec Ideal S16x1 .f32) (ix2 o (0 : Fin 1)) = aBe mI (ix1 o) := fun o => by
    show V4 mI 0 main_v13 (((cfg2.win 10).blk t).view.emb (ix2 o (0 : Fin 1))) = _
    rw [V4_v13]
    refine shapeCast_apply _ _ _ (ix1 o) ?_
    rw [Shape.rowMajor_val_one, Shape.rowMajor_val_two]
    show o.val = (win2_10.index t (0 : Fin 2) * 16 + 1 * o.val) * 1 + (win2_10.index t (1 : Fin 2) * 1 + 1 * 0)
    omega
  refine (tail_spec (aX mI) (aEI mI) (aEA mI) (aU mI) (aW1 mI) (aB1 mI) (aW2 mI) (aB2 mI) (aGa mI) (aBe mI)
    (iblk2 (V4 mI) 0 0 t) (iblk2 (V4 mI) 0 1 t) (iblk2 (V4 mI) 0 2 t) (iblk2 (V4 mI) 0 3 t) (iblk2 (V4 mI) 0 4 t) (iblk2 (V4 mI) 0 5 t) (iblk2 (V4 mI) 0 6 t) (iblk2 (V4 mI) 0 7 t) (iblk2 (V4 mI) 0 8 t) (iblk2 (V4 mI) 0 9 t) (iblk2 (V4 mI) 0 10 t)
    ⟨3200 * t.val + e'.val, hE⟩ e' h0 h1 h2 h3 h4 h5 h6 h7 h8 h9 h10 o).trans ?_
  show _ = outT mI (((cfg2.win 11).blk t).view.emb (ix2 o e'))
  unfold outT
  refine congrArg _ (funext fun a => Fin.ext ?_)
  match a with
  | ⟨0, _⟩ => show 3200 * t.val + e'.val = win2_11.index t (1 : Fin 2) * 3200 + 1 * e'.val; omega
  | ⟨1, _⟩ => show o.val = win2_11.index t (0 : Fin 2) * 16 + 1 * o.val; omega

/-- An index of the transposed result is in point t's block iff each coordinate is in the block's range. -/
theorem mem_blk2 (t : Fin cfg2.N) (i : S16x320000.Idx) :
    i ∈ ((cfg2.win 11).blk t).view.set ↔ ∀ a : Fin 2, win2_11.index t a * S16x3200.size a ≤ (i a).val ∧ (i a).val < win2_11.index t a * S16x3200.size a + S16x3200.size a := by
  show i ∈ ((View.whole main_v14).slice (win2_11.rect t)).set ↔ _
  rw [View.set_slice_whole, Rect.mem_set_unit]
  exact Iff.rfl

/-- The hundred column blocks cover the transposed result: column e lies in block e / 3200. -/
theorem cover2 (i : S16x320000.Idx) : ∃ t : Fin cfg2.N, (cfg2.win 11).flush t = true ∧ i ∈ ((cfg2.win 11).blk t).view.set := by
  have hi0 : (i 0).val < 16 := (i 0).isLt
  have hi1 : (i 1).val < 320000 := (i 1).isLt
  have hN : cfg2.N = 100 := rfl
  refine ⟨⟨(i 1).val / 3200, by rw [hN]; omega⟩, flush2_11 _, ?_⟩
  rw [mem_blk2]
  obtain ⟨a0, a1, b0, b1, c0, c1, z30, z31, z40, z41, z50, z51, z60, z61, z70, z71, z80, z81, z90, z91, z100, z101, o0, o1⟩ := idx_facts2 ⟨(i 1).val / 3200, by rw [hN]; omega⟩
  intro a
  match a with
  | ⟨0, _⟩ =>
    show win2_11.index _ (0 : Fin 2) * 16 ≤ (i 0).val ∧ (i 0).val < win2_11.index _ (0 : Fin 2) * 16 + 16
    rw [o0]; omega
  | ⟨1, _⟩ =>
    show win2_11.index _ (1 : Fin 2) * 3200 ≤ (i 1).val ∧ (i 1).val < win2_11.index _ (1 : Fin 2) * 3200 + 3200
    rw [o1]; show (i 1).val / 3200 * 3200 ≤ (i 1).val ∧ (i 1).val < (i 1).val / 3200 * 3200 + 3200; omega

include hrange in
/-- THE TRANSPOSED RESULT after the second region. -/
theorem outT_value :
    (dat2 (V4 mI) (O1 (F := Ideal)) (B1 (F := Ideal)) 0).arrAt 11 cfg2.N = outT mI :=
  (dat2 (V4 mI) (O1 (F := Ideal)) (B1 (F := Ideal)) 0).arrAt_eq_of_cover 11 _ (fun t _ => flushed2_eq mI hrange t) cover2

end Region2Value

/-! ## The second region's exit, and the return -/

section Exit

variable {F : FTy → Type} [FloatOps F]
variable (m : (ℓ : Loc nD τ sig) → Buf (Elt F) ℓ)

/-- The transposed result's array is named by one window only. -/
theorem out_window_unique : ∀ w' : Fin cfg2.W, Pipeline.arrRef spec2 w' = main_v14 → w' = 11 := by decide

/-- After the second region the transposed result's array holds what the region's proof data says (two of the region's
    windows share the gathered array, so this is read off the definition for the one window that names this array). -/
theorem W5_at_out (c : Dev nD) :
    W5 m c (Proc.devRef .tc main_v14) = (dat2 (V4 m) (O1 (F := F)) (B1 (F := F)) c).arrAt 11 cfg2.N := by
  unfold W5 Pipeline.withArrays
  have h : ∃ w', Proc.devRef .tc (Pipeline.arrRef spec2 w') = Proc.devRef (τ := τ) .tc main_v14 := ⟨11, rfl⟩
  rw [dif_pos h]
  suffices ∀ (w' : Fin cfg2.W) (e : Proc.devRef .tc (Pipeline.arrRef spec2 w') = Proc.devRef (τ := τ) .tc main_v14),
      cast (congrArg (fun b' : DevRef τ sig => b'.ty.Contents (Elt F)) e) ((dat2 (V4 m) (O1 (F := F)) (B1 (F := F)) c).arrAt w' cfg2.N)
        = (dat2 (V4 m) (O1 (F := F)) (B1 (F := F)) c).arrAt 11 cfg2.N from this _ h.choose_spec
  intro w' e
  obtain rfl : w' = 11 := out_window_unique w' (Proc.devRef_injective _ e)
  rfl

end Exit

section Final

variable (mI : (ℓ : Loc nD τ sig) → Buf (Elt Ideal) ℓ)
variable (hrange : ∀ i : S2x320000.Idx, (mI ((SparseCore.T (0 : Dev nD)).loc main_arg1) i).toNat < 10000)

include hrange in
/-- THE KERNEL'S VALUE: the result buffer at the return is the specification of the ten arguments. -/
theorem kernel_value :
    W6 (F := Ideal) mI 0 (Proc.devRef .tc main_v15)
      = Cert.Spec.G (mI ((SparseCore.T (0 : Dev nD)).loc main_arg0)) (mI ((SparseCore.T (0 : Dev nD)).loc main_arg1))
          (mI ((SparseCore.T (0 : Dev nD)).loc main_arg2)) (mI ((SparseCore.T (0 : Dev nD)).loc main_arg3))
          (mI ((SparseCore.T (0 : Dev nD)).loc main_arg4)) (mI ((SparseCore.T (0 : Dev nD)).loc main_arg5))
          (mI ((SparseCore.T (0 : Dev nD)).loc main_arg6)) (mI ((SparseCore.T (0 : Dev nD)).loc main_arg7))
          (mI ((SparseCore.T (0 : Dev nD)).loc main_arg8)) (mI ((SparseCore.T (0 : Dev nD)).loc main_arg9)) := by
  show StableHlo.after hostOpsC (W5 mI 0) (Proc.devRef .tc main_v15) = _
  after_results
  rw [W5_at_out, outT_value mI hrange]
  funext i
  obtain ⟨e, o, rfl⟩ : ∃ (e : Fin 320000) (o : Fin 16), i = ix2 e o := ⟨i 0, i 1, eq_ix2 (n0 := 320000) (n1 := 16) i⟩
  refine (transpose_ix2_apply _ _ e o).trans ?_
  rfl

end Final

end Cert.KernelIdeal.Hand
end
-- ==== Proof.RefTerm.lean ====
/-
  The reference program's result as ONE pure term of its ten argument arrays: its operations composed in program
  order, the four outlined functions (the two index look-ups, the two ReLUs) written once each and applied.

  row/col     the two rows of edge_index, each reshaped to a vector of 320000 words;
  takeTerm    the look-up `x[idx]` in its default mode: a negative index wraps once (+10000), the wrapped index
              is then tested against [0, 9999] and an out-of-range one selects the fill word in place of the gathered row;
  catTerm     receiver rows, sender rows, edge attributes and the broadcast global attributes, side by side;
  h1Term, h2Term   the two linear layers, each followed by the maximum with zero;
  lnTerm      the normalisation of each row of 16: mean, centred values, mean of squares, division by the root, scale and shift.
-/
import proofs.«206068_g62534723830210_cont_9to1_m_587_24_alg».proof.ReferenceIdeal

noncomputable section

namespace Cert.ReferenceIdeal.RefRun

open Cert.ReferenceIdeal Idealize.ShloMosaic

variable {F : FTy → Type} [FloatOps F]
variable [Facts]
open Facts₀ Facts

/-- Row `r` of edge_index as a vector of 320000 words. -/
def rowIdx (a1 : IVec S2x320000 32) : IVec S320000 32 :=
  shapeCast S320000 (extractStridedSlice S1x320000 ![0, 0] a1 slices_S2x320000_S1x320000_0_0) shapeCasts_S1x320000_S320000

def colIdx (a1 : IVec S2x320000 32) : IVec S320000 32 :=
  shapeCast S320000 (extractStridedSlice S1x320000 ![1, 0] a1 slices_S2x320000_S1x320000_1_0) shapeCasts_S1x320000_S320000

/-- The look-up's index normalisation: a negative index wraps once; as a column of start indices. -/
def wrapIdx (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)

/-- Whether each (wrapped) start index lies in [0, 9999]. -/
def inRange (v5 : IVec S320000x1 32) : IVec S320000 1 :=
  Host.reduce IntOp.andi
    (andi (cmpi .sge v5 (broadcastInDim S320000x1 ![] bcast_S_S320000x1 (constantI S_ 32 0#32)))
      (cmpi .sle v5 (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- The look-up `x[idx]`: the gathered rows where the index is in range, the fill word elsewhere. -/
def takeTerm (x : FVec F S10000x128 .f32) (idx : IVec S320000 32) : FVec F S320000x128 .f32 :=
  select (broadcastInDim S320000x128 ![0] bcast_S320000_S320000x128_0 (inRange (wrapIdx idx)))
    (Host.gather gather_S10000x128_S320000x1_S320000x128_1_0_n_n_0_1_1128 x (wrapIdx idx))
    (broadcastInDim S320000x128 ![] bcast_S_S320000x128 (constant S_ .f32 0x7FC00000#32))

/-- The 288 input features of every edge. -/
def catTerm (a0 : FVec F S10000x128 .f32) (a1 : IVec S2x320000 32) (a2 : FVec F S320000x16 .f32) (a3 : FVec F S1x16 .f32) :
    FVec F S320000x288 .f32 :=
  concatenate S320000x288 1
    [⟨S320000x128, takeTerm a0 (colIdx a1)⟩, ⟨S320000x128, takeTerm a0 (rowIdx a1)⟩, ⟨S320000x16, a2⟩,
      ⟨S320000x16, broadcastInDim S320000x16 ![0, 1] bcast_S1x16_S320000x16_0_1 a3⟩]
    concatenates_S320000x128_S320000x128_S320000x16_S320000x16_S320000x288_d1

/-- The first layer and its ReLU. -/
def h1Term (cat : FVec F S320000x288 .f32) (a4 : FVec F S288x128 .f32) (a5 : FVec F S128 .f32) : FVec F S320000x128 .f32 :=
  maximumf
    (addf (Host.dotGeneral dot_S320000x288_S288x128_S320000x128_1_0_0_1_n_n none cat a4)
      (broadcastInDim S320000x128 ![0, 1] bcast_S1x128_S320000x128_0_1 (broadcastInDim S1x128 ![1] bcast_S128_S1x128_1 a5)))
    (broadcastInDim S320000x128 ![] bcast_S_S320000x128 (constant S_ .f32 0x00000000#32))

/-- The second layer and its ReLU. -/
def h2Term (h1 : FVec F S320000x128 .f32) (a6 : FVec F S128x16 .f32) (a7 : FVec F S16 .f32) : FVec F S320000x16 .f32 :=
  maximumf
    (addf (Host.dotGeneral dot_S320000x128_S128x16_S320000x16_1_0_0_1_n_n none h1 a6)
      (broadcastInDim S320000x16 ![0, 1] bcast_S1x16_S320000x16_0_1 (broadcastInDim S1x16 ![1] bcast_S16_S1x16_1 a7)))
    (broadcastInDim S320000x16 ![] bcast_S_S320000x16 (constant S_ .f32 0x00000000#32))

/-- The mean of each row of 16, as a column: the row sum from zero, divided by the literal 16. -/
def meanCol (v : FVec F S320000x16 .f32) : FVec F S320000x1 .f32 :=
  Host.divf
    (broadcastInDim S320000x1 ![0] bcast_S320000_S320000x1_0
      (Host.reduceAdd v (constant S_ .f32 0x00000000#32) reducesTo_S320000x16_S320000_d1 h_S_))
    (broadcastInDim S320000x1 ![] bcast_S_S320000x1 (constant S_ .f32 0x41800000#32))

/-- Each row minus its mean. -/
def centred (v : FVec F S320000x16 .f32) : FVec F S320000x16 .f32 :=
  subf v (broadcastInDim S320000x16 ![0, 1] bcast_S320000x1_S320000x16_0_1 (meanCol v))

/-- A vector of 16 repeated on every row. -/
def rows16 (g : FVec F S16 .f32) : FVec F S320000x16 .f32 :=
  broadcastInDim S320000x16 ![0, 1] bcast_S1x16_S320000x16_0_1 (broadcastInDim S1x16 ![1] bcast_S16_S1x16_1 g)

/-- The normalisation of each row of 16, scaled by `g` and shifted by `b`. -/
def lnTerm (v : FVec F S320000x16 .f32) (g b : FVec F S16 .f32) : FVec F S320000x16 .f32 :=
  addf
    (mulf
      (Host.divf (centred v)
        (broadcastInDim S320000x16 ![0, 1] bcast_S320000x1_S320000x16_0_1
          (Host.sqrt (addf (meanCol (mulf (centred v) (centred v)))
            (broadcastInDim S320000x1 ![] bcast_S_S320000x1 (constant S_ .f32 0x3727C5AC#32))))))
      (rows16 g))
    (rows16 b)

/-- The reference's result, as a pure function of its ten argument arrays. -/
def refTerm (a0 : FVec F S10000x128 .f32) (a1 : IVec S2x320000 32) (a2 : FVec F S320000x16 .f32) (a3 : FVec F S1x16 .f32)
    (a4 : FVec F S288x128 .f32) (a5 : FVec F S128 .f32) (a6 : FVec F S128x16 .f32) (a7 : FVec F S16 .f32)
    (a8 : FVec F S16 .f32) (a9 : FVec F S16 .f32) : FVec F S320000x16 .f32 :=
  lnTerm (h2Term (h1Term (catTerm a0 a1 a2 a3) a4 a5) a6 a7) a8 a9

end Cert.ReferenceIdeal.RefRun

end
-- ==== Proof.RefRun.lean ====
/-
  The reference program's run, read back: @main is a straight line of 95 host operations once its four calls are
  unfolded (each look-up is 23 operations over its own buffers, one of them the inner select; each ReLU is 3);
  every weakly fair execution of it terminates with the result buffer at the operations' composed term
  (`refTerm`) of the argument arrays, and the ten argument arrays unchanged (no operation writes one).
-/
import proofs.«206068_g62534723830210_cont_9to1_m_587_24_alg».proof.Proof.Gen.ReferenceIdeal
import proofs.«206068_g62534723830210_cont_9to1_m_587_24_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 95 operations in order, the calls unfolded: the two rows of edge_index (4), the look-up of the senders
    into `main_call0`'s buffers (23), of the receivers into `main_call1`'s (23), the concatenation and the first layer (6),
    its ReLU into `main_call2`'s (3), the second layer (4), its ReLU into `main_call3`'s (3), the normalisation (29). -/
abbrev ops : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000,
    TRef.nullary main_call0.c (constantI S_ 32 0#32),
    TRef.unary main_call0.c main_call0.v0 (broadcastInDim S320000 ![] bcast_S_S320000),
    TRef.binary (TRef.of main_v1 : TRef sig ⟨S320000, .i32⟩) main_call0.v0 main_call0.v1 (cmpi .slt),
    TRef.nullary main_call0.c_0 (constantI S_ 32 10000#32),
    TRef.unary main_call0.c_0 main_call0.v2 (broadcastInDim S320000 ![] bcast_S_S320000),
    TRef.binary (TRef.of main_v1 : TRef sig ⟨S320000, .i32⟩) main_call0.v2 main_call0.v3 addi,
    TRef.ternary main_call0.v1 main_call0.v3 (TRef.of main_v1 : TRef sig ⟨S320000, .i32⟩) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (TRef.of main_arg0 : TRef sig ⟨S10000x128, .f32⟩) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    TRef.nullary main_call1.c (constantI S_ 32 0#32),
    TRef.unary main_call1.c main_call1.v0 (broadcastInDim S320000 ![] bcast_S_S320000),
    TRef.binary (TRef.of main_v3 : TRef sig ⟨S320000, .i32⟩) main_call1.v0 main_call1.v1 (cmpi .slt),
    TRef.nullary main_call1.c_0 (constantI S_ 32 10000#32),
    TRef.unary main_call1.c_0 main_call1.v2 (broadcastInDim S320000 ![] bcast_S_S320000),
    TRef.binary (TRef.of main_v3 : TRef sig ⟨S320000, .i32⟩) main_call1.v2 main_call1.v3 addi,
    TRef.ternary main_call1.v1 main_call1.v3 (TRef.of main_v3 : TRef sig ⟨S320000, .i32⟩) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (TRef.of main_arg0 : TRef sig ⟨S10000x128, .f32⟩) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    unary main_arg3 main_v6 (broadcastInDim S320000x16 ![0, 1] bcast_S1x16_S320000x16_0_1 : (⟨S1x16, .f32⟩ : BufTy).Contents (Elt F) → (⟨S320000x16, .f32⟩ : BufTy).Contents (Elt F)),
    nary ![main_v5, main_v4, main_arg2, main_v6] main_v7 (fun u => concatenate S320000x288 1 [⟨S320000x128, u 0⟩, ⟨S320000x128, u 1⟩, ⟨S320000x16, u 2⟩, ⟨S320000x16, u 3⟩] concatenates_S320000x128_S320000x128_S320000x16_S320000x16_S320000x288_d1),
    binary main_v7 main_arg4 main_v8 ((fun l r => Host.dotGeneral dot_S320000x288_S288x128_S320000x128_1_0_0_1_n_n none l r) : (⟨S320000x288, .f32⟩ : BufTy).Contents (Elt F) → (⟨S288x128, .f32⟩ : BufTy).Contents (Elt F) → (⟨S320000x128, .f32⟩ : BufTy).Contents (Elt F)),
    unary main_arg5 main_v9 (broadcastInDim S1x128 ![1] bcast_S128_S1x128_1 : (⟨S128, .f32⟩ : BufTy).Contents (Elt F) → (⟨S1x128, .f32⟩ : BufTy).Contents (Elt F)),
    unary main_v9 main_v10 (broadcastInDim S320000x128 ![0, 1] bcast_S1x128_S320000x128_0_1 : (⟨S1x128, .f32⟩ : BufTy).Contents (Elt F) → (⟨S320000x128, .f32⟩ : BufTy).Contents (Elt F)),
    binary main_v8 main_v10 main_v11 (addf : (⟨S320000x128, .f32⟩ : BufTy).Contents (Elt F) → (⟨S320000x128, .f32⟩ : BufTy).Contents (Elt F) → (⟨S320000x128, .f32⟩ : BufTy).Contents (Elt F)),
    TRef.nullary main_call2.cst (constant S_ .f32 0x00000000#32),
    TRef.unary main_call2.cst main_call2.v0 (broadcastInDim S320000x128 ![] bcast_S_S320000x128),
    TRef.binary (TRef.of main_v11 : TRef sig ⟨S320000x128, .f32⟩) main_call2.v0 main_call2.v1 maximumf,
    binary main_v12 main_arg6 main_v13 ((fun l r => Host.dotGeneral dot_S320000x128_S128x16_S320000x16_1_0_0_1_n_n none l r) : (⟨S320000x128, .f32⟩ : BufTy).Contents (Elt F) → (⟨S128x16, .f32⟩ : BufTy).Contents (Elt F) → (⟨S320000x16, .f32⟩ : BufTy).Contents (Elt F)),
    unary main_arg7 main_v14 (broadcastInDim S1x16 ![1] bcast_S16_S1x16_1 : (⟨S16, .f32⟩ : BufTy).Contents (Elt F) → (⟨S1x16, .f32⟩ : BufTy).Contents (Elt F)),
    unary main_v14 main_v15 (broadcastInDim S320000x16 ![0, 1] bcast_S1x16_S320000x16_0_1 : (⟨S1x16, .f32⟩ : BufTy).Contents (Elt F) → (⟨S320000x16, .f32⟩ : BufTy).Contents (Elt F)),
    binary main_v13 main_v15 main_v16 (addf : (⟨S320000x16, .f32⟩ : BufTy).Contents (Elt F) → (⟨S320000x16, .f32⟩ : BufTy).Contents (Elt F) → (⟨S320000x16, .f32⟩ : BufTy).Contents (Elt F)),
    TRef.nullary main_call3.cst (constant S_ .f32 0x00000000#32),
    TRef.unary main_call3.cst main_call3.v0 (broadcastInDim S320000x16 ![] bcast_S_S320000x16),
    TRef.binary (TRef.of main_v16 : TRef sig ⟨S320000x16, .f32⟩) main_call3.v0 main_call3.v1 maximumf,
    nullary main_cst (constant S_ .f32 0x00000000#32),
    binary main_v17 main_cst main_v18 ((fun x v => Host.reduceAdd x v reducesTo_S320000x16_S320000_d1 h_S_) : (⟨S320000x16, .f32⟩ : BufTy).Contents (Elt F) → (⟨S_, .f32⟩ : BufTy).Contents (Elt F) → (⟨S320000, .f32⟩ : BufTy).Contents (Elt F)),
    unary main_v18 main_v19 (broadcastInDim S320000x1 ![0] bcast_S320000_S320000x1_0 : (⟨S320000, .f32⟩ : BufTy).Contents (Elt F) → (⟨S320000x1, .f32⟩ : BufTy).Contents (Elt F)),
    nullary main_cst_0 (constant S_ .f32 0x41800000#32),
    unary main_cst_0 main_v20 (broadcastInDim S320000x1 ![] bcast_S_S320000x1 : (⟨S_, .f32⟩ : BufTy).Contents (Elt F) → (⟨S320000x1, .f32⟩ : BufTy).Contents (Elt F)),
    binary main_v19 main_v20 main_v21 (Host.divf : (⟨S320000x1, .f32⟩ : BufTy).Contents (Elt F) → (⟨S320000x1, .f32⟩ : BufTy).Contents (Elt F) → (⟨S320000x1, .f32⟩ : BufTy).Contents (Elt F)),
    unary main_v21 main_v22 (broadcastInDim S320000x16 ![0, 1] bcast_S320000x1_S320000x16_0_1 : (⟨S320000x1, .f32⟩ : BufTy).Contents (Elt F) → (⟨S320000x16, .f32⟩ : BufTy).Contents (Elt F)),
    binary main_v17 main_v22 main_v23 (subf : (⟨S320000x16, .f32⟩ : BufTy).Contents (Elt F) → (⟨S320000x16, .f32⟩ : BufTy).Contents (Elt F) → (⟨S320000x16, .f32⟩ : BufTy).Contents (Elt F)),
    binary main_v23 main_v23 main_v24 (mulf : (⟨S320000x16, .f32⟩ : BufTy).Contents (Elt F) → (⟨S320000x16, .f32⟩ : BufTy).Contents (Elt F) → (⟨S320000x16, .f32⟩ : BufTy).Contents (Elt F)),
    nullary main_cst_1 (constant S_ .f32 0x00000000#32),
    binary main_v24 main_cst_1 main_v25 ((fun x v => Host.reduceAdd x v reducesTo_S320000x16_S320000_d1 h_S_) : (⟨S320000x16, .f32⟩ : BufTy).Contents (Elt F) → (⟨S_, .f32⟩ : BufTy).Contents (Elt F) → (⟨S320000, .f32⟩ : BufTy).Contents (Elt F)),
    unary main_v25 main_v26 (broadcastInDim S320000x1 ![0] bcast_S320000_S320000x1_0 : (⟨S320000, .f32⟩ : BufTy).Contents (Elt F) → (⟨S320000x1, .f32⟩ : BufTy).Contents (Elt F)),
    nullary main_cst_2 (constant S_ .f32 0x41800000#32),
    unary main_cst_2 main_v27 (broadcastInDim S320000x1 ![] bcast_S_S320000x1 : (⟨S_, .f32⟩ : BufTy).Contents (Elt F) → (⟨S320000x1, .f32⟩ : BufTy).Contents (Elt F)),
    binary main_v26 main_v27 main_v28 (Host.divf : (⟨S320000x1, .f32⟩ : BufTy).Contents (Elt F) → (⟨S320000x1, .f32⟩ : BufTy).Contents (Elt F) → (⟨S320000x1, .f32⟩ : BufTy).Contents (Elt F)),
    unary main_v21 main_v29 (broadcastInDim S320000x16 ![0, 1] bcast_S320000x1_S320000x16_0_1 : (⟨S320000x1, .f32⟩ : BufTy).Contents (Elt F) → (⟨S320000x16, .f32⟩ : BufTy).Contents (Elt F)),
    binary main_v17 main_v29 main_v30 (subf : (⟨S320000x16, .f32⟩ : BufTy).Contents (Elt F) → (⟨S320000x16, .f32⟩ : BufTy).Contents (Elt F) → (⟨S320000x16, .f32⟩ : BufTy).Contents (Elt F)),
    nullary main_cst_3 (constant S_ .f32 0x3727C5AC#32),
    unary main_cst_3 main_v31 (broadcastInDim S320000x1 ![] bcast_S_S320000x1 : (⟨S_, .f32⟩ : BufTy).Contents (Elt F) → (⟨S320000x1, .f32⟩ : BufTy).Contents (Elt F)),
    binary main_v28 main_v31 main_v32 (addf : (⟨S320000x1, .f32⟩ : BufTy).Contents (Elt F) → (⟨S320000x1, .f32⟩ : BufTy).Contents (Elt F) → (⟨S320000x1, .f32⟩ : BufTy).Contents (Elt F)),
    unary main_v32 main_v33 (Host.sqrt : (⟨S320000x1, .f32⟩ : BufTy).Contents (Elt F) → (⟨S320000x1, .f32⟩ : BufTy).Contents (Elt F)),
    unary main_v33 main_v34 (broadcastInDim S320000x16 ![0, 1] bcast_S320000x1_S320000x16_0_1 : (⟨S320000x1, .f32⟩ : BufTy).Contents (Elt F) → (⟨S320000x16, .f32⟩ : BufTy).Contents (Elt F)),
    binary main_v30 main_v34 main_v35 (Host.divf : (⟨S320000x16, .f32⟩ : BufTy).Contents (Elt F) → (⟨S320000x16, .f32⟩ : BufTy).Contents (Elt F) → (⟨S320000x16, .f32⟩ : BufTy).Contents (Elt F)),
    unary main_arg8 main_v36 (broadcastInDim S1x16 ![1] bcast_S16_S1x16_1 : (⟨S16, .f32⟩ : BufTy).Contents (Elt F) → (⟨S1x16, .f32⟩ : BufTy).Contents (Elt F)),
    unary main_v36 main_v37 (broadcastInDim S320000x16 ![0, 1] bcast_S1x16_S320000x16_0_1 : (⟨S1x16, .f32⟩ : BufTy).Contents (Elt F) → (⟨S320000x16, .f32⟩ : BufTy).Contents (Elt F)),
    binary main_v35 main_v37 main_v38 (mulf : (⟨S320000x16, .f32⟩ : BufTy).Contents (Elt F) → (⟨S320000x16, .f32⟩ : BufTy).Contents (Elt F) → (⟨S320000x16, .f32⟩ : BufTy).Contents (Elt F)),
    unary main_arg9 main_v39 (broadcastInDim S1x16 ![1] bcast_S16_S1x16_1 : (⟨S16, .f32⟩ : BufTy).Contents (Elt F) → (⟨S1x16, .f32⟩ : BufTy).Contents (Elt F)),
    unary main_v39 main_v40 (broadcastInDim S320000x16 ![0, 1] bcast_S1x16_S320000x16_0_1 : (⟨S1x16, .f32⟩ : BufTy).Contents (Elt F) → (⟨S320000x16, .f32⟩ : BufTy).Contents (Elt F)),
    binary main_v38 main_v40 main_v41 (addf : (⟨S320000x16, .f32⟩ : BufTy).Contents (Elt F) → (⟨S320000x16, .f32⟩ : BufTy).Contents (Elt F) → (⟨S320000x16, .f32⟩ : BufTy).Contents (Elt F)) ]

-- ninety-five binds re-associated: the rewrite under the chain recurses once per statement
set_option maxRecDepth 4096 in
set_option maxHeartbeats 4000000 in
/-- @main is that straight line: the functions' bodies unfolded at their calls, sequencing reassociated. -/
theorem main_eq (c : Dev nD) : main (F := F) c = seq ops := by
  simp only [main, fn_take.body, fn_where.body, fn_relu.body, fn_relu_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., nary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., binary_bufs_sub .., unary_bufs_sub .., nullary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub ..⟩

end Cert.ReferenceIdeal.RefRun

end
-- ==== Proof.RefOutBase.lean ====
/-
  The reference's line of 95 operations cut into five stretches — the two rows of edge_index; the look-up of the
  senders; the look-up of the receivers; the concatenation and the two layers; the normalisation — with, for each
  stretch, the buffers it writes and the fact that every other buffer passes through it unchanged.
-/
import proofs.«206068_g62534723830210_cont_9to1_m_587_24_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two lines folded one after the other are their concatenation folded. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Contents moved to a typed reference's buffer type and back are the contents. -/
theorem ofBuf_toBuf {T : BufTy} (x : TRef sig T) (v : T.Contents (Elt F)) : x.ofBuf (x.toBuf v) = v := by
  obtain ⟨r, h, _, _⟩ := x
  subst h
  rfl

/-- The two rows of edge_index, each sliced out and reshaped to a vector. -/
abbrev segA : List (HloOp τ sig (Elt F)) :=
  [ unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    reshape main_v2 main_v3 rfl shapeCasts_S1x320000_S320000 ]
/-- The buffers `segA` writes. -/
abbrev segA_W : List (Ref sig .tc) := [main_v0, main_v1, main_v2, main_v3]
theorem segA_writes : (segA : List (HloOp τ sig (Elt F))).Forall fun op =>
    op.writes ⊆ (segA_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩
/-- A buffer `segA` does not write keeps its contents through it. -/
theorem segA_keep (W : Valuation τ sig (Elt F)) (r : Ref sig .tc) (h : r ∉ segA_W) :
    after segA W (Proc.devRef .tc r) = W (Proc.devRef .tc r) :=
  after_of_writes_sub segA W segA_writes h

/-- The look-up of the senders' rows, into \`main_call0\`'s buffers. -/
abbrev segT0 : List (HloOp τ sig (Elt F)) :=
  [ TRef.nullary main_call0.c (constantI S_ 32 0#32),
    TRef.unary main_call0.c main_call0.v0 (broadcastInDim S320000 ![] bcast_S_S320000),
    TRef.binary (TRef.of main_v1 : TRef sig ⟨S320000, .i32⟩) main_call0.v0 main_call0.v1 (cmpi .slt),
    TRef.nullary main_call0.c_0 (constantI S_ 32 10000#32),
    TRef.unary main_call0.c_0 main_call0.v2 (broadcastInDim S320000 ![] bcast_S_S320000),
    TRef.binary (TRef.of main_v1 : TRef sig ⟨S320000, .i32⟩) main_call0.v2 main_call0.v3 addi,
    TRef.ternary main_call0.v1 main_call0.v3 (TRef.of main_v1 : TRef sig ⟨S320000, .i32⟩) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (TRef.of main_arg0 : TRef sig ⟨S10000x128, .f32⟩) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select ]
/-- The buffers `segT0` writes. -/
abbrev segT0_W : List (Ref sig .tc) := [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]
theorem segT0_writes : (segT0 : List (HloOp τ sig (Elt F))).Forall fun op =>
    op.writes ⊆ (segT0_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩
/-- A buffer `segT0` does not write keeps its contents through it. -/
theorem segT0_keep (W : Valuation τ sig (Elt F)) (r : Ref sig .tc) (h : r ∉ segT0_W) :
    after segT0 W (Proc.devRef .tc r) = W (Proc.devRef .tc r) :=
  after_of_writes_sub segT0 W segT0_writes h

/-- The look-up of the receivers' rows, into \`main_call1\`'s buffers. -/
abbrev segT1 : List (HloOp τ sig (Elt F)) :=
  [ TRef.nullary main_call1.c (constantI S_ 32 0#32),
    TRef.unary main_call1.c main_call1.v0 (broadcastInDim S320000 ![] bcast_S_S320000),
    TRef.binary (TRef.of main_v3 : TRef sig ⟨S320000, .i32⟩) main_call1.v0 main_call1.v1 (cmpi .slt),
    TRef.nullary main_call1.c_0 (constantI S_ 32 10000#32),
    TRef.unary main_call1.c_0 main_call1.v2 (broadcastInDim S320000 ![] bcast_S_S320000),
    TRef.binary (TRef.of main_v3 : TRef sig ⟨S320000, .i32⟩) main_call1.v2 main_call1.v3 addi,
    TRef.ternary main_call1.v1 main_call1.v3 (TRef.of main_v3 : TRef sig ⟨S320000, .i32⟩) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (TRef.of main_arg0 : TRef sig ⟨S10000x128, .f32⟩) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select ]
/-- The buffers `segT1` writes. -/
abbrev segT1_W : List (Ref sig .tc) := [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]
theorem segT1_writes : (segT1 : List (HloOp τ sig (Elt F))).Forall fun op =>
    op.writes ⊆ (segT1_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩
/-- A buffer `segT1` does not write keeps its contents through it. -/
theorem segT1_keep (W : Valuation τ sig (Elt F)) (r : Ref sig .tc) (h : r ∉ segT1_W) :
    after segT1 W (Proc.devRef .tc r) = W (Proc.devRef .tc r) :=
  after_of_writes_sub segT1 W segT1_writes h

/-- The concatenation and the two layers with their ReLUs. -/
abbrev segB : List (HloOp τ sig (Elt F)) :=
  [ unary main_arg3 main_v6 (broadcastInDim S320000x16 ![0, 1] bcast_S1x16_S320000x16_0_1 : (⟨S1x16, .f32⟩ : BufTy).Contents (Elt F) → (⟨S320000x16, .f32⟩ : BufTy).Contents (Elt F)),
    nary ![main_v5, main_v4, main_arg2, main_v6] main_v7 (fun u => concatenate S320000x288 1 [⟨S320000x128, u 0⟩, ⟨S320000x128, u 1⟩, ⟨S320000x16, u 2⟩, ⟨S320000x16, u 3⟩] concatenates_S320000x128_S320000x128_S320000x16_S320000x16_S320000x288_d1),
    binary main_v7 main_arg4 main_v8 ((fun l r => Host.dotGeneral dot_S320000x288_S288x128_S320000x128_1_0_0_1_n_n none l r) : (⟨S320000x288, .f32⟩ : BufTy).Contents (Elt F) → (⟨S288x128, .f32⟩ : BufTy).Contents (Elt F) → (⟨S320000x128, .f32⟩ : BufTy).Contents (Elt F)),
    unary main_arg5 main_v9 (broadcastInDim S1x128 ![1] bcast_S128_S1x128_1 : (⟨S128, .f32⟩ : BufTy).Contents (Elt F) → (⟨S1x128, .f32⟩ : BufTy).Contents (Elt F)),
    unary main_v9 main_v10 (broadcastInDim S320000x128 ![0, 1] bcast_S1x128_S320000x128_0_1 : (⟨S1x128, .f32⟩ : BufTy).Contents (Elt F) → (⟨S320000x128, .f32⟩ : BufTy).Contents (Elt F)),
    binary main_v8 main_v10 main_v11 (addf : (⟨S320000x128, .f32⟩ : BufTy).Contents (Elt F) → (⟨S320000x128, .f32⟩ : BufTy).Contents (Elt F) → (⟨S320000x128, .f32⟩ : BufTy).Contents (Elt F)),
    TRef.nullary main_call2.cst (constant S_ .f32 0x00000000#32),
    TRef.unary main_call2.cst main_call2.v0 (broadcastInDim S320000x128 ![] bcast_S_S320000x128),
    TRef.binary (TRef.of main_v11 : TRef sig ⟨S320000x128, .f32⟩) main_call2.v0 main_call2.v1 maximumf,
    binary main_v12 main_arg6 main_v13 ((fun l r => Host.dotGeneral dot_S320000x128_S128x16_S320000x16_1_0_0_1_n_n none l r) : (⟨S320000x128, .f32⟩ : BufTy).Contents (Elt F) → (⟨S128x16, .f32⟩ : BufTy).Contents (Elt F) → (⟨S320000x16, .f32⟩ : BufTy).Contents (Elt F)),
    unary main_arg7 main_v14 (broadcastInDim S1x16 ![1] bcast_S16_S1x16_1 : (⟨S16, .f32⟩ : BufTy).Contents (Elt F) → (⟨S1x16, .f32⟩ : BufTy).Contents (Elt F)),
    unary main_v14 main_v15 (broadcastInDim S320000x16 ![0, 1] bcast_S1x16_S320000x16_0_1 : (⟨S1x16, .f32⟩ : BufTy).Contents (Elt F) → (⟨S320000x16, .f32⟩ : BufTy).Contents (Elt F)),
    binary main_v13 main_v15 main_v16 (addf : (⟨S320000x16, .f32⟩ : BufTy).Contents (Elt F) → (⟨S320000x16, .f32⟩ : BufTy).Contents (Elt F) → (⟨S320000x16, .f32⟩ : BufTy).Contents (Elt F)),
    TRef.nullary main_call3.cst (constant S_ .f32 0x00000000#32),
    TRef.unary main_call3.cst main_call3.v0 (broadcastInDim S320000x16 ![] bcast_S_S320000x16),
    TRef.binary (TRef.of main_v16 : TRef sig ⟨S320000x16, .f32⟩) main_call3.v0 main_call3.v1 maximumf ]
/-- The buffers `segB` writes. -/
abbrev segB_W : List (Ref sig .tc) := [main_v6, main_v7, main_v8, main_v9, main_v10, main_v11, main_call2.cst.ref, main_call2.v0.ref, main_call2.v1.ref, main_v13, main_v14, main_v15, main_v16, main_call3.cst.ref, main_call3.v0.ref, main_call3.v1.ref]
theorem segB_writes : (segB : List (HloOp τ sig (Elt F))).Forall fun op =>
    op.writes ⊆ (segB_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩
/-- A buffer `segB` does not write keeps its contents through it. -/
theorem segB_keep (W : Valuation τ sig (Elt F)) (r : Ref sig .tc) (h : r ∉ segB_W) :
    after segB W (Proc.devRef .tc r) = W (Proc.devRef .tc r) :=
  after_of_writes_sub segB W segB_writes h

/-- The normalisation of each row of 16. -/
abbrev segC : List (HloOp τ sig (Elt F)) :=
  [ nullary main_cst (constant S_ .f32 0x00000000#32),
    binary main_v17 main_cst main_v18 ((fun x v => Host.reduceAdd x v reducesTo_S320000x16_S320000_d1 h_S_) : (⟨S320000x16, .f32⟩ : BufTy).Contents (Elt F) → (⟨S_, .f32⟩ : BufTy).Contents (Elt F) → (⟨S320000, .f32⟩ : BufTy).Contents (Elt F)),
    unary main_v18 main_v19 (broadcastInDim S320000x1 ![0] bcast_S320000_S320000x1_0 : (⟨S320000, .f32⟩ : BufTy).Contents (Elt F) → (⟨S320000x1, .f32⟩ : BufTy).Contents (Elt F)),
    nullary main_cst_0 (constant S_ .f32 0x41800000#32),
    unary main_cst_0 main_v20 (broadcastInDim S320000x1 ![] bcast_S_S320000x1 : (⟨S_, .f32⟩ : BufTy).Contents (Elt F) → (⟨S320000x1, .f32⟩ : BufTy).Contents (Elt F)),
    binary main_v19 main_v20 main_v21 (Host.divf : (⟨S320000x1, .f32⟩ : BufTy).Contents (Elt F) → (⟨S320000x1, .f32⟩ : BufTy).Contents (Elt F) → (⟨S320000x1, .f32⟩ : BufTy).Contents (Elt F)),
    unary main_v21 main_v22 (broadcastInDim S320000x16 ![0, 1] bcast_S320000x1_S320000x16_0_1 : (⟨S320000x1, .f32⟩ : BufTy).Contents (Elt F) → (⟨S320000x16, .f32⟩ : BufTy).Contents (Elt F)),
    binary main_v17 main_v22 main_v23 (subf : (⟨S320000x16, .f32⟩ : BufTy).Contents (Elt F) → (⟨S320000x16, .f32⟩ : BufTy).Contents (Elt F) → (⟨S320000x16, .f32⟩ : BufTy).Contents (Elt F)),
    binary main_v23 main_v23 main_v24 (mulf : (⟨S320000x16, .f32⟩ : BufTy).Contents (Elt F) → (⟨S320000x16, .f32⟩ : BufTy).Contents (Elt F) → (⟨S320000x16, .f32⟩ : BufTy).Contents (Elt F)),
    nullary main_cst_1 (constant S_ .f32 0x00000000#32),
    binary main_v24 main_cst_1 main_v25 ((fun x v => Host.reduceAdd x v reducesTo_S320000x16_S320000_d1 h_S_) : (⟨S320000x16, .f32⟩ : BufTy).Contents (Elt F) → (⟨S_, .f32⟩ : BufTy).Contents (Elt F) → (⟨S320000, .f32⟩ : BufTy).Contents (Elt F)),
    unary main_v25 main_v26 (broadcastInDim S320000x1 ![0] bcast_S320000_S320000x1_0 : (⟨S320000, .f32⟩ : BufTy).Contents (Elt F) → (⟨S320000x1, .f32⟩ : BufTy).Contents (Elt F)),
    nullary main_cst_2 (constant S_ .f32 0x41800000#32),
    unary main_cst_2 main_v27 (broadcastInDim S320000x1 ![] bcast_S_S320000x1 : (⟨S_, .f32⟩ : BufTy).Contents (Elt F) → (⟨S320000x1, .f32⟩ : BufTy).Contents (Elt F)),
    binary main_v26 main_v27 main_v28 (Host.divf : (⟨S320000x1, .f32⟩ : BufTy).Contents (Elt F) → (⟨S320000x1, .f32⟩ : BufTy).Contents (Elt F) → (⟨S320000x1, .f32⟩ : BufTy).Contents (Elt F)),
    unary main_v21 main_v29 (broadcastInDim S320000x16 ![0, 1] bcast_S320000x1_S320000x16_0_1 : (⟨S320000x1, .f32⟩ : BufTy).Contents (Elt F) → (⟨S320000x16, .f32⟩ : BufTy).Contents (Elt F)),
    binary main_v17 main_v29 main_v30 (subf : (⟨S320000x16, .f32⟩ : BufTy).Contents (Elt F) → (⟨S320000x16, .f32⟩ : BufTy).Contents (Elt F) → (⟨S320000x16, .f32⟩ : BufTy).Contents (Elt F)),
    nullary main_cst_3 (constant S_ .f32 0x3727C5AC#32),
    unary main_cst_3 main_v31 (broadcastInDim S320000x1 ![] bcast_S_S320000x1 : (⟨S_, .f32⟩ : BufTy).Contents (Elt F) → (⟨S320000x1, .f32⟩ : BufTy).Contents (Elt F)),
    binary main_v28 main_v31 main_v32 (addf : (⟨S320000x1, .f32⟩ : BufTy).Contents (Elt F) → (⟨S320000x1, .f32⟩ : BufTy).Contents (Elt F) → (⟨S320000x1, .f32⟩ : BufTy).Contents (Elt F)),
    unary main_v32 main_v33 (Host.sqrt : (⟨S320000x1, .f32⟩ : BufTy).Contents (Elt F) → (⟨S320000x1, .f32⟩ : BufTy).Contents (Elt F)),
    unary main_v33 main_v34 (broadcastInDim S320000x16 ![0, 1] bcast_S320000x1_S320000x16_0_1 : (⟨S320000x1, .f32⟩ : BufTy).Contents (Elt F) → (⟨S320000x16, .f32⟩ : BufTy).Contents (Elt F)),
    binary main_v30 main_v34 main_v35 (Host.divf : (⟨S320000x16, .f32⟩ : BufTy).Contents (Elt F) → (⟨S320000x16, .f32⟩ : BufTy).Contents (Elt F) → (⟨S320000x16, .f32⟩ : BufTy).Contents (Elt F)),
    unary main_arg8 main_v36 (broadcastInDim S1x16 ![1] bcast_S16_S1x16_1 : (⟨S16, .f32⟩ : BufTy).Contents (Elt F) → (⟨S1x16, .f32⟩ : BufTy).Contents (Elt F)),
    unary main_v36 main_v37 (broadcastInDim S320000x16 ![0, 1] bcast_S1x16_S320000x16_0_1 : (⟨S1x16, .f32⟩ : BufTy).Contents (Elt F) → (⟨S320000x16, .f32⟩ : BufTy).Contents (Elt F)),
    binary main_v35 main_v37 main_v38 (mulf : (⟨S320000x16, .f32⟩ : BufTy).Contents (Elt F) → (⟨S320000x16, .f32⟩ : BufTy).Contents (Elt F) → (⟨S320000x16, .f32⟩ : BufTy).Contents (Elt F)),
    unary main_arg9 main_v39 (broadcastInDim S1x16 ![1] bcast_S16_S1x16_1 : (⟨S16, .f32⟩ : BufTy).Contents (Elt F) → (⟨S1x16, .f32⟩ : BufTy).Contents (Elt F)),
    unary main_v39 main_v40 (broadcastInDim S320000x16 ![0, 1] bcast_S1x16_S320000x16_0_1 : (⟨S1x16, .f32⟩ : BufTy).Contents (Elt F) → (⟨S320000x16, .f32⟩ : BufTy).Contents (Elt F)),
    binary main_v38 main_v40 main_v41 (addf : (⟨S320000x16, .f32⟩ : BufTy).Contents (Elt F) → (⟨S320000x16, .f32⟩ : BufTy).Contents (Elt F) → (⟨S320000x16, .f32⟩ : BufTy).Contents (Elt F)) ]
/-- The buffers `segC` writes. -/
abbrev segC_W : List (Ref sig .tc) := [main_cst, main_v18, main_v19, main_cst_0, main_v20, main_v21, main_v22, main_v23, main_v24, main_cst_1, main_v25, main_v26, main_cst_2, main_v27, main_v28, main_v29, main_v30, main_cst_3, main_v31, main_v32, main_v33, main_v34, main_v35, main_v36, main_v37, main_v38, main_v39, main_v40, main_v41]
theorem segC_writes : (segC : List (HloOp τ sig (Elt F))).Forall fun op =>
    op.writes ⊆ (segC_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide)),
    (by simp only [nullary_writes, unary_writes, binary_writes, ternary_writes, quaternary_writes, reshape_writes, binaryIndexed_writes, nary_writes, unaryIndexed_writes, Finset.singleton_subset_iff, List.mem_toFinset]; exact List.mem_map_of_mem (by decide))⟩
/-- A buffer `segC` does not write keeps its contents through it. -/
theorem segC_keep (W : Valuation τ sig (Elt F)) (r : Ref sig .tc) (h : r ∉ segC_W) :
    after segC W (Proc.devRef .tc r) = W (Proc.devRef .tc r) :=
  after_of_writes_sub segC W segC_writes h

/-- The line is the five stretches in order. -/
theorem ops_eq : (ops : List (HloOp τ sig (Elt F))) = segA ++ segT0 ++ segT1 ++ segB ++ segC := rfl

end Cert.ReferenceIdeal.RefRun

end
-- ==== Proof.RefOutT0.lean ====
/-
  What the first two stretches compute: the two rows of edge_index as vectors, and the senders' rows.
-/
import proofs.«206068_g62534723830210_cont_9to1_m_587_24_alg».proof.Proof.RefOutBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem segA_v1 (W : Valuation τ sig (Elt F)) :
    after segA W (main_v1 : DevRef τ sig) = rowIdx (W (main_arg1 : DevRef τ sig)) := by
  after_results
  rfl
set_option maxHeartbeats 2000000 in
theorem segA_v3 (W : Valuation τ sig (Elt F)) :
    after segA W (main_v3 : DevRef τ sig) = colIdx (W (main_arg1 : DevRef τ sig)) := by
  after_results
  rfl

attribute [local irreducible] Host.reduce Host.gather in
set_option maxHeartbeats 2000000 in
/-- The look-up's 23 operations leave the gathered-or-filled rows in its result buffer. -/
theorem segT0_v4 (W : Valuation τ sig (Elt F)) :
    after segT0 W (main_v4 : DevRef τ sig) = takeTerm (W (main_arg0 : DevRef τ sig)) (W (main_v1 : DevRef τ sig)) := by
  after_results
  simp only [ofBuf_toBuf, TRef.ofBuf, TRef.toBuf, cast_eq]
  rfl

end Cert.ReferenceIdeal.RefRun

end
-- ==== Proof.RefOutT1.lean ====
/-
  What the third stretch computes: the receivers' rows.
-/
import proofs.«206068_g62534723830210_cont_9to1_m_587_24_alg».proof.Proof.RefOutBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather in
set_option maxHeartbeats 2000000 in
/-- The look-up's 23 operations leave the gathered-or-filled rows in its result buffer. -/
theorem segT1_v5 (W : Valuation τ sig (Elt F)) :
    after segT1 W (main_v5 : DevRef τ sig) = takeTerm (W (main_arg0 : DevRef τ sig)) (W (main_v3 : DevRef τ sig)) := by
  after_results
  simp only [ofBuf_toBuf, TRef.ofBuf, TRef.toBuf, cast_eq]
  rfl

end Cert.ReferenceIdeal.RefRun

end
-- ==== Proof.RefOutB.lean ====
/-
  What the fourth stretch computes: the second layer's output after its ReLU, from the two looked-up arrays.
-/
import proofs.«206068_g62534723830210_cont_9to1_m_587_24_alg».proof.Proof.RefOutBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] concatenate in
set_option maxHeartbeats 2000000 in
theorem segB_v17 (W : Valuation τ sig (Elt F)) :
    after segB W (main_v17 : DevRef τ sig)
      = h2Term (h1Term (concatenate S320000x288 1
            [⟨S320000x128, (W (main_v5 : DevRef τ sig) : FVec F S320000x128 .f32)⟩, ⟨S320000x128, (W (main_v4 : DevRef τ sig) : FVec F S320000x128 .f32)⟩,
              ⟨S320000x16, (W (main_arg2 : DevRef τ sig) : FVec F S320000x16 .f32)⟩,
              ⟨S320000x16, broadcastInDim S320000x16 ![0, 1] bcast_S1x16_S320000x16_0_1 (W (main_arg3 : DevRef τ sig) : FVec F S1x16 .f32)⟩]
            concatenates_S320000x128_S320000x128_S320000x16_S320000x16_S320000x288_d1)
          (W (main_arg4 : DevRef τ sig)) (W (main_arg5 : DevRef τ sig))) (W (main_arg6 : DevRef τ sig)) (W (main_arg7 : DevRef τ sig)) := by
  after_results
  simp only [ofBuf_toBuf, TRef.ofBuf, TRef.toBuf, cast_eq]
  rfl

end Cert.ReferenceIdeal.RefRun

end
-- ==== Proof.RefOutC.lean ====
/-
  What the last stretch computes: the normalisation of the second layer's output.
-/
import proofs.«206068_g62534723830210_cont_9to1_m_587_24_alg».proof.Proof.RefOutBase

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 2000000 in
theorem segC_v41 (W : Valuation τ sig (Elt F)) :
    after segC W (main_v41 : DevRef τ sig) = lnTerm (W (main_v17 : DevRef τ sig)) (W (main_arg8 : DevRef τ sig)) (W (main_arg9 : DevRef τ sig)) := by
  after_results
  rfl

end Cert.ReferenceIdeal.RefRun

end
-- ==== Proof.RefOut.lean ====
/-
  The reference's run, read back: every weakly fair execution of @main terminates with the result buffer at the
  composed term `refTerm` of the argument arrays — the five stretches' results chained, each buffer a stretch does not
  write passed through it — and the ten argument arrays unchanged.
-/
import proofs.«206068_g62534723830210_cont_9to1_m_587_24_alg».proof.Proof.RefOutT0
import proofs.«206068_g62534723830210_cont_9to1_m_587_24_alg».proof.Proof.RefOutT1
import proofs.«206068_g62534723830210_cont_9to1_m_587_24_alg».proof.Proof.RefOutB
import proofs.«206068_g62534723830210_cont_9to1_m_587_24_alg».proof.Proof.RefOutC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold at the result buffer is the composed term of the arguments. -/
theorem out_eq (V : Valuation τ sig (Elt F)) :
    after ops V (main_v41 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  rw [ops_eq, after_append', after_append', after_append', after_append']
  rw [segC_v41, segB_v17, segB_keep _ main_arg8 (by decide), segB_keep _ main_arg9 (by decide)]
  rw [segT1_v5, segT1_keep _ main_v4 (by decide), segT1_keep _ main_arg2 (by decide), segT1_keep _ main_arg3 (by decide), segT1_keep _ main_arg4 (by decide), segT1_keep _ main_arg5 (by decide), segT1_keep _ main_arg6 (by decide), segT1_keep _ main_arg7 (by decide), segT1_keep _ main_arg8 (by decide), segT1_keep _ main_arg9 (by decide)]
  rw [segT0_v4, segT0_keep _ main_arg0 (by decide), segT0_keep _ main_v3 (by decide), segT0_keep _ main_arg2 (by decide), segT0_keep _ main_arg3 (by decide), segT0_keep _ main_arg4 (by decide), segT0_keep _ main_arg5 (by decide), segT0_keep _ main_arg6 (by decide), segT0_keep _ main_arg7 (by decide), segT0_keep _ main_arg8 (by decide), segT0_keep _ main_arg9 (by decide)]
  rw [segA_v1, segA_v3, segA_keep _ main_arg0 (by decide), segA_keep _ main_arg2 (by decide), segA_keep _ main_arg3 (by decide), segA_keep _ main_arg4 (by decide), segA_keep _ main_arg5 (by decide), segA_keep _ main_arg6 (by decide), segA_keep _ main_arg7 (by decide), segA_keep _ main_arg8 (by decide), segA_keep _ main_arg9 (by decide)]
  rfl

/-- No operation writes an argument. -/
theorem arg_keep (V : Valuation τ sig (Elt F)) (r : Ref sig .tc)
    (hA : r ∉ segA_W) (hT0 : r ∉ segT0_W) (hT1 : r ∉ segT1_W) (hB : r ∉ segB_W) (hC : r ∉ segC_W) :
    after ops V (Proc.devRef .tc r) = V (Proc.devRef .tc r) := by
  rw [ops_eq, after_append', after_append', after_append', after_append', segC_keep _ r hC, segB_keep _ r hB,
    segT1_keep _ r hT1, segT0_keep _ r hT0, segA_keep _ r hA]

/-- On every device, for any float values, from any memory with zero counters: every weakly fair execution of
    @main terminates with the result at the operations' composed term of the arguments and the arguments unchanged. -/
theorem run_F (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v41) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v41).trans (out_eq _),
      (h c main_arg0).trans (arg_keep _ main_arg0 (by decide) (by decide) (by decide) (by decide) (by decide)),
      (h c main_arg1).trans (arg_keep _ main_arg1 (by decide) (by decide) (by decide) (by decide) (by decide)),
      (h c main_arg2).trans (arg_keep _ main_arg2 (by decide) (by decide) (by decide) (by decide) (by decide)),
      (h c main_arg3).trans (arg_keep _ main_arg3 (by decide) (by decide) (by decide) (by decide) (by decide)),
      (h c main_arg4).trans (arg_keep _ main_arg4 (by decide) (by decide) (by decide) (by decide) (by decide)),
      (h c main_arg5).trans (arg_keep _ main_arg5 (by decide) (by decide) (by decide) (by decide) (by decide)),
      (h c main_arg6).trans (arg_keep _ main_arg6 (by decide) (by decide) (by decide) (by decide) (by decide)),
      (h c main_arg7).trans (arg_keep _ main_arg7 (by decide) (by decide) (by decide) (by decide) (by decide)),
      (h c main_arg8).trans (arg_keep _ main_arg8 (by decide) (by decide) (by decide) (by decide) (by decide)),
      (h c main_arg9).trans (arg_keep _ main_arg9 (by decide) (by decide) (by decide) (by decide) (by decide))⟩)
    (run_seq scopedRefs_eq scopedSems_eq defs main (fun _ => ops) main_eq (fun _ => ops_sub) m ρ)

end Cert.ReferenceIdeal.RefRun

end
-- ==== Proof.RefRunIdeal.lean ====
/-
  The reference's run at the ideal values, in the form the certificate's claims state it.
-/
import proofs.«206068_g62534723830210_cont_9to1_m_587_24_alg».proof.Proof.RefOut
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- Every weakly fair execution of the reference at the ideal values terminates with its result at `refTerm` of the
    argument arrays, and the ten argument arrays unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev nD,
      r.2.mem ((c.tc : Thread nD τ).loc main_v41) = refTerm (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  run_F m ρ

end Cert.ReferenceIdeal.RefRun

end
-- ==== Proof.RefLemmas.lean ====
/-
  Two facts about host operations the reference's look-up is made of, stated for any sizes:
  an `and`-reduction of an array of ones is one; a gather of whole rows of a matrix reads, at (r, k), the matrix at the
  row the r-th start index names (read signed, clamped into range) and column k.
-/
import Idealize.ShloMosaic.Lib.Pipeline.Value
import Idealize.ShloMosaic.Lib.ValueIdx
import Idealize.ShloMosaic.Lib.ReduceAll
import Idealize.ShloMosaic.PureOps.Ideal.Laws

noncomputable section

open scoped BigOperators

namespace Cert.RefLemmas

open Idealize.ShloMosaic Idealize.ShloMosaic.ValueIdx

/-! ## An `and`-reduction of ones -/

/-- A left fold by `and` from 1 over words that are all 1 is 1. -/
theorem foldl_andi_one {ι : Type} (x : ι → BitVec 1) (hx : ∀ i, x i = 1#1) :
    ∀ l : List ι, l.foldl (fun r i => IntOp.andi r (x i)) 1#1 = 1#1
  | [] => rfl
  | a :: l => by
    rw [List.foldl_cons, hx a, show IntOp.andi 1#1 1#1 = 1#1 from by decide]
    exact foldl_andi_one x hx l

/-- A reduction by `and` from 1 of an array of ones is 1 everywhere. -/
theorem reduce_andi_one {s t u : Shape} {axes : List (Fin s.rank)} (x : s.Idx → BitVec 1) (init : u.Idx → BitVec 1)
    (h : s.ReducesTo axes t) (hu : 0 < u.numel) (j : t.Idx) (hi : ∀ k, init k = 1#1) (hx : ∀ i, x i = 1#1) :
    Host.reduce IntOp.andi x init h hu j = 1#1 := by
  rw [Host.reduce_eq_foldl, hi]
  exact foldl_andi_one x hx _

/-! ## A gather of whole rows -/

section Rows
variable {α : Type}

/-- The dimension numbers of `x[idx]` for a matrix `x : [N, C]` and a column of start indices `[R, 1]`: result row `r` is the
    whole row of `x` that start index `r` names. -/
abbrev rowDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- That gather read at `(r, k)`: the matrix at row (start index `r`, read signed, clamped into `[0, N − 1]`) and column `k`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowDims N C R wf) x idx (ix2 e k)
      = x (ix2 (⟨min (idx (ix2 e (0 : Fin 1))).toInt.toNat (N - 1), by omega⟩ : Fin N) k) := by
  unfold Host.gather
  congr 1
  funext a
  refine Fin.ext ?_
  show (rowDims N C R wf).start (ix2 e k) idx a + (rowDims N C R wf).batchCoord (ix2 e k) a
    + (rowDims N C R wf).offCoord (ix2 e k) a = _
  rw [GatherDims.batchCoord_eq_zero _ _ _ List.not_mem_nil, Nat.add_zero]
  have h01 : a = (0 : Fin 2) ∨ a = (1 : Fin 2) := by
    have := a.isLt
    rcases a with ⟨v, hv⟩
    have hv2 : v < 2 := hv
    interval_cases v
    · exact Or.inl rfl
    · exact Or.inr rfl
  rcases h01 with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ (rowDims N C R wf).startIndexMap from List.mem_singleton.mpr rfl)]
    have hsi : (rowDims N C R wf).siIdx (ix2 e k) ⟨List.idxOf (0 : Fin 2) (rowDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  · have hs : (rowDims N C R wf).start (ix2 e k) idx (1 : Fin 2) = 0 := by
      unfold GatherDims.start
      rw [dif_neg (show (1 : Fin 2) ∉ ([0] : List (Fin 2)) from by decide)]
    have hk : (1 : Fin 2) ∈ (rowDims N C R wf).sKept := (GatherDims.mem_sKept _ _).mpr ⟨(show (1 : Fin 2) ∉ ([0] : List (Fin 2)) from by decide), List.not_mem_nil⟩
    show (rowDims N C R wf).start (ix2 e k) idx (1 : Fin 2) + (rowDims N C R wf).offCoord (ix2 e k) (1 : Fin 2) = k.val
    rw [hs, Nat.zero_add]
    unfold GatherDims.offCoord
    rw [dif_pos hk]
    rfl

end Rows

end Cert.RefLemmas

end
-- ==== Proof.RefStages.lean ====
/-
  The reference's composed term, stage by stage, read at an index (at the ideal values):
  the rows of edge_index; the look-up under the range fact (no wrap, no fill: the gathered row); the concatenation by
  the four ranges of its column; each linear layer as a sum over its one contracted axis, plus bias, ReLU; the row mean
  and the normalisation. Each stage is stated over variables, at indices built from literal coordinates.
-/
import proofs.«206068_g62534723830210_cont_9to1_m_587_24_alg».proof.Proof.RefTerm
import proofs.«206068_g62534723830210_cont_9to1_m_587_24_alg».proof.Proof.RefLemmas
import proofs.«206068_g62534723830210_cont_9to1_m_587_24_alg».proof.Proof.Spec

noncomputable section

open scoped BigOperators

namespace Cert.ReferenceIdeal.RefValue

open Cert.ReferenceIdeal Cert.ReferenceIdeal.RefRun Idealize.ShloMosaic Idealize.ShloMosaic.ValueIdx

variable [Facts]
open Facts₀ Facts

/-! ## Words -/

/-- A word that reads nonnegative as a signed integer reads the same unsigned. -/
theorem toInt_eq_toNat {w : BitVec 32} (h0 : 0 ≤ w.toInt) : w.toInt = (w.toNat : Int) :=
  BitVec.toInt_eq_toNat_of_lt (BitVec.toInt_pos_iff.1 h0)

/-- A start index in [0, 9999], clamped into [0, 9999], is itself: as a node number, the word's unsigned value. -/
theorem clamp_eq {w : BitVec 32} (h0 : 0 ≤ w.toInt) (h1 : w.toInt ≤ 9999) :
    min w.toInt.toNat (10000 - 1) = w.toNat % 10000 := by
  have e := toInt_eq_toNat h0
  rw [e] at h1 ⊢
  rw [Int.toNat_natCast]
  omega

/-! ## The rows of edge_index -/

theorem rowIdx_apply (a1 : IVec S2x320000 32) (e : Fin 320000) : rowIdx a1 (ix1 e) = a1 (ix2 (0 : Fin 2) e) := by
  unfold rowIdx
  rw [shapeCast_apply _ _ (ix1 e) (ix2 (0 : Fin 1) e) (by
    rw [Shape.rowMajor_val_two, Shape.rowMajor_val_one]
    show (0 : Nat) * 320000 + e.val = e.val
    omega)]
  exact extractStridedSlice_apply _ a1 _ (ix2 (0 : Fin 1) e) (ix2 (0 : Fin 2) e) (fun a => by
    match a with
    | ⟨0, _⟩ => rfl
    | ⟨1, _⟩ => exact (Nat.zero_add _).symm)

theorem colIdx_apply (a1 : IVec S2x320000 32) (e : Fin 320000) : colIdx a1 (ix1 e) = a1 (ix2 (1 : Fin 2) e) := by
  unfold colIdx
  rw [shapeCast_apply _ _ (ix1 e) (ix2 (0 : Fin 1) e) (by
    rw [Shape.rowMajor_val_two, Shape.rowMajor_val_one]
    show (0 : Nat) * 320000 + e.val = e.val
    omega)]
  exact extractStridedSlice_apply _ a1 _ (ix2 (0 : Fin 1) e) (ix2 (1 : Fin 2) e) (fun a => by
    match a with
    | ⟨0, _⟩ => rfl
    | ⟨1, _⟩ => exact (Nat.zero_add _).symm)

/-! ## The look-up -/

/-- A nonnegative index is not wrapped. -/
theorem wrapIdx_apply (idx : IVec S320000 32) (e : Fin 320000) (h0 : 0 ≤ (idx (ix1 e)).toInt) :
    wrapIdx idx (ix2 e (0 : Fin 1)) = idx (ix1 e) := by
  unfold wrapIdx
  rw [broadcastInDim_apply _ _ _ (ix2 e (0 : Fin 1)) (ix1 e) (fun a => by
    match a with
    | ⟨0, _⟩ => rfl)]
  rw [select_apply]
  have hc : cmpi .slt idx (broadcastInDim S320000 ![] bcast_S_S320000 (constantI S_ 32 0#32)) (ix1 e) = 0#1 := by
    apply eq_zero_of_ne_one
    intro h1
    have h2 : IntOp.cmpi .slt (idx (ix1 e)) 0#32 = 1#1 := h1
    have h3 := IntOp.cmpi_slt.1 h2
    have h4 : (0#32 : BitVec 32).toInt = 0 := by decide
    omega
  rw [hc, select_zero]

/-- Start indices all in [0, 9999] all test in range. -/
theorem inRange_apply (v5 : IVec S320000x1 32)
    (hall : ∀ e : Fin 320000, 0 ≤ (v5 (ix2 e (0 : Fin 1))).toInt ∧ (v5 (ix2 e (0 : Fin 1))).toInt ≤ 9999) (e : Fin 320000) :
    inRange v5 (ix1 e) = 1#1 := by
  unfold inRange
  refine Cert.RefLemmas.reduce_andi_one _ _ _ _ _ (fun _ => rfl) (fun i => ?_)
  obtain ⟨p, q, rfl⟩ : ∃ (p : Fin 320000) (q : Fin 1), i = ix2 p q := ⟨i 0, i 1, eq_ix2 i⟩
  obtain rfl : q = 0 := Subsingleton.elim _ _
  show IntOp.andi (IntOp.cmpi .sge (v5 (ix2 p (0 : Fin 1))) 0#32) (IntOp.cmpi .sle (v5 (ix2 p (0 : Fin 1))) 9999#32) = 1#1
  have h0 : (0#32 : BitVec 32).toInt = 0 := by decide
  have h9 : (9999#32 : BitVec 32).toInt = 9999 := by decide
  exact IntOp.andi_eq_one.2 ⟨IntOp.cmpi_sge.2 (by rw [h0]; exact (hall p).1), IntOp.cmpi_sle.2 (by rw [h9]; exact (hall p).2)⟩

/-- The look-up at (e, k), all indices in range: the operand's row named by index e, column k. -/
theorem takeTerm_apply {F : FTy → Type} [FloatOps F] (x : FVec F S10000x128 .f32) (idx : IVec S320000 32)
    (hall : ∀ e : Fin 320000, 0 ≤ (idx (ix1 e)).toInt ∧ (idx (ix1 e)).toInt ≤ 9999) (e : Fin 320000) (k : Fin 128) :
    takeTerm x idx (ix2 e k)
      = x (ix2 (⟨(idx (ix1 e)).toNat % 10000, Nat.mod_lt _ (by decide)⟩ : Fin 10000) k) := by
  have hw : ∀ e, wrapIdx idx (ix2 e (0 : Fin 1)) = idx (ix1 e) := fun e => wrapIdx_apply idx e (hall e).1
  unfold takeTerm
  rw [select_apply, broadcastInDim_apply _ _ _ (ix2 e k) (ix1 e) (fun a => by
      match a with
      | ⟨0, _⟩ => rfl),
    inRange_apply (wrapIdx idx) (fun e => by rw [hw e]; exact hall e) e, select_one]
  have hg : gather_S10000x128_S320000x1_S320000x128_1_0_n_n_0_1_1128 = Cert.RefLemmas.rowDims 10000 128 320000 gather_S10000x128_S320000x1_S320000x128_1_0_n_n_0_1_1128_wf := rfl
  rw [hg, Cert.RefLemmas.gather_rows_apply (by decide) _ x (wrapIdx idx) e k]
  refine congrArg x (congrArg (fun r : Fin 10000 => ix2 r k) (Fin.ext ?_))
  show min (wrapIdx idx (ix2 e (0 : Fin 1))).toInt.toNat (10000 - 1) = (idx (ix1 e)).toNat % 10000
  rw [hw e]
  exact clamp_eq (hall e).1 (hall e).2

end Cert.ReferenceIdeal.RefValue

end
-- ==== Proof.RefValue.lean ====
/-
  The reference's composed term is the specification, index by index, when every word of edge_index is in [0, 9999]:
  the concatenation read by the four ranges of its column, each linear layer as the sum over its one contracted axis plus
  the bias under the maximum with zero, the row mean and the normalisation.
-/
import proofs.«206068_g62534723830210_cont_9to1_m_587_24_alg».proof.Proof.RefStages
import proofs.«206068_g62534723830210_cont_9to1_m_587_24_alg».proof.Proof.Gen.ReferenceIdeal

noncomputable section

open scoped BigOperators

namespace Cert.ReferenceIdeal.RefValue

open Cert.ReferenceIdeal Cert.ReferenceIdeal.RefRun Idealize.ShloMosaic Idealize.ShloMosaic.ValueIdx

open Facts₀ Facts

/-! ## The concatenation -/

/-- The 288 input features of edge `e`, column `k`, are the specification's. -/
theorem catTerm_apply (a0 : FVec Ideal S10000x128 .f32) (a1 : IVec S2x320000 32) (a2 : FVec Ideal S320000x16 .f32)
    (a3 : FVec Ideal S1x16 .f32) (hr : ∀ i : S2x320000.Idx, 0 ≤ (a1 i).toInt ∧ (a1 i).toInt ≤ 9999)
    (e : Fin 320000) (k : Fin 288) :
    catTerm a0 a1 a2 a3 (ix2 e k) = Spec.cat a0 a1 a2 a3 e k := by
  have hrow : ∀ e : Fin 320000, 0 ≤ (rowIdx a1 (ix1 e)).toInt ∧ (rowIdx a1 (ix1 e)).toInt ≤ 9999 :=
    fun e => by rw [rowIdx_apply]; exact hr _
  have hcol : ∀ e : Fin 320000, 0 ≤ (colIdx a1 (ix1 e)).toInt ∧ (colIdx a1 (ix1 e)).toInt ≤ 9999 :=
    fun e => by rw [colIdx_apply]; exact hr _
  unfold catTerm Spec.cat
  by_cases h1 : k.val < 128
  · rw [dif_pos h1]
    rw [concatenate_apply_piece (1 : Fin S320000x288.rank) _ _ (ix2 e k) 0 (by simp) S320000x128
      (takeTerm a0 (colIdx a1)) rfl rfl 0 rfl (ix2 e (⟨k.val, h1⟩ : Fin 128))
      (fun b => by
        match b with
        | ⟨0, _⟩ => exact fun _ => rfl
        | ⟨1, _⟩ => exact fun h => absurd rfl h)
      (Nat.zero_add _)]
    rw [takeTerm_apply a0 (colIdx a1) hcol e ⟨k.val, h1⟩, colIdx_apply]
    rfl
  · rw [dif_neg h1]
    by_cases h2 : k.val < 256
    · rw [dif_pos h2]
      rw [concatenate_apply_piece (1 : Fin S320000x288.rank) _ _ (ix2 e k) 1 (by simp) S320000x128
        (takeTerm a0 (rowIdx a1)) rfl rfl 128 rfl (ix2 e (⟨k.val - 128, by omega⟩ : Fin 128))
        (fun b => by
          match b with
          | ⟨0, _⟩ => exact fun _ => rfl
          | ⟨1, _⟩ => exact fun h => absurd rfl h)
        (by show 128 + (k.val - 128) = k.val; omega)]
      rw [takeTerm_apply a0 (rowIdx a1) hrow e ⟨k.val - 128, by omega⟩, rowIdx_apply]
      rfl
    · rw [dif_neg h2]
      by_cases h3 : k.val < 272
      · rw [dif_pos h3]
        exact concatenate_apply_piece (1 : Fin S320000x288.rank) _ _ (ix2 e k) 2 (by simp) S320000x16
          a2 rfl rfl 256 rfl (ix2 e (⟨k.val - 256, by omega⟩ : Fin 16))
          (fun b => by
            match b with
            | ⟨0, _⟩ => exact fun _ => rfl
            | ⟨1, _⟩ => exact fun h => absurd rfl h)
          (by show 256 + (k.val - 256) = k.val; omega)
      · rw [dif_neg h3]
        have hk := k.isLt
        rw [concatenate_apply_piece (1 : Fin S320000x288.rank) _ _ (ix2 e k) 3 (by simp) S320000x16
          (broadcastInDim S320000x16 ![0, 1] bcast_S1x16_S320000x16_0_1 a3) rfl rfl 272 rfl
          (ix2 e (⟨k.val - 272, by omega⟩ : Fin 16))
          (fun b => by
            match b with
            | ⟨0, _⟩ => exact fun _ => rfl
            | ⟨1, _⟩ => exact fun h => absurd rfl h)
          (by show 272 + (k.val - 272) = k.val; omega)]
        exact broadcastInDim_apply _ _ a3 _ (ix2 (0 : Fin 1) (⟨k.val - 272, by omega⟩ : Fin 16)) (fun a => by
          match a with
          | ⟨0, _⟩ => rfl
          | ⟨1, _⟩ => rfl)

/-! ### The l1 layer's product, index by index -/

theorem l1_lhs0 (i : S320000x128.Idx) (q : dot_S320000x288_S288x128_S320000x128_1_0_0_1_n_n.contr.Idx) : (dot_S320000x288_S288x128_S320000x128_1_0_0_1_n_n.lhsIdx i q 0).val = (i 0).val := by
  unfold DotDims.lhsIdx
  rw [dif_neg (show ¬(0 : Fin S320000x288.rank) ∈ dot_S320000x288_S288x128_S320000x128_1_0_0_1_n_n.lhsBatch by decide),
    dif_pos (show (0 : Fin S320000x288.rank) ∈ dot_S320000x288_S288x128_S320000x128_1_0_0_1_n_n.lhsNonContracting by decide)]
  rfl
theorem l1_lhs1 (i : S320000x128.Idx) (q : dot_S320000x288_S288x128_S320000x128_1_0_0_1_n_n.contr.Idx) : (dot_S320000x288_S288x128_S320000x128_1_0_0_1_n_n.lhsIdx i q 1).val = (q ⟨0, by decide⟩).val :=
  dot_S320000x288_S288x128_S320000x128_1_0_0_1_n_n.lhsIdx_val_of_single rfl i q
theorem l1_rhs0 (i : S320000x128.Idx) (q : dot_S320000x288_S288x128_S320000x128_1_0_0_1_n_n.contr.Idx) : (dot_S320000x288_S288x128_S320000x128_1_0_0_1_n_n.rhsIdx i q 0).val = (q ⟨0, by decide⟩).val :=
  dot_S320000x288_S288x128_S320000x128_1_0_0_1_n_n.rhsIdx_val_of_single rfl i q
theorem l1_rhs1 (i : S320000x128.Idx) (q : dot_S320000x288_S288x128_S320000x128_1_0_0_1_n_n.contr.Idx) : (dot_S320000x288_S288x128_S320000x128_1_0_0_1_n_n.rhsIdx i q 1).val = (i 1).val := by
  unfold DotDims.rhsIdx
  rw [dif_neg (show ¬(1 : Fin S288x128.rank) ∈ dot_S320000x288_S288x128_S320000x128_1_0_0_1_n_n.rhsBatch by decide),
    dif_pos (show (1 : Fin S288x128.rank) ∈ dot_S320000x288_S288x128_S320000x128_1_0_0_1_n_n.rhsNonContracting by decide)]
  rfl

/-- The first layer's product at (e, l): the sum over the 288 features. -/
theorem dot1_apply (c : FVec Ideal S320000x288 .f32) (a4 : FVec Ideal S288x128 .f32) (e : Fin 320000) (l : Fin 128) :
    Host.dotGeneral dot_S320000x288_S288x128_S320000x128_1_0_0_1_n_n none c a4 (ix2 e l) = ∑ k : Fin 288, c (ix2 e k) * a4 (ix2 k l) := by
  simp only [Host.dotGeneral]
  rw [Ideal.dotGeneral_apply, ← Equiv.sum_comp (contrEquiv1 dot_S320000x288_S288x128_S320000x128_1_0_0_1_n_n 288 rfl rfl).symm]
  refine Finset.sum_congr rfl fun k _ => ?_
  have hk := contrEquiv1_symm_val dot_S320000x288_S288x128_S320000x128_1_0_0_1_n_n 288 rfl rfl k
  have el : dot_S320000x288_S288x128_S320000x128_1_0_0_1_n_n.lhsIdx (ix2 e l) ((contrEquiv1 dot_S320000x288_S288x128_S320000x128_1_0_0_1_n_n 288 rfl rfl).symm k) = ix2 e k :=
    funext fun a => Fin.ext (by
      match a with
      | ⟨0, _⟩ => exact l1_lhs0 _ _
      | ⟨1, _⟩ => exact (l1_lhs1 _ _).trans hk)
  have er : dot_S320000x288_S288x128_S320000x128_1_0_0_1_n_n.rhsIdx (ix2 e l) ((contrEquiv1 dot_S320000x288_S288x128_S320000x128_1_0_0_1_n_n 288 rfl rfl).symm k) = ix2 k l :=
    funext fun a => Fin.ext (by
      match a with
      | ⟨0, _⟩ => exact (l1_rhs0 _ _).trans hk
      | ⟨1, _⟩ => exact l1_rhs1 _ _)
  rw [el, er]

/-! ### The l2 layer's product, index by index -/

theorem l2_lhs0 (i : S320000x16.Idx) (q : dot_S320000x128_S128x16_S320000x16_1_0_0_1_n_n.contr.Idx) : (dot_S320000x128_S128x16_S320000x16_1_0_0_1_n_n.lhsIdx i q 0).val = (i 0).val := by
  unfold DotDims.lhsIdx
  rw [dif_neg (show ¬(0 : Fin S320000x128.rank) ∈ dot_S320000x128_S128x16_S320000x16_1_0_0_1_n_n.lhsBatch by decide),
    dif_pos (show (0 : Fin S320000x128.rank) ∈ dot_S320000x128_S128x16_S320000x16_1_0_0_1_n_n.lhsNonContracting by decide)]
  rfl
theorem l2_lhs1 (i : S320000x16.Idx) (q : dot_S320000x128_S128x16_S320000x16_1_0_0_1_n_n.contr.Idx) : (dot_S320000x128_S128x16_S320000x16_1_0_0_1_n_n.lhsIdx i q 1).val = (q ⟨0, by decide⟩).val :=
  dot_S320000x128_S128x16_S320000x16_1_0_0_1_n_n.lhsIdx_val_of_single rfl i q
theorem l2_rhs0 (i : S320000x16.Idx) (q : dot_S320000x128_S128x16_S320000x16_1_0_0_1_n_n.contr.Idx) : (dot_S320000x128_S128x16_S320000x16_1_0_0_1_n_n.rhsIdx i q 0).val = (q ⟨0, by decide⟩).val :=
  dot_S320000x128_S128x16_S320000x16_1_0_0_1_n_n.rhsIdx_val_of_single rfl i q
theorem l2_rhs1 (i : S320000x16.Idx) (q : dot_S320000x128_S128x16_S320000x16_1_0_0_1_n_n.contr.Idx) : (dot_S320000x128_S128x16_S320000x16_1_0_0_1_n_n.rhsIdx i q 1).val = (i 1).val := by
  unfold DotDims.rhsIdx
  rw [dif_neg (show ¬(1 : Fin S128x16.rank) ∈ dot_S320000x128_S128x16_S320000x16_1_0_0_1_n_n.rhsBatch by decide),
    dif_pos (show (1 : Fin S128x16.rank) ∈ dot_S320000x128_S128x16_S320000x16_1_0_0_1_n_n.rhsNonContracting by decide)]
  rfl

/-- The second layer's product at (e, o): the sum over the 128 hidden features. -/
theorem dot2_apply (h : FVec Ideal S320000x128 .f32) (a6 : FVec Ideal S128x16 .f32) (e : Fin 320000) (o : Fin 16) :
    Host.dotGeneral dot_S320000x128_S128x16_S320000x16_1_0_0_1_n_n none h a6 (ix2 e o) = ∑ l : Fin 128, h (ix2 e l) * a6 (ix2 l o) := by
  simp only [Host.dotGeneral]
  rw [Ideal.dotGeneral_apply, ← Equiv.sum_comp (contrEquiv1 dot_S320000x128_S128x16_S320000x16_1_0_0_1_n_n 128 rfl rfl).symm]
  refine Finset.sum_congr rfl fun k _ => ?_
  have hk := contrEquiv1_symm_val dot_S320000x128_S128x16_S320000x16_1_0_0_1_n_n 128 rfl rfl k
  have el : dot_S320000x128_S128x16_S320000x16_1_0_0_1_n_n.lhsIdx (ix2 e o) ((contrEquiv1 dot_S320000x128_S128x16_S320000x16_1_0_0_1_n_n 128 rfl rfl).symm k) = ix2 e k :=
    funext fun a => Fin.ext (by
      match a with
      | ⟨0, _⟩ => exact l2_lhs0 _ _
      | ⟨1, _⟩ => exact (l2_lhs1 _ _).trans hk)
  have er : dot_S320000x128_S128x16_S320000x16_1_0_0_1_n_n.rhsIdx (ix2 e o) ((contrEquiv1 dot_S320000x128_S128x16_S320000x16_1_0_0_1_n_n 128 rfl rfl).symm k) = ix2 k o :=
    funext fun a => Fin.ext (by
      match a with
      | ⟨0, _⟩ => exact (l2_rhs0 _ _).trans hk
      | ⟨1, _⟩ => exact l2_rhs1 _ _)
  rw [el, er]

/-! ## The two layers -/

theorem h1Term_apply (c : FVec Ideal S320000x288 .f32) (a4 : FVec Ideal S288x128 .f32) (a5 : FVec Ideal S128 .f32)
    (e : Fin 320000) (l : Fin 128) :
    h1Term c a4 a5 (ix2 e l) = max ((∑ k : Fin 288, c (ix2 e k) * a4 (ix2 k l)) + a5 (ix1 l)) 0 := by
  unfold h1Term
  rw [maximumf_apply, addf_apply, dot1_apply]
  have hb : broadcastInDim S320000x128 ![0, 1] bcast_S1x128_S320000x128_0_1
      (broadcastInDim S1x128 ![1] bcast_S128_S1x128_1 a5) (ix2 e l) = a5 (ix1 l) := by
    rw [broadcastInDim_apply _ _ _ (ix2 e l) (ix2 (0 : Fin 1) l) (fun a => by
      match a with
      | ⟨0, _⟩ => rfl
      | ⟨1, _⟩ => rfl)]
    exact broadcastInDim_apply _ _ a5 _ (ix1 l) (fun a => by
      match a with
      | ⟨0, _⟩ => rfl)
  have hz : broadcastInDim S320000x128 ![] bcast_S_S320000x128 (constant (F := Ideal) S_ .f32 0x00000000#32) (ix2 e l) = 0 :=
    Ideal.ofBits_zero_f32
  rw [hb, hz]

theorem h2Term_apply (h : FVec Ideal S320000x128 .f32) (a6 : FVec Ideal S128x16 .f32) (a7 : FVec Ideal S16 .f32)
    (e : Fin 320000) (o : Fin 16) :
    h2Term h a6 a7 (ix2 e o) = max ((∑ l : Fin 128, h (ix2 e l) * a6 (ix2 l o)) + a7 (ix1 o)) 0 := by
  unfold h2Term
  rw [maximumf_apply, addf_apply, dot2_apply]
  have hb : broadcastInDim S320000x16 ![0, 1] bcast_S1x16_S320000x16_0_1
      (broadcastInDim S1x16 ![1] bcast_S16_S1x16_1 a7) (ix2 e o) = a7 (ix1 o) := by
    rw [broadcastInDim_apply _ _ _ (ix2 e o) (ix2 (0 : Fin 1) o) (fun a => by
      match a with
      | ⟨0, _⟩ => rfl
      | ⟨1, _⟩ => rfl)]
    exact broadcastInDim_apply _ _ a7 _ (ix1 o) (fun a => by
      match a with
      | ⟨0, _⟩ => rfl)
  have hz : broadcastInDim S320000x16 ![] bcast_S_S320000x16 (constant (F := Ideal) S_ .f32 0x00000000#32) (ix2 e o) = 0 :=
    Ideal.ofBits_zero_f32
  rw [hb, hz]

/-! ## The normalisation -/

/-- A vector of 16 repeated on every row, read at (e, o). -/
theorem rows16_apply (g : FVec Ideal S16 .f32) (e : Fin 320000) (o : Fin 16) : rows16 g (ix2 e o) = g (ix1 o) := by
  unfold rows16
  rw [broadcastInDim_apply _ _ _ (ix2 e o) (ix2 (0 : Fin 1) o) (fun a => by
    match a with
    | ⟨0, _⟩ => rfl
    | ⟨1, _⟩ => rfl)]
  exact broadcastInDim_apply _ _ g _ (ix1 o) (fun a => by
    match a with
    | ⟨0, _⟩ => rfl)

/-- The row mean, read at row e: the specification's mean of the row. -/
theorem meanCol_apply (v : FVec Ideal S320000x16 .f32) (e : Fin 320000) :
    meanCol v (ix2 e (0 : Fin 1)) = Spec.mean16 (fun o => v (ix2 e o)) := by
  unfold meanCol Spec.mean16
  show Ideal.div (broadcastInDim S320000x1 ![0] bcast_S320000_S320000x1_0
      (Host.reduceAdd v (constant (F := Ideal) S_ .f32 0x00000000#32) reducesTo_S320000x16_S320000_d1 h_S_) (ix2 e (0 : Fin 1)))
    (Ideal.ofBits .f32 0x41800000#32) = _
  rw [broadcastInDim_apply _ _ _ (ix2 e (0 : Fin 1)) (ix1 e) (fun a => by
    match a with
    | ⟨0, _⟩ => rfl)]
  simp only [Host.reduceAdd, Ideal.hostReduceAdd_def]
  rw [Ideal.hostReduceAdd_single reducesTo_S320000x16_S320000_d1 (by decide)]
  show Ideal.div (Ideal.ofBits .f32 0x00000000#32 + _) _ = _
  rw [Ideal.ofBits_zero_f32]
  refine congrArg (fun s => Ideal.div (0 + s) (Ideal.ofBits .f32 0x41800000#32)) (Finset.sum_congr rfl fun k _ => ?_)
  exact congrArg v (funext fun a => Fin.ext (by
    match a with
    | ⟨0, _⟩ => rfl
    | ⟨1, _⟩ => rfl))

theorem centred_apply (v : FVec Ideal S320000x16 .f32) (e : Fin 320000) (o : Fin 16) :
    centred v (ix2 e o) = v (ix2 e o) - Spec.mean16 (fun o' => v (ix2 e o')) := by
  unfold centred
  rw [subf_apply, broadcastInDim_apply _ _ _ (ix2 e o) (ix2 e (0 : Fin 1)) (fun a => by
    match a with
    | ⟨0, _⟩ => rfl
    | ⟨1, _⟩ => rfl), meanCol_apply]

theorem lnTerm_apply (v : FVec Ideal S320000x16 .f32) (g b : FVec Ideal S16 .f32) (e : Fin 320000) (o : Fin 16) :
    lnTerm v g b (ix2 e o) = Spec.layerNorm16 (fun o' => v (ix2 e o')) g b o := by
  unfold lnTerm Spec.layerNorm16
  rw [addf_apply, mulf_apply, rows16_apply, rows16_apply]
  show Ideal.div (centred v (ix2 e o))
      (broadcastInDim S320000x16 ![0, 1] bcast_S320000x1_S320000x16_0_1
        (Host.sqrt (addf (meanCol (mulf (centred v) (centred v)))
          (broadcastInDim S320000x1 ![] bcast_S_S320000x1 (constant (F := Ideal) S_ .f32 0x3727C5AC#32)))) (ix2 e o))
    * g (ix1 o) + b (ix1 o) = _
  rw [broadcastInDim_apply _ _ _ (ix2 e o) (ix2 e (0 : Fin 1)) (fun a => by
    match a with
    | ⟨0, _⟩ => rfl
    | ⟨1, _⟩ => rfl)]
  show Ideal.div (centred v (ix2 e o))
      (Ideal.sqrt (meanCol (mulf (centred v) (centred v)) (ix2 e (0 : Fin 1)) + Ideal.ofBits .f32 0x3727C5AC#32))
    * g (ix1 o) + b (ix1 o) = _
  rw [meanCol_apply, centred_apply]
  have hsq : (fun o' => mulf (centred v) (centred v) (ix2 e o'))
      = fun o' => (v (ix2 e o') - Spec.mean16 (fun o'' => v (ix2 e o''))) * (v (ix2 e o') - Spec.mean16 (fun o'' => v (ix2 e o''))) :=
    funext fun o' => by rw [mulf_apply, centred_apply]
  rw [hsq]

/-! ## The whole term -/

/-- Under the range fact the reference's composed term is the specification. -/
theorem refTerm_eq_G (a0 : FVec Ideal S10000x128 .f32) (a1 : IVec S2x320000 32) (a2 : FVec Ideal S320000x16 .f32)
    (a3 : FVec Ideal S1x16 .f32) (a4 : FVec Ideal S288x128 .f32) (a5 : FVec Ideal S128 .f32) (a6 : FVec Ideal S128x16 .f32)
    (a7 : FVec Ideal S16 .f32) (a8 : FVec Ideal S16 .f32) (a9 : FVec Ideal S16 .f32)
    (hr : ∀ i : S2x320000.Idx, 0 ≤ (a1 i).toInt ∧ (a1 i).toInt ≤ 9999) :
    refTerm (F := Ideal) a0 a1 a2 a3 a4 a5 a6 a7 a8 a9 = Spec.G a0 a1 a2 a3 a4 a5 a6 a7 a8 a9 := by
  funext i
  obtain ⟨e, o, rfl⟩ : ∃ (e : Fin 320000) (o : Fin 16), i = ix2 e o := ⟨i 0, i 1, eq_ix2 i⟩
  rw [Spec.G_ix2]
  unfold refTerm
  rw [lnTerm_apply]
  refine congrArg (fun f => Spec.layerNorm16 f a8 a9 o) (funext fun o' => ?_)
  rw [h2Term_apply]
  unfold Spec.h2
  refine congrArg (fun s => max (s + a7 (ix1 o')) 0) (Finset.sum_congr rfl fun l _ => ?_)
  rw [h1Term_apply]
  unfold Spec.h1
  refine congrArg (fun s => max (s + a5 (ix1 l)) 0 * a6 (ix2 l o')) (Finset.sum_congr rfl fun k _ => ?_)
  rw [catTerm_apply a0 a1 a2 a3 hr e k]

end Cert.ReferenceIdeal.RefValue

end
-- ==== Proof.PreFacts.lean ====
/-
  What the precondition says of the edge endpoints: every word of edge_index, read signed, lies in [0, 9999];
  so read unsigned it is a node number below 10000.

  The precondition is a conjunction of ten `all` tests reduced to one bit; its last conjunct is the test
  "0 ≤ edge_index ∧ edge_index ≤ 9999 everywhere". A conjunction of bits that is 1 has every bit 1, and an
  `all` that is 1 has a 1 at every index.
-/
import proofs.«206068_g62534723830210_cont_9to1_m_587_24_alg».proof.Pre_input_domain
import Idealize.ShloMosaic.Lib.ReduceAll
import Idealize.ShloMosaic.Lib.ValueIdx

noncomputable section

namespace Cert.PreFacts

open Idealize.ShloMosaic Idealize.ShloMosaic.ValueIdx
open Cert.Pre_input_domain

variable [Cert.Pre_input_domain.Facts]

/-- The scalar shape has one index. -/
instance : Subsingleton S_.Idx := ⟨fun a b => funext fun d => d.elim0⟩

/-- A 32-bit word in [0, 9999] signed is below 10000 unsigned. -/
theorem toNat_lt_of_toInt {w : BitVec 32} (h0 : 0 ≤ w.toInt) (h1 : w.toInt ≤ 9999) : w.toNat < 10000 := by
  have h32 := w.isLt
  unfold BitVec.toInt at h0 h1
  split at h0 <;> omega

variable {F : FTy → Type} [FloatOps F]

/-- The precondition's last conjunct, read at an index of edge_index: the word there, signed, is in [0, 9999]. -/
theorem edge_index_toInt (a0 : FVec F S10000x128 .f32) (a1 : IVec S2x320000 32) (a2 : FVec F S320000x16 .f32)
    (a3 : FVec F S1x16 .f32) (a4 : FVec F S288x128 .f32) (a5 : FVec F S128 .f32) (a6 : FVec F S128x16 .f32)
    (a7 : FVec F S16 .f32) (a8 : FVec F S16 .f32) (a9 : FVec F S16 .f32)
    (h : fn (F := F) a0 a1 a2 a3 a4 a5 a6 a7 a8 a9 = fun _ => 1#1) (i : S2x320000.Idx) :
    0 ≤ (a1 i).toInt ∧ (a1 i).toInt ≤ 9999 := by
  have e := congrFun h ix0
  dsimp only [fn, fn_part1, fn_part2] at e
  have e49 := (IntOp.andi_eq_one.1 e).2
  have ei := Host.reduce_andi_all _ _ _ _ _ e49 i
  obtain ⟨hge, hle⟩ := IntOp.andi_eq_one.1 ei
  have hge' := IntOp.cmpi_sge.1 hge
  have hle' := IntOp.cmpi_sle.1 hle
  exact ⟨hge', hle'⟩

/-- … so, read unsigned, it is below the node count. -/
theorem edge_index_toNat_lt (a0 : FVec F S10000x128 .f32) (a1 : IVec S2x320000 32) (a2 : FVec F S320000x16 .f32)
    (a3 : FVec F S1x16 .f32) (a4 : FVec F S288x128 .f32) (a5 : FVec F S128 .f32) (a6 : FVec F S128x16 .f32)
    (a7 : FVec F S16 .f32) (a8 : FVec F S16 .f32) (a9 : FVec F S16 .f32)
    (h : fn (F := F) a0 a1 a2 a3 a4 a5 a6 a7 a8 a9 = fun _ => 1#1) (i : S2x320000.Idx) :
    (a1 i).toNat < 10000 :=
  toNat_lt_of_toInt (edge_index_toInt a0 a1 a2 a3 a4 a5 a6 a7 a8 a9 h i).1
    (edge_index_toInt a0 a1 a2 a3 a4 a5 a6 a7 a8 a9 h i).2

end Cert.PreFacts

end
-- ==== Proof.RefClaims.lean ====
/-
  The reference's two closing statements: it runs, nothing faulting, with its ten argument arrays unchanged (the
  frame), and under the precondition its result array is the specification `Cert.Spec.G` of the argument arrays — the
  run's composed term, which is `G` once every word of edge_index is known to lie in [0, 9999].
-/
import proofs.«206068_g62534723830210_cont_9to1_m_587_24_alg».proof.Defs
import proofs.«206068_g62534723830210_cont_9to1_m_587_24_alg».proof.Proof.Gen.ReferenceIdeal
import proofs.«206068_g62534723830210_cont_9to1_m_587_24_alg».proof.Proof.Gen.Pre_input_domain
import proofs.«206068_g62534723830210_cont_9to1_m_587_24_alg».proof.Proof.RefRunIdeal
import proofs.«206068_g62534723830210_cont_9to1_m_587_24_alg».proof.Proof.RefValue
import proofs.«206068_g62534723830210_cont_9to1_m_587_24_alg».proof.Proof.PreFacts

noncomputable section

namespace Cert.RefClaims

open Idealize.ShloMosaic Idealize.ShloMosaic.TcCoe Idealize.SL.Sem

/-- The reference runs and leaves its arguments unchanged: its run with the value dropped. -/
theorem frame_ri : Cert.frame_ReferenceIdeal := fun m ρ _ =>
  (θ_run Cert.ReferenceIdeal.defs _ _).mono (fun _ h c => (h c).2) (Cert.ReferenceIdeal.RefRun.run m ρ)

/-- Under the precondition the reference's result is the specification of its arguments. -/
theorem ref_run_G (m : (ℓ : Loc Cert.ReferenceIdeal.nD Cert.ReferenceIdeal.τ Cert.ReferenceIdeal.sig) → Buf (Elt Ideal) ℓ) (ρ : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v41) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run Cert.ReferenceIdeal.defs _ _).mono
    (fun _ h c => ⟨(h c).1.trans (Cert.ReferenceIdeal.RefValue.refTerm_eq_G _ _ _ _ _ _ _ _ _ _
        (Cert.PreFacts.edge_index_toInt _ _ _ _ _ _ _ _ _ _ (hpre c))), (h c).2⟩)
    (Cert.ReferenceIdeal.RefRun.run m ρ)

end Cert.RefClaims

end
-- ==== Proof.lean ====
/-
  The claim. The kernel gathers, on the SparseCore, rows of a table it first computed on the TensorCore
  (the node features times the two node slices of the first layer's weights), and a second TensorCore
  kernel adds the gathered sender and receiver rows to the edge and global parts, applies the two layers
  and the normalisation. The reference concatenates receiver, sender, edge and global features and
  multiplies once. At the ideal instance the two agree because a sum over the 288 concatenated
  features is the sum of its four ranges, and a gathered row of a product is the product of the gathered
  row. The three frames are the programs' runs with the values dropped; the reference's run and the
  common specification are in the modules imported here.
-/
import proofs.«206068_g62534723830210_cont_9to1_m_587_24_alg».proof.Defs
import proofs.«206068_g62534723830210_cont_9to1_m_587_24_alg».proof.Proof.Gen.Kernel
import proofs.«206068_g62534723830210_cont_9to1_m_587_24_alg».proof.Proof.Gen.KernelIdeal
import proofs.«206068_g62534723830210_cont_9to1_m_587_24_alg».proof.Proof.Gen.ReferenceIdeal
import proofs.«206068_g62534723830210_cont_9to1_m_587_24_alg».proof.Proof.Gen.Pre_input_domain
import proofs.«206068_g62534723830210_cont_9to1_m_587_24_alg».proof.Proof.ScClaims
import proofs.«206068_g62534723830210_cont_9to1_m_587_24_alg».proof.Proof.WScClaims
import proofs.«206068_g62534723830210_cont_9to1_m_587_24_alg».proof.Proof.ScTileObl
import proofs.«206068_g62534723830210_cont_9to1_m_587_24_alg».proof.Proof.WScTileObl
import proofs.«206068_g62534723830210_cont_9to1_m_587_24_alg».proof.Proof.KValList
import proofs.«206068_g62534723830210_cont_9to1_m_587_24_alg».proof.Proof.WKValList
import proofs.«206068_g62534723830210_cont_9to1_m_587_24_alg».proof.Proof.KValResult
import proofs.«206068_g62534723830210_cont_9to1_m_587_24_alg».proof.Proof.RefClaims
import proofs.«206068_g62534723830210_cont_9to1_m_587_24_alg».proof.Proof.PreFacts
import Idealize.ShloMosaic.Adequacy
import Idealize.ShloMosaic.Init

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_input_domain.Facts := Cert.Pre_input_domain.Gen.facts

/-- Under the precondition every row number is below 10000 (the word-level program's memory). -/
theorem range_k (m : (ℓ : Loc Cert.Kernel.nD Cert.Kernel.τ Cert.Kernel.sig) → Buf (Elt Bits) ℓ) (h : Cert.Pre_Kernel m) :
    ∀ i : Cert.Kernel.S2x320000.Idx, (m ((SparseCore.T (0 : Dev Cert.Kernel.nD)).loc Cert.Kernel.main_arg1) i).toNat < 10000 :=
  fun i => Cert.PreFacts.edge_index_toNat_lt _ _ _ _ _ _ _ _ _ _ (h 0) i
/-- The same for the idealized program's memory. -/
theorem range_ki (m : (ℓ : Loc Cert.KernelIdeal.nD Cert.KernelIdeal.τ Cert.KernelIdeal.sig) → Buf (Elt Ideal) ℓ) (h : Cert.Pre_KernelIdeal m) :
    ∀ i : Cert.KernelIdeal.S2x320000.Idx, (m ((SparseCore.T (0 : Dev Cert.KernelIdeal.nD)).loc Cert.KernelIdeal.main_arg1) i).toNat < 10000 :=
  fun i => Cert.PreFacts.edge_index_toNat_lt _ _ _ _ _ _ _ _ _ _ (h 0) i

theorem frame_k : Cert.frame_Kernel := fun m ρ hpre =>
  Cert.Kernel.Hand.frame_of_run m ρ
    (Cert.Kernel.Hand.tileObl _ _ _ Cert.Kernel.Hand.facts (Cert.Kernel.Hand.list_lt m (range_k m hpre)))

theorem frame_ki : Cert.frame_KernelIdeal := fun m ρ hpre =>
  Cert.KernelIdeal.Hand.frame_of_run m ρ
    (Cert.KernelIdeal.Hand.tileObl _ _ _ Cert.KernelIdeal.Hand.facts (Cert.KernelIdeal.Hand.list_lt m (range_ki m hpre)))

theorem algebraic : Cert.algebraic_KernelIdeal_ReferenceIdeal := by
  intro m ρ m' ρ' hpre hagree
  have hrange := range_ki m hpre
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · refine (θ_run (Cert.KernelIdeal.defs (F := Ideal)) _ _).mono (fun r h c => ⟨(h c).1.trans ?_, (h c).2⟩)
      (Cert.KernelIdeal.Hand.value_of_run m ρ
        (Cert.KernelIdeal.Hand.tileObl _ _ _ Cert.KernelIdeal.Hand.facts (Cert.KernelIdeal.Hand.list_lt m hrange)))
    obtain rfl : c = 0 := Subsingleton.elim _ _
    exact Cert.KernelIdeal.Hand.kernel_value m hrange
  · have hpre' : Cert.Pre_ReferenceIdeal m' := fun c => by
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
      exact hpre c
    refine (θ_run (Cert.ReferenceIdeal.defs (F := Ideal)) _ _).mono (fun r h c => ⟨?_, (h c).2⟩) (Cert.RefClaims.ref_run_G m' ρ' hpre')
    rw [(h c).1, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_input_domain.Gen.facts,
    frame_k, frame_ki, Cert.RefClaims.frame_ri, trivial, algebraic⟩

end Cert.Proof

end
